-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v684)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v684) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v762) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x3 : Shape := ⟨2, ![2000000, 3]⟩
abbrev S_ : Shape := ⟨0, ![]⟩

class Facts : Prop where
  bcast_S_S2000000x3 : S_.BroadcastsInDim S2000000x3 (![] : Fin 0 → Fin S2000000x3.rank)
  reducesTo_S2000000x3_S_d0_1 : S2000000x3.ReducesTo [0, 1] S_
  h_S_ : 0 < S_.numel

variable [Facts]

def fn {F : FTy → Type} [FloatOps F] (main_arg0 : FVec F S2000000x3 .f32) (main_arg1 : FVec F S2000000x3 .f32) (main_arg2 : FVec F S2000000x3 .f32) : IVec S_ 1 :=
  let main_v0 : FVec F S2000000x3 .f32 := Host.absf main_arg0
  let main_cst : FVec F S_ .f32 := constant S_ .f32 0x7F800000#32
  let main_v1 : FVec F S2000000x3 .f32 := broadcastInDim S2000000x3 ![] bcast_S_S2000000x3 main_cst
  let main_v2 : IVec S2000000x3 1 := cmpf .olt main_v0 main_v1
  let main_c : IVec S_ 1 := constantI S_ 1 1#1
  let main_v3 : IVec S_ 1 := (fun x v => Host.reduce IntOp.andi x v reducesTo_S2000000x3_S_d0_1 h_S_) main_v2 main_c
  let main_v4 : FVec F S2000000x3 .f32 := Host.absf main_arg1
  let main_cst_0 : FVec F S_ .f32 := constant S_ .f32 0x7F800000#32
  let main_v5 : FVec F S2000000x3 .f32 := broadcastInDim S2000000x3 ![] bcast_S_S2000000x3 main_cst_0
  let main_v6 : IVec S2000000x3 1 := cmpf .olt main_v4 main_v5
  let main_c_1 : IVec S_ 1 := constantI S_ 1 1#1
  let main_v7 : IVec S_ 1 := (fun x v => Host.reduce IntOp.andi x v reducesTo_S2000000x3_S_d0_1 h_S_) main_v6 main_c_1
  let main_v8 : IVec S_ 1 := andi main_v3 main_v7
  let main_v9 : FVec F S2000000x3 .f32 := Host.absf main_arg2
  let main_cst_2 : FVec F S_ .f32 := constant S_ .f32 0x7F800000#32
  let main_v10 : FVec F S2000000x3 .f32 := broadcastInDim S2000000x3 ![] bcast_S_S2000000x3 main_cst_2
  let main_v11 : IVec S2000000x3 1 := cmpf .olt main_v9 main_v10
  let main_c_3 : IVec S_ 1 := constantI S_ 1 1#1
  let main_v12 : IVec S_ 1 := (fun x v => Host.reduce IntOp.andi x v reducesTo_S2000000x3_S_d0_1 h_S_) main_v11 main_c_3
  let main_v13 : IVec S_ 1 := andi main_v8 main_v12
  main_v13
-- ==== Kernel.lean ====
abbrev S2000000x3 : Shape := ⟨2, ![2000000, 3]⟩
abbrev S2000000x1 : Shape := ⟨2, ![2000000, 1]⟩
abbrev S2000000 : Shape := ⟨1, ![2000000]⟩
abbrev S_ : Shape := ⟨0, ![]⟩
abbrev S16000000 : Shape := ⟨1, ![16000000]⟩
abbrev S32000000 : Shape := ⟨1, ![32000000]⟩
abbrev S16777216 : Shape := ⟨1, ![16777216]⟩
abbrev S32000000x1 : Shape := ⟨2, ![32000000, 1]⟩
abbrev S256x256x256 : Shape := ⟨3, ![256, 256, 256]⟩
abbrev S65536x256 : Shape := ⟨2, ![65536, 256]⟩
abbrev S1x1 : Shape := ⟨2, ![1, 1]⟩
abbrev S8192x256 : Shape := ⟨2, ![8192, 256]⟩
abbrev S8192 : Shape := ⟨1, ![8192]⟩
abbrev S8192x1 : Shape := ⟨2, ![8192, 1]⟩
abbrev S1 : Shape := ⟨1, ![1]⟩

abbrev nBuf : Space → Nat
  | .hbm => 1018
  | .vmem => 4
  | .smem => 0
  | _ => 0

abbrev hbmTy0_0 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S2000000x3, .f32⟩
  | 5 => ⟨S2000000x1, .f32⟩
  | 6 => ⟨S2000000, .f32⟩
  | 7 => ⟨S_, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000x1, .f32⟩
  | 20 => ⟨S2000000, .f32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000x1, .f32⟩
  | 34 => ⟨S2000000, .f32⟩
  | 35 => ⟨S_, .f32⟩
  | 36 => ⟨S2000000, .f32⟩
  | 37 => ⟨S2000000, .f32⟩
  | 38 => ⟨S_, .f32⟩
  | 39 => ⟨S2000000, .f32⟩
  | 40 => ⟨S2000000, .f32⟩
  | 41 => ⟨S_, .f32⟩
  | 42 => ⟨S2000000, .f32⟩
  | 43 => ⟨S2000000, .f32⟩
  | 44 => ⟨S_, .f32⟩
  | 45 => ⟨S2000000, .f32⟩
  | 46 => ⟨S2000000, .f32⟩
  | 47 => ⟨S2000000, .f32⟩
  | 48 => ⟨S2000000, .f32⟩
  | 49 => ⟨S2000000, .f32⟩
  | 50 => ⟨S2000000, .f32⟩
  | 51 => ⟨S2000000, .f32⟩
  | 52 => ⟨S2000000, .f32⟩
  | 53 => ⟨S2000000, .i32⟩
  | 54 => ⟨S2000000, .i32⟩
  | 55 => ⟨S2000000, .i32⟩
  | 56 => ⟨S_, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S_, .i32⟩
  | 66 => ⟨S2000000, .i32⟩
  | 67 => ⟨S2000000, .i32⟩
  | 68 => ⟨S_, .i32⟩
  | 69 => ⟨S2000000, .i32⟩
  | 70 => ⟨S2000000, .i32⟩
  | 71 => ⟨S_, .i32⟩
  | 72 => ⟨S2000000, .i32⟩
  | 73 => ⟨S2000000, .i32⟩
  | 74 => ⟨S_, .i32⟩
  | 75 => ⟨S2000000, .i32⟩
  | 76 => ⟨S2000000, .i1⟩
  | 77 => ⟨S_, .i32⟩
  | 78 => ⟨S2000000, .i32⟩
  | 79 => ⟨S2000000, .i1⟩
  | 80 => ⟨S2000000, .i1⟩
  | 81 => ⟨S_, .i32⟩
  | 82 => ⟨S2000000, .i32⟩
  | 83 => ⟨S2000000, .i1⟩
  | 84 => ⟨S2000000, .i1⟩
  | 85 => ⟨S_, .i32⟩
  | 86 => ⟨S2000000, .i32⟩
  | 87 => ⟨S2000000, .i1⟩
  | 88 => ⟨S2000000, .i1⟩
  | 89 => ⟨S_, .i32⟩
  | 90 => ⟨S2000000, .i32⟩
  | 91 => ⟨S2000000, .i1⟩
  | 92 => ⟨S2000000, .i1⟩
  | 93 => ⟨S_, .i32⟩
  | 94 => ⟨S2000000, .i32⟩
  | 95 => ⟨S2000000, .i1⟩
  | 96 => ⟨S2000000, .i1⟩
  | 97 => ⟨S2000000, .f32⟩
  | 98 => ⟨S2000000, .f32⟩
  | 99 => ⟨S_, .f32⟩
  | 100 => ⟨S2000000, .f32⟩
  | 101 => ⟨S2000000, .f32⟩
  | 102 => ⟨S_, .f32⟩
  | 103 => ⟨S_, .f32⟩
  | 104 => ⟨S2000000, .f32⟩
  | 105 => ⟨S2000000, .f32⟩
  | 106 => ⟨S_, .i32⟩
  | 107 => ⟨S2000000, .i32⟩
  | 108 => ⟨S2000000, .i32⟩
  | 109 => ⟨S2000000, .i32⟩
  | 110 => ⟨S_, .i32⟩
  | 111 => ⟨S2000000, .i32⟩
  | 112 => ⟨S2000000, .i32⟩
  | 113 => ⟨S2000000, .i32⟩
  | 114 => ⟨S_, .i32⟩
  | 115 => ⟨S_, .i32⟩
  | 116 => ⟨S2000000, .i32⟩
  | 117 => ⟨S2000000, .i32⟩
  | 118 => ⟨S_, .i32⟩
  | 119 => ⟨S2000000, .i32⟩
  | 120 => ⟨S2000000, .i32⟩
  | 121 => ⟨S_, .i32⟩
  | 122 => ⟨S2000000, .i32⟩
  | 123 => ⟨S2000000, .i32⟩
  | 124 => ⟨S_, .i32⟩
  | 125 => ⟨S2000000, .i32⟩
  | 126 => ⟨S2000000, .i32⟩
  | 127 => ⟨S_, .i32⟩
  | _ => ⟨S2000000x3, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i1⟩
  | 5 => ⟨S2000000, .i1⟩
  | 6 => ⟨S_, .i32⟩
  | 7 => ⟨S2000000, .i32⟩
  | 8 => ⟨S2000000, .i1⟩
  | 9 => ⟨S2000000, .i1⟩
  | 10 => ⟨S_, .i32⟩
  | 11 => ⟨S2000000, .i32⟩
  | 12 => ⟨S2000000, .i1⟩
  | 13 => ⟨S2000000, .i1⟩
  | 14 => ⟨S_, .i32⟩
  | 15 => ⟨S2000000, .i32⟩
  | 16 => ⟨S2000000, .i1⟩
  | 17 => ⟨S2000000, .i1⟩
  | 18 => ⟨S_, .i32⟩
  | 19 => ⟨S2000000, .i32⟩
  | 20 => ⟨S2000000, .i1⟩
  | 21 => ⟨S2000000, .i1⟩
  | 22 => ⟨S2000000, .f32⟩
  | 23 => ⟨S2000000, .f32⟩
  | 24 => ⟨S_, .f32⟩
  | 25 => ⟨S2000000, .f32⟩
  | 26 => ⟨S2000000, .f32⟩
  | 27 => ⟨S_, .f32⟩
  | 28 => ⟨S_, .f32⟩
  | 29 => ⟨S2000000, .f32⟩
  | 30 => ⟨S2000000, .f32⟩
  | 31 => ⟨S_, .i32⟩
  | 32 => ⟨S2000000, .i32⟩
  | 33 => ⟨S2000000, .i32⟩
  | 34 => ⟨S2000000, .i32⟩
  | 35 => ⟨S_, .i32⟩
  | 36 => ⟨S2000000, .i32⟩
  | 37 => ⟨S2000000, .i32⟩
  | 38 => ⟨S2000000, .i32⟩
  | 39 => ⟨S_, .i32⟩
  | 40 => ⟨S_, .i32⟩
  | 41 => ⟨S2000000, .i32⟩
  | 42 => ⟨S2000000, .i32⟩
  | 43 => ⟨S_, .f32⟩
  | 44 => ⟨S2000000, .f32⟩
  | 45 => ⟨S2000000, .f32⟩
  | 46 => ⟨S_, .i32⟩
  | 47 => ⟨S2000000, .i32⟩
  | 48 => ⟨S2000000, .i32⟩
  | 49 => ⟨S_, .i32⟩
  | 50 => ⟨S2000000, .i32⟩
  | 51 => ⟨S2000000, .i32⟩
  | 52 => ⟨S_, .i32⟩
  | 53 => ⟨S2000000, .i32⟩
  | 54 => ⟨S2000000, .i32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i1⟩
  | 61 => ⟨S2000000, .i1⟩
  | 62 => ⟨S_, .i32⟩
  | 63 => ⟨S2000000, .i32⟩
  | 64 => ⟨S2000000, .i1⟩
  | 65 => ⟨S2000000, .i1⟩
  | 66 => ⟨S_, .i32⟩
  | 67 => ⟨S2000000, .i32⟩
  | 68 => ⟨S2000000, .i1⟩
  | 69 => ⟨S2000000, .i1⟩
  | 70 => ⟨S_, .i32⟩
  | 71 => ⟨S2000000, .i32⟩
  | 72 => ⟨S2000000, .i1⟩
  | 73 => ⟨S2000000, .i1⟩
  | 74 => ⟨S_, .i32⟩
  | 75 => ⟨S2000000, .i32⟩
  | 76 => ⟨S2000000, .i1⟩
  | 77 => ⟨S2000000, .i1⟩
  | 78 => ⟨S2000000, .f32⟩
  | 79 => ⟨S2000000, .f32⟩
  | 80 => ⟨S_, .f32⟩
  | 81 => ⟨S2000000, .f32⟩
  | 82 => ⟨S2000000, .f32⟩
  | 83 => ⟨S_, .f32⟩
  | 84 => ⟨S_, .f32⟩
  | 85 => ⟨S2000000, .f32⟩
  | 86 => ⟨S2000000, .f32⟩
  | 87 => ⟨S_, .i32⟩
  | 88 => ⟨S2000000, .i32⟩
  | 89 => ⟨S2000000, .i32⟩
  | 90 => ⟨S2000000, .i32⟩
  | 91 => ⟨S_, .i32⟩
  | 92 => ⟨S2000000, .i32⟩
  | 93 => ⟨S2000000, .i32⟩
  | 94 => ⟨S2000000, .i32⟩
  | 95 => ⟨S_, .i32⟩
  | 96 => ⟨S_, .i32⟩
  | 97 => ⟨S2000000, .i32⟩
  | 98 => ⟨S2000000, .i32⟩
  | 99 => ⟨S_, .i32⟩
  | 100 => ⟨S2000000, .i32⟩
  | 101 => ⟨S2000000, .i32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i32⟩
  | 108 => ⟨S_, .i32⟩
  | 109 => ⟨S2000000, .i32⟩
  | 110 => ⟨S2000000, .i1⟩
  | 111 => ⟨S_, .i32⟩
  | 112 => ⟨S2000000, .i32⟩
  | 113 => ⟨S2000000, .i1⟩
  | 114 => ⟨S2000000, .i1⟩
  | 115 => ⟨S_, .i32⟩
  | 116 => ⟨S2000000, .i32⟩
  | 117 => ⟨S2000000, .i1⟩
  | 118 => ⟨S2000000, .i1⟩
  | 119 => ⟨S_, .i32⟩
  | 120 => ⟨S2000000, .i32⟩
  | 121 => ⟨S2000000, .i1⟩
  | 122 => ⟨S2000000, .i1⟩
  | 123 => ⟨S_, .i32⟩
  | 124 => ⟨S2000000, .i32⟩
  | 125 => ⟨S2000000, .i1⟩
  | 126 => ⟨S2000000, .i1⟩
  | 127 => ⟨S_, .i32⟩
  | _ => ⟨S2000000x3, .f32⟩

abbrev hbmTy0_2 (i : Nat) : BufTy := match i % 128 with
  | 0 => ⟨S2000000, .i32⟩
  | 1 => ⟨S2000000, .i1⟩
  | 2 => ⟨S2000000, .i1⟩
  | 3 => ⟨S2000000, .f32⟩
  | 4 => ⟨S2000000, .f32⟩
  | 5 => ⟨S_, .f32⟩
  | 6 => ⟨S2000000, .f32⟩
  | 7 => ⟨S2000000, .f32⟩
  | 8 => ⟨S_, .f32⟩
  | 9 => ⟨S_, .f32⟩
  | 10 => ⟨S2000000, .f32⟩
  | 11 => ⟨S2000000, .f32⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S2000000, .i32⟩
  | 19 => ⟨S2000000, .i32⟩
  | 20 => ⟨S_, .i32⟩
  | 21 => ⟨S_, .i32⟩
  | 22 => ⟨S2000000, .i32⟩
  | 23 => ⟨S2000000, .i32⟩
  | 24 => ⟨S_, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .i32⟩
  | 31 => ⟨S2000000, .i32⟩
  | 32 => ⟨S2000000, .i32⟩
  | 33 => ⟨S_, .i32⟩
  | 34 => ⟨S2000000, .i32⟩
  | 35 => ⟨S2000000, .i32⟩
  | 36 => ⟨S_, .i32⟩
  | 37 => ⟨S2000000, .i32⟩
  | 38 => ⟨S2000000, .i32⟩
  | 39 => ⟨S_, .i32⟩
  | 40 => ⟨S2000000, .i32⟩
  | 41 => ⟨S2000000, .i1⟩
  | 42 => ⟨S_, .i32⟩
  | 43 => ⟨S2000000, .i32⟩
  | 44 => ⟨S2000000, .i1⟩
  | 45 => ⟨S2000000, .i1⟩
  | 46 => ⟨S_, .i32⟩
  | 47 => ⟨S2000000, .i32⟩
  | 48 => ⟨S2000000, .i1⟩
  | 49 => ⟨S2000000, .i1⟩
  | 50 => ⟨S_, .i32⟩
  | 51 => ⟨S2000000, .i32⟩
  | 52 => ⟨S2000000, .i1⟩
  | 53 => ⟨S2000000, .i1⟩
  | 54 => ⟨S_, .i32⟩
  | 55 => ⟨S2000000, .i32⟩
  | 56 => ⟨S2000000, .i1⟩
  | 57 => ⟨S2000000, .i1⟩
  | 58 => ⟨S_, .i32⟩
  | 59 => ⟨S2000000, .i32⟩
  | 60 => ⟨S2000000, .i1⟩
  | 61 => ⟨S2000000, .i1⟩
  | 62 => ⟨S2000000, .f32⟩
  | 63 => ⟨S2000000, .f32⟩
  | 64 => ⟨S_, .f32⟩
  | 65 => ⟨S2000000, .f32⟩
  | 66 => ⟨S2000000, .f32⟩
  | 67 => ⟨S_, .f32⟩
  | 68 => ⟨S_, .f32⟩
  | 69 => ⟨S2000000, .f32⟩
  | 70 => ⟨S2000000, .f32⟩
  | 71 => ⟨S_, .i32⟩
  | 72 => ⟨S2000000, .i32⟩
  | 73 => ⟨S2000000, .i32⟩
  | 74 => ⟨S2000000, .i32⟩
  | 75 => ⟨S_, .i32⟩
  | 76 => ⟨S2000000, .i32⟩
  | 77 => ⟨S2000000, .i32⟩
  | 78 => ⟨S2000000, .i32⟩
  | 79 => ⟨S_, .i32⟩
  | 80 => ⟨S_, .i32⟩
  | 81 => ⟨S2000000, .i32⟩
  | 82 => ⟨S2000000, .i32⟩
  | 83 => ⟨S_, .i32⟩
  | 84 => ⟨S2000000, .i32⟩
  | 85 => ⟨S2000000, .i32⟩
  | 86 => ⟨S_, .i32⟩
  | 87 => ⟨S2000000, .i32⟩
  | 88 => ⟨S2000000, .i32⟩
  | 89 => ⟨S_, .i32⟩
  | 90 => ⟨S2000000, .i32⟩
  | 91 => ⟨S2000000, .i32⟩
  | 92 => ⟨S_, .i32⟩
  | 93 => ⟨S2000000, .i32⟩
  | 94 => ⟨S2000000, .i1⟩
  | 95 => ⟨S_, .i32⟩
  | 96 => ⟨S2000000, .i32⟩
  | 97 => ⟨S2000000, .i1⟩
  | 98 => ⟨S2000000, .i1⟩
  | 99 => ⟨S_, .i32⟩
  | 100 => ⟨S2000000, .i32⟩
  | 101 => ⟨S2000000, .i1⟩
  | 102 => ⟨S2000000, .i1⟩
  | 103 => ⟨S_, .i32⟩
  | 104 => ⟨S2000000, .i32⟩
  | 105 => ⟨S2000000, .i1⟩
  | 106 => ⟨S2000000, .i1⟩
  | 107 => ⟨S_, .i32⟩
  | 108 => ⟨S2000000, .i32⟩
  | 109 => ⟨S2000000, .i1⟩
  | 110 => ⟨S2000000, .i1⟩
  | 111 => ⟨S_, .i32⟩
  | 112 => ⟨S2000000, .i32⟩
  | 113 => ⟨S2000000, .i1⟩
  | 114 => ⟨S2000000, .i1⟩
  | 115 => ⟨S2000000, .f32⟩
  | 116 => ⟨S2000000, .f32⟩
  | 117 => ⟨S_, .f32⟩
  | 118 => ⟨S2000000, .f32⟩
  | 119 => ⟨S2000000, .f32⟩
  | 120 => ⟨S_, .f32⟩
  | 121 => ⟨S_, .f32⟩
  | 122 => ⟨S2000000, .f32⟩
  | 123 => ⟨S2000000, .f32⟩
  | 124 => ⟨S_, .i32⟩
  | 125 => ⟨S2000000, .i32⟩
  | 126 => ⟨S2000000, .i32⟩
  | 127 => ⟨S2000000, .i32⟩
  | _ => ⟨S2000000x3, .f32⟩

abbrev hbmTy0_3 (i : Nat) : BufTy := match i % 128 with
  | 0 => ⟨S_, .i32⟩
  | 1 => ⟨S2000000, .i32⟩
  | 2 => ⟨S2000000, .i32⟩
  | 3 => ⟨S2000000, .i32⟩
  | 4 => ⟨S_, .i32⟩
  | 5 => ⟨S_, .i32⟩
  | 6 => ⟨S2000000, .i32⟩
  | 7 => ⟨S2000000, .i32⟩
  | 8 => ⟨S_, .f32⟩
  | 9 => ⟨S2000000, .f32⟩
  | 10 => ⟨S2000000, .f32⟩
  | 11 => ⟨S_, .i32⟩
  | 12 => ⟨S2000000, .i32⟩
  | 13 => ⟨S2000000, .i32⟩
  | 14 => ⟨S_, .i32⟩
  | 15 => ⟨S2000000, .i32⟩
  | 16 => ⟨S2000000, .i32⟩
  | 17 => ⟨S_, .i32⟩
  | 18 => ⟨S2000000, .i32⟩
  | 19 => ⟨S2000000, .i32⟩
  | 20 => ⟨S_, .i32⟩
  | 21 => ⟨S2000000, .i32⟩
  | 22 => ⟨S2000000, .i1⟩
  | 23 => ⟨S_, .i32⟩
  | 24 => ⟨S2000000, .i32⟩
  | 25 => ⟨S2000000, .i1⟩
  | 26 => ⟨S2000000, .i1⟩
  | 27 => ⟨S_, .i32⟩
  | 28 => ⟨S2000000, .i32⟩
  | 29 => ⟨S2000000, .i1⟩
  | 30 => ⟨S2000000, .i1⟩
  | 31 => ⟨S_, .i32⟩
  | 32 => ⟨S2000000, .i32⟩
  | 33 => ⟨S2000000, .i1⟩
  | 34 => ⟨S2000000, .i1⟩
  | 35 => ⟨S_, .i32⟩
  | 36 => ⟨S2000000, .i32⟩
  | 37 => ⟨S2000000, .i1⟩
  | 38 => ⟨S2000000, .i1⟩
  | 39 => ⟨S_, .i32⟩
  | 40 => ⟨S2000000, .i32⟩
  | 41 => ⟨S2000000, .i1⟩
  | 42 => ⟨S2000000, .i1⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S_, .f32⟩
  | 50 => ⟨S2000000, .f32⟩
  | 51 => ⟨S2000000, .f32⟩
  | 52 => ⟨S_, .i32⟩
  | 53 => ⟨S2000000, .i32⟩
  | 54 => ⟨S2000000, .i32⟩
  | 55 => ⟨S2000000, .i32⟩
  | 56 => ⟨S_, .i32⟩
  | 57 => ⟨S2000000, .i32⟩
  | 58 => ⟨S2000000, .i32⟩
  | 59 => ⟨S2000000, .i32⟩
  | 60 => ⟨S_, .i32⟩
  | 61 => ⟨S_, .i32⟩
  | 62 => ⟨S2000000, .i32⟩
  | 63 => ⟨S2000000, .i32⟩
  | 64 => ⟨S_, .i32⟩
  | 65 => ⟨S2000000, .i32⟩
  | 66 => ⟨S2000000, .i32⟩
  | 67 => ⟨S_, .i32⟩
  | 68 => ⟨S2000000, .i32⟩
  | 69 => ⟨S2000000, .i32⟩
  | 70 => ⟨S_, .i32⟩
  | 71 => ⟨S2000000, .i32⟩
  | 72 => ⟨S2000000, .i32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i1⟩
  | 79 => ⟨S2000000, .i1⟩
  | 80 => ⟨S_, .i32⟩
  | 81 => ⟨S2000000, .i32⟩
  | 82 => ⟨S2000000, .i1⟩
  | 83 => ⟨S2000000, .i1⟩
  | 84 => ⟨S_, .i32⟩
  | 85 => ⟨S2000000, .i32⟩
  | 86 => ⟨S2000000, .i1⟩
  | 87 => ⟨S2000000, .i1⟩
  | 88 => ⟨S_, .i32⟩
  | 89 => ⟨S2000000, .i32⟩
  | 90 => ⟨S2000000, .i1⟩
  | 91 => ⟨S2000000, .i1⟩
  | 92 => ⟨S_, .i32⟩
  | 93 => ⟨S2000000, .i32⟩
  | 94 => ⟨S2000000, .i1⟩
  | 95 => ⟨S2000000, .i1⟩
  | 96 => ⟨S2000000, .f32⟩
  | 97 => ⟨S2000000, .f32⟩
  | 98 => ⟨S_, .f32⟩
  | 99 => ⟨S2000000, .f32⟩
  | 100 => ⟨S2000000, .f32⟩
  | 101 => ⟨S_, .f32⟩
  | 102 => ⟨S_, .f32⟩
  | 103 => ⟨S2000000, .f32⟩
  | 104 => ⟨S2000000, .f32⟩
  | 105 => ⟨S_, .i32⟩
  | 106 => ⟨S2000000, .i32⟩
  | 107 => ⟨S2000000, .i32⟩
  | 108 => ⟨S2000000, .i32⟩
  | 109 => ⟨S_, .i32⟩
  | 110 => ⟨S2000000, .i32⟩
  | 111 => ⟨S2000000, .i32⟩
  | 112 => ⟨S2000000, .i32⟩
  | 113 => ⟨S_, .i32⟩
  | 114 => ⟨S_, .i32⟩
  | 115 => ⟨S2000000, .i32⟩
  | 116 => ⟨S2000000, .i32⟩
  | 117 => ⟨S16000000, .i32⟩
  | 118 => ⟨S16000000, .f32⟩
  | 119 => ⟨S2000000x1, .f32⟩
  | 120 => ⟨S2000000, .f32⟩
  | 121 => ⟨S_, .f32⟩
  | 122 => ⟨S2000000, .f32⟩
  | 123 => ⟨S2000000, .f32⟩
  | 124 => ⟨S_, .f32⟩
  | 125 => ⟨S2000000, .f32⟩
  | 126 => ⟨S2000000, .f32⟩
  | 127 => ⟨S_, .f32⟩
  | _ => ⟨S2000000x3, .f32⟩

abbrev hbmTy0_4 (i : Nat) : BufTy := match i % 128 with
  | 0 => ⟨S2000000, .f32⟩
  | 1 => ⟨S2000000, .f32⟩
  | 2 => ⟨S_, .f32⟩
  | 3 => ⟨S2000000, .f32⟩
  | 4 => ⟨S2000000, .f32⟩
  | 5 => ⟨S2000000x1, .f32⟩
  | 6 => ⟨S2000000, .f32⟩
  | 7 => ⟨S_, .f32⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .f32⟩
  | 17 => ⟨S2000000, .f32⟩
  | 18 => ⟨S2000000, .f32⟩
  | 19 => ⟨S2000000x1, .f32⟩
  | 20 => ⟨S2000000, .f32⟩
  | 21 => ⟨S_, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .f32⟩
  | 31 => ⟨S2000000, .f32⟩
  | 32 => ⟨S2000000, .f32⟩
  | 33 => ⟨S2000000, .f32⟩
  | 34 => ⟨S2000000, .f32⟩
  | 35 => ⟨S2000000, .f32⟩
  | 36 => ⟨S2000000, .f32⟩
  | 37 => ⟨S2000000, .f32⟩
  | 38 => ⟨S2000000, .f32⟩
  | 39 => ⟨S2000000, .i32⟩
  | 40 => ⟨S2000000, .i32⟩
  | 41 => ⟨S2000000, .i32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S_, .i32⟩
  | 52 => ⟨S2000000, .i32⟩
  | 53 => ⟨S2000000, .i32⟩
  | 54 => ⟨S_, .i32⟩
  | 55 => ⟨S2000000, .i32⟩
  | 56 => ⟨S2000000, .i32⟩
  | 57 => ⟨S_, .i32⟩
  | 58 => ⟨S2000000, .i32⟩
  | 59 => ⟨S2000000, .i32⟩
  | 60 => ⟨S_, .i32⟩
  | 61 => ⟨S2000000, .i32⟩
  | 62 => ⟨S2000000, .i1⟩
  | 63 => ⟨S_, .i32⟩
  | 64 => ⟨S2000000, .i32⟩
  | 65 => ⟨S2000000, .i1⟩
  | 66 => ⟨S2000000, .i1⟩
  | 67 => ⟨S_, .i32⟩
  | 68 => ⟨S2000000, .i32⟩
  | 69 => ⟨S2000000, .i1⟩
  | 70 => ⟨S2000000, .i1⟩
  | 71 => ⟨S_, .i32⟩
  | 72 => ⟨S2000000, .i32⟩
  | 73 => ⟨S2000000, .i1⟩
  | 74 => ⟨S2000000, .i1⟩
  | 75 => ⟨S_, .i32⟩
  | 76 => ⟨S2000000, .i32⟩
  | 77 => ⟨S2000000, .i1⟩
  | 78 => ⟨S2000000, .i1⟩
  | 79 => ⟨S_, .i32⟩
  | 80 => ⟨S2000000, .i32⟩
  | 81 => ⟨S2000000, .i1⟩
  | 82 => ⟨S2000000, .i1⟩
  | 83 => ⟨S2000000, .f32⟩
  | 84 => ⟨S2000000, .f32⟩
  | 85 => ⟨S_, .f32⟩
  | 86 => ⟨S2000000, .f32⟩
  | 87 => ⟨S2000000, .f32⟩
  | 88 => ⟨S_, .f32⟩
  | 89 => ⟨S_, .f32⟩
  | 90 => ⟨S2000000, .f32⟩
  | 91 => ⟨S2000000, .f32⟩
  | 92 => ⟨S_, .i32⟩
  | 93 => ⟨S2000000, .i32⟩
  | 94 => ⟨S2000000, .i32⟩
  | 95 => ⟨S2000000, .i32⟩
  | 96 => ⟨S_, .i32⟩
  | 97 => ⟨S2000000, .i32⟩
  | 98 => ⟨S2000000, .i32⟩
  | 99 => ⟨S2000000, .i32⟩
  | 100 => ⟨S_, .i32⟩
  | 101 => ⟨S_, .i32⟩
  | 102 => ⟨S2000000, .i32⟩
  | 103 => ⟨S2000000, .i32⟩
  | 104 => ⟨S_, .i32⟩
  | 105 => ⟨S2000000, .i32⟩
  | 106 => ⟨S2000000, .i32⟩
  | 107 => ⟨S_, .i32⟩
  | 108 => ⟨S2000000, .i32⟩
  | 109 => ⟨S2000000, .i32⟩
  | 110 => ⟨S_, .i32⟩
  | 111 => ⟨S2000000, .i32⟩
  | 112 => ⟨S2000000, .i32⟩
  | 113 => ⟨S_, .i32⟩
  | 114 => ⟨S2000000, .i32⟩
  | 115 => ⟨S2000000, .i1⟩
  | 116 => ⟨S_, .i32⟩
  | 117 => ⟨S2000000, .i32⟩
  | 118 => ⟨S2000000, .i1⟩
  | 119 => ⟨S2000000, .i1⟩
  | 120 => ⟨S_, .i32⟩
  | 121 => ⟨S2000000, .i32⟩
  | 122 => ⟨S2000000, .i1⟩
  | 123 => ⟨S2000000, .i1⟩
  | 124 => ⟨S_, .i32⟩
  | 125 => ⟨S2000000, .i32⟩
  | 126 => ⟨S2000000, .i1⟩
  | 127 => ⟨S2000000, .i1⟩
  | _ => ⟨S2000000x3, .f32⟩

abbrev hbmTy0_5 (i : Nat) : BufTy := match i % 128 with
  | 0 => ⟨S_, .i32⟩
  | 1 => ⟨S2000000, .i32⟩
  | 2 => ⟨S2000000, .i1⟩
  | 3 => ⟨S2000000, .i1⟩
  | 4 => ⟨S_, .i32⟩
  | 5 => ⟨S2000000, .i32⟩
  | 6 => ⟨S2000000, .i1⟩
  | 7 => ⟨S2000000, .i1⟩
  | 8 => ⟨S2000000, .f32⟩
  | 9 => ⟨S2000000, .f32⟩
  | 10 => ⟨S_, .f32⟩
  | 11 => ⟨S2000000, .f32⟩
  | 12 => ⟨S2000000, .f32⟩
  | 13 => ⟨S_, .f32⟩
  | 14 => ⟨S_, .f32⟩
  | 15 => ⟨S2000000, .f32⟩
  | 16 => ⟨S2000000, .f32⟩
  | 17 => ⟨S_, .i32⟩
  | 18 => ⟨S2000000, .i32⟩
  | 19 => ⟨S2000000, .i32⟩
  | 20 => ⟨S2000000, .i32⟩
  | 21 => ⟨S_, .i32⟩
  | 22 => ⟨S2000000, .i32⟩
  | 23 => ⟨S2000000, .i32⟩
  | 24 => ⟨S2000000, .i32⟩
  | 25 => ⟨S_, .i32⟩
  | 26 => ⟨S_, .i32⟩
  | 27 => ⟨S2000000, .i32⟩
  | 28 => ⟨S2000000, .i32⟩
  | 29 => ⟨S_, .f32⟩
  | 30 => ⟨S2000000, .f32⟩
  | 31 => ⟨S2000000, .f32⟩
  | 32 => ⟨S_, .i32⟩
  | 33 => ⟨S2000000, .i32⟩
  | 34 => ⟨S2000000, .i32⟩
  | 35 => ⟨S_, .i32⟩
  | 36 => ⟨S2000000, .i32⟩
  | 37 => ⟨S2000000, .i32⟩
  | 38 => ⟨S_, .i32⟩
  | 39 => ⟨S2000000, .i32⟩
  | 40 => ⟨S2000000, .i32⟩
  | 41 => ⟨S_, .i32⟩
  | 42 => ⟨S2000000, .i32⟩
  | 43 => ⟨S2000000, .i1⟩
  | 44 => ⟨S_, .i32⟩
  | 45 => ⟨S2000000, .i32⟩
  | 46 => ⟨S2000000, .i1⟩
  | 47 => ⟨S2000000, .i1⟩
  | 48 => ⟨S_, .i32⟩
  | 49 => ⟨S2000000, .i32⟩
  | 50 => ⟨S2000000, .i1⟩
  | 51 => ⟨S2000000, .i1⟩
  | 52 => ⟨S_, .i32⟩
  | 53 => ⟨S2000000, .i32⟩
  | 54 => ⟨S2000000, .i1⟩
  | 55 => ⟨S2000000, .i1⟩
  | 56 => ⟨S_, .i32⟩
  | 57 => ⟨S2000000, .i32⟩
  | 58 => ⟨S2000000, .i1⟩
  | 59 => ⟨S2000000, .i1⟩
  | 60 => ⟨S_, .i32⟩
  | 61 => ⟨S2000000, .i32⟩
  | 62 => ⟨S2000000, .i1⟩
  | 63 => ⟨S2000000, .i1⟩
  | 64 => ⟨S2000000, .f32⟩
  | 65 => ⟨S2000000, .f32⟩
  | 66 => ⟨S_, .f32⟩
  | 67 => ⟨S2000000, .f32⟩
  | 68 => ⟨S2000000, .f32⟩
  | 69 => ⟨S_, .f32⟩
  | 70 => ⟨S_, .f32⟩
  | 71 => ⟨S2000000, .f32⟩
  | 72 => ⟨S2000000, .f32⟩
  | 73 => ⟨S_, .i32⟩
  | 74 => ⟨S2000000, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S2000000, .i32⟩
  | 81 => ⟨S_, .i32⟩
  | 82 => ⟨S_, .i32⟩
  | 83 => ⟨S2000000, .i32⟩
  | 84 => ⟨S2000000, .i32⟩
  | 85 => ⟨S_, .i32⟩
  | 86 => ⟨S2000000, .i32⟩
  | 87 => ⟨S2000000, .i32⟩
  | 88 => ⟨S_, .i32⟩
  | 89 => ⟨S2000000, .i32⟩
  | 90 => ⟨S2000000, .i32⟩
  | 91 => ⟨S_, .i32⟩
  | 92 => ⟨S2000000, .i32⟩
  | 93 => ⟨S2000000, .i32⟩
  | 94 => ⟨S_, .i32⟩
  | 95 => ⟨S2000000, .i32⟩
  | 96 => ⟨S2000000, .i1⟩
  | 97 => ⟨S_, .i32⟩
  | 98 => ⟨S2000000, .i32⟩
  | 99 => ⟨S2000000, .i1⟩
  | 100 => ⟨S2000000, .i1⟩
  | 101 => ⟨S_, .i32⟩
  | 102 => ⟨S2000000, .i32⟩
  | 103 => ⟨S2000000, .i1⟩
  | 104 => ⟨S2000000, .i1⟩
  | 105 => ⟨S_, .i32⟩
  | 106 => ⟨S2000000, .i32⟩
  | 107 => ⟨S2000000, .i1⟩
  | 108 => ⟨S2000000, .i1⟩
  | 109 => ⟨S_, .i32⟩
  | 110 => ⟨S2000000, .i32⟩
  | 111 => ⟨S2000000, .i1⟩
  | 112 => ⟨S2000000, .i1⟩
  | 113 => ⟨S_, .i32⟩
  | 114 => ⟨S2000000, .i32⟩
  | 115 => ⟨S2000000, .i1⟩
  | 116 => ⟨S2000000, .i1⟩
  | 117 => ⟨S2000000, .f32⟩
  | 118 => ⟨S2000000, .f32⟩
  | 119 => ⟨S_, .f32⟩
  | 120 => ⟨S2000000, .f32⟩
  | 121 => ⟨S2000000, .f32⟩
  | 122 => ⟨S_, .f32⟩
  | 123 => ⟨S_, .f32⟩
  | 124 => ⟨S2000000, .f32⟩
  | 125 => ⟨S2000000, .f32⟩
  | 126 => ⟨S_, .i32⟩
  | 127 => ⟨S2000000, .i32⟩
  | _ => ⟨S2000000x3, .f32⟩

abbrev hbmTy0_6 (i : Nat) : BufTy := match i % 128 with
  | 0 => ⟨S2000000, .i32⟩
  | 1 => ⟨S2000000, .i32⟩
  | 2 => ⟨S_, .i32⟩
  | 3 => ⟨S2000000, .i32⟩
  | 4 => ⟨S2000000, .i32⟩
  | 5 => ⟨S2000000, .i32⟩
  | 6 => ⟨S_, .i32⟩
  | 7 => ⟨S_, .i32⟩
  | 8 => ⟨S2000000, .i32⟩
  | 9 => ⟨S2000000, .i32⟩
  | 10 => ⟨S_, .f32⟩
  | 11 => ⟨S2000000, .f32⟩
  | 12 => ⟨S2000000, .f32⟩
  | 13 => ⟨S_, .f32⟩
  | 14 => ⟨S2000000, .f32⟩
  | 15 => ⟨S2000000, .f32⟩
  | 16 => ⟨S_, .i32⟩
  | 17 => ⟨S2000000, .i32⟩
  | 18 => ⟨S2000000, .i32⟩
  | 19 => ⟨S_, .i32⟩
  | 20 => ⟨S2000000, .i32⟩
  | 21 => ⟨S2000000, .i32⟩
  | 22 => ⟨S_, .i32⟩
  | 23 => ⟨S2000000, .i32⟩
  | 24 => ⟨S2000000, .i32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i1⟩
  | 31 => ⟨S2000000, .i1⟩
  | 32 => ⟨S_, .i32⟩
  | 33 => ⟨S2000000, .i32⟩
  | 34 => ⟨S2000000, .i1⟩
  | 35 => ⟨S2000000, .i1⟩
  | 36 => ⟨S_, .i32⟩
  | 37 => ⟨S2000000, .i32⟩
  | 38 => ⟨S2000000, .i1⟩
  | 39 => ⟨S2000000, .i1⟩
  | 40 => ⟨S_, .i32⟩
  | 41 => ⟨S2000000, .i32⟩
  | 42 => ⟨S2000000, .i1⟩
  | 43 => ⟨S2000000, .i1⟩
  | 44 => ⟨S_, .i32⟩
  | 45 => ⟨S2000000, .i32⟩
  | 46 => ⟨S2000000, .i1⟩
  | 47 => ⟨S2000000, .i1⟩
  | 48 => ⟨S2000000, .f32⟩
  | 49 => ⟨S2000000, .f32⟩
  | 50 => ⟨S_, .f32⟩
  | 51 => ⟨S2000000, .f32⟩
  | 52 => ⟨S2000000, .f32⟩
  | 53 => ⟨S_, .f32⟩
  | 54 => ⟨S_, .f32⟩
  | 55 => ⟨S2000000, .f32⟩
  | 56 => ⟨S2000000, .f32⟩
  | 57 => ⟨S_, .i32⟩
  | 58 => ⟨S2000000, .i32⟩
  | 59 => ⟨S2000000, .i32⟩
  | 60 => ⟨S2000000, .i32⟩
  | 61 => ⟨S_, .i32⟩
  | 62 => ⟨S2000000, .i32⟩
  | 63 => ⟨S2000000, .i32⟩
  | 64 => ⟨S2000000, .i32⟩
  | 65 => ⟨S_, .i32⟩
  | 66 => ⟨S_, .i32⟩
  | 67 => ⟨S2000000, .i32⟩
  | 68 => ⟨S2000000, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i32⟩
  | 75 => ⟨S_, .i32⟩
  | 76 => ⟨S2000000, .i32⟩
  | 77 => ⟨S2000000, .i32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i1⟩
  | 84 => ⟨S2000000, .i1⟩
  | 85 => ⟨S_, .i32⟩
  | 86 => ⟨S2000000, .i32⟩
  | 87 => ⟨S2000000, .i1⟩
  | 88 => ⟨S2000000, .i1⟩
  | 89 => ⟨S_, .i32⟩
  | 90 => ⟨S2000000, .i32⟩
  | 91 => ⟨S2000000, .i1⟩
  | 92 => ⟨S2000000, .i1⟩
  | 93 => ⟨S_, .i32⟩
  | 94 => ⟨S2000000, .i32⟩
  | 95 => ⟨S2000000, .i1⟩
  | 96 => ⟨S2000000, .i1⟩
  | 97 => ⟨S_, .i32⟩
  | 98 => ⟨S2000000, .i32⟩
  | 99 => ⟨S2000000, .i1⟩
  | 100 => ⟨S2000000, .i1⟩
  | 101 => ⟨S2000000, .f32⟩
  | 102 => ⟨S2000000, .f32⟩
  | 103 => ⟨S_, .f32⟩
  | 104 => ⟨S2000000, .f32⟩
  | 105 => ⟨S2000000, .f32⟩
  | 106 => ⟨S_, .f32⟩
  | 107 => ⟨S_, .f32⟩
  | 108 => ⟨S2000000, .f32⟩
  | 109 => ⟨S2000000, .f32⟩
  | 110 => ⟨S_, .i32⟩
  | 111 => ⟨S2000000, .i32⟩
  | 112 => ⟨S2000000, .i32⟩
  | 113 => ⟨S2000000, .i32⟩
  | 114 => ⟨S_, .i32⟩
  | 115 => ⟨S2000000, .i32⟩
  | 116 => ⟨S2000000, .i32⟩
  | 117 => ⟨S2000000, .i32⟩
  | 118 => ⟨S_, .i32⟩
  | 119 => ⟨S_, .i32⟩
  | 120 => ⟨S2000000, .i32⟩
  | 121 => ⟨S2000000, .i32⟩
  | 122 => ⟨S_, .f32⟩
  | 123 => ⟨S2000000, .f32⟩
  | 124 => ⟨S2000000, .f32⟩
  | 125 => ⟨S_, .i32⟩
  | 126 => ⟨S2000000, .i32⟩
  | 127 => ⟨S2000000, .i32⟩
  | _ => ⟨S2000000x3, .f32⟩

abbrev hbmTy0_7 (i : Nat) : BufTy := match i % 128 with
  | 0 => ⟨S_, .i32⟩
  | 1 => ⟨S2000000, .i32⟩
  | 2 => ⟨S2000000, .i32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i1⟩
  | 12 => ⟨S2000000, .i1⟩
  | 13 => ⟨S_, .i32⟩
  | 14 => ⟨S2000000, .i32⟩
  | 15 => ⟨S2000000, .i1⟩
  | 16 => ⟨S2000000, .i1⟩
  | 17 => ⟨S_, .i32⟩
  | 18 => ⟨S2000000, .i32⟩
  | 19 => ⟨S2000000, .i1⟩
  | 20 => ⟨S2000000, .i1⟩
  | 21 => ⟨S_, .i32⟩
  | 22 => ⟨S2000000, .i32⟩
  | 23 => ⟨S2000000, .i1⟩
  | 24 => ⟨S2000000, .i1⟩
  | 25 => ⟨S_, .i32⟩
  | 26 => ⟨S2000000, .i32⟩
  | 27 => ⟨S2000000, .i1⟩
  | 28 => ⟨S2000000, .i1⟩
  | 29 => ⟨S2000000, .f32⟩
  | 30 => ⟨S2000000, .f32⟩
  | 31 => ⟨S_, .f32⟩
  | 32 => ⟨S2000000, .f32⟩
  | 33 => ⟨S2000000, .f32⟩
  | 34 => ⟨S_, .f32⟩
  | 35 => ⟨S_, .f32⟩
  | 36 => ⟨S2000000, .f32⟩
  | 37 => ⟨S2000000, .f32⟩
  | 38 => ⟨S_, .i32⟩
  | 39 => ⟨S2000000, .i32⟩
  | 40 => ⟨S2000000, .i32⟩
  | 41 => ⟨S2000000, .i32⟩
  | 42 => ⟨S_, .i32⟩
  | 43 => ⟨S2000000, .i32⟩
  | 44 => ⟨S2000000, .i32⟩
  | 45 => ⟨S2000000, .i32⟩
  | 46 => ⟨S_, .i32⟩
  | 47 => ⟨S_, .i32⟩
  | 48 => ⟨S2000000, .i32⟩
  | 49 => ⟨S2000000, .i32⟩
  | 50 => ⟨S_, .i32⟩
  | 51 => ⟨S2000000, .i32⟩
  | 52 => ⟨S2000000, .i32⟩
  | 53 => ⟨S_, .i32⟩
  | 54 => ⟨S2000000, .i32⟩
  | 55 => ⟨S2000000, .i32⟩
  | 56 => ⟨S_, .i32⟩
  | 57 => ⟨S2000000, .i32⟩
  | 58 => ⟨S2000000, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i1⟩
  | 65 => ⟨S2000000, .i1⟩
  | 66 => ⟨S_, .i32⟩
  | 67 => ⟨S2000000, .i32⟩
  | 68 => ⟨S2000000, .i1⟩
  | 69 => ⟨S2000000, .i1⟩
  | 70 => ⟨S_, .i32⟩
  | 71 => ⟨S2000000, .i32⟩
  | 72 => ⟨S2000000, .i1⟩
  | 73 => ⟨S2000000, .i1⟩
  | 74 => ⟨S_, .i32⟩
  | 75 => ⟨S2000000, .i32⟩
  | 76 => ⟨S2000000, .i1⟩
  | 77 => ⟨S2000000, .i1⟩
  | 78 => ⟨S_, .i32⟩
  | 79 => ⟨S2000000, .i32⟩
  | 80 => ⟨S2000000, .i1⟩
  | 81 => ⟨S2000000, .i1⟩
  | 82 => ⟨S2000000, .f32⟩
  | 83 => ⟨S2000000, .f32⟩
  | 84 => ⟨S_, .f32⟩
  | 85 => ⟨S2000000, .f32⟩
  | 86 => ⟨S2000000, .f32⟩
  | 87 => ⟨S_, .f32⟩
  | 88 => ⟨S_, .f32⟩
  | 89 => ⟨S2000000, .f32⟩
  | 90 => ⟨S2000000, .f32⟩
  | 91 => ⟨S_, .i32⟩
  | 92 => ⟨S2000000, .i32⟩
  | 93 => ⟨S2000000, .i32⟩
  | 94 => ⟨S2000000, .i32⟩
  | 95 => ⟨S_, .i32⟩
  | 96 => ⟨S2000000, .i32⟩
  | 97 => ⟨S2000000, .i32⟩
  | 98 => ⟨S2000000, .i32⟩
  | 99 => ⟨S_, .i32⟩
  | 100 => ⟨S_, .i32⟩
  | 101 => ⟨S2000000, .i32⟩
  | 102 => ⟨S2000000, .i32⟩
  | 103 => ⟨S16000000, .i32⟩
  | 104 => ⟨S16000000, .f32⟩
  | 105 => ⟨S32000000, .i32⟩
  | 106 => ⟨S32000000, .f32⟩
  | 107 => ⟨S_, .f32⟩
  | 108 => ⟨S16777216, .f32⟩
  | 109 => ⟨S_, .i32⟩
  | 110 => ⟨S32000000, .i32⟩
  | 111 => ⟨S32000000, .i1⟩
  | 112 => ⟨S_, .i32⟩
  | 113 => ⟨S32000000, .i32⟩
  | 114 => ⟨S32000000, .i32⟩
  | 115 => ⟨S32000000, .i32⟩
  | 116 => ⟨S32000000x1, .i32⟩
  | 117 => ⟨S16777216, .f32⟩
  | 118 => ⟨S256x256x256, .f32⟩
  | 119 => ⟨S65536x256, .f32⟩
  | 120 => ⟨S1x1, .f32⟩
  | 121 => ⟨S_, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S2000000x3, .f32⟩

abbrev bufTy : (tb : Table) → Fin (tcTables nBuf tb) → BufTy
  | .hbm, ⟨i, _⟩ => hbmTy i
  | .local _ .vmem, ⟨0, _⟩ => ⟨S8192x256, .f32⟩
  | .local _ .vmem, ⟨1, _⟩ => ⟨S8192x256, .f32⟩
  | .local _ .vmem, ⟨2, _⟩ => ⟨S1x1, .f32⟩
  | .local _ .vmem, ⟨3, _⟩ => ⟨S1x1, .f32⟩
  | _, _ => ⟨S2000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_cst_8 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_c : Ref sig .tc := ⟨.hbm, 65, rfl⟩
abbrev main_v47 : Ref sig .tc := ⟨.hbm, 66, rfl⟩
abbrev main_v48 : Ref sig .tc := ⟨.hbm, 67, rfl⟩
abbrev main_c_14 : Ref sig .tc := ⟨.hbm, 68, rfl⟩
abbrev main_v49 : Ref sig .tc := ⟨.hbm, 69, rfl⟩
abbrev main_v50 : Ref sig .tc := ⟨.hbm, 70, rfl⟩
abbrev main_c_15 : Ref sig .tc := ⟨.hbm, 71, rfl⟩
abbrev main_v51 : Ref sig .tc := ⟨.hbm, 72, rfl⟩
abbrev main_v52 : Ref sig .tc := ⟨.hbm, 73, rfl⟩
abbrev main_c_16 : Ref sig .tc := ⟨.hbm, 74, rfl⟩
abbrev main_v53 : Ref sig .tc := ⟨.hbm, 75, rfl⟩
abbrev main_v54 : Ref sig .tc := ⟨.hbm, 76, rfl⟩
abbrev main_c_17 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_18 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_19 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_20 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_21 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_22 : Ref sig .tc := ⟨.hbm, 99, rfl⟩
abbrev main_v72 : Ref sig .tc := ⟨.hbm, 100, rfl⟩
abbrev main_v73 : Ref sig .tc := ⟨.hbm, 101, rfl⟩
abbrev main_cst_23 : Ref sig .tc := ⟨.hbm, 102, rfl⟩
abbrev main_call0_v0 : Ref sig .tc := ⟨.hbm, 103, rfl⟩
abbrev main_call0_v1 : Ref sig .tc := ⟨.hbm, 104, rfl⟩
abbrev main_v74 : Ref sig .tc := ⟨.hbm, 105, rfl⟩
abbrev main_c_24 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_25 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_26 : Ref sig .tc := ⟨.hbm, 114, rfl⟩
abbrev main_call1_v0 : Ref sig .tc := ⟨.hbm, 115, rfl⟩
abbrev main_call1_v1 : Ref sig .tc := ⟨.hbm, 116, rfl⟩
abbrev main_v81 : Ref sig .tc := ⟨.hbm, 117, rfl⟩
abbrev main_c_27 : Ref sig .tc := ⟨.hbm, 118, rfl⟩
abbrev main_v82 : Ref sig .tc := ⟨.hbm, 119, rfl⟩
abbrev main_v83 : Ref sig .tc := ⟨.hbm, 120, rfl⟩
abbrev main_c_28 : Ref sig .tc := ⟨.hbm, 121, rfl⟩
abbrev main_v84 : Ref sig .tc := ⟨.hbm, 122, rfl⟩
abbrev main_v85 : Ref sig .tc := ⟨.hbm, 123, rfl⟩
abbrev main_c_29 : Ref sig .tc := ⟨.hbm, 124, rfl⟩
abbrev main_v86 : Ref sig .tc := ⟨.hbm, 125, rfl⟩
abbrev main_v87 : Ref sig .tc := ⟨.hbm, 126, rfl⟩
abbrev main_c_30 : Ref sig .tc := ⟨.hbm, 127, rfl⟩
abbrev main_v88 : Ref sig .tc := ⟨.hbm, 128, rfl⟩
abbrev main_v89 : Ref sig .tc := ⟨.hbm, 129, rfl⟩
abbrev main_c_31 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_c_32 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_c_33 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_c_34 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_c_35 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_36 : Ref sig .tc := ⟨.hbm, 152, rfl⟩
abbrev main_v107 : Ref sig .tc := ⟨.hbm, 153, rfl⟩
abbrev main_v108 : Ref sig .tc := ⟨.hbm, 154, rfl⟩
abbrev main_cst_37 : Ref sig .tc := ⟨.hbm, 155, rfl⟩
abbrev main_call2_v0 : Ref sig .tc := ⟨.hbm, 156, rfl⟩
abbrev main_call2_v1 : Ref sig .tc := ⟨.hbm, 157, rfl⟩
abbrev main_v109 : Ref sig .tc := ⟨.hbm, 158, rfl⟩
abbrev main_c_38 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_c_39 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_40 : Ref sig .tc := ⟨.hbm, 167, rfl⟩
abbrev main_call3_v0 : Ref sig .tc := ⟨.hbm, 168, rfl⟩
abbrev main_call3_v1 : Ref sig .tc := ⟨.hbm, 169, rfl⟩
abbrev main_v116 : Ref sig .tc := ⟨.hbm, 170, rfl⟩
abbrev main_cst_41 : Ref sig .tc := ⟨.hbm, 171, rfl⟩
abbrev main_v117 : Ref sig .tc := ⟨.hbm, 172, rfl⟩
abbrev main_v118 : Ref sig .tc := ⟨.hbm, 173, rfl⟩
abbrev main_c_42 : Ref sig .tc := ⟨.hbm, 174, rfl⟩
abbrev main_v119 : Ref sig .tc := ⟨.hbm, 175, rfl⟩
abbrev main_v120 : Ref sig .tc := ⟨.hbm, 176, rfl⟩
abbrev main_c_43 : Ref sig .tc := ⟨.hbm, 177, rfl⟩
abbrev main_v121 : Ref sig .tc := ⟨.hbm, 178, rfl⟩
abbrev main_v122 : Ref sig .tc := ⟨.hbm, 179, rfl⟩
abbrev main_c_44 : Ref sig .tc := ⟨.hbm, 180, rfl⟩
abbrev main_v123 : Ref sig .tc := ⟨.hbm, 181, rfl⟩
abbrev main_v124 : Ref sig .tc := ⟨.hbm, 182, rfl⟩
abbrev main_c_45 : Ref sig .tc := ⟨.hbm, 183, rfl⟩
abbrev main_v125 : Ref sig .tc := ⟨.hbm, 184, rfl⟩
abbrev main_v126 : Ref sig .tc := ⟨.hbm, 185, rfl⟩
abbrev main_c_46 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_c_47 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_c_48 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_c_49 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_c_50 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_cst_51 : Ref sig .tc := ⟨.hbm, 208, rfl⟩
abbrev main_v144 : Ref sig .tc := ⟨.hbm, 209, rfl⟩
abbrev main_v145 : Ref sig .tc := ⟨.hbm, 210, rfl⟩
abbrev main_cst_52 : Ref sig .tc := ⟨.hbm, 211, rfl⟩
abbrev main_call4_v0 : Ref sig .tc := ⟨.hbm, 212, rfl⟩
abbrev main_call4_v1 : Ref sig .tc := ⟨.hbm, 213, rfl⟩
abbrev main_v146 : Ref sig .tc := ⟨.hbm, 214, rfl⟩
abbrev main_c_53 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_c_54 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_c_55 : Ref sig .tc := ⟨.hbm, 223, rfl⟩
abbrev main_call5_v0 : Ref sig .tc := ⟨.hbm, 224, rfl⟩
abbrev main_call5_v1 : Ref sig .tc := ⟨.hbm, 225, rfl⟩
abbrev main_v153 : Ref sig .tc := ⟨.hbm, 226, rfl⟩
abbrev main_c_56 : Ref sig .tc := ⟨.hbm, 227, rfl⟩
abbrev main_v154 : Ref sig .tc := ⟨.hbm, 228, rfl⟩
abbrev main_v155 : Ref sig .tc := ⟨.hbm, 229, rfl⟩
abbrev main_c_57 : Ref sig .tc := ⟨.hbm, 230, rfl⟩
abbrev main_v156 : Ref sig .tc := ⟨.hbm, 231, rfl⟩
abbrev main_v157 : Ref sig .tc := ⟨.hbm, 232, rfl⟩
abbrev main_c_58 : Ref sig .tc := ⟨.hbm, 233, rfl⟩
abbrev main_v158 : Ref sig .tc := ⟨.hbm, 234, rfl⟩
abbrev main_v159 : Ref sig .tc := ⟨.hbm, 235, rfl⟩
abbrev main_c_59 : Ref sig .tc := ⟨.hbm, 236, rfl⟩
abbrev main_v160 : Ref sig .tc := ⟨.hbm, 237, rfl⟩
abbrev main_v161 : Ref sig .tc := ⟨.hbm, 238, rfl⟩
abbrev main_c_60 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_c_61 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_c_62 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_c_63 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_c_64 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_cst_65 : Ref sig .tc := ⟨.hbm, 261, rfl⟩
abbrev main_v179 : Ref sig .tc := ⟨.hbm, 262, rfl⟩
abbrev main_v180 : Ref sig .tc := ⟨.hbm, 263, rfl⟩
abbrev main_cst_66 : Ref sig .tc := ⟨.hbm, 264, rfl⟩
abbrev main_call6_v0 : Ref sig .tc := ⟨.hbm, 265, rfl⟩
abbrev main_call6_v1 : Ref sig .tc := ⟨.hbm, 266, rfl⟩
abbrev main_v181 : Ref sig .tc := ⟨.hbm, 267, rfl⟩
abbrev main_c_67 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_c_68 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_c_69 : Ref sig .tc := ⟨.hbm, 276, rfl⟩
abbrev main_call7_v0 : Ref sig .tc := ⟨.hbm, 277, rfl⟩
abbrev main_call7_v1 : Ref sig .tc := ⟨.hbm, 278, rfl⟩
abbrev main_v188 : Ref sig .tc := ⟨.hbm, 279, rfl⟩
abbrev main_cst_70 : Ref sig .tc := ⟨.hbm, 280, rfl⟩
abbrev main_v189 : Ref sig .tc := ⟨.hbm, 281, rfl⟩
abbrev main_v190 : Ref sig .tc := ⟨.hbm, 282, rfl⟩
abbrev main_cst_71 : Ref sig .tc := ⟨.hbm, 283, rfl⟩
abbrev main_v191 : Ref sig .tc := ⟨.hbm, 284, rfl⟩
abbrev main_v192 : Ref sig .tc := ⟨.hbm, 285, rfl⟩
abbrev main_c_72 : Ref sig .tc := ⟨.hbm, 286, rfl⟩
abbrev main_v193 : Ref sig .tc := ⟨.hbm, 287, rfl⟩
abbrev main_v194 : Ref sig .tc := ⟨.hbm, 288, rfl⟩
abbrev main_c_73 : Ref sig .tc := ⟨.hbm, 289, rfl⟩
abbrev main_v195 : Ref sig .tc := ⟨.hbm, 290, rfl⟩
abbrev main_v196 : Ref sig .tc := ⟨.hbm, 291, rfl⟩
abbrev main_c_74 : Ref sig .tc := ⟨.hbm, 292, rfl⟩
abbrev main_v197 : Ref sig .tc := ⟨.hbm, 293, rfl⟩
abbrev main_v198 : Ref sig .tc := ⟨.hbm, 294, rfl⟩
abbrev main_c_75 : Ref sig .tc := ⟨.hbm, 295, rfl⟩
abbrev main_v199 : Ref sig .tc := ⟨.hbm, 296, rfl⟩
abbrev main_v200 : Ref sig .tc := ⟨.hbm, 297, rfl⟩
abbrev main_c_76 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_c_77 : Ref sig .tc := ⟨.hbm, 302, rfl⟩
abbrev main_v204 : Ref sig .tc := ⟨.hbm, 303, rfl⟩
abbrev main_v205 : Ref sig .tc := ⟨.hbm, 304, rfl⟩
abbrev main_v206 : Ref sig .tc := ⟨.hbm, 305, rfl⟩
abbrev main_c_78 : Ref sig .tc := ⟨.hbm, 306, rfl⟩
abbrev main_v207 : Ref sig .tc := ⟨.hbm, 307, rfl⟩
abbrev main_v208 : Ref sig .tc := ⟨.hbm, 308, rfl⟩
abbrev main_v209 : Ref sig .tc := ⟨.hbm, 309, rfl⟩
abbrev main_c_79 : Ref sig .tc := ⟨.hbm, 310, rfl⟩
abbrev main_v210 : Ref sig .tc := ⟨.hbm, 311, rfl⟩
abbrev main_v211 : Ref sig .tc := ⟨.hbm, 312, rfl⟩
abbrev main_v212 : Ref sig .tc := ⟨.hbm, 313, rfl⟩
abbrev main_c_80 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_v216 : Ref sig .tc := ⟨.hbm, 318, rfl⟩
abbrev main_v217 : Ref sig .tc := ⟨.hbm, 319, rfl⟩
abbrev main_cst_81 : Ref sig .tc := ⟨.hbm, 320, rfl⟩
abbrev main_v218 : Ref sig .tc := ⟨.hbm, 321, rfl⟩
abbrev main_v219 : Ref sig .tc := ⟨.hbm, 322, rfl⟩
abbrev main_cst_82 : Ref sig .tc := ⟨.hbm, 323, rfl⟩
abbrev main_call8_v0 : Ref sig .tc := ⟨.hbm, 324, rfl⟩
abbrev main_call8_v1 : Ref sig .tc := ⟨.hbm, 325, rfl⟩
abbrev main_v220 : Ref sig .tc := ⟨.hbm, 326, rfl⟩
abbrev main_c_83 : Ref sig .tc := ⟨.hbm, 327, rfl⟩
abbrev main_v221 : Ref sig .tc := ⟨.hbm, 328, rfl⟩
abbrev main_v222 : Ref sig .tc := ⟨.hbm, 329, rfl⟩
abbrev main_v223 : Ref sig .tc := ⟨.hbm, 330, rfl⟩
abbrev main_c_84 : Ref sig .tc := ⟨.hbm, 331, rfl⟩
abbrev main_v224 : Ref sig .tc := ⟨.hbm, 332, rfl⟩
abbrev main_v225 : Ref sig .tc := ⟨.hbm, 333, rfl⟩
abbrev main_v226 : Ref sig .tc := ⟨.hbm, 334, rfl⟩
abbrev main_c_85 : Ref sig .tc := ⟨.hbm, 335, rfl⟩
abbrev main_call9_v0 : Ref sig .tc := ⟨.hbm, 336, rfl⟩
abbrev main_call9_v1 : Ref sig .tc := ⟨.hbm, 337, rfl⟩
abbrev main_v227 : Ref sig .tc := ⟨.hbm, 338, rfl⟩
abbrev main_c_86 : Ref sig .tc := ⟨.hbm, 339, rfl⟩
abbrev main_v228 : Ref sig .tc := ⟨.hbm, 340, rfl⟩
abbrev main_v229 : Ref sig .tc := ⟨.hbm, 341, rfl⟩
abbrev main_c_87 : Ref sig .tc := ⟨.hbm, 342, rfl⟩
abbrev main_v230 : Ref sig .tc := ⟨.hbm, 343, rfl⟩
abbrev main_v231 : Ref sig .tc := ⟨.hbm, 344, rfl⟩
abbrev main_c_88 : Ref sig .tc := ⟨.hbm, 345, rfl⟩
abbrev main_v232 : Ref sig .tc := ⟨.hbm, 346, rfl⟩
abbrev main_v233 : Ref sig .tc := ⟨.hbm, 347, rfl⟩
abbrev main_c_89 : Ref sig .tc := ⟨.hbm, 348, rfl⟩
abbrev main_v234 : Ref sig .tc := ⟨.hbm, 349, rfl⟩
abbrev main_v235 : Ref sig .tc := ⟨.hbm, 350, rfl⟩
abbrev main_c_90 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_c_91 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_c_92 : Ref sig .tc := ⟨.hbm, 359, rfl⟩
abbrev main_v242 : Ref sig .tc := ⟨.hbm, 360, rfl⟩
abbrev main_v243 : Ref sig .tc := ⟨.hbm, 361, rfl⟩
abbrev main_v244 : Ref sig .tc := ⟨.hbm, 362, rfl⟩
abbrev main_c_93 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_c_94 : Ref sig .tc := ⟨.hbm, 367, rfl⟩
abbrev main_v248 : Ref sig .tc := ⟨.hbm, 368, rfl⟩
abbrev main_v249 : Ref sig .tc := ⟨.hbm, 369, rfl⟩
abbrev main_v250 : Ref sig .tc := ⟨.hbm, 370, rfl⟩
abbrev main_v251 : Ref sig .tc := ⟨.hbm, 371, rfl⟩
abbrev main_v252 : Ref sig .tc := ⟨.hbm, 372, rfl⟩
abbrev main_cst_95 : Ref sig .tc := ⟨.hbm, 373, rfl⟩
abbrev main_v253 : Ref sig .tc := ⟨.hbm, 374, rfl⟩
abbrev main_v254 : Ref sig .tc := ⟨.hbm, 375, rfl⟩
abbrev main_cst_96 : Ref sig .tc := ⟨.hbm, 376, rfl⟩
abbrev main_call10_v0 : Ref sig .tc := ⟨.hbm, 377, rfl⟩
abbrev main_call10_v1 : Ref sig .tc := ⟨.hbm, 378, rfl⟩
abbrev main_v255 : Ref sig .tc := ⟨.hbm, 379, rfl⟩
abbrev main_c_97 : Ref sig .tc := ⟨.hbm, 380, rfl⟩
abbrev main_v256 : Ref sig .tc := ⟨.hbm, 381, rfl⟩
abbrev main_v257 : Ref sig .tc := ⟨.hbm, 382, rfl⟩
abbrev main_v258 : Ref sig .tc := ⟨.hbm, 383, rfl⟩
abbrev main_c_98 : Ref sig .tc := ⟨.hbm, 384, rfl⟩
abbrev main_v259 : Ref sig .tc := ⟨.hbm, 385, rfl⟩
abbrev main_v260 : Ref sig .tc := ⟨.hbm, 386, rfl⟩
abbrev main_v261 : Ref sig .tc := ⟨.hbm, 387, rfl⟩
abbrev main_c_99 : Ref sig .tc := ⟨.hbm, 388, rfl⟩
abbrev main_call11_v0 : Ref sig .tc := ⟨.hbm, 389, rfl⟩
abbrev main_call11_v1 : Ref sig .tc := ⟨.hbm, 390, rfl⟩
abbrev main_v262 : Ref sig .tc := ⟨.hbm, 391, rfl⟩
abbrev main_cst_100 : Ref sig .tc := ⟨.hbm, 392, rfl⟩
abbrev main_v263 : Ref sig .tc := ⟨.hbm, 393, rfl⟩
abbrev main_v264 : Ref sig .tc := ⟨.hbm, 394, rfl⟩
abbrev main_c_101 : Ref sig .tc := ⟨.hbm, 395, rfl⟩
abbrev main_v265 : Ref sig .tc := ⟨.hbm, 396, rfl⟩
abbrev main_v266 : Ref sig .tc := ⟨.hbm, 397, rfl⟩
abbrev main_c_102 : Ref sig .tc := ⟨.hbm, 398, rfl⟩
abbrev main_v267 : Ref sig .tc := ⟨.hbm, 399, rfl⟩
abbrev main_v268 : Ref sig .tc := ⟨.hbm, 400, rfl⟩
abbrev main_c_103 : Ref sig .tc := ⟨.hbm, 401, rfl⟩
abbrev main_v269 : Ref sig .tc := ⟨.hbm, 402, rfl⟩
abbrev main_v270 : Ref sig .tc := ⟨.hbm, 403, rfl⟩
abbrev main_c_104 : Ref sig .tc := ⟨.hbm, 404, rfl⟩
abbrev main_v271 : Ref sig .tc := ⟨.hbm, 405, rfl⟩
abbrev main_v272 : Ref sig .tc := ⟨.hbm, 406, rfl⟩
abbrev main_c_105 : Ref sig .tc := ⟨.hbm, 407, rfl⟩
abbrev main_v273 : Ref sig .tc := ⟨.hbm, 408, rfl⟩
abbrev main_v274 : Ref sig .tc := ⟨.hbm, 409, rfl⟩
abbrev main_v275 : Ref sig .tc := ⟨.hbm, 410, rfl⟩
abbrev main_c_106 : Ref sig .tc := ⟨.hbm, 411, rfl⟩
abbrev main_v276 : Ref sig .tc := ⟨.hbm, 412, rfl⟩
abbrev main_v277 : Ref sig .tc := ⟨.hbm, 413, rfl⟩
abbrev main_v278 : Ref sig .tc := ⟨.hbm, 414, rfl⟩
abbrev main_c_107 : Ref sig .tc := ⟨.hbm, 415, rfl⟩
abbrev main_v279 : Ref sig .tc := ⟨.hbm, 416, rfl⟩
abbrev main_v280 : Ref sig .tc := ⟨.hbm, 417, rfl⟩
abbrev main_v281 : Ref sig .tc := ⟨.hbm, 418, rfl⟩
abbrev main_c_108 : Ref sig .tc := ⟨.hbm, 419, rfl⟩
abbrev main_v282 : Ref sig .tc := ⟨.hbm, 420, rfl⟩
abbrev main_v283 : Ref sig .tc := ⟨.hbm, 421, rfl⟩
abbrev main_v284 : Ref sig .tc := ⟨.hbm, 422, rfl⟩
abbrev main_c_109 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_v288 : Ref sig .tc := ⟨.hbm, 427, rfl⟩
abbrev main_v289 : Ref sig .tc := ⟨.hbm, 428, rfl⟩
abbrev main_cst_110 : Ref sig .tc := ⟨.hbm, 429, rfl⟩
abbrev main_v290 : Ref sig .tc := ⟨.hbm, 430, rfl⟩
abbrev main_v291 : Ref sig .tc := ⟨.hbm, 431, rfl⟩
abbrev main_cst_111 : Ref sig .tc := ⟨.hbm, 432, rfl⟩
abbrev main_call12_v0 : Ref sig .tc := ⟨.hbm, 433, rfl⟩
abbrev main_call12_v1 : Ref sig .tc := ⟨.hbm, 434, rfl⟩
abbrev main_v292 : Ref sig .tc := ⟨.hbm, 435, rfl⟩
abbrev main_c_112 : Ref sig .tc := ⟨.hbm, 436, rfl⟩
abbrev main_v293 : Ref sig .tc := ⟨.hbm, 437, rfl⟩
abbrev main_v294 : Ref sig .tc := ⟨.hbm, 438, rfl⟩
abbrev main_v295 : Ref sig .tc := ⟨.hbm, 439, rfl⟩
abbrev main_c_113 : Ref sig .tc := ⟨.hbm, 440, rfl⟩
abbrev main_v296 : Ref sig .tc := ⟨.hbm, 441, rfl⟩
abbrev main_v297 : Ref sig .tc := ⟨.hbm, 442, rfl⟩
abbrev main_v298 : Ref sig .tc := ⟨.hbm, 443, rfl⟩
abbrev main_c_114 : Ref sig .tc := ⟨.hbm, 444, rfl⟩
abbrev main_call13_v0 : Ref sig .tc := ⟨.hbm, 445, rfl⟩
abbrev main_call13_v1 : Ref sig .tc := ⟨.hbm, 446, rfl⟩
abbrev main_v299 : Ref sig .tc := ⟨.hbm, 447, rfl⟩
abbrev main_c_115 : Ref sig .tc := ⟨.hbm, 448, rfl⟩
abbrev main_v300 : Ref sig .tc := ⟨.hbm, 449, rfl⟩
abbrev main_v301 : Ref sig .tc := ⟨.hbm, 450, rfl⟩
abbrev main_c_116 : Ref sig .tc := ⟨.hbm, 451, rfl⟩
abbrev main_v302 : Ref sig .tc := ⟨.hbm, 452, rfl⟩
abbrev main_v303 : Ref sig .tc := ⟨.hbm, 453, rfl⟩
abbrev main_c_117 : Ref sig .tc := ⟨.hbm, 454, rfl⟩
abbrev main_v304 : Ref sig .tc := ⟨.hbm, 455, rfl⟩
abbrev main_v305 : Ref sig .tc := ⟨.hbm, 456, rfl⟩
abbrev main_c_118 : Ref sig .tc := ⟨.hbm, 457, rfl⟩
abbrev main_v306 : Ref sig .tc := ⟨.hbm, 458, rfl⟩
abbrev main_v307 : Ref sig .tc := ⟨.hbm, 459, rfl⟩
abbrev main_c_119 : Ref sig .tc := ⟨.hbm, 460, rfl⟩
abbrev main_v308 : Ref sig .tc := ⟨.hbm, 461, rfl⟩
abbrev main_v309 : Ref sig .tc := ⟨.hbm, 462, rfl⟩
abbrev main_v310 : Ref sig .tc := ⟨.hbm, 463, rfl⟩
abbrev main_c_120 : Ref sig .tc := ⟨.hbm, 464, rfl⟩
abbrev main_v311 : Ref sig .tc := ⟨.hbm, 465, rfl⟩
abbrev main_v312 : Ref sig .tc := ⟨.hbm, 466, rfl⟩
abbrev main_v313 : Ref sig .tc := ⟨.hbm, 467, rfl⟩
abbrev main_c_121 : Ref sig .tc := ⟨.hbm, 468, rfl⟩
abbrev main_v314 : Ref sig .tc := ⟨.hbm, 469, rfl⟩
abbrev main_v315 : Ref sig .tc := ⟨.hbm, 470, rfl⟩
abbrev main_v316 : Ref sig .tc := ⟨.hbm, 471, rfl⟩
abbrev main_c_122 : Ref sig .tc := ⟨.hbm, 472, rfl⟩
abbrev main_v317 : Ref sig .tc := ⟨.hbm, 473, rfl⟩
abbrev main_v318 : Ref sig .tc := ⟨.hbm, 474, rfl⟩
abbrev main_v319 : Ref sig .tc := ⟨.hbm, 475, rfl⟩
abbrev main_c_123 : Ref sig .tc := ⟨.hbm, 476, rfl⟩
abbrev main_v320 : Ref sig .tc := ⟨.hbm, 477, rfl⟩
abbrev main_v321 : Ref sig .tc := ⟨.hbm, 478, rfl⟩
abbrev main_v322 : Ref sig .tc := ⟨.hbm, 479, rfl⟩
abbrev main_v323 : Ref sig .tc := ⟨.hbm, 480, rfl⟩
abbrev main_v324 : Ref sig .tc := ⟨.hbm, 481, rfl⟩
abbrev main_cst_124 : Ref sig .tc := ⟨.hbm, 482, rfl⟩
abbrev main_v325 : Ref sig .tc := ⟨.hbm, 483, rfl⟩
abbrev main_v326 : Ref sig .tc := ⟨.hbm, 484, rfl⟩
abbrev main_cst_125 : Ref sig .tc := ⟨.hbm, 485, rfl⟩
abbrev main_call14_v0 : Ref sig .tc := ⟨.hbm, 486, rfl⟩
abbrev main_call14_v1 : Ref sig .tc := ⟨.hbm, 487, rfl⟩
abbrev main_v327 : Ref sig .tc := ⟨.hbm, 488, rfl⟩
abbrev main_c_126 : Ref sig .tc := ⟨.hbm, 489, rfl⟩
abbrev main_v328 : Ref sig .tc := ⟨.hbm, 490, rfl⟩
abbrev main_v329 : Ref sig .tc := ⟨.hbm, 491, rfl⟩
abbrev main_v330 : Ref sig .tc := ⟨.hbm, 492, rfl⟩
abbrev main_c_127 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_c_128 : Ref sig .tc := ⟨.hbm, 497, rfl⟩
abbrev main_call15_v0 : Ref sig .tc := ⟨.hbm, 498, rfl⟩
abbrev main_call15_v1 : Ref sig .tc := ⟨.hbm, 499, rfl⟩
abbrev main_v334 : Ref sig .tc := ⟨.hbm, 500, rfl⟩
abbrev main_v335 : Ref sig .tc := ⟨.hbm, 501, rfl⟩
abbrev main_v336 : Ref sig .tc := ⟨.hbm, 502, rfl⟩
abbrev main_v337 : Ref sig .tc := ⟨.hbm, 503, rfl⟩
abbrev main_v338 : Ref sig .tc := ⟨.hbm, 504, rfl⟩
abbrev main_cst_129 : Ref sig .tc := ⟨.hbm, 505, rfl⟩
abbrev main_v339 : Ref sig .tc := ⟨.hbm, 506, rfl⟩
abbrev main_v340 : Ref sig .tc := ⟨.hbm, 507, rfl⟩
abbrev main_cst_130 : Ref sig .tc := ⟨.hbm, 508, rfl⟩
abbrev main_v341 : Ref sig .tc := ⟨.hbm, 509, rfl⟩
abbrev main_v342 : Ref sig .tc := ⟨.hbm, 510, rfl⟩
abbrev main_cst_131 : Ref sig .tc := ⟨.hbm, 511, rfl⟩
abbrev main_v343 : Ref sig .tc := ⟨.hbm, 512, rfl⟩
abbrev main_v344 : Ref sig .tc := ⟨.hbm, 513, rfl⟩
abbrev main_cst_132 : Ref sig .tc := ⟨.hbm, 514, rfl⟩
abbrev main_v345 : Ref sig .tc := ⟨.hbm, 515, rfl⟩
abbrev main_v346 : Ref sig .tc := ⟨.hbm, 516, rfl⟩
abbrev main_v347 : Ref sig .tc := ⟨.hbm, 517, rfl⟩
abbrev main_v348 : Ref sig .tc := ⟨.hbm, 518, rfl⟩
abbrev main_cst_133 : Ref sig .tc := ⟨.hbm, 519, rfl⟩
abbrev main_v349 : Ref sig .tc := ⟨.hbm, 520, rfl⟩
abbrev main_v350 : Ref sig .tc := ⟨.hbm, 521, rfl⟩
abbrev main_cst_134 : Ref sig .tc := ⟨.hbm, 522, rfl⟩
abbrev main_v351 : Ref sig .tc := ⟨.hbm, 523, rfl⟩
abbrev main_v352 : Ref sig .tc := ⟨.hbm, 524, rfl⟩
abbrev main_cst_135 : Ref sig .tc := ⟨.hbm, 525, rfl⟩
abbrev main_v353 : Ref sig .tc := ⟨.hbm, 526, rfl⟩
abbrev main_v354 : Ref sig .tc := ⟨.hbm, 527, rfl⟩
abbrev main_cst_136 : Ref sig .tc := ⟨.hbm, 528, rfl⟩
abbrev main_v355 : Ref sig .tc := ⟨.hbm, 529, rfl⟩
abbrev main_v356 : Ref sig .tc := ⟨.hbm, 530, rfl⟩
abbrev main_v357 : Ref sig .tc := ⟨.hbm, 531, rfl⟩
abbrev main_v358 : Ref sig .tc := ⟨.hbm, 532, rfl⟩
abbrev main_cst_137 : Ref sig .tc := ⟨.hbm, 533, rfl⟩
abbrev main_v359 : Ref sig .tc := ⟨.hbm, 534, rfl⟩
abbrev main_v360 : Ref sig .tc := ⟨.hbm, 535, rfl⟩
abbrev main_cst_138 : Ref sig .tc := ⟨.hbm, 536, rfl⟩
abbrev main_v361 : Ref sig .tc := ⟨.hbm, 537, rfl⟩
abbrev main_v362 : Ref sig .tc := ⟨.hbm, 538, rfl⟩
abbrev main_cst_139 : Ref sig .tc := ⟨.hbm, 539, rfl⟩
abbrev main_v363 : Ref sig .tc := ⟨.hbm, 540, rfl⟩
abbrev main_v364 : Ref sig .tc := ⟨.hbm, 541, rfl⟩
abbrev main_cst_140 : Ref sig .tc := ⟨.hbm, 542, rfl⟩
abbrev main_v365 : Ref sig .tc := ⟨.hbm, 543, rfl⟩
abbrev main_v366 : Ref sig .tc := ⟨.hbm, 544, rfl⟩
abbrev main_v367 : Ref sig .tc := ⟨.hbm, 545, rfl⟩
abbrev main_v368 : Ref sig .tc := ⟨.hbm, 546, rfl⟩
abbrev main_v369 : Ref sig .tc := ⟨.hbm, 547, rfl⟩
abbrev main_v370 : Ref sig .tc := ⟨.hbm, 548, rfl⟩
abbrev main_v371 : Ref sig .tc := ⟨.hbm, 549, rfl⟩
abbrev main_v372 : Ref sig .tc := ⟨.hbm, 550, rfl⟩
abbrev main_v373 : Ref sig .tc := ⟨.hbm, 551, rfl⟩
abbrev main_v374 : Ref sig .tc := ⟨.hbm, 552, rfl⟩
abbrev main_v375 : Ref sig .tc := ⟨.hbm, 553, rfl⟩
abbrev main_cst_141 : Ref sig .tc := ⟨.hbm, 554, rfl⟩
abbrev main_v376 : Ref sig .tc := ⟨.hbm, 555, rfl⟩
abbrev main_v377 : Ref sig .tc := ⟨.hbm, 556, rfl⟩
abbrev main_cst_142 : Ref sig .tc := ⟨.hbm, 557, rfl⟩
abbrev main_v378 : Ref sig .tc := ⟨.hbm, 558, rfl⟩
abbrev main_v379 : Ref sig .tc := ⟨.hbm, 559, rfl⟩
abbrev main_cst_143 : Ref sig .tc := ⟨.hbm, 560, rfl⟩
abbrev main_v380 : Ref sig .tc := ⟨.hbm, 561, rfl⟩
abbrev main_v381 : Ref sig .tc := ⟨.hbm, 562, rfl⟩
abbrev main_c_144 : Ref sig .tc := ⟨.hbm, 563, rfl⟩
abbrev main_v382 : Ref sig .tc := ⟨.hbm, 564, rfl⟩
abbrev main_v383 : Ref sig .tc := ⟨.hbm, 565, rfl⟩
abbrev main_c_145 : Ref sig .tc := ⟨.hbm, 566, rfl⟩
abbrev main_v384 : Ref sig .tc := ⟨.hbm, 567, rfl⟩
abbrev main_v385 : Ref sig .tc := ⟨.hbm, 568, rfl⟩
abbrev main_c_146 : Ref sig .tc := ⟨.hbm, 569, rfl⟩
abbrev main_v386 : Ref sig .tc := ⟨.hbm, 570, rfl⟩
abbrev main_v387 : Ref sig .tc := ⟨.hbm, 571, rfl⟩
abbrev main_c_147 : Ref sig .tc := ⟨.hbm, 572, rfl⟩
abbrev main_v388 : Ref sig .tc := ⟨.hbm, 573, rfl⟩
abbrev main_v389 : Ref sig .tc := ⟨.hbm, 574, rfl⟩
abbrev main_c_148 : Ref sig .tc := ⟨.hbm, 575, rfl⟩
abbrev main_v390 : Ref sig .tc := ⟨.hbm, 576, rfl⟩
abbrev main_v391 : Ref sig .tc := ⟨.hbm, 577, rfl⟩
abbrev main_v392 : Ref sig .tc := ⟨.hbm, 578, rfl⟩
abbrev main_c_149 : Ref sig .tc := ⟨.hbm, 579, rfl⟩
abbrev main_v393 : Ref sig .tc := ⟨.hbm, 580, rfl⟩
abbrev main_v394 : Ref sig .tc := ⟨.hbm, 581, rfl⟩
abbrev main_v395 : Ref sig .tc := ⟨.hbm, 582, rfl⟩
abbrev main_c_150 : Ref sig .tc := ⟨.hbm, 583, rfl⟩
abbrev main_v396 : Ref sig .tc := ⟨.hbm, 584, rfl⟩
abbrev main_v397 : Ref sig .tc := ⟨.hbm, 585, rfl⟩
abbrev main_v398 : Ref sig .tc := ⟨.hbm, 586, rfl⟩
abbrev main_c_151 : Ref sig .tc := ⟨.hbm, 587, rfl⟩
abbrev main_v399 : Ref sig .tc := ⟨.hbm, 588, rfl⟩
abbrev main_v400 : Ref sig .tc := ⟨.hbm, 589, rfl⟩
abbrev main_v401 : Ref sig .tc := ⟨.hbm, 590, rfl⟩
abbrev main_c_152 : Ref sig .tc := ⟨.hbm, 591, rfl⟩
abbrev main_v402 : Ref sig .tc := ⟨.hbm, 592, rfl⟩
abbrev main_v403 : Ref sig .tc := ⟨.hbm, 593, rfl⟩
abbrev main_v404 : Ref sig .tc := ⟨.hbm, 594, rfl⟩
abbrev main_v405 : Ref sig .tc := ⟨.hbm, 595, rfl⟩
abbrev main_v406 : Ref sig .tc := ⟨.hbm, 596, rfl⟩
abbrev main_cst_153 : Ref sig .tc := ⟨.hbm, 597, rfl⟩
abbrev main_v407 : Ref sig .tc := ⟨.hbm, 598, rfl⟩
abbrev main_v408 : Ref sig .tc := ⟨.hbm, 599, rfl⟩
abbrev main_cst_154 : Ref sig .tc := ⟨.hbm, 600, rfl⟩
abbrev main_call16_v0 : Ref sig .tc := ⟨.hbm, 601, rfl⟩
abbrev main_call16_v1 : Ref sig .tc := ⟨.hbm, 602, rfl⟩
abbrev main_v409 : Ref sig .tc := ⟨.hbm, 603, rfl⟩
abbrev main_c_155 : Ref sig .tc := ⟨.hbm, 604, rfl⟩
abbrev main_v410 : Ref sig .tc := ⟨.hbm, 605, rfl⟩
abbrev main_v411 : Ref sig .tc := ⟨.hbm, 606, rfl⟩
abbrev main_v412 : Ref sig .tc := ⟨.hbm, 607, rfl⟩
abbrev main_c_156 : Ref sig .tc := ⟨.hbm, 608, rfl⟩
abbrev main_v413 : Ref sig .tc := ⟨.hbm, 609, rfl⟩
abbrev main_v414 : Ref sig .tc := ⟨.hbm, 610, rfl⟩
abbrev main_v415 : Ref sig .tc := ⟨.hbm, 611, rfl⟩
abbrev main_c_157 : Ref sig .tc := ⟨.hbm, 612, rfl⟩
abbrev main_call17_v0 : Ref sig .tc := ⟨.hbm, 613, rfl⟩
abbrev main_call17_v1 : Ref sig .tc := ⟨.hbm, 614, rfl⟩
abbrev main_v416 : Ref sig .tc := ⟨.hbm, 615, rfl⟩
abbrev main_c_158 : Ref sig .tc := ⟨.hbm, 616, rfl⟩
abbrev main_v417 : Ref sig .tc := ⟨.hbm, 617, rfl⟩
abbrev main_v418 : Ref sig .tc := ⟨.hbm, 618, rfl⟩
abbrev main_c_159 : Ref sig .tc := ⟨.hbm, 619, rfl⟩
abbrev main_v419 : Ref sig .tc := ⟨.hbm, 620, rfl⟩
abbrev main_v420 : Ref sig .tc := ⟨.hbm, 621, rfl⟩
abbrev main_c_160 : Ref sig .tc := ⟨.hbm, 622, rfl⟩
abbrev main_v421 : Ref sig .tc := ⟨.hbm, 623, rfl⟩
abbrev main_v422 : Ref sig .tc := ⟨.hbm, 624, rfl⟩
abbrev main_c_161 : Ref sig .tc := ⟨.hbm, 625, rfl⟩
abbrev main_v423 : Ref sig .tc := ⟨.hbm, 626, rfl⟩
abbrev main_v424 : Ref sig .tc := ⟨.hbm, 627, rfl⟩
abbrev main_c_162 : Ref sig .tc := ⟨.hbm, 628, rfl⟩
abbrev main_v425 : Ref sig .tc := ⟨.hbm, 629, rfl⟩
abbrev main_v426 : Ref sig .tc := ⟨.hbm, 630, rfl⟩
abbrev main_v427 : Ref sig .tc := ⟨.hbm, 631, rfl⟩
abbrev main_c_163 : Ref sig .tc := ⟨.hbm, 632, rfl⟩
abbrev main_v428 : Ref sig .tc := ⟨.hbm, 633, rfl⟩
abbrev main_v429 : Ref sig .tc := ⟨.hbm, 634, rfl⟩
abbrev main_v430 : Ref sig .tc := ⟨.hbm, 635, rfl⟩
abbrev main_c_164 : Ref sig .tc := ⟨.hbm, 636, rfl⟩
abbrev main_v431 : Ref sig .tc := ⟨.hbm, 637, rfl⟩
abbrev main_v432 : Ref sig .tc := ⟨.hbm, 638, rfl⟩
abbrev main_v433 : Ref sig .tc := ⟨.hbm, 639, rfl⟩
abbrev main_c_165 : Ref sig .tc := ⟨.hbm, 640, rfl⟩
abbrev main_v434 : Ref sig .tc := ⟨.hbm, 641, rfl⟩
abbrev main_v435 : Ref sig .tc := ⟨.hbm, 642, rfl⟩
abbrev main_v436 : Ref sig .tc := ⟨.hbm, 643, rfl⟩
abbrev main_c_166 : Ref sig .tc := ⟨.hbm, 644, rfl⟩
abbrev main_v437 : Ref sig .tc := ⟨.hbm, 645, rfl⟩
abbrev main_v438 : Ref sig .tc := ⟨.hbm, 646, rfl⟩
abbrev main_v439 : Ref sig .tc := ⟨.hbm, 647, rfl⟩
abbrev main_v440 : Ref sig .tc := ⟨.hbm, 648, rfl⟩
abbrev main_v441 : Ref sig .tc := ⟨.hbm, 649, rfl⟩
abbrev main_cst_167 : Ref sig .tc := ⟨.hbm, 650, rfl⟩
abbrev main_v442 : Ref sig .tc := ⟨.hbm, 651, rfl⟩
abbrev main_v443 : Ref sig .tc := ⟨.hbm, 652, rfl⟩
abbrev main_cst_168 : Ref sig .tc := ⟨.hbm, 653, rfl⟩
abbrev main_call18_v0 : Ref sig .tc := ⟨.hbm, 654, rfl⟩
abbrev main_call18_v1 : Ref sig .tc := ⟨.hbm, 655, rfl⟩
abbrev main_v444 : Ref sig .tc := ⟨.hbm, 656, rfl⟩
abbrev main_c_169 : Ref sig .tc := ⟨.hbm, 657, rfl⟩
abbrev main_v445 : Ref sig .tc := ⟨.hbm, 658, rfl⟩
abbrev main_v446 : Ref sig .tc := ⟨.hbm, 659, rfl⟩
abbrev main_v447 : Ref sig .tc := ⟨.hbm, 660, rfl⟩
abbrev main_c_170 : Ref sig .tc := ⟨.hbm, 661, rfl⟩
abbrev main_v448 : Ref sig .tc := ⟨.hbm, 662, rfl⟩
abbrev main_v449 : Ref sig .tc := ⟨.hbm, 663, rfl⟩
abbrev main_v450 : Ref sig .tc := ⟨.hbm, 664, rfl⟩
abbrev main_c_171 : Ref sig .tc := ⟨.hbm, 665, rfl⟩
abbrev main_call19_v0 : Ref sig .tc := ⟨.hbm, 666, rfl⟩
abbrev main_call19_v1 : Ref sig .tc := ⟨.hbm, 667, rfl⟩
abbrev main_v451 : Ref sig .tc := ⟨.hbm, 668, rfl⟩
abbrev main_cst_172 : Ref sig .tc := ⟨.hbm, 669, rfl⟩
abbrev main_v452 : Ref sig .tc := ⟨.hbm, 670, rfl⟩
abbrev main_v453 : Ref sig .tc := ⟨.hbm, 671, rfl⟩
abbrev main_c_173 : Ref sig .tc := ⟨.hbm, 672, rfl⟩
abbrev main_v454 : Ref sig .tc := ⟨.hbm, 673, rfl⟩
abbrev main_v455 : Ref sig .tc := ⟨.hbm, 674, rfl⟩
abbrev main_c_174 : Ref sig .tc := ⟨.hbm, 675, rfl⟩
abbrev main_v456 : Ref sig .tc := ⟨.hbm, 676, rfl⟩
abbrev main_v457 : Ref sig .tc := ⟨.hbm, 677, rfl⟩
abbrev main_c_175 : Ref sig .tc := ⟨.hbm, 678, rfl⟩
abbrev main_v458 : Ref sig .tc := ⟨.hbm, 679, rfl⟩
abbrev main_v459 : Ref sig .tc := ⟨.hbm, 680, rfl⟩
abbrev main_c_176 : Ref sig .tc := ⟨.hbm, 681, rfl⟩
abbrev main_v460 : Ref sig .tc := ⟨.hbm, 682, rfl⟩
abbrev main_v461 : Ref sig .tc := ⟨.hbm, 683, rfl⟩
abbrev main_c_177 : Ref sig .tc := ⟨.hbm, 684, rfl⟩
abbrev main_v462 : Ref sig .tc := ⟨.hbm, 685, rfl⟩
abbrev main_v463 : Ref sig .tc := ⟨.hbm, 686, rfl⟩
abbrev main_v464 : Ref sig .tc := ⟨.hbm, 687, rfl⟩
abbrev main_c_178 : Ref sig .tc := ⟨.hbm, 688, rfl⟩
abbrev main_v465 : Ref sig .tc := ⟨.hbm, 689, rfl⟩
abbrev main_v466 : Ref sig .tc := ⟨.hbm, 690, rfl⟩
abbrev main_v467 : Ref sig .tc := ⟨.hbm, 691, rfl⟩
abbrev main_c_179 : Ref sig .tc := ⟨.hbm, 692, rfl⟩
abbrev main_v468 : Ref sig .tc := ⟨.hbm, 693, rfl⟩
abbrev main_v469 : Ref sig .tc := ⟨.hbm, 694, rfl⟩
abbrev main_v470 : Ref sig .tc := ⟨.hbm, 695, rfl⟩
abbrev main_c_180 : Ref sig .tc := ⟨.hbm, 696, rfl⟩
abbrev main_v471 : Ref sig .tc := ⟨.hbm, 697, rfl⟩
abbrev main_v472 : Ref sig .tc := ⟨.hbm, 698, rfl⟩
abbrev main_v473 : Ref sig .tc := ⟨.hbm, 699, rfl⟩
abbrev main_c_181 : Ref sig .tc := ⟨.hbm, 700, rfl⟩
abbrev main_v474 : Ref sig .tc := ⟨.hbm, 701, rfl⟩
abbrev main_v475 : Ref sig .tc := ⟨.hbm, 702, rfl⟩
abbrev main_v476 : Ref sig .tc := ⟨.hbm, 703, rfl⟩
abbrev main_v477 : Ref sig .tc := ⟨.hbm, 704, rfl⟩
abbrev main_v478 : Ref sig .tc := ⟨.hbm, 705, rfl⟩
abbrev main_cst_182 : Ref sig .tc := ⟨.hbm, 706, rfl⟩
abbrev main_v479 : Ref sig .tc := ⟨.hbm, 707, rfl⟩
abbrev main_v480 : Ref sig .tc := ⟨.hbm, 708, rfl⟩
abbrev main_cst_183 : Ref sig .tc := ⟨.hbm, 709, rfl⟩
abbrev main_call20_v0 : Ref sig .tc := ⟨.hbm, 710, rfl⟩
abbrev main_call20_v1 : Ref sig .tc := ⟨.hbm, 711, rfl⟩
abbrev main_v481 : Ref sig .tc := ⟨.hbm, 712, rfl⟩
abbrev main_c_184 : Ref sig .tc := ⟨.hbm, 713, rfl⟩
abbrev main_v482 : Ref sig .tc := ⟨.hbm, 714, rfl⟩
abbrev main_v483 : Ref sig .tc := ⟨.hbm, 715, rfl⟩
abbrev main_v484 : Ref sig .tc := ⟨.hbm, 716, rfl⟩
abbrev main_c_185 : Ref sig .tc := ⟨.hbm, 717, rfl⟩
abbrev main_v485 : Ref sig .tc := ⟨.hbm, 718, rfl⟩
abbrev main_v486 : Ref sig .tc := ⟨.hbm, 719, rfl⟩
abbrev main_v487 : Ref sig .tc := ⟨.hbm, 720, rfl⟩
abbrev main_c_186 : Ref sig .tc := ⟨.hbm, 721, rfl⟩
abbrev main_call21_v0 : Ref sig .tc := ⟨.hbm, 722, rfl⟩
abbrev main_call21_v1 : Ref sig .tc := ⟨.hbm, 723, rfl⟩
abbrev main_v488 : Ref sig .tc := ⟨.hbm, 724, rfl⟩
abbrev main_c_187 : Ref sig .tc := ⟨.hbm, 725, rfl⟩
abbrev main_v489 : Ref sig .tc := ⟨.hbm, 726, rfl⟩
abbrev main_v490 : Ref sig .tc := ⟨.hbm, 727, rfl⟩
abbrev main_c_188 : Ref sig .tc := ⟨.hbm, 728, rfl⟩
abbrev main_v491 : Ref sig .tc := ⟨.hbm, 729, rfl⟩
abbrev main_v492 : Ref sig .tc := ⟨.hbm, 730, rfl⟩
abbrev main_c_189 : Ref sig .tc := ⟨.hbm, 731, rfl⟩
abbrev main_v493 : Ref sig .tc := ⟨.hbm, 732, rfl⟩
abbrev main_v494 : Ref sig .tc := ⟨.hbm, 733, rfl⟩
abbrev main_c_190 : Ref sig .tc := ⟨.hbm, 734, rfl⟩
abbrev main_v495 : Ref sig .tc := ⟨.hbm, 735, rfl⟩
abbrev main_v496 : Ref sig .tc := ⟨.hbm, 736, rfl⟩
abbrev main_c_191 : Ref sig .tc := ⟨.hbm, 737, rfl⟩
abbrev main_v497 : Ref sig .tc := ⟨.hbm, 738, rfl⟩
abbrev main_v498 : Ref sig .tc := ⟨.hbm, 739, rfl⟩
abbrev main_v499 : Ref sig .tc := ⟨.hbm, 740, rfl⟩
abbrev main_c_192 : Ref sig .tc := ⟨.hbm, 741, rfl⟩
abbrev main_v500 : Ref sig .tc := ⟨.hbm, 742, rfl⟩
abbrev main_v501 : Ref sig .tc := ⟨.hbm, 743, rfl⟩
abbrev main_v502 : Ref sig .tc := ⟨.hbm, 744, rfl⟩
abbrev main_c_193 : Ref sig .tc := ⟨.hbm, 745, rfl⟩
abbrev main_v503 : Ref sig .tc := ⟨.hbm, 746, rfl⟩
abbrev main_v504 : Ref sig .tc := ⟨.hbm, 747, rfl⟩
abbrev main_v505 : Ref sig .tc := ⟨.hbm, 748, rfl⟩
abbrev main_c_194 : Ref sig .tc := ⟨.hbm, 749, rfl⟩
abbrev main_v506 : Ref sig .tc := ⟨.hbm, 750, rfl⟩
abbrev main_v507 : Ref sig .tc := ⟨.hbm, 751, rfl⟩
abbrev main_v508 : Ref sig .tc := ⟨.hbm, 752, rfl⟩
abbrev main_c_195 : Ref sig .tc := ⟨.hbm, 753, rfl⟩
abbrev main_v509 : Ref sig .tc := ⟨.hbm, 754, rfl⟩
abbrev main_v510 : Ref sig .tc := ⟨.hbm, 755, rfl⟩
abbrev main_v511 : Ref sig .tc := ⟨.hbm, 756, rfl⟩
abbrev main_v512 : Ref sig .tc := ⟨.hbm, 757, rfl⟩
abbrev main_v513 : Ref sig .tc := ⟨.hbm, 758, rfl⟩
abbrev main_cst_196 : Ref sig .tc := ⟨.hbm, 759, rfl⟩
abbrev main_v514 : Ref sig .tc := ⟨.hbm, 760, rfl⟩
abbrev main_v515 : Ref sig .tc := ⟨.hbm, 761, rfl⟩
abbrev main_cst_197 : Ref sig .tc := ⟨.hbm, 762, rfl⟩
abbrev main_call22_v0 : Ref sig .tc := ⟨.hbm, 763, rfl⟩
abbrev main_call22_v1 : Ref sig .tc := ⟨.hbm, 764, rfl⟩
abbrev main_v516 : Ref sig .tc := ⟨.hbm, 765, rfl⟩
abbrev main_c_198 : Ref sig .tc := ⟨.hbm, 766, rfl⟩
abbrev main_v517 : Ref sig .tc := ⟨.hbm, 767, rfl⟩
abbrev main_v518 : Ref sig .tc := ⟨.hbm, 768, rfl⟩
abbrev main_v519 : Ref sig .tc := ⟨.hbm, 769, rfl⟩
abbrev main_c_199 : Ref sig .tc := ⟨.hbm, 770, rfl⟩
abbrev main_v520 : Ref sig .tc := ⟨.hbm, 771, rfl⟩
abbrev main_v521 : Ref sig .tc := ⟨.hbm, 772, rfl⟩
abbrev main_v522 : Ref sig .tc := ⟨.hbm, 773, rfl⟩
abbrev main_c_200 : Ref sig .tc := ⟨.hbm, 774, rfl⟩
abbrev main_call23_v0 : Ref sig .tc := ⟨.hbm, 775, rfl⟩
abbrev main_call23_v1 : Ref sig .tc := ⟨.hbm, 776, rfl⟩
abbrev main_v523 : Ref sig .tc := ⟨.hbm, 777, rfl⟩
abbrev main_cst_201 : Ref sig .tc := ⟨.hbm, 778, rfl⟩
abbrev main_v524 : Ref sig .tc := ⟨.hbm, 779, rfl⟩
abbrev main_v525 : Ref sig .tc := ⟨.hbm, 780, rfl⟩
abbrev main_cst_202 : Ref sig .tc := ⟨.hbm, 781, rfl⟩
abbrev main_v526 : Ref sig .tc := ⟨.hbm, 782, rfl⟩
abbrev main_v527 : Ref sig .tc := ⟨.hbm, 783, rfl⟩
abbrev main_c_203 : Ref sig .tc := ⟨.hbm, 784, rfl⟩
abbrev main_v528 : Ref sig .tc := ⟨.hbm, 785, rfl⟩
abbrev main_v529 : Ref sig .tc := ⟨.hbm, 786, rfl⟩
abbrev main_c_204 : Ref sig .tc := ⟨.hbm, 787, rfl⟩
abbrev main_v530 : Ref sig .tc := ⟨.hbm, 788, rfl⟩
abbrev main_v531 : Ref sig .tc := ⟨.hbm, 789, rfl⟩
abbrev main_c_205 : Ref sig .tc := ⟨.hbm, 790, rfl⟩
abbrev main_v532 : Ref sig .tc := ⟨.hbm, 791, rfl⟩
abbrev main_v533 : Ref sig .tc := ⟨.hbm, 792, rfl⟩
abbrev main_c_206 : Ref sig .tc := ⟨.hbm, 793, rfl⟩
abbrev main_v534 : Ref sig .tc := ⟨.hbm, 794, rfl⟩
abbrev main_v535 : Ref sig .tc := ⟨.hbm, 795, rfl⟩
abbrev main_c_207 : Ref sig .tc := ⟨.hbm, 796, rfl⟩
abbrev main_v536 : Ref sig .tc := ⟨.hbm, 797, rfl⟩
abbrev main_v537 : Ref sig .tc := ⟨.hbm, 798, rfl⟩
abbrev main_v538 : Ref sig .tc := ⟨.hbm, 799, rfl⟩
abbrev main_c_208 : Ref sig .tc := ⟨.hbm, 800, rfl⟩
abbrev main_v539 : Ref sig .tc := ⟨.hbm, 801, rfl⟩
abbrev main_v540 : Ref sig .tc := ⟨.hbm, 802, rfl⟩
abbrev main_v541 : Ref sig .tc := ⟨.hbm, 803, rfl⟩
abbrev main_c_209 : Ref sig .tc := ⟨.hbm, 804, rfl⟩
abbrev main_v542 : Ref sig .tc := ⟨.hbm, 805, rfl⟩
abbrev main_v543 : Ref sig .tc := ⟨.hbm, 806, rfl⟩
abbrev main_v544 : Ref sig .tc := ⟨.hbm, 807, rfl⟩
abbrev main_c_210 : Ref sig .tc := ⟨.hbm, 808, rfl⟩
abbrev main_v545 : Ref sig .tc := ⟨.hbm, 809, rfl⟩
abbrev main_v546 : Ref sig .tc := ⟨.hbm, 810, rfl⟩
abbrev main_v547 : Ref sig .tc := ⟨.hbm, 811, rfl⟩
abbrev main_c_211 : Ref sig .tc := ⟨.hbm, 812, rfl⟩
abbrev main_v548 : Ref sig .tc := ⟨.hbm, 813, rfl⟩
abbrev main_v549 : Ref sig .tc := ⟨.hbm, 814, rfl⟩
abbrev main_v550 : Ref sig .tc := ⟨.hbm, 815, rfl⟩
abbrev main_v551 : Ref sig .tc := ⟨.hbm, 816, rfl⟩
abbrev main_v552 : Ref sig .tc := ⟨.hbm, 817, rfl⟩
abbrev main_cst_212 : Ref sig .tc := ⟨.hbm, 818, rfl⟩
abbrev main_v553 : Ref sig .tc := ⟨.hbm, 819, rfl⟩
abbrev main_v554 : Ref sig .tc := ⟨.hbm, 820, rfl⟩
abbrev main_cst_213 : Ref sig .tc := ⟨.hbm, 821, rfl⟩
abbrev main_call24_v0 : Ref sig .tc := ⟨.hbm, 822, rfl⟩
abbrev main_call24_v1 : Ref sig .tc := ⟨.hbm, 823, rfl⟩
abbrev main_v555 : Ref sig .tc := ⟨.hbm, 824, rfl⟩
abbrev main_c_214 : Ref sig .tc := ⟨.hbm, 825, rfl⟩
abbrev main_v556 : Ref sig .tc := ⟨.hbm, 826, rfl⟩
abbrev main_v557 : Ref sig .tc := ⟨.hbm, 827, rfl⟩
abbrev main_v558 : Ref sig .tc := ⟨.hbm, 828, rfl⟩
abbrev main_c_215 : Ref sig .tc := ⟨.hbm, 829, rfl⟩
abbrev main_v559 : Ref sig .tc := ⟨.hbm, 830, rfl⟩
abbrev main_v560 : Ref sig .tc := ⟨.hbm, 831, rfl⟩
abbrev main_v561 : Ref sig .tc := ⟨.hbm, 832, rfl⟩
abbrev main_c_216 : Ref sig .tc := ⟨.hbm, 833, rfl⟩
abbrev main_call25_v0 : Ref sig .tc := ⟨.hbm, 834, rfl⟩
abbrev main_call25_v1 : Ref sig .tc := ⟨.hbm, 835, rfl⟩
abbrev main_v562 : Ref sig .tc := ⟨.hbm, 836, rfl⟩
abbrev main_c_217 : Ref sig .tc := ⟨.hbm, 837, rfl⟩
abbrev main_v563 : Ref sig .tc := ⟨.hbm, 838, rfl⟩
abbrev main_v564 : Ref sig .tc := ⟨.hbm, 839, rfl⟩
abbrev main_c_218 : Ref sig .tc := ⟨.hbm, 840, rfl⟩
abbrev main_v565 : Ref sig .tc := ⟨.hbm, 841, rfl⟩
abbrev main_v566 : Ref sig .tc := ⟨.hbm, 842, rfl⟩
abbrev main_c_219 : Ref sig .tc := ⟨.hbm, 843, rfl⟩
abbrev main_v567 : Ref sig .tc := ⟨.hbm, 844, rfl⟩
abbrev main_v568 : Ref sig .tc := ⟨.hbm, 845, rfl⟩
abbrev main_c_220 : Ref sig .tc := ⟨.hbm, 846, rfl⟩
abbrev main_v569 : Ref sig .tc := ⟨.hbm, 847, rfl⟩
abbrev main_v570 : Ref sig .tc := ⟨.hbm, 848, rfl⟩
abbrev main_c_221 : Ref sig .tc := ⟨.hbm, 849, rfl⟩
abbrev main_v571 : Ref sig .tc := ⟨.hbm, 850, rfl⟩
abbrev main_v572 : Ref sig .tc := ⟨.hbm, 851, rfl⟩
abbrev main_v573 : Ref sig .tc := ⟨.hbm, 852, rfl⟩
abbrev main_c_222 : Ref sig .tc := ⟨.hbm, 853, rfl⟩
abbrev main_v574 : Ref sig .tc := ⟨.hbm, 854, rfl⟩
abbrev main_v575 : Ref sig .tc := ⟨.hbm, 855, rfl⟩
abbrev main_v576 : Ref sig .tc := ⟨.hbm, 856, rfl⟩
abbrev main_c_223 : Ref sig .tc := ⟨.hbm, 857, rfl⟩
abbrev main_v577 : Ref sig .tc := ⟨.hbm, 858, rfl⟩
abbrev main_v578 : Ref sig .tc := ⟨.hbm, 859, rfl⟩
abbrev main_v579 : Ref sig .tc := ⟨.hbm, 860, rfl⟩
abbrev main_c_224 : Ref sig .tc := ⟨.hbm, 861, rfl⟩
abbrev main_v580 : Ref sig .tc := ⟨.hbm, 862, rfl⟩
abbrev main_v581 : Ref sig .tc := ⟨.hbm, 863, rfl⟩
abbrev main_v582 : Ref sig .tc := ⟨.hbm, 864, rfl⟩
abbrev main_c_225 : Ref sig .tc := ⟨.hbm, 865, rfl⟩
abbrev main_v583 : Ref sig .tc := ⟨.hbm, 866, rfl⟩
abbrev main_v584 : Ref sig .tc := ⟨.hbm, 867, rfl⟩
abbrev main_v585 : Ref sig .tc := ⟨.hbm, 868, rfl⟩
abbrev main_v586 : Ref sig .tc := ⟨.hbm, 869, rfl⟩
abbrev main_v587 : Ref sig .tc := ⟨.hbm, 870, rfl⟩
abbrev main_cst_226 : Ref sig .tc := ⟨.hbm, 871, rfl⟩
abbrev main_v588 : Ref sig .tc := ⟨.hbm, 872, rfl⟩
abbrev main_v589 : Ref sig .tc := ⟨.hbm, 873, rfl⟩
abbrev main_cst_227 : Ref sig .tc := ⟨.hbm, 874, rfl⟩
abbrev main_call26_v0 : Ref sig .tc := ⟨.hbm, 875, rfl⟩
abbrev main_call26_v1 : Ref sig .tc := ⟨.hbm, 876, rfl⟩
abbrev main_v590 : Ref sig .tc := ⟨.hbm, 877, rfl⟩
abbrev main_c_228 : Ref sig .tc := ⟨.hbm, 878, rfl⟩
abbrev main_v591 : Ref sig .tc := ⟨.hbm, 879, rfl⟩
abbrev main_v592 : Ref sig .tc := ⟨.hbm, 880, rfl⟩
abbrev main_v593 : Ref sig .tc := ⟨.hbm, 881, rfl⟩
abbrev main_c_229 : Ref sig .tc := ⟨.hbm, 882, rfl⟩
abbrev main_v594 : Ref sig .tc := ⟨.hbm, 883, rfl⟩
abbrev main_v595 : Ref sig .tc := ⟨.hbm, 884, rfl⟩
abbrev main_v596 : Ref sig .tc := ⟨.hbm, 885, rfl⟩
abbrev main_c_230 : Ref sig .tc := ⟨.hbm, 886, rfl⟩
abbrev main_call27_v0 : Ref sig .tc := ⟨.hbm, 887, rfl⟩
abbrev main_call27_v1 : Ref sig .tc := ⟨.hbm, 888, rfl⟩
abbrev main_v597 : Ref sig .tc := ⟨.hbm, 889, rfl⟩
abbrev main_cst_231 : Ref sig .tc := ⟨.hbm, 890, rfl⟩
abbrev main_v598 : Ref sig .tc := ⟨.hbm, 891, rfl⟩
abbrev main_v599 : Ref sig .tc := ⟨.hbm, 892, rfl⟩
abbrev main_c_232 : Ref sig .tc := ⟨.hbm, 893, rfl⟩
abbrev main_v600 : Ref sig .tc := ⟨.hbm, 894, rfl⟩
abbrev main_v601 : Ref sig .tc := ⟨.hbm, 895, rfl⟩
abbrev main_c_233 : Ref sig .tc := ⟨.hbm, 896, rfl⟩
abbrev main_v602 : Ref sig .tc := ⟨.hbm, 897, rfl⟩
abbrev main_v603 : Ref sig .tc := ⟨.hbm, 898, rfl⟩
abbrev main_c_234 : Ref sig .tc := ⟨.hbm, 899, rfl⟩
abbrev main_v604 : Ref sig .tc := ⟨.hbm, 900, rfl⟩
abbrev main_v605 : Ref sig .tc := ⟨.hbm, 901, rfl⟩
abbrev main_c_235 : Ref sig .tc := ⟨.hbm, 902, rfl⟩
abbrev main_v606 : Ref sig .tc := ⟨.hbm, 903, rfl⟩
abbrev main_v607 : Ref sig .tc := ⟨.hbm, 904, rfl⟩
abbrev main_c_236 : Ref sig .tc := ⟨.hbm, 905, rfl⟩
abbrev main_v608 : Ref sig .tc := ⟨.hbm, 906, rfl⟩
abbrev main_v609 : Ref sig .tc := ⟨.hbm, 907, rfl⟩
abbrev main_v610 : Ref sig .tc := ⟨.hbm, 908, rfl⟩
abbrev main_c_237 : Ref sig .tc := ⟨.hbm, 909, rfl⟩
abbrev main_v611 : Ref sig .tc := ⟨.hbm, 910, rfl⟩
abbrev main_v612 : Ref sig .tc := ⟨.hbm, 911, rfl⟩
abbrev main_v613 : Ref sig .tc := ⟨.hbm, 912, rfl⟩
abbrev main_c_238 : Ref sig .tc := ⟨.hbm, 913, rfl⟩
abbrev main_v614 : Ref sig .tc := ⟨.hbm, 914, rfl⟩
abbrev main_v615 : Ref sig .tc := ⟨.hbm, 915, rfl⟩
abbrev main_v616 : Ref sig .tc := ⟨.hbm, 916, rfl⟩
abbrev main_c_239 : Ref sig .tc := ⟨.hbm, 917, rfl⟩
abbrev main_v617 : Ref sig .tc := ⟨.hbm, 918, rfl⟩
abbrev main_v618 : Ref sig .tc := ⟨.hbm, 919, rfl⟩
abbrev main_v619 : Ref sig .tc := ⟨.hbm, 920, rfl⟩
abbrev main_c_240 : Ref sig .tc := ⟨.hbm, 921, rfl⟩
abbrev main_v620 : Ref sig .tc := ⟨.hbm, 922, rfl⟩
abbrev main_v621 : Ref sig .tc := ⟨.hbm, 923, rfl⟩
abbrev main_v622 : Ref sig .tc := ⟨.hbm, 924, rfl⟩
abbrev main_v623 : Ref sig .tc := ⟨.hbm, 925, rfl⟩
abbrev main_v624 : Ref sig .tc := ⟨.hbm, 926, rfl⟩
abbrev main_cst_241 : Ref sig .tc := ⟨.hbm, 927, rfl⟩
abbrev main_v625 : Ref sig .tc := ⟨.hbm, 928, rfl⟩
abbrev main_v626 : Ref sig .tc := ⟨.hbm, 929, rfl⟩
abbrev main_cst_242 : Ref sig .tc := ⟨.hbm, 930, rfl⟩
abbrev main_call28_v0 : Ref sig .tc := ⟨.hbm, 931, rfl⟩
abbrev main_call28_v1 : Ref sig .tc := ⟨.hbm, 932, rfl⟩
abbrev main_v627 : Ref sig .tc := ⟨.hbm, 933, rfl⟩
abbrev main_c_243 : Ref sig .tc := ⟨.hbm, 934, rfl⟩
abbrev main_v628 : Ref sig .tc := ⟨.hbm, 935, rfl⟩
abbrev main_v629 : Ref sig .tc := ⟨.hbm, 936, rfl⟩
abbrev main_v630 : Ref sig .tc := ⟨.hbm, 937, rfl⟩
abbrev main_c_244 : Ref sig .tc := ⟨.hbm, 938, rfl⟩
abbrev main_v631 : Ref sig .tc := ⟨.hbm, 939, rfl⟩
abbrev main_v632 : Ref sig .tc := ⟨.hbm, 940, rfl⟩
abbrev main_v633 : Ref sig .tc := ⟨.hbm, 941, rfl⟩
abbrev main_c_245 : Ref sig .tc := ⟨.hbm, 942, rfl⟩
abbrev main_call29_v0 : Ref sig .tc := ⟨.hbm, 943, rfl⟩
abbrev main_call29_v1 : Ref sig .tc := ⟨.hbm, 944, rfl⟩
abbrev main_v634 : Ref sig .tc := ⟨.hbm, 945, rfl⟩
abbrev main_c_246 : Ref sig .tc := ⟨.hbm, 946, rfl⟩
abbrev main_v635 : Ref sig .tc := ⟨.hbm, 947, rfl⟩
abbrev main_v636 : Ref sig .tc := ⟨.hbm, 948, rfl⟩
abbrev main_c_247 : Ref sig .tc := ⟨.hbm, 949, rfl⟩
abbrev main_v637 : Ref sig .tc := ⟨.hbm, 950, rfl⟩
abbrev main_v638 : Ref sig .tc := ⟨.hbm, 951, rfl⟩
abbrev main_c_248 : Ref sig .tc := ⟨.hbm, 952, rfl⟩
abbrev main_v639 : Ref sig .tc := ⟨.hbm, 953, rfl⟩
abbrev main_v640 : Ref sig .tc := ⟨.hbm, 954, rfl⟩
abbrev main_c_249 : Ref sig .tc := ⟨.hbm, 955, rfl⟩
abbrev main_v641 : Ref sig .tc := ⟨.hbm, 956, rfl⟩
abbrev main_v642 : Ref sig .tc := ⟨.hbm, 957, rfl⟩
abbrev main_c_250 : Ref sig .tc := ⟨.hbm, 958, rfl⟩
abbrev main_v643 : Ref sig .tc := ⟨.hbm, 959, rfl⟩
abbrev main_v644 : Ref sig .tc := ⟨.hbm, 960, rfl⟩
abbrev main_v645 : Ref sig .tc := ⟨.hbm, 961, rfl⟩
abbrev main_c_251 : Ref sig .tc := ⟨.hbm, 962, rfl⟩
abbrev main_v646 : Ref sig .tc := ⟨.hbm, 963, rfl⟩
abbrev main_v647 : Ref sig .tc := ⟨.hbm, 964, rfl⟩
abbrev main_v648 : Ref sig .tc := ⟨.hbm, 965, rfl⟩
abbrev main_c_252 : Ref sig .tc := ⟨.hbm, 966, rfl⟩
abbrev main_v649 : Ref sig .tc := ⟨.hbm, 967, rfl⟩
abbrev main_v650 : Ref sig .tc := ⟨.hbm, 968, rfl⟩
abbrev main_v651 : Ref sig .tc := ⟨.hbm, 969, rfl⟩
abbrev main_c_253 : Ref sig .tc := ⟨.hbm, 970, rfl⟩
abbrev main_v652 : Ref sig .tc := ⟨.hbm, 971, rfl⟩
abbrev main_v653 : Ref sig .tc := ⟨.hbm, 972, rfl⟩
abbrev main_v654 : Ref sig .tc := ⟨.hbm, 973, rfl⟩
abbrev main_c_254 : Ref sig .tc := ⟨.hbm, 974, rfl⟩
abbrev main_v655 : Ref sig .tc := ⟨.hbm, 975, rfl⟩
abbrev main_v656 : Ref sig .tc := ⟨.hbm, 976, rfl⟩
abbrev main_v657 : Ref sig .tc := ⟨.hbm, 977, rfl⟩
abbrev main_v658 : Ref sig .tc := ⟨.hbm, 978, rfl⟩
abbrev main_v659 : Ref sig .tc := ⟨.hbm, 979, rfl⟩
abbrev main_cst_255 : Ref sig .tc := ⟨.hbm, 980, rfl⟩
abbrev main_v660 : Ref sig .tc := ⟨.hbm, 981, rfl⟩
abbrev main_v661 : Ref sig .tc := ⟨.hbm, 982, rfl⟩
abbrev main_cst_256 : Ref sig .tc := ⟨.hbm, 983, rfl⟩
abbrev main_call30_v0 : Ref sig .tc := ⟨.hbm, 984, rfl⟩
abbrev main_call30_v1 : Ref sig .tc := ⟨.hbm, 985, rfl⟩
abbrev main_v662 : Ref sig .tc := ⟨.hbm, 986, rfl⟩
abbrev main_c_257 : Ref sig .tc := ⟨.hbm, 987, rfl⟩
abbrev main_v663 : Ref sig .tc := ⟨.hbm, 988, rfl⟩
abbrev main_v664 : Ref sig .tc := ⟨.hbm, 989, rfl⟩
abbrev main_v665 : Ref sig .tc := ⟨.hbm, 990, rfl⟩
abbrev main_c_258 : Ref sig .tc := ⟨.hbm, 991, rfl⟩
abbrev main_v666 : Ref sig .tc := ⟨.hbm, 992, rfl⟩
abbrev main_v667 : Ref sig .tc := ⟨.hbm, 993, rfl⟩
abbrev main_v668 : Ref sig .tc := ⟨.hbm, 994, rfl⟩
abbrev main_c_259 : Ref sig .tc := ⟨.hbm, 995, rfl⟩
abbrev main_call31_v0 : Ref sig .tc := ⟨.hbm, 996, rfl⟩
abbrev main_call31_v1 : Ref sig .tc := ⟨.hbm, 997, rfl⟩
abbrev main_v669 : Ref sig .tc := ⟨.hbm, 998, rfl⟩
abbrev main_v670 : Ref sig .tc := ⟨.hbm, 999, rfl⟩
abbrev main_v671 : Ref sig .tc := ⟨.hbm, 1000, rfl⟩
abbrev main_v672 : Ref sig .tc := ⟨.hbm, 1001, rfl⟩
abbrev main_v673 : Ref sig .tc := ⟨.hbm, 1002, rfl⟩
abbrev main_cst_260 : Ref sig .tc := ⟨.hbm, 1003, rfl⟩
abbrev main_v674 : Ref sig .tc := ⟨.hbm, 1004, rfl⟩
abbrev main_c_261 : Ref sig .tc := ⟨.hbm, 1005, rfl⟩
abbrev main_v675 : Ref sig .tc := ⟨.hbm, 1006, rfl⟩
abbrev main_v676 : Ref sig .tc := ⟨.hbm, 1007, rfl⟩
abbrev main_c_262 : Ref sig .tc := ⟨.hbm, 1008, rfl⟩
abbrev main_v677 : Ref sig .tc := ⟨.hbm, 1009, rfl⟩
abbrev main_v678 : Ref sig .tc := ⟨.hbm, 1010, rfl⟩
abbrev main_v679 : Ref sig .tc := ⟨.hbm, 1011, rfl⟩
abbrev main_v680 : Ref sig .tc := ⟨.hbm, 1012, rfl⟩
abbrev main_v681 : Ref sig .tc := ⟨.hbm, 1013, rfl⟩
abbrev main_v682 : Ref sig .tc := ⟨.hbm, 1014, rfl⟩
abbrev main_v683 : Ref sig .tc := ⟨.hbm, 1015, rfl⟩
abbrev main_call32_v0 : Ref sig .tc := ⟨.hbm, 1016, rfl⟩
abbrev main_v684 : Ref sig .tc := ⟨.hbm, 1017, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v23 : BitVec 1 := Scalar.cmpi .eq arg0 c7_i32
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  slices_S2000000x3_S2000000x1_0_0 : S2000000x3.Slices ![0, 0] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_2 : S2000000x3.Slices ![0, 2] S2000000x1
  concatenates_S2000000_S2000000_S2000000_S2000000_S2000000_S2000000_S2000000_S2000000_S16000000_d0 : Shape.Concatenates [S2000000, S2000000, S2000000, S2000000, S2000000, S2000000, S2000000, S2000000] S16000000 0
  concatenates_S16000000_S16000000_S32000000_d0 : Shape.Concatenates [S16000000, S16000000] S32000000 0
  bcast_S_S16777216 : S_.BroadcastsInDim S16777216 (![] : Fin 0 → Fin S16777216.rank)
  bcast_S_S32000000 : S_.BroadcastsInDim S32000000 (![] : Fin 0 → Fin S32000000.rank)
  bcast_S32000000_S32000000x1_0 : S32000000.BroadcastsInDim S32000000x1 (![0] : Fin 1 → Fin S32000000x1.rank)
  shapeCasts_S16777216_S256x256x256 : S16777216.ShapeCasts S256x256x256
  shapeCasts_S256x256x256_S65536x256 : S256x256x256.ShapeCasts S65536x256
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  reduces_S8192x256_S8192 : S8192x256.Reduces [1] S8192
  shapeCasts_S8192_S8192x1 : S8192.ShapeCasts S8192x1
  reduces_S8192x1_S1 : S8192x1.Reduces [0] S1
  shapeCasts_S1_S1x1 : S1.ShapeCasts S1x1
  scatter_S16777216_S32000000x1_S32000000_n_0_0_1_wf : ScatterDims.WF S16777216 S32000000x1 S32000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S65536x256.size a
  hwx0_0 : ∀ i : grid0.Coords, EltTy.bits .f32 = 32 ∨ (Rect.block (s := S65536x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def scatter_S16777216_S32000000x1_S32000000_n_0_0_1 : ScatterDims S16777216 S32000000x1 S32000000 where
  updateWindowDims := []
  insertedWindowDims := [0]
  scatterDimsToOperandDims := [0]
  indexVectorDim := 1
  wf := scatter_S16777216_S32000000x1_S32000000_n_0_0_1_wf

abbrev win0_0 : Pipeline.Window sig grid0 :=
  Pipeline.Window.ofSpec (Memref.whole main_v683) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call32_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S2000000x3 : Shape := ⟨2, ![2000000, 3]⟩
abbrev S2000000x1 : Shape := ⟨2, ![2000000, 1]⟩
abbrev S2000000 : Shape := ⟨1, ![2000000]⟩
abbrev S_ : Shape := ⟨0, ![]⟩
abbrev S16777216 : Shape := ⟨1, ![16777216]⟩
abbrev S256x256x256 : Shape := ⟨3, ![256, 256, 256]⟩

abbrev nBuf : Space → Nat
  | .hbm => 1114
  | .vmem => 0
  | .smem => 0
  | _ => 0

abbrev hbmTy0_0 (i : Nat) : BufTy := match i % 128 with
  | 0 => ⟨S2000000x3, .f32⟩
  | 1 => ⟨S2000000x3, .f32⟩
  | 2 => ⟨S2000000x3, .f32⟩
  | 3 => ⟨S2000000x3, .f32⟩
  | 4 => ⟨S2000000x1, .f32⟩
  | 5 => ⟨S2000000, .f32⟩
  | 6 => ⟨S_, .f32⟩
  | 7 => ⟨S2000000, .f32⟩
  | 8 => ⟨S2000000, .f32⟩
  | 9 => ⟨S_, .f32⟩
  | 10 => ⟨S2000000, .f32⟩
  | 11 => ⟨S2000000, .f32⟩
  | 12 => ⟨S_, .f32⟩
  | 13 => ⟨S2000000, .f32⟩
  | 14 => ⟨S2000000, .f32⟩
  | 15 => ⟨S_, .f32⟩
  | 16 => ⟨S2000000, .f32⟩
  | 17 => ⟨S2000000, .f32⟩
  | 18 => ⟨S2000000x1, .f32⟩
  | 19 => ⟨S2000000, .f32⟩
  | 20 => ⟨S_, .f32⟩
  | 21 => ⟨S2000000, .f32⟩
  | 22 => ⟨S2000000, .f32⟩
  | 23 => ⟨S_, .f32⟩
  | 24 => ⟨S2000000, .f32⟩
  | 25 => ⟨S2000000, .f32⟩
  | 26 => ⟨S_, .f32⟩
  | 27 => ⟨S2000000, .f32⟩
  | 28 => ⟨S2000000, .f32⟩
  | 29 => ⟨S_, .f32⟩
  | 30 => ⟨S2000000, .f32⟩
  | 31 => ⟨S2000000, .f32⟩
  | 32 => ⟨S2000000x1, .f32⟩
  | 33 => ⟨S2000000, .f32⟩
  | 34 => ⟨S_, .f32⟩
  | 35 => ⟨S2000000, .f32⟩
  | 36 => ⟨S2000000, .f32⟩
  | 37 => ⟨S_, .f32⟩
  | 38 => ⟨S2000000, .f32⟩
  | 39 => ⟨S2000000, .f32⟩
  | 40 => ⟨S_, .f32⟩
  | 41 => ⟨S2000000, .f32⟩
  | 42 => ⟨S2000000, .f32⟩
  | 43 => ⟨S_, .f32⟩
  | 44 => ⟨S2000000, .f32⟩
  | 45 => ⟨S2000000, .f32⟩
  | 46 => ⟨S2000000, .f32⟩
  | 47 => ⟨S2000000, .f32⟩
  | 48 => ⟨S2000000, .f32⟩
  | 49 => ⟨S2000000, .f32⟩
  | 50 => ⟨S2000000, .f32⟩
  | 51 => ⟨S2000000, .f32⟩
  | 52 => ⟨S2000000, .i32⟩
  | 53 => ⟨S2000000, .i32⟩
  | 54 => ⟨S2000000, .i32⟩
  | 55 => ⟨S_, .f32⟩
  | 56 => ⟨S16777216, .f32⟩
  | 57 => ⟨S_, .f32⟩
  | 58 => ⟨S2000000, .f32⟩
  | 59 => ⟨S2000000, .f32⟩
  | 60 => ⟨S_, .f32⟩
  | 61 => ⟨S2000000, .f32⟩
  | 62 => ⟨S2000000, .f32⟩
  | 63 => ⟨S_, .f32⟩
  | 64 => ⟨S2000000, .f32⟩
  | 65 => ⟨S2000000, .f32⟩
  | 66 => ⟨S_, .i32⟩
  | 67 => ⟨S2000000, .i32⟩
  | 68 => ⟨S2000000, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i32⟩
  | 75 => ⟨S_, .i32⟩
  | 76 => ⟨S2000000, .i32⟩
  | 77 => ⟨S2000000, .i1⟩
  | 78 => ⟨S_, .i32⟩
  | 79 => ⟨S2000000, .i32⟩
  | 80 => ⟨S2000000, .i1⟩
  | 81 => ⟨S2000000, .i1⟩
  | 82 => ⟨S_, .i32⟩
  | 83 => ⟨S2000000, .i32⟩
  | 84 => ⟨S2000000, .i1⟩
  | 85 => ⟨S2000000, .i1⟩
  | 86 => ⟨S_, .i32⟩
  | 87 => ⟨S2000000, .i32⟩
  | 88 => ⟨S2000000, .i1⟩
  | 89 => ⟨S2000000, .i1⟩
  | 90 => ⟨S_, .i32⟩
  | 91 => ⟨S2000000, .i32⟩
  | 92 => ⟨S2000000, .i1⟩
  | 93 => ⟨S2000000, .i1⟩
  | 94 => ⟨S_, .i32⟩
  | 95 => ⟨S2000000, .i32⟩
  | 96 => ⟨S2000000, .i1⟩
  | 97 => ⟨S2000000, .i1⟩
  | 98 => ⟨S2000000, .f32⟩
  | 99 => ⟨S2000000, .f32⟩
  | 100 => ⟨S_, .f32⟩
  | 101 => ⟨S_, .f32⟩
  | 102 => ⟨S2000000, .f32⟩
  | 103 => ⟨S2000000, .f32⟩
  | 104 => ⟨S_, .i32⟩
  | 105 => ⟨S2000000, .i32⟩
  | 106 => ⟨S2000000, .i32⟩
  | 107 => ⟨S2000000, .i32⟩
  | 108 => ⟨S_, .i32⟩
  | 109 => ⟨S2000000, .i32⟩
  | 110 => ⟨S2000000, .i32⟩
  | 111 => ⟨S2000000, .i32⟩
  | 112 => ⟨S_, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i32⟩
  | 122 => ⟨S2000000, .i32⟩
  | 123 => ⟨S2000000x1, .i32⟩
  | 124 => ⟨S16777216, .f32⟩
  | 125 => ⟨S_, .i32⟩
  | 126 => ⟨S2000000, .i32⟩
  | 127 => ⟨S2000000, .i32⟩
  | _ => ⟨S2000000x3, .f32⟩

abbrev hbmTy0_1 (i : Nat) : BufTy := match i % 128 with
  | 0 => ⟨S_, .i32⟩
  | 1 => ⟨S2000000, .i32⟩
  | 2 => ⟨S2000000, .i32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i1⟩
  | 12 => ⟨S2000000, .i1⟩
  | 13 => ⟨S_, .i32⟩
  | 14 => ⟨S2000000, .i32⟩
  | 15 => ⟨S2000000, .i1⟩
  | 16 => ⟨S2000000, .i1⟩
  | 17 => ⟨S_, .i32⟩
  | 18 => ⟨S2000000, .i32⟩
  | 19 => ⟨S2000000, .i1⟩
  | 20 => ⟨S2000000, .i1⟩
  | 21 => ⟨S_, .i32⟩
  | 22 => ⟨S2000000, .i32⟩
  | 23 => ⟨S2000000, .i1⟩
  | 24 => ⟨S2000000, .i1⟩
  | 25 => ⟨S_, .i32⟩
  | 26 => ⟨S2000000, .i32⟩
  | 27 => ⟨S2000000, .i1⟩
  | 28 => ⟨S2000000, .i1⟩
  | 29 => ⟨S2000000, .f32⟩
  | 30 => ⟨S2000000, .f32⟩
  | 31 => ⟨S_, .f32⟩
  | 32 => ⟨S_, .f32⟩
  | 33 => ⟨S2000000, .f32⟩
  | 34 => ⟨S2000000, .f32⟩
  | 35 => ⟨S_, .i32⟩
  | 36 => ⟨S2000000, .i32⟩
  | 37 => ⟨S2000000, .i32⟩
  | 38 => ⟨S2000000, .i32⟩
  | 39 => ⟨S_, .i32⟩
  | 40 => ⟨S2000000, .i32⟩
  | 41 => ⟨S2000000, .i32⟩
  | 42 => ⟨S2000000, .i32⟩
  | 43 => ⟨S_, .i32⟩
  | 44 => ⟨S_, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S2000000x1, .i32⟩
  | 55 => ⟨S16777216, .f32⟩
  | 56 => ⟨S_, .f32⟩
  | 57 => ⟨S2000000, .f32⟩
  | 58 => ⟨S2000000, .f32⟩
  | 59 => ⟨S_, .i32⟩
  | 60 => ⟨S2000000, .i32⟩
  | 61 => ⟨S2000000, .i32⟩
  | 62 => ⟨S_, .i32⟩
  | 63 => ⟨S2000000, .i32⟩
  | 64 => ⟨S2000000, .i32⟩
  | 65 => ⟨S_, .i32⟩
  | 66 => ⟨S2000000, .i32⟩
  | 67 => ⟨S2000000, .i32⟩
  | 68 => ⟨S_, .i32⟩
  | 69 => ⟨S2000000, .i32⟩
  | 70 => ⟨S2000000, .i1⟩
  | 71 => ⟨S_, .i32⟩
  | 72 => ⟨S2000000, .i32⟩
  | 73 => ⟨S2000000, .i1⟩
  | 74 => ⟨S2000000, .i1⟩
  | 75 => ⟨S_, .i32⟩
  | 76 => ⟨S2000000, .i32⟩
  | 77 => ⟨S2000000, .i1⟩
  | 78 => ⟨S2000000, .i1⟩
  | 79 => ⟨S_, .i32⟩
  | 80 => ⟨S2000000, .i32⟩
  | 81 => ⟨S2000000, .i1⟩
  | 82 => ⟨S2000000, .i1⟩
  | 83 => ⟨S_, .i32⟩
  | 84 => ⟨S2000000, .i32⟩
  | 85 => ⟨S2000000, .i1⟩
  | 86 => ⟨S2000000, .i1⟩
  | 87 => ⟨S_, .i32⟩
  | 88 => ⟨S2000000, .i32⟩
  | 89 => ⟨S2000000, .i1⟩
  | 90 => ⟨S2000000, .i1⟩
  | 91 => ⟨S2000000, .f32⟩
  | 92 => ⟨S2000000, .f32⟩
  | 93 => ⟨S_, .f32⟩
  | 94 => ⟨S_, .f32⟩
  | 95 => ⟨S2000000, .f32⟩
  | 96 => ⟨S2000000, .f32⟩
  | 97 => ⟨S_, .i32⟩
  | 98 => ⟨S2000000, .i32⟩
  | 99 => ⟨S2000000, .i32⟩
  | 100 => ⟨S2000000, .i32⟩
  | 101 => ⟨S_, .i32⟩
  | 102 => ⟨S2000000, .i32⟩
  | 103 => ⟨S2000000, .i32⟩
  | 104 => ⟨S2000000, .i32⟩
  | 105 => ⟨S_, .i32⟩
  | 106 => ⟨S_, .i32⟩
  | 107 => ⟨S2000000, .i32⟩
  | 108 => ⟨S2000000, .i32⟩
  | 109 => ⟨S_, .i32⟩
  | 110 => ⟨S2000000, .i32⟩
  | 111 => ⟨S2000000, .i1⟩
  | 112 => ⟨S_, .i32⟩
  | 113 => ⟨S2000000, .i32⟩
  | 114 => ⟨S2000000, .i32⟩
  | 115 => ⟨S2000000, .i32⟩
  | 116 => ⟨S2000000x1, .i32⟩
  | 117 => ⟨S16777216, .f32⟩
  | 118 => ⟨S_, .i32⟩
  | 119 => ⟨S2000000, .i32⟩
  | 120 => ⟨S2000000, .i32⟩
  | 121 => ⟨S_, .i32⟩
  | 122 => ⟨S2000000, .i32⟩
  | 123 => ⟨S2000000, .i32⟩
  | 124 => ⟨S_, .i32⟩
  | 125 => ⟨S2000000, .i32⟩
  | 126 => ⟨S2000000, .i32⟩
  | 127 => ⟨S_, .i32⟩
  | _ => ⟨S2000000x3, .f32⟩

abbrev hbmTy0_2 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i1⟩
  | 5 => ⟨S2000000, .i1⟩
  | 6 => ⟨S_, .i32⟩
  | 7 => ⟨S2000000, .i32⟩
  | 8 => ⟨S2000000, .i1⟩
  | 9 => ⟨S2000000, .i1⟩
  | 10 => ⟨S_, .i32⟩
  | 11 => ⟨S2000000, .i32⟩
  | 12 => ⟨S2000000, .i1⟩
  | 13 => ⟨S2000000, .i1⟩
  | 14 => ⟨S_, .i32⟩
  | 15 => ⟨S2000000, .i32⟩
  | 16 => ⟨S2000000, .i1⟩
  | 17 => ⟨S2000000, .i1⟩
  | 18 => ⟨S_, .i32⟩
  | 19 => ⟨S2000000, .i32⟩
  | 20 => ⟨S2000000, .i1⟩
  | 21 => ⟨S2000000, .i1⟩
  | 22 => ⟨S2000000, .f32⟩
  | 23 => ⟨S2000000, .f32⟩
  | 24 => ⟨S_, .f32⟩
  | 25 => ⟨S_, .f32⟩
  | 26 => ⟨S2000000, .f32⟩
  | 27 => ⟨S2000000, .f32⟩
  | 28 => ⟨S_, .i32⟩
  | 29 => ⟨S2000000, .i32⟩
  | 30 => ⟨S2000000, .i32⟩
  | 31 => ⟨S2000000, .i32⟩
  | 32 => ⟨S_, .i32⟩
  | 33 => ⟨S2000000, .i32⟩
  | 34 => ⟨S2000000, .i32⟩
  | 35 => ⟨S2000000, .i32⟩
  | 36 => ⟨S_, .i32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S16777216, .f32⟩
  | 49 => ⟨S_, .f32⟩
  | 50 => ⟨S2000000, .f32⟩
  | 51 => ⟨S2000000, .f32⟩
  | 52 => ⟨S_, .f32⟩
  | 53 => ⟨S2000000, .f32⟩
  | 54 => ⟨S2000000, .f32⟩
  | 55 => ⟨S_, .i32⟩
  | 56 => ⟨S2000000, .i32⟩
  | 57 => ⟨S2000000, .i32⟩
  | 58 => ⟨S_, .i32⟩
  | 59 => ⟨S2000000, .i32⟩
  | 60 => ⟨S2000000, .i32⟩
  | 61 => ⟨S_, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i1⟩
  | 70 => ⟨S2000000, .i1⟩
  | 71 => ⟨S_, .i32⟩
  | 72 => ⟨S2000000, .i32⟩
  | 73 => ⟨S2000000, .i1⟩
  | 74 => ⟨S2000000, .i1⟩
  | 75 => ⟨S_, .i32⟩
  | 76 => ⟨S2000000, .i32⟩
  | 77 => ⟨S2000000, .i1⟩
  | 78 => ⟨S2000000, .i1⟩
  | 79 => ⟨S_, .i32⟩
  | 80 => ⟨S2000000, .i32⟩
  | 81 => ⟨S2000000, .i1⟩
  | 82 => ⟨S2000000, .i1⟩
  | 83 => ⟨S_, .i32⟩
  | 84 => ⟨S2000000, .i32⟩
  | 85 => ⟨S2000000, .i1⟩
  | 86 => ⟨S2000000, .i1⟩
  | 87 => ⟨S2000000, .f32⟩
  | 88 => ⟨S2000000, .f32⟩
  | 89 => ⟨S_, .f32⟩
  | 90 => ⟨S_, .f32⟩
  | 91 => ⟨S2000000, .f32⟩
  | 92 => ⟨S2000000, .f32⟩
  | 93 => ⟨S_, .i32⟩
  | 94 => ⟨S2000000, .i32⟩
  | 95 => ⟨S2000000, .i32⟩
  | 96 => ⟨S2000000, .i32⟩
  | 97 => ⟨S_, .i32⟩
  | 98 => ⟨S2000000, .i32⟩
  | 99 => ⟨S2000000, .i32⟩
  | 100 => ⟨S2000000, .i32⟩
  | 101 => ⟨S_, .i32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S16777216, .f32⟩
  | 114 => ⟨S_, .i32⟩
  | 115 => ⟨S2000000, .i32⟩
  | 116 => ⟨S2000000, .i32⟩
  | 117 => ⟨S_, .i32⟩
  | 118 => ⟨S2000000, .i32⟩
  | 119 => ⟨S2000000, .i32⟩
  | 120 => ⟨S_, .i32⟩
  | 121 => ⟨S2000000, .i32⟩
  | 122 => ⟨S2000000, .i32⟩
  | 123 => ⟨S_, .i32⟩
  | 124 => ⟨S2000000, .i32⟩
  | 125 => ⟨S2000000, .i1⟩
  | 126 => ⟨S_, .i32⟩
  | 127 => ⟨S2000000, .i32⟩
  | _ => ⟨S2000000x3, .f32⟩

abbrev hbmTy0_3 (i : Nat) : BufTy := match i % 128 with
  | 0 => ⟨S2000000, .i1⟩
  | 1 => ⟨S2000000, .i1⟩
  | 2 => ⟨S_, .i32⟩
  | 3 => ⟨S2000000, .i32⟩
  | 4 => ⟨S2000000, .i1⟩
  | 5 => ⟨S2000000, .i1⟩
  | 6 => ⟨S_, .i32⟩
  | 7 => ⟨S2000000, .i32⟩
  | 8 => ⟨S2000000, .i1⟩
  | 9 => ⟨S2000000, .i1⟩
  | 10 => ⟨S_, .i32⟩
  | 11 => ⟨S2000000, .i32⟩
  | 12 => ⟨S2000000, .i1⟩
  | 13 => ⟨S2000000, .i1⟩
  | 14 => ⟨S_, .i32⟩
  | 15 => ⟨S2000000, .i32⟩
  | 16 => ⟨S2000000, .i1⟩
  | 17 => ⟨S2000000, .i1⟩
  | 18 => ⟨S2000000, .f32⟩
  | 19 => ⟨S2000000, .f32⟩
  | 20 => ⟨S_, .f32⟩
  | 21 => ⟨S_, .f32⟩
  | 22 => ⟨S2000000, .f32⟩
  | 23 => ⟨S2000000, .f32⟩
  | 24 => ⟨S_, .i32⟩
  | 25 => ⟨S2000000, .i32⟩
  | 26 => ⟨S2000000, .i32⟩
  | 27 => ⟨S2000000, .i32⟩
  | 28 => ⟨S_, .i32⟩
  | 29 => ⟨S2000000, .i32⟩
  | 30 => ⟨S2000000, .i32⟩
  | 31 => ⟨S2000000, .i32⟩
  | 32 => ⟨S_, .i32⟩
  | 33 => ⟨S_, .i32⟩
  | 34 => ⟨S2000000, .i32⟩
  | 35 => ⟨S2000000, .i32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S16777216, .f32⟩
  | 45 => ⟨S_, .f32⟩
  | 46 => ⟨S2000000, .f32⟩
  | 47 => ⟨S2000000, .f32⟩
  | 48 => ⟨S_, .i32⟩
  | 49 => ⟨S2000000, .i32⟩
  | 50 => ⟨S2000000, .i32⟩
  | 51 => ⟨S_, .i32⟩
  | 52 => ⟨S2000000, .i32⟩
  | 53 => ⟨S2000000, .i32⟩
  | 54 => ⟨S_, .i32⟩
  | 55 => ⟨S2000000, .i32⟩
  | 56 => ⟨S2000000, .i32⟩
  | 57 => ⟨S_, .i32⟩
  | 58 => ⟨S2000000, .i32⟩
  | 59 => ⟨S2000000, .i1⟩
  | 60 => ⟨S_, .i32⟩
  | 61 => ⟨S2000000, .i32⟩
  | 62 => ⟨S2000000, .i1⟩
  | 63 => ⟨S2000000, .i1⟩
  | 64 => ⟨S_, .i32⟩
  | 65 => ⟨S2000000, .i32⟩
  | 66 => ⟨S2000000, .i1⟩
  | 67 => ⟨S2000000, .i1⟩
  | 68 => ⟨S_, .i32⟩
  | 69 => ⟨S2000000, .i32⟩
  | 70 => ⟨S2000000, .i1⟩
  | 71 => ⟨S2000000, .i1⟩
  | 72 => ⟨S_, .i32⟩
  | 73 => ⟨S2000000, .i32⟩
  | 74 => ⟨S2000000, .i1⟩
  | 75 => ⟨S2000000, .i1⟩
  | 76 => ⟨S_, .i32⟩
  | 77 => ⟨S2000000, .i32⟩
  | 78 => ⟨S2000000, .i1⟩
  | 79 => ⟨S2000000, .i1⟩
  | 80 => ⟨S2000000, .f32⟩
  | 81 => ⟨S2000000, .f32⟩
  | 82 => ⟨S_, .f32⟩
  | 83 => ⟨S_, .f32⟩
  | 84 => ⟨S2000000, .f32⟩
  | 85 => ⟨S2000000, .f32⟩
  | 86 => ⟨S_, .i32⟩
  | 87 => ⟨S2000000, .i32⟩
  | 88 => ⟨S2000000, .i32⟩
  | 89 => ⟨S2000000, .i32⟩
  | 90 => ⟨S_, .i32⟩
  | 91 => ⟨S2000000, .i32⟩
  | 92 => ⟨S2000000, .i32⟩
  | 93 => ⟨S2000000, .i32⟩
  | 94 => ⟨S_, .i32⟩
  | 95 => ⟨S_, .i32⟩
  | 96 => ⟨S2000000, .i32⟩
  | 97 => ⟨S2000000, .i32⟩
  | 98 => ⟨S_, .i32⟩
  | 99 => ⟨S2000000, .i32⟩
  | 100 => ⟨S2000000, .i1⟩
  | 101 => ⟨S_, .i32⟩
  | 102 => ⟨S2000000, .i32⟩
  | 103 => ⟨S2000000, .i32⟩
  | 104 => ⟨S2000000, .i32⟩
  | 105 => ⟨S2000000x1, .i32⟩
  | 106 => ⟨S16777216, .f32⟩
  | 107 => ⟨S_, .i32⟩
  | 108 => ⟨S2000000, .i32⟩
  | 109 => ⟨S2000000, .i32⟩
  | 110 => ⟨S_, .i32⟩
  | 111 => ⟨S2000000, .i32⟩
  | 112 => ⟨S2000000, .i32⟩
  | 113 => ⟨S_, .i32⟩
  | 114 => ⟨S2000000, .i32⟩
  | 115 => ⟨S2000000, .i32⟩
  | 116 => ⟨S_, .i32⟩
  | 117 => ⟨S2000000, .i32⟩
  | 118 => ⟨S2000000, .i1⟩
  | 119 => ⟨S_, .i32⟩
  | 120 => ⟨S2000000, .i32⟩
  | 121 => ⟨S2000000, .i1⟩
  | 122 => ⟨S2000000, .i1⟩
  | 123 => ⟨S_, .i32⟩
  | 124 => ⟨S2000000, .i32⟩
  | 125 => ⟨S2000000, .i1⟩
  | 126 => ⟨S2000000, .i1⟩
  | 127 => ⟨S_, .i32⟩
  | _ => ⟨S2000000x3, .f32⟩

abbrev hbmTy0_4 (i : Nat) : BufTy := match i % 128 with
  | 0 => ⟨S2000000, .i32⟩
  | 1 => ⟨S2000000, .i1⟩
  | 2 => ⟨S2000000, .i1⟩
  | 3 => ⟨S_, .i32⟩
  | 4 => ⟨S2000000, .i32⟩
  | 5 => ⟨S2000000, .i1⟩
  | 6 => ⟨S2000000, .i1⟩
  | 7 => ⟨S_, .i32⟩
  | 8 => ⟨S2000000, .i32⟩
  | 9 => ⟨S2000000, .i1⟩
  | 10 => ⟨S2000000, .i1⟩
  | 11 => ⟨S2000000, .f32⟩
  | 12 => ⟨S2000000, .f32⟩
  | 13 => ⟨S_, .f32⟩
  | 14 => ⟨S_, .f32⟩
  | 15 => ⟨S2000000, .f32⟩
  | 16 => ⟨S2000000, .f32⟩
  | 17 => ⟨S_, .i32⟩
  | 18 => ⟨S2000000, .i32⟩
  | 19 => ⟨S2000000, .i32⟩
  | 20 => ⟨S2000000, .i32⟩
  | 21 => ⟨S_, .i32⟩
  | 22 => ⟨S2000000, .i32⟩
  | 23 => ⟨S2000000, .i32⟩
  | 24 => ⟨S2000000, .i32⟩
  | 25 => ⟨S_, .i32⟩
  | 26 => ⟨S_, .i32⟩
  | 27 => ⟨S2000000, .i32⟩
  | 28 => ⟨S2000000, .i32⟩
  | 29 => ⟨S_, .i32⟩
  | 30 => ⟨S2000000, .i32⟩
  | 31 => ⟨S2000000, .i1⟩
  | 32 => ⟨S_, .i32⟩
  | 33 => ⟨S2000000, .i32⟩
  | 34 => ⟨S2000000, .i32⟩
  | 35 => ⟨S2000000, .i32⟩
  | 36 => ⟨S2000000x1, .i32⟩
  | 37 => ⟨S16777216, .f32⟩
  | 38 => ⟨S256x256x256, .f32⟩
  | 39 => ⟨S2000000x3, .f32⟩
  | 40 => ⟨S2000000x1, .f32⟩
  | 41 => ⟨S2000000, .f32⟩
  | 42 => ⟨S_, .f32⟩
  | 43 => ⟨S2000000, .f32⟩
  | 44 => ⟨S2000000, .f32⟩
  | 45 => ⟨S_, .f32⟩
  | 46 => ⟨S2000000, .f32⟩
  | 47 => ⟨S2000000, .f32⟩
  | 48 => ⟨S_, .f32⟩
  | 49 => ⟨S2000000, .f32⟩
  | 50 => ⟨S2000000, .f32⟩
  | 51 => ⟨S_, .f32⟩
  | 52 => ⟨S2000000, .f32⟩
  | 53 => ⟨S2000000, .f32⟩
  | 54 => ⟨S2000000x1, .f32⟩
  | 55 => ⟨S2000000, .f32⟩
  | 56 => ⟨S_, .f32⟩
  | 57 => ⟨S2000000, .f32⟩
  | 58 => ⟨S2000000, .f32⟩
  | 59 => ⟨S_, .f32⟩
  | 60 => ⟨S2000000, .f32⟩
  | 61 => ⟨S2000000, .f32⟩
  | 62 => ⟨S_, .f32⟩
  | 63 => ⟨S2000000, .f32⟩
  | 64 => ⟨S2000000, .f32⟩
  | 65 => ⟨S_, .f32⟩
  | 66 => ⟨S2000000, .f32⟩
  | 67 => ⟨S2000000, .f32⟩
  | 68 => ⟨S2000000x1, .f32⟩
  | 69 => ⟨S2000000, .f32⟩
  | 70 => ⟨S_, .f32⟩
  | 71 => ⟨S2000000, .f32⟩
  | 72 => ⟨S2000000, .f32⟩
  | 73 => ⟨S_, .f32⟩
  | 74 => ⟨S2000000, .f32⟩
  | 75 => ⟨S2000000, .f32⟩
  | 76 => ⟨S_, .f32⟩
  | 77 => ⟨S2000000, .f32⟩
  | 78 => ⟨S2000000, .f32⟩
  | 79 => ⟨S_, .f32⟩
  | 80 => ⟨S2000000, .f32⟩
  | 81 => ⟨S2000000, .f32⟩
  | 82 => ⟨S2000000, .f32⟩
  | 83 => ⟨S2000000, .f32⟩
  | 84 => ⟨S2000000, .f32⟩
  | 85 => ⟨S2000000, .f32⟩
  | 86 => ⟨S2000000, .f32⟩
  | 87 => ⟨S2000000, .f32⟩
  | 88 => ⟨S2000000, .i32⟩
  | 89 => ⟨S2000000, .i32⟩
  | 90 => ⟨S2000000, .i32⟩
  | 91 => ⟨S_, .f32⟩
  | 92 => ⟨S16777216, .f32⟩
  | 93 => ⟨S_, .f32⟩
  | 94 => ⟨S2000000, .f32⟩
  | 95 => ⟨S2000000, .f32⟩
  | 96 => ⟨S_, .f32⟩
  | 97 => ⟨S2000000, .f32⟩
  | 98 => ⟨S2000000, .f32⟩
  | 99 => ⟨S_, .f32⟩
  | 100 => ⟨S2000000, .f32⟩
  | 101 => ⟨S2000000, .f32⟩
  | 102 => ⟨S_, .i32⟩
  | 103 => ⟨S2000000, .i32⟩
  | 104 => ⟨S2000000, .i32⟩
  | 105 => ⟨S_, .i32⟩
  | 106 => ⟨S2000000, .i32⟩
  | 107 => ⟨S2000000, .i32⟩
  | 108 => ⟨S_, .i32⟩
  | 109 => ⟨S2000000, .i32⟩
  | 110 => ⟨S2000000, .i32⟩
  | 111 => ⟨S_, .i32⟩
  | 112 => ⟨S2000000, .i32⟩
  | 113 => ⟨S2000000, .i1⟩
  | 114 => ⟨S_, .i32⟩
  | 115 => ⟨S2000000, .i32⟩
  | 116 => ⟨S2000000, .i1⟩
  | 117 => ⟨S2000000, .i1⟩
  | 118 => ⟨S_, .i32⟩
  | 119 => ⟨S2000000, .i32⟩
  | 120 => ⟨S2000000, .i1⟩
  | 121 => ⟨S2000000, .i1⟩
  | 122 => ⟨S_, .i32⟩
  | 123 => ⟨S2000000, .i32⟩
  | 124 => ⟨S2000000, .i1⟩
  | 125 => ⟨S2000000, .i1⟩
  | 126 => ⟨S_, .i32⟩
  | 127 => ⟨S2000000, .i32⟩
  | _ => ⟨S2000000x3, .f32⟩

abbrev hbmTy0_5 (i : Nat) : BufTy := match i % 128 with
  | 0 => ⟨S2000000, .i1⟩
  | 1 => ⟨S2000000, .i1⟩
  | 2 => ⟨S_, .i32⟩
  | 3 => ⟨S2000000, .i32⟩
  | 4 => ⟨S2000000, .i1⟩
  | 5 => ⟨S2000000, .i1⟩
  | 6 => ⟨S2000000, .f32⟩
  | 7 => ⟨S2000000, .f32⟩
  | 8 => ⟨S_, .f32⟩
  | 9 => ⟨S_, .f32⟩
  | 10 => ⟨S2000000, .f32⟩
  | 11 => ⟨S2000000, .f32⟩
  | 12 => ⟨S_, .i32⟩
  | 13 => ⟨S2000000, .i32⟩
  | 14 => ⟨S2000000, .i32⟩
  | 15 => ⟨S2000000, .i32⟩
  | 16 => ⟨S_, .i32⟩
  | 17 => ⟨S2000000, .i32⟩
  | 18 => ⟨S2000000, .i32⟩
  | 19 => ⟨S2000000, .i32⟩
  | 20 => ⟨S_, .i32⟩
  | 21 => ⟨S_, .i32⟩
  | 22 => ⟨S2000000, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i32⟩
  | 30 => ⟨S2000000, .i32⟩
  | 31 => ⟨S2000000x1, .i32⟩
  | 32 => ⟨S16777216, .f32⟩
  | 33 => ⟨S_, .i32⟩
  | 34 => ⟨S2000000, .i32⟩
  | 35 => ⟨S2000000, .i32⟩
  | 36 => ⟨S_, .i32⟩
  | 37 => ⟨S2000000, .i32⟩
  | 38 => ⟨S2000000, .i32⟩
  | 39 => ⟨S_, .i32⟩
  | 40 => ⟨S2000000, .i32⟩
  | 41 => ⟨S2000000, .i32⟩
  | 42 => ⟨S_, .i32⟩
  | 43 => ⟨S2000000, .i32⟩
  | 44 => ⟨S2000000, .i1⟩
  | 45 => ⟨S_, .i32⟩
  | 46 => ⟨S2000000, .i32⟩
  | 47 => ⟨S2000000, .i1⟩
  | 48 => ⟨S2000000, .i1⟩
  | 49 => ⟨S_, .i32⟩
  | 50 => ⟨S2000000, .i32⟩
  | 51 => ⟨S2000000, .i1⟩
  | 52 => ⟨S2000000, .i1⟩
  | 53 => ⟨S_, .i32⟩
  | 54 => ⟨S2000000, .i32⟩
  | 55 => ⟨S2000000, .i1⟩
  | 56 => ⟨S2000000, .i1⟩
  | 57 => ⟨S_, .i32⟩
  | 58 => ⟨S2000000, .i32⟩
  | 59 => ⟨S2000000, .i1⟩
  | 60 => ⟨S2000000, .i1⟩
  | 61 => ⟨S_, .i32⟩
  | 62 => ⟨S2000000, .i32⟩
  | 63 => ⟨S2000000, .i1⟩
  | 64 => ⟨S2000000, .i1⟩
  | 65 => ⟨S2000000, .f32⟩
  | 66 => ⟨S2000000, .f32⟩
  | 67 => ⟨S_, .f32⟩
  | 68 => ⟨S_, .f32⟩
  | 69 => ⟨S2000000, .f32⟩
  | 70 => ⟨S2000000, .f32⟩
  | 71 => ⟨S_, .i32⟩
  | 72 => ⟨S2000000, .i32⟩
  | 73 => ⟨S2000000, .i32⟩
  | 74 => ⟨S2000000, .i32⟩
  | 75 => ⟨S_, .i32⟩
  | 76 => ⟨S2000000, .i32⟩
  | 77 => ⟨S2000000, .i32⟩
  | 78 => ⟨S2000000, .i32⟩
  | 79 => ⟨S_, .i32⟩
  | 80 => ⟨S_, .i32⟩
  | 81 => ⟨S2000000, .i32⟩
  | 82 => ⟨S2000000, .i32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S16777216, .f32⟩
  | 92 => ⟨S_, .f32⟩
  | 93 => ⟨S2000000, .f32⟩
  | 94 => ⟨S2000000, .f32⟩
  | 95 => ⟨S_, .i32⟩
  | 96 => ⟨S2000000, .i32⟩
  | 97 => ⟨S2000000, .i32⟩
  | 98 => ⟨S_, .i32⟩
  | 99 => ⟨S2000000, .i32⟩
  | 100 => ⟨S2000000, .i32⟩
  | 101 => ⟨S_, .i32⟩
  | 102 => ⟨S2000000, .i32⟩
  | 103 => ⟨S2000000, .i32⟩
  | 104 => ⟨S_, .i32⟩
  | 105 => ⟨S2000000, .i32⟩
  | 106 => ⟨S2000000, .i1⟩
  | 107 => ⟨S_, .i32⟩
  | 108 => ⟨S2000000, .i32⟩
  | 109 => ⟨S2000000, .i1⟩
  | 110 => ⟨S2000000, .i1⟩
  | 111 => ⟨S_, .i32⟩
  | 112 => ⟨S2000000, .i32⟩
  | 113 => ⟨S2000000, .i1⟩
  | 114 => ⟨S2000000, .i1⟩
  | 115 => ⟨S_, .i32⟩
  | 116 => ⟨S2000000, .i32⟩
  | 117 => ⟨S2000000, .i1⟩
  | 118 => ⟨S2000000, .i1⟩
  | 119 => ⟨S_, .i32⟩
  | 120 => ⟨S2000000, .i32⟩
  | 121 => ⟨S2000000, .i1⟩
  | 122 => ⟨S2000000, .i1⟩
  | 123 => ⟨S_, .i32⟩
  | 124 => ⟨S2000000, .i32⟩
  | 125 => ⟨S2000000, .i1⟩
  | 126 => ⟨S2000000, .i1⟩
  | 127 => ⟨S2000000, .f32⟩
  | _ => ⟨S2000000x3, .f32⟩

abbrev hbmTy0_6 (i : Nat) : BufTy := match i % 128 with
  | 0 => ⟨S2000000, .f32⟩
  | 1 => ⟨S_, .f32⟩
  | 2 => ⟨S_, .f32⟩
  | 3 => ⟨S2000000, .f32⟩
  | 4 => ⟨S2000000, .f32⟩
  | 5 => ⟨S_, .i32⟩
  | 6 => ⟨S2000000, .i32⟩
  | 7 => ⟨S2000000, .i32⟩
  | 8 => ⟨S2000000, .i32⟩
  | 9 => ⟨S_, .i32⟩
  | 10 => ⟨S2000000, .i32⟩
  | 11 => ⟨S2000000, .i32⟩
  | 12 => ⟨S2000000, .i32⟩
  | 13 => ⟨S_, .i32⟩
  | 14 => ⟨S_, .i32⟩
  | 15 => ⟨S2000000, .i32⟩
  | 16 => ⟨S2000000, .i32⟩
  | 17 => ⟨S_, .i32⟩
  | 18 => ⟨S2000000, .i32⟩
  | 19 => ⟨S2000000, .i1⟩
  | 20 => ⟨S_, .i32⟩
  | 21 => ⟨S2000000, .i32⟩
  | 22 => ⟨S2000000, .i32⟩
  | 23 => ⟨S2000000, .i32⟩
  | 24 => ⟨S2000000x1, .i32⟩
  | 25 => ⟨S16777216, .f32⟩
  | 26 => ⟨S_, .i32⟩
  | 27 => ⟨S2000000, .i32⟩
  | 28 => ⟨S2000000, .i32⟩
  | 29 => ⟨S_, .i32⟩
  | 30 => ⟨S2000000, .i32⟩
  | 31 => ⟨S2000000, .i32⟩
  | 32 => ⟨S_, .i32⟩
  | 33 => ⟨S2000000, .i32⟩
  | 34 => ⟨S2000000, .i32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i1⟩
  | 41 => ⟨S2000000, .i1⟩
  | 42 => ⟨S_, .i32⟩
  | 43 => ⟨S2000000, .i32⟩
  | 44 => ⟨S2000000, .i1⟩
  | 45 => ⟨S2000000, .i1⟩
  | 46 => ⟨S_, .i32⟩
  | 47 => ⟨S2000000, .i32⟩
  | 48 => ⟨S2000000, .i1⟩
  | 49 => ⟨S2000000, .i1⟩
  | 50 => ⟨S_, .i32⟩
  | 51 => ⟨S2000000, .i32⟩
  | 52 => ⟨S2000000, .i1⟩
  | 53 => ⟨S2000000, .i1⟩
  | 54 => ⟨S_, .i32⟩
  | 55 => ⟨S2000000, .i32⟩
  | 56 => ⟨S2000000, .i1⟩
  | 57 => ⟨S2000000, .i1⟩
  | 58 => ⟨S2000000, .f32⟩
  | 59 => ⟨S2000000, .f32⟩
  | 60 => ⟨S_, .f32⟩
  | 61 => ⟨S_, .f32⟩
  | 62 => ⟨S2000000, .f32⟩
  | 63 => ⟨S2000000, .f32⟩
  | 64 => ⟨S_, .i32⟩
  | 65 => ⟨S2000000, .i32⟩
  | 66 => ⟨S2000000, .i32⟩
  | 67 => ⟨S2000000, .i32⟩
  | 68 => ⟨S_, .i32⟩
  | 69 => ⟨S2000000, .i32⟩
  | 70 => ⟨S2000000, .i32⟩
  | 71 => ⟨S2000000, .i32⟩
  | 72 => ⟨S_, .i32⟩
  | 73 => ⟨S_, .i32⟩
  | 74 => ⟨S2000000, .i32⟩
  | 75 => ⟨S2000000, .i32⟩
  | 76 => ⟨S_, .i32⟩
  | 77 => ⟨S2000000, .i32⟩
  | 78 => ⟨S2000000, .i1⟩
  | 79 => ⟨S_, .i32⟩
  | 80 => ⟨S2000000, .i32⟩
  | 81 => ⟨S2000000, .i32⟩
  | 82 => ⟨S2000000, .i32⟩
  | 83 => ⟨S2000000x1, .i32⟩
  | 84 => ⟨S16777216, .f32⟩
  | 85 => ⟨S_, .f32⟩
  | 86 => ⟨S2000000, .f32⟩
  | 87 => ⟨S2000000, .f32⟩
  | 88 => ⟨S_, .f32⟩
  | 89 => ⟨S2000000, .f32⟩
  | 90 => ⟨S2000000, .f32⟩
  | 91 => ⟨S_, .i32⟩
  | 92 => ⟨S2000000, .i32⟩
  | 93 => ⟨S2000000, .i32⟩
  | 94 => ⟨S_, .i32⟩
  | 95 => ⟨S2000000, .i32⟩
  | 96 => ⟨S2000000, .i32⟩
  | 97 => ⟨S_, .i32⟩
  | 98 => ⟨S2000000, .i32⟩
  | 99 => ⟨S2000000, .i32⟩
  | 100 => ⟨S_, .i32⟩
  | 101 => ⟨S2000000, .i32⟩
  | 102 => ⟨S2000000, .i1⟩
  | 103 => ⟨S_, .i32⟩
  | 104 => ⟨S2000000, .i32⟩
  | 105 => ⟨S2000000, .i1⟩
  | 106 => ⟨S2000000, .i1⟩
  | 107 => ⟨S_, .i32⟩
  | 108 => ⟨S2000000, .i32⟩
  | 109 => ⟨S2000000, .i1⟩
  | 110 => ⟨S2000000, .i1⟩
  | 111 => ⟨S_, .i32⟩
  | 112 => ⟨S2000000, .i32⟩
  | 113 => ⟨S2000000, .i1⟩
  | 114 => ⟨S2000000, .i1⟩
  | 115 => ⟨S_, .i32⟩
  | 116 => ⟨S2000000, .i32⟩
  | 117 => ⟨S2000000, .i1⟩
  | 118 => ⟨S2000000, .i1⟩
  | 119 => ⟨S_, .i32⟩
  | 120 => ⟨S2000000, .i32⟩
  | 121 => ⟨S2000000, .i1⟩
  | 122 => ⟨S2000000, .i1⟩
  | 123 => ⟨S2000000, .f32⟩
  | 124 => ⟨S2000000, .f32⟩
  | 125 => ⟨S_, .f32⟩
  | 126 => ⟨S_, .f32⟩
  | 127 => ⟨S2000000, .f32⟩
  | _ => ⟨S2000000x3, .f32⟩

abbrev hbmTy0_7 (i : Nat) : BufTy := match i % 128 with
  | 0 => ⟨S2000000, .f32⟩
  | 1 => ⟨S_, .i32⟩
  | 2 => ⟨S2000000, .i32⟩
  | 3 => ⟨S2000000, .i32⟩
  | 4 => ⟨S2000000, .i32⟩
  | 5 => ⟨S_, .i32⟩
  | 6 => ⟨S2000000, .i32⟩
  | 7 => ⟨S2000000, .i32⟩
  | 8 => ⟨S2000000, .i32⟩
  | 9 => ⟨S_, .i32⟩
  | 10 => ⟨S_, .i32⟩
  | 11 => ⟨S2000000, .i32⟩
  | 12 => ⟨S2000000, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S16777216, .f32⟩
  | 22 => ⟨S_, .i32⟩
  | 23 => ⟨S2000000, .i32⟩
  | 24 => ⟨S2000000, .i32⟩
  | 25 => ⟨S_, .i32⟩
  | 26 => ⟨S2000000, .i32⟩
  | 27 => ⟨S2000000, .i32⟩
  | 28 => ⟨S_, .i32⟩
  | 29 => ⟨S2000000, .i32⟩
  | 30 => ⟨S2000000, .i32⟩
  | 31 => ⟨S_, .i32⟩
  | 32 => ⟨S2000000, .i32⟩
  | 33 => ⟨S2000000, .i1⟩
  | 34 => ⟨S_, .i32⟩
  | 35 => ⟨S2000000, .i32⟩
  | 36 => ⟨S2000000, .i1⟩
  | 37 => ⟨S2000000, .i1⟩
  | 38 => ⟨S_, .i32⟩
  | 39 => ⟨S2000000, .i32⟩
  | 40 => ⟨S2000000, .i1⟩
  | 41 => ⟨S2000000, .i1⟩
  | 42 => ⟨S_, .i32⟩
  | 43 => ⟨S2000000, .i32⟩
  | 44 => ⟨S2000000, .i1⟩
  | 45 => ⟨S2000000, .i1⟩
  | 46 => ⟨S_, .i32⟩
  | 47 => ⟨S2000000, .i32⟩
  | 48 => ⟨S2000000, .i1⟩
  | 49 => ⟨S2000000, .i1⟩
  | 50 => ⟨S_, .i32⟩
  | 51 => ⟨S2000000, .i32⟩
  | 52 => ⟨S2000000, .i1⟩
  | 53 => ⟨S2000000, .i1⟩
  | 54 => ⟨S2000000, .f32⟩
  | 55 => ⟨S2000000, .f32⟩
  | 56 => ⟨S_, .f32⟩
  | 57 => ⟨S_, .f32⟩
  | 58 => ⟨S2000000, .f32⟩
  | 59 => ⟨S2000000, .f32⟩
  | 60 => ⟨S_, .i32⟩
  | 61 => ⟨S2000000, .i32⟩
  | 62 => ⟨S2000000, .i32⟩
  | 63 => ⟨S2000000, .i32⟩
  | 64 => ⟨S_, .i32⟩
  | 65 => ⟨S2000000, .i32⟩
  | 66 => ⟨S2000000, .i32⟩
  | 67 => ⟨S2000000, .i32⟩
  | 68 => ⟨S_, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S2000000x1, .i32⟩
  | 80 => ⟨S16777216, .f32⟩
  | 81 => ⟨S_, .f32⟩
  | 82 => ⟨S2000000, .f32⟩
  | 83 => ⟨S2000000, .f32⟩
  | 84 => ⟨S_, .i32⟩
  | 85 => ⟨S2000000, .i32⟩
  | 86 => ⟨S2000000, .i32⟩
  | 87 => ⟨S_, .i32⟩
  | 88 => ⟨S2000000, .i32⟩
  | 89 => ⟨S2000000, .i32⟩
  | 90 => ⟨S_, .i32⟩
  | 91 => ⟨S2000000, .i32⟩
  | 92 => ⟨S2000000, .i32⟩
  | 93 => ⟨S_, .i32⟩
  | 94 => ⟨S2000000, .i32⟩
  | 95 => ⟨S2000000, .i1⟩
  | 96 => ⟨S_, .i32⟩
  | 97 => ⟨S2000000, .i32⟩
  | 98 => ⟨S2000000, .i1⟩
  | 99 => ⟨S2000000, .i1⟩
  | 100 => ⟨S_, .i32⟩
  | 101 => ⟨S2000000, .i32⟩
  | 102 => ⟨S2000000, .i1⟩
  | 103 => ⟨S2000000, .i1⟩
  | 104 => ⟨S_, .i32⟩
  | 105 => ⟨S2000000, .i32⟩
  | 106 => ⟨S2000000, .i1⟩
  | 107 => ⟨S2000000, .i1⟩
  | 108 => ⟨S_, .i32⟩
  | 109 => ⟨S2000000, .i32⟩
  | 110 => ⟨S2000000, .i1⟩
  | 111 => ⟨S2000000, .i1⟩
  | 112 => ⟨S_, .i32⟩
  | 113 => ⟨S2000000, .i32⟩
  | 114 => ⟨S2000000, .i1⟩
  | 115 => ⟨S2000000, .i1⟩
  | 116 => ⟨S2000000, .f32⟩
  | 117 => ⟨S2000000, .f32⟩
  | 118 => ⟨S_, .f32⟩
  | 119 => ⟨S_, .f32⟩
  | 120 => ⟨S2000000, .f32⟩
  | 121 => ⟨S2000000, .f32⟩
  | 122 => ⟨S_, .i32⟩
  | 123 => ⟨S2000000, .i32⟩
  | 124 => ⟨S2000000, .i32⟩
  | 125 => ⟨S2000000, .i32⟩
  | 126 => ⟨S_, .i32⟩
  | 127 => ⟨S2000000, .i32⟩
  | _ => ⟨S2000000x3, .f32⟩

abbrev hbmTy0_8 (i : Nat) : BufTy := match i % 128 with
  | 0 => ⟨S2000000, .i32⟩
  | 1 => ⟨S2000000, .i32⟩
  | 2 => ⟨S_, .i32⟩
  | 3 => ⟨S_, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S16777216, .f32⟩
  | 15 => ⟨S_, .i32⟩
  | 16 => ⟨S2000000, .i32⟩
  | 17 => ⟨S2000000, .i32⟩
  | 18 => ⟨S_, .i32⟩
  | 19 => ⟨S2000000, .i32⟩
  | 20 => ⟨S2000000, .i32⟩
  | 21 => ⟨S_, .i32⟩
  | 22 => ⟨S2000000, .i32⟩
  | 23 => ⟨S2000000, .i32⟩
  | 24 => ⟨S_, .i32⟩
  | 25 => ⟨S2000000, .i32⟩
  | 26 => ⟨S2000000, .i1⟩
  | 27 => ⟨S_, .i32⟩
  | 28 => ⟨S2000000, .i32⟩
  | 29 => ⟨S2000000, .i1⟩
  | 30 => ⟨S2000000, .i1⟩
  | 31 => ⟨S_, .i32⟩
  | 32 => ⟨S2000000, .i32⟩
  | 33 => ⟨S2000000, .i1⟩
  | 34 => ⟨S2000000, .i1⟩
  | 35 => ⟨S_, .i32⟩
  | 36 => ⟨S2000000, .i32⟩
  | 37 => ⟨S2000000, .i1⟩
  | 38 => ⟨S2000000, .i1⟩
  | 39 => ⟨S_, .i32⟩
  | 40 => ⟨S2000000, .i32⟩
  | 41 => ⟨S2000000, .i1⟩
  | 42 => ⟨S2000000, .i1⟩
  | 43 => ⟨S_, .i32⟩
  | 44 => ⟨S2000000, .i32⟩
  | 45 => ⟨S2000000, .i1⟩
  | 46 => ⟨S2000000, .i1⟩
  | 47 => ⟨S2000000, .f32⟩
  | 48 => ⟨S2000000, .f32⟩
  | 49 => ⟨S_, .f32⟩
  | 50 => ⟨S_, .f32⟩
  | 51 => ⟨S2000000, .f32⟩
  | 52 => ⟨S2000000, .f32⟩
  | 53 => ⟨S_, .i32⟩
  | 54 => ⟨S2000000, .i32⟩
  | 55 => ⟨S2000000, .i32⟩
  | 56 => ⟨S2000000, .i32⟩
  | 57 => ⟨S_, .i32⟩
  | 58 => ⟨S2000000, .i32⟩
  | 59 => ⟨S2000000, .i32⟩
  | 60 => ⟨S2000000, .i32⟩
  | 61 => ⟨S_, .i32⟩
  | 62 => ⟨S_, .i32⟩
  | 63 => ⟨S2000000, .i32⟩
  | 64 => ⟨S2000000, .i32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S16777216, .f32⟩
  | 74 => ⟨S256x256x256, .f32⟩
  | 75 => ⟨S256x256x256, .f32⟩
  | 76 => ⟨S256x256x256, .f32⟩
  | 77 => ⟨S_, .f32⟩
  | 78 => ⟨S256x256x256, .f32⟩
  | 79 => ⟨S256x256x256, .i1⟩
  | 80 => ⟨S_, .f32⟩
  | 81 => ⟨S256x256x256, .f32⟩
  | 82 => ⟨S256x256x256, .f32⟩
  | 83 => ⟨S256x256x256, .f32⟩
  | 84 => ⟨S_, .f32⟩
  | 85 => ⟨S256x256x256, .f32⟩
  | 86 => ⟨S256x256x256, .f32⟩
  | 87 => ⟨S256x256x256, .f32⟩
  | 88 => ⟨S_, .f32⟩
  | 89 => ⟨S_, .f32⟩
  | _ => ⟨S2000000x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S2000000x3, .f32⟩

abbrev bufTy : (tb : Table) → Fin (tcTables nBuf tb) → BufTy
  | .hbm, ⟨i, _⟩ => hbmTy i
  | _, _ => ⟨S2000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_v26 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_v44 : Ref sig .tc := ⟨.hbm, 62, rfl⟩
abbrev main_cst_14 : Ref sig .tc := ⟨.hbm, 63, rfl⟩
abbrev main_v45 : Ref sig .tc := ⟨.hbm, 64, rfl⟩
abbrev main_v46 : Ref sig .tc := ⟨.hbm, 65, rfl⟩
abbrev main_c : Ref sig .tc := ⟨.hbm, 66, rfl⟩
abbrev main_v47 : Ref sig .tc := ⟨.hbm, 67, rfl⟩
abbrev main_v48 : Ref sig .tc := ⟨.hbm, 68, rfl⟩
abbrev main_c_15 : Ref sig .tc := ⟨.hbm, 69, rfl⟩
abbrev main_v49 : Ref sig .tc := ⟨.hbm, 70, rfl⟩
abbrev main_v50 : Ref sig .tc := ⟨.hbm, 71, rfl⟩
abbrev main_c_16 : Ref sig .tc := ⟨.hbm, 72, rfl⟩
abbrev main_v51 : Ref sig .tc := ⟨.hbm, 73, rfl⟩
abbrev main_v52 : Ref sig .tc := ⟨.hbm, 74, rfl⟩
abbrev main_c_17 : Ref sig .tc := ⟨.hbm, 75, rfl⟩
abbrev main_v53 : Ref sig .tc := ⟨.hbm, 76, rfl⟩
abbrev main_v54 : Ref sig .tc := ⟨.hbm, 77, rfl⟩
abbrev main_c_18 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_19 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_20 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_22 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_call0_v0 : Ref sig .tc := ⟨.hbm, 101, rfl⟩
abbrev main_call0_v1 : Ref sig .tc := ⟨.hbm, 102, rfl⟩
abbrev main_v72 : Ref sig .tc := ⟨.hbm, 103, rfl⟩
abbrev main_c_24 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_c_25 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_26 : Ref sig .tc := ⟨.hbm, 112, rfl⟩
abbrev main_call1_v0 : Ref sig .tc := ⟨.hbm, 113, rfl⟩
abbrev main_call1_v1 : Ref sig .tc := ⟨.hbm, 114, rfl⟩
abbrev main_v79 : Ref sig .tc := ⟨.hbm, 115, rfl⟩
abbrev main_c_27 : Ref sig .tc := ⟨.hbm, 116, rfl⟩
abbrev main_v80 : Ref sig .tc := ⟨.hbm, 117, rfl⟩
abbrev main_v81 : Ref sig .tc := ⟨.hbm, 118, rfl⟩
abbrev main_c_28 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_c_29 : Ref sig .tc := ⟨.hbm, 125, rfl⟩
abbrev main_v87 : Ref sig .tc := ⟨.hbm, 126, rfl⟩
abbrev main_v88 : Ref sig .tc := ⟨.hbm, 127, rfl⟩
abbrev main_c_30 : Ref sig .tc := ⟨.hbm, 128, rfl⟩
abbrev main_v89 : Ref sig .tc := ⟨.hbm, 129, rfl⟩
abbrev main_v90 : Ref sig .tc := ⟨.hbm, 130, rfl⟩
abbrev main_c_31 : Ref sig .tc := ⟨.hbm, 131, rfl⟩
abbrev main_v91 : Ref sig .tc := ⟨.hbm, 132, rfl⟩
abbrev main_v92 : Ref sig .tc := ⟨.hbm, 133, rfl⟩
abbrev main_c_32 : Ref sig .tc := ⟨.hbm, 134, rfl⟩
abbrev main_v93 : Ref sig .tc := ⟨.hbm, 135, rfl⟩
abbrev main_v94 : Ref sig .tc := ⟨.hbm, 136, rfl⟩
abbrev main_c_33 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_34 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_c_35 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_36 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_c_37 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_38 : Ref sig .tc := ⟨.hbm, 159, rfl⟩
abbrev main_call2_v0 : Ref sig .tc := ⟨.hbm, 160, rfl⟩
abbrev main_call2_v1 : Ref sig .tc := ⟨.hbm, 161, rfl⟩
abbrev main_v112 : Ref sig .tc := ⟨.hbm, 162, rfl⟩
abbrev main_c_39 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_c_40 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_41 : Ref sig .tc := ⟨.hbm, 171, rfl⟩
abbrev main_call3_v0 : Ref sig .tc := ⟨.hbm, 172, rfl⟩
abbrev main_call3_v1 : Ref sig .tc := ⟨.hbm, 173, rfl⟩
abbrev main_v119 : Ref sig .tc := ⟨.hbm, 174, rfl⟩
abbrev main_c_42 : Ref sig .tc := ⟨.hbm, 175, rfl⟩
abbrev main_v120 : Ref sig .tc := ⟨.hbm, 176, rfl⟩
abbrev main_v121 : Ref sig .tc := ⟨.hbm, 177, rfl⟩
abbrev main_c_43 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_cst_44 : Ref sig .tc := ⟨.hbm, 184, rfl⟩
abbrev main_v127 : Ref sig .tc := ⟨.hbm, 185, rfl⟩
abbrev main_v128 : Ref sig .tc := ⟨.hbm, 186, rfl⟩
abbrev main_c_45 : Ref sig .tc := ⟨.hbm, 187, rfl⟩
abbrev main_v129 : Ref sig .tc := ⟨.hbm, 188, rfl⟩
abbrev main_v130 : Ref sig .tc := ⟨.hbm, 189, rfl⟩
abbrev main_c_46 : Ref sig .tc := ⟨.hbm, 190, rfl⟩
abbrev main_v131 : Ref sig .tc := ⟨.hbm, 191, rfl⟩
abbrev main_v132 : Ref sig .tc := ⟨.hbm, 192, rfl⟩
abbrev main_c_47 : Ref sig .tc := ⟨.hbm, 193, rfl⟩
abbrev main_v133 : Ref sig .tc := ⟨.hbm, 194, rfl⟩
abbrev main_v134 : Ref sig .tc := ⟨.hbm, 195, rfl⟩
abbrev main_c_48 : Ref sig .tc := ⟨.hbm, 196, rfl⟩
abbrev main_v135 : Ref sig .tc := ⟨.hbm, 197, rfl⟩
abbrev main_v136 : Ref sig .tc := ⟨.hbm, 198, rfl⟩
abbrev main_c_49 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_c_50 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_c_51 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_52 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_c_53 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_cst_54 : Ref sig .tc := ⟨.hbm, 221, rfl⟩
abbrev main_call4_v0 : Ref sig .tc := ⟨.hbm, 222, rfl⟩
abbrev main_call4_v1 : Ref sig .tc := ⟨.hbm, 223, rfl⟩
abbrev main_v154 : Ref sig .tc := ⟨.hbm, 224, rfl⟩
abbrev main_c_55 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_c_56 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_c_57 : Ref sig .tc := ⟨.hbm, 233, rfl⟩
abbrev main_call5_v0 : Ref sig .tc := ⟨.hbm, 234, rfl⟩
abbrev main_call5_v1 : Ref sig .tc := ⟨.hbm, 235, rfl⟩
abbrev main_v161 : Ref sig .tc := ⟨.hbm, 236, rfl⟩
abbrev main_c_58 : Ref sig .tc := ⟨.hbm, 237, rfl⟩
abbrev main_v162 : Ref sig .tc := ⟨.hbm, 238, rfl⟩
abbrev main_v163 : Ref sig .tc := ⟨.hbm, 239, rfl⟩
abbrev main_c_59 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_c_60 : Ref sig .tc := ⟨.hbm, 246, rfl⟩
abbrev main_v169 : Ref sig .tc := ⟨.hbm, 247, rfl⟩
abbrev main_v170 : Ref sig .tc := ⟨.hbm, 248, rfl⟩
abbrev main_c_61 : Ref sig .tc := ⟨.hbm, 249, rfl⟩
abbrev main_v171 : Ref sig .tc := ⟨.hbm, 250, rfl⟩
abbrev main_v172 : Ref sig .tc := ⟨.hbm, 251, rfl⟩
abbrev main_c_62 : Ref sig .tc := ⟨.hbm, 252, rfl⟩
abbrev main_v173 : Ref sig .tc := ⟨.hbm, 253, rfl⟩
abbrev main_v174 : Ref sig .tc := ⟨.hbm, 254, rfl⟩
abbrev main_c_63 : Ref sig .tc := ⟨.hbm, 255, rfl⟩
abbrev main_v175 : Ref sig .tc := ⟨.hbm, 256, rfl⟩
abbrev main_v176 : Ref sig .tc := ⟨.hbm, 257, rfl⟩
abbrev main_c_64 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_c_65 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_c_66 : Ref sig .tc := ⟨.hbm, 266, rfl⟩
abbrev main_v183 : Ref sig .tc := ⟨.hbm, 267, rfl⟩
abbrev main_v184 : Ref sig .tc := ⟨.hbm, 268, rfl⟩
abbrev main_v185 : Ref sig .tc := ⟨.hbm, 269, rfl⟩
abbrev main_c_67 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_c_68 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_cst_69 : Ref sig .tc := ⟨.hbm, 280, rfl⟩
abbrev main_call6_v0 : Ref sig .tc := ⟨.hbm, 281, rfl⟩
abbrev main_call6_v1 : Ref sig .tc := ⟨.hbm, 282, rfl⟩
abbrev main_v194 : Ref sig .tc := ⟨.hbm, 283, rfl⟩
abbrev main_c_70 : Ref sig .tc := ⟨.hbm, 284, rfl⟩
abbrev main_v195 : Ref sig .tc := ⟨.hbm, 285, rfl⟩
abbrev main_v196 : Ref sig .tc := ⟨.hbm, 286, rfl⟩
abbrev main_v197 : Ref sig .tc := ⟨.hbm, 287, rfl⟩
abbrev main_c_71 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_c_72 : Ref sig .tc := ⟨.hbm, 292, rfl⟩
abbrev main_call7_v0 : Ref sig .tc := ⟨.hbm, 293, rfl⟩
abbrev main_call7_v1 : Ref sig .tc := ⟨.hbm, 294, rfl⟩
abbrev main_v201 : Ref sig .tc := ⟨.hbm, 295, rfl⟩
abbrev main_c_73 : Ref sig .tc := ⟨.hbm, 296, rfl⟩
abbrev main_v202 : Ref sig .tc := ⟨.hbm, 297, rfl⟩
abbrev main_v203 : Ref sig .tc := ⟨.hbm, 298, rfl⟩
abbrev main_c_74 : Ref sig .tc := ⟨.hbm, 299, rfl⟩
abbrev main_v204 : Ref sig .tc := ⟨.hbm, 300, rfl⟩
abbrev main_v205 : Ref sig .tc := ⟨.hbm, 301, rfl⟩
abbrev main_v206 : Ref sig .tc := ⟨.hbm, 302, rfl⟩
abbrev main_v207 : Ref sig .tc := ⟨.hbm, 303, rfl⟩
abbrev main_v208 : Ref sig .tc := ⟨.hbm, 304, rfl⟩
abbrev main_cst_75 : Ref sig .tc := ⟨.hbm, 305, rfl⟩
abbrev main_v209 : Ref sig .tc := ⟨.hbm, 306, rfl⟩
abbrev main_v210 : Ref sig .tc := ⟨.hbm, 307, rfl⟩
abbrev main_cst_76 : Ref sig .tc := ⟨.hbm, 308, rfl⟩
abbrev main_v211 : Ref sig .tc := ⟨.hbm, 309, rfl⟩
abbrev main_v212 : Ref sig .tc := ⟨.hbm, 310, rfl⟩
abbrev main_c_77 : Ref sig .tc := ⟨.hbm, 311, rfl⟩
abbrev main_v213 : Ref sig .tc := ⟨.hbm, 312, rfl⟩
abbrev main_v214 : Ref sig .tc := ⟨.hbm, 313, rfl⟩
abbrev main_c_78 : Ref sig .tc := ⟨.hbm, 314, rfl⟩
abbrev main_v215 : Ref sig .tc := ⟨.hbm, 315, rfl⟩
abbrev main_v216 : Ref sig .tc := ⟨.hbm, 316, rfl⟩
abbrev main_c_79 : Ref sig .tc := ⟨.hbm, 317, rfl⟩
abbrev main_v217 : Ref sig .tc := ⟨.hbm, 318, rfl⟩
abbrev main_v218 : Ref sig .tc := ⟨.hbm, 319, rfl⟩
abbrev main_c_80 : Ref sig .tc := ⟨.hbm, 320, rfl⟩
abbrev main_v219 : Ref sig .tc := ⟨.hbm, 321, rfl⟩
abbrev main_v220 : Ref sig .tc := ⟨.hbm, 322, rfl⟩
abbrev main_c_81 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_c_82 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_c_83 : Ref sig .tc := ⟨.hbm, 331, rfl⟩
abbrev main_v227 : Ref sig .tc := ⟨.hbm, 332, rfl⟩
abbrev main_v228 : Ref sig .tc := ⟨.hbm, 333, rfl⟩
abbrev main_v229 : Ref sig .tc := ⟨.hbm, 334, rfl⟩
abbrev main_c_84 : Ref sig .tc := ⟨.hbm, 335, rfl⟩
abbrev main_v230 : Ref sig .tc := ⟨.hbm, 336, rfl⟩
abbrev main_v231 : Ref sig .tc := ⟨.hbm, 337, rfl⟩
abbrev main_v232 : Ref sig .tc := ⟨.hbm, 338, rfl⟩
abbrev main_c_85 : Ref sig .tc := ⟨.hbm, 339, rfl⟩
abbrev main_v233 : Ref sig .tc := ⟨.hbm, 340, rfl⟩
abbrev main_v234 : Ref sig .tc := ⟨.hbm, 341, rfl⟩
abbrev main_v235 : Ref sig .tc := ⟨.hbm, 342, rfl⟩
abbrev main_v236 : Ref sig .tc := ⟨.hbm, 343, rfl⟩
abbrev main_v237 : Ref sig .tc := ⟨.hbm, 344, rfl⟩
abbrev main_cst_86 : Ref sig .tc := ⟨.hbm, 345, rfl⟩
abbrev main_call8_v0 : Ref sig .tc := ⟨.hbm, 346, rfl⟩
abbrev main_call8_v1 : Ref sig .tc := ⟨.hbm, 347, rfl⟩
abbrev main_v238 : Ref sig .tc := ⟨.hbm, 348, rfl⟩
abbrev main_c_87 : Ref sig .tc := ⟨.hbm, 349, rfl⟩
abbrev main_v239 : Ref sig .tc := ⟨.hbm, 350, rfl⟩
abbrev main_v240 : Ref sig .tc := ⟨.hbm, 351, rfl⟩
abbrev main_v241 : Ref sig .tc := ⟨.hbm, 352, rfl⟩
abbrev main_c_88 : Ref sig .tc := ⟨.hbm, 353, rfl⟩
abbrev main_v242 : Ref sig .tc := ⟨.hbm, 354, rfl⟩
abbrev main_v243 : Ref sig .tc := ⟨.hbm, 355, rfl⟩
abbrev main_v244 : Ref sig .tc := ⟨.hbm, 356, rfl⟩
abbrev main_c_89 : Ref sig .tc := ⟨.hbm, 357, rfl⟩
abbrev main_call9_v0 : Ref sig .tc := ⟨.hbm, 358, rfl⟩
abbrev main_call9_v1 : Ref sig .tc := ⟨.hbm, 359, rfl⟩
abbrev main_v245 : Ref sig .tc := ⟨.hbm, 360, rfl⟩
abbrev main_c_90 : Ref sig .tc := ⟨.hbm, 361, rfl⟩
abbrev main_v246 : Ref sig .tc := ⟨.hbm, 362, rfl⟩
abbrev main_v247 : Ref sig .tc := ⟨.hbm, 363, rfl⟩
abbrev main_c_91 : Ref sig .tc := ⟨.hbm, 364, rfl⟩
abbrev main_v248 : Ref sig .tc := ⟨.hbm, 365, rfl⟩
abbrev main_v249 : Ref sig .tc := ⟨.hbm, 366, rfl⟩
abbrev main_v250 : Ref sig .tc := ⟨.hbm, 367, rfl⟩
abbrev main_v251 : Ref sig .tc := ⟨.hbm, 368, rfl⟩
abbrev main_v252 : Ref sig .tc := ⟨.hbm, 369, rfl⟩
abbrev main_c_92 : Ref sig .tc := ⟨.hbm, 370, rfl⟩
abbrev main_v253 : Ref sig .tc := ⟨.hbm, 371, rfl⟩
abbrev main_v254 : Ref sig .tc := ⟨.hbm, 372, rfl⟩
abbrev main_c_93 : Ref sig .tc := ⟨.hbm, 373, rfl⟩
abbrev main_v255 : Ref sig .tc := ⟨.hbm, 374, rfl⟩
abbrev main_v256 : Ref sig .tc := ⟨.hbm, 375, rfl⟩
abbrev main_c_94 : Ref sig .tc := ⟨.hbm, 376, rfl⟩
abbrev main_v257 : Ref sig .tc := ⟨.hbm, 377, rfl⟩
abbrev main_v258 : Ref sig .tc := ⟨.hbm, 378, rfl⟩
abbrev main_c_95 : Ref sig .tc := ⟨.hbm, 379, rfl⟩
abbrev main_v259 : Ref sig .tc := ⟨.hbm, 380, rfl⟩
abbrev main_v260 : Ref sig .tc := ⟨.hbm, 381, rfl⟩
abbrev main_c_96 : Ref sig .tc := ⟨.hbm, 382, rfl⟩
abbrev main_v261 : Ref sig .tc := ⟨.hbm, 383, rfl⟩
abbrev main_v262 : Ref sig .tc := ⟨.hbm, 384, rfl⟩
abbrev main_v263 : Ref sig .tc := ⟨.hbm, 385, rfl⟩
abbrev main_c_97 : Ref sig .tc := ⟨.hbm, 386, rfl⟩
abbrev main_v264 : Ref sig .tc := ⟨.hbm, 387, rfl⟩
abbrev main_v265 : Ref sig .tc := ⟨.hbm, 388, rfl⟩
abbrev main_v266 : Ref sig .tc := ⟨.hbm, 389, rfl⟩
abbrev main_c_98 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_c_99 : Ref sig .tc := ⟨.hbm, 394, rfl⟩
abbrev main_v270 : Ref sig .tc := ⟨.hbm, 395, rfl⟩
abbrev main_v271 : Ref sig .tc := ⟨.hbm, 396, rfl⟩
abbrev main_v272 : Ref sig .tc := ⟨.hbm, 397, rfl⟩
abbrev main_c_100 : Ref sig .tc := ⟨.hbm, 398, rfl⟩
abbrev main_v273 : Ref sig .tc := ⟨.hbm, 399, rfl⟩
abbrev main_v274 : Ref sig .tc := ⟨.hbm, 400, rfl⟩
abbrev main_v275 : Ref sig .tc := ⟨.hbm, 401, rfl⟩
abbrev main_v276 : Ref sig .tc := ⟨.hbm, 402, rfl⟩
abbrev main_v277 : Ref sig .tc := ⟨.hbm, 403, rfl⟩
abbrev main_cst_101 : Ref sig .tc := ⟨.hbm, 404, rfl⟩
abbrev main_call10_v0 : Ref sig .tc := ⟨.hbm, 405, rfl⟩
abbrev main_call10_v1 : Ref sig .tc := ⟨.hbm, 406, rfl⟩
abbrev main_v278 : Ref sig .tc := ⟨.hbm, 407, rfl⟩
abbrev main_c_102 : Ref sig .tc := ⟨.hbm, 408, rfl⟩
abbrev main_v279 : Ref sig .tc := ⟨.hbm, 409, rfl⟩
abbrev main_v280 : Ref sig .tc := ⟨.hbm, 410, rfl⟩
abbrev main_v281 : Ref sig .tc := ⟨.hbm, 411, rfl⟩
abbrev main_c_103 : Ref sig .tc := ⟨.hbm, 412, rfl⟩
abbrev main_v282 : Ref sig .tc := ⟨.hbm, 413, rfl⟩
abbrev main_v283 : Ref sig .tc := ⟨.hbm, 414, rfl⟩
abbrev main_v284 : Ref sig .tc := ⟨.hbm, 415, rfl⟩
abbrev main_c_104 : Ref sig .tc := ⟨.hbm, 416, rfl⟩
abbrev main_call11_v0 : Ref sig .tc := ⟨.hbm, 417, rfl⟩
abbrev main_call11_v1 : Ref sig .tc := ⟨.hbm, 418, rfl⟩
abbrev main_v285 : Ref sig .tc := ⟨.hbm, 419, rfl⟩
abbrev main_c_105 : Ref sig .tc := ⟨.hbm, 420, rfl⟩
abbrev main_v286 : Ref sig .tc := ⟨.hbm, 421, rfl⟩
abbrev main_v287 : Ref sig .tc := ⟨.hbm, 422, rfl⟩
abbrev main_c_106 : Ref sig .tc := ⟨.hbm, 423, rfl⟩
abbrev main_v288 : Ref sig .tc := ⟨.hbm, 424, rfl⟩
abbrev main_v289 : Ref sig .tc := ⟨.hbm, 425, rfl⟩
abbrev main_v290 : Ref sig .tc := ⟨.hbm, 426, rfl⟩
abbrev main_v291 : Ref sig .tc := ⟨.hbm, 427, rfl⟩
abbrev main_v292 : Ref sig .tc := ⟨.hbm, 428, rfl⟩
abbrev main_cst_107 : Ref sig .tc := ⟨.hbm, 429, rfl⟩
abbrev main_v293 : Ref sig .tc := ⟨.hbm, 430, rfl⟩
abbrev main_v294 : Ref sig .tc := ⟨.hbm, 431, rfl⟩
abbrev main_c_108 : Ref sig .tc := ⟨.hbm, 432, rfl⟩
abbrev main_v295 : Ref sig .tc := ⟨.hbm, 433, rfl⟩
abbrev main_v296 : Ref sig .tc := ⟨.hbm, 434, rfl⟩
abbrev main_c_109 : Ref sig .tc := ⟨.hbm, 435, rfl⟩
abbrev main_v297 : Ref sig .tc := ⟨.hbm, 436, rfl⟩
abbrev main_v298 : Ref sig .tc := ⟨.hbm, 437, rfl⟩
abbrev main_c_110 : Ref sig .tc := ⟨.hbm, 438, rfl⟩
abbrev main_v299 : Ref sig .tc := ⟨.hbm, 439, rfl⟩
abbrev main_v300 : Ref sig .tc := ⟨.hbm, 440, rfl⟩
abbrev main_c_111 : Ref sig .tc := ⟨.hbm, 441, rfl⟩
abbrev main_v301 : Ref sig .tc := ⟨.hbm, 442, rfl⟩
abbrev main_v302 : Ref sig .tc := ⟨.hbm, 443, rfl⟩
abbrev main_c_112 : Ref sig .tc := ⟨.hbm, 444, rfl⟩
abbrev main_v303 : Ref sig .tc := ⟨.hbm, 445, rfl⟩
abbrev main_v304 : Ref sig .tc := ⟨.hbm, 446, rfl⟩
abbrev main_v305 : Ref sig .tc := ⟨.hbm, 447, rfl⟩
abbrev main_c_113 : Ref sig .tc := ⟨.hbm, 448, rfl⟩
abbrev main_v306 : Ref sig .tc := ⟨.hbm, 449, rfl⟩
abbrev main_v307 : Ref sig .tc := ⟨.hbm, 450, rfl⟩
abbrev main_v308 : Ref sig .tc := ⟨.hbm, 451, rfl⟩
abbrev main_c_114 : Ref sig .tc := ⟨.hbm, 452, rfl⟩
abbrev main_v309 : Ref sig .tc := ⟨.hbm, 453, rfl⟩
abbrev main_v310 : Ref sig .tc := ⟨.hbm, 454, rfl⟩
abbrev main_v311 : Ref sig .tc := ⟨.hbm, 455, rfl⟩
abbrev main_c_115 : Ref sig .tc := ⟨.hbm, 456, rfl⟩
abbrev main_v312 : Ref sig .tc := ⟨.hbm, 457, rfl⟩
abbrev main_v313 : Ref sig .tc := ⟨.hbm, 458, rfl⟩
abbrev main_v314 : Ref sig .tc := ⟨.hbm, 459, rfl⟩
abbrev main_c_116 : Ref sig .tc := ⟨.hbm, 460, rfl⟩
abbrev main_v315 : Ref sig .tc := ⟨.hbm, 461, rfl⟩
abbrev main_v316 : Ref sig .tc := ⟨.hbm, 462, rfl⟩
abbrev main_v317 : Ref sig .tc := ⟨.hbm, 463, rfl⟩
abbrev main_v318 : Ref sig .tc := ⟨.hbm, 464, rfl⟩
abbrev main_v319 : Ref sig .tc := ⟨.hbm, 465, rfl⟩
abbrev main_cst_117 : Ref sig .tc := ⟨.hbm, 466, rfl⟩
abbrev main_call12_v0 : Ref sig .tc := ⟨.hbm, 467, rfl⟩
abbrev main_call12_v1 : Ref sig .tc := ⟨.hbm, 468, rfl⟩
abbrev main_v320 : Ref sig .tc := ⟨.hbm, 469, rfl⟩
abbrev main_c_118 : Ref sig .tc := ⟨.hbm, 470, rfl⟩
abbrev main_v321 : Ref sig .tc := ⟨.hbm, 471, rfl⟩
abbrev main_v322 : Ref sig .tc := ⟨.hbm, 472, rfl⟩
abbrev main_v323 : Ref sig .tc := ⟨.hbm, 473, rfl⟩
abbrev main_c_119 : Ref sig .tc := ⟨.hbm, 474, rfl⟩
abbrev main_v324 : Ref sig .tc := ⟨.hbm, 475, rfl⟩
abbrev main_v325 : Ref sig .tc := ⟨.hbm, 476, rfl⟩
abbrev main_v326 : Ref sig .tc := ⟨.hbm, 477, rfl⟩
abbrev main_c_120 : Ref sig .tc := ⟨.hbm, 478, rfl⟩
abbrev main_call13_v0 : Ref sig .tc := ⟨.hbm, 479, rfl⟩
abbrev main_call13_v1 : Ref sig .tc := ⟨.hbm, 480, rfl⟩
abbrev main_v327 : Ref sig .tc := ⟨.hbm, 481, rfl⟩
abbrev main_c_121 : Ref sig .tc := ⟨.hbm, 482, rfl⟩
abbrev main_v328 : Ref sig .tc := ⟨.hbm, 483, rfl⟩
abbrev main_v329 : Ref sig .tc := ⟨.hbm, 484, rfl⟩
abbrev main_c_122 : Ref sig .tc := ⟨.hbm, 485, rfl⟩
abbrev main_v330 : Ref sig .tc := ⟨.hbm, 486, rfl⟩
abbrev main_v331 : Ref sig .tc := ⟨.hbm, 487, rfl⟩
abbrev main_v332 : Ref sig .tc := ⟨.hbm, 488, rfl⟩
abbrev main_v333 : Ref sig .tc := ⟨.hbm, 489, rfl⟩
abbrev main_v334 : Ref sig .tc := ⟨.hbm, 490, rfl⟩
abbrev main_c_123 : Ref sig .tc := ⟨.hbm, 491, rfl⟩
abbrev main_v335 : Ref sig .tc := ⟨.hbm, 492, rfl⟩
abbrev main_v336 : Ref sig .tc := ⟨.hbm, 493, rfl⟩
abbrev main_c_124 : Ref sig .tc := ⟨.hbm, 494, rfl⟩
abbrev main_v337 : Ref sig .tc := ⟨.hbm, 495, rfl⟩
abbrev main_v338 : Ref sig .tc := ⟨.hbm, 496, rfl⟩
abbrev main_c_125 : Ref sig .tc := ⟨.hbm, 497, rfl⟩
abbrev main_v339 : Ref sig .tc := ⟨.hbm, 498, rfl⟩
abbrev main_v340 : Ref sig .tc := ⟨.hbm, 499, rfl⟩
abbrev main_c_126 : Ref sig .tc := ⟨.hbm, 500, rfl⟩
abbrev main_v341 : Ref sig .tc := ⟨.hbm, 501, rfl⟩
abbrev main_v342 : Ref sig .tc := ⟨.hbm, 502, rfl⟩
abbrev main_c_127 : Ref sig .tc := ⟨.hbm, 503, rfl⟩
abbrev main_v343 : Ref sig .tc := ⟨.hbm, 504, rfl⟩
abbrev main_v344 : Ref sig .tc := ⟨.hbm, 505, rfl⟩
abbrev main_v345 : Ref sig .tc := ⟨.hbm, 506, rfl⟩
abbrev main_c_128 : Ref sig .tc := ⟨.hbm, 507, rfl⟩
abbrev main_v346 : Ref sig .tc := ⟨.hbm, 508, rfl⟩
abbrev main_v347 : Ref sig .tc := ⟨.hbm, 509, rfl⟩
abbrev main_v348 : Ref sig .tc := ⟨.hbm, 510, rfl⟩
abbrev main_c_129 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_c_130 : Ref sig .tc := ⟨.hbm, 515, rfl⟩
abbrev main_v352 : Ref sig .tc := ⟨.hbm, 516, rfl⟩
abbrev main_v353 : Ref sig .tc := ⟨.hbm, 517, rfl⟩
abbrev main_v354 : Ref sig .tc := ⟨.hbm, 518, rfl⟩
abbrev main_c_131 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_cst_132 : Ref sig .tc := ⟨.hbm, 525, rfl⟩
abbrev main_call14_v0 : Ref sig .tc := ⟨.hbm, 526, rfl⟩
abbrev main_call14_v1 : Ref sig .tc := ⟨.hbm, 527, rfl⟩
abbrev main_v360 : Ref sig .tc := ⟨.hbm, 528, rfl⟩
abbrev main_c_133 : Ref sig .tc := ⟨.hbm, 529, rfl⟩
abbrev main_v361 : Ref sig .tc := ⟨.hbm, 530, rfl⟩
abbrev main_v362 : Ref sig .tc := ⟨.hbm, 531, rfl⟩
abbrev main_v363 : Ref sig .tc := ⟨.hbm, 532, rfl⟩
abbrev main_c_134 : Ref sig .tc := ⟨.hbm, 533, rfl⟩
abbrev main_v364 : Ref sig .tc := ⟨.hbm, 534, rfl⟩
abbrev main_v365 : Ref sig .tc := ⟨.hbm, 535, rfl⟩
abbrev main_v366 : Ref sig .tc := ⟨.hbm, 536, rfl⟩
abbrev main_c_135 : Ref sig .tc := ⟨.hbm, 537, rfl⟩
abbrev main_call15_v0 : Ref sig .tc := ⟨.hbm, 538, rfl⟩
abbrev main_call15_v1 : Ref sig .tc := ⟨.hbm, 539, rfl⟩
abbrev main_v367 : Ref sig .tc := ⟨.hbm, 540, rfl⟩
abbrev main_c_136 : Ref sig .tc := ⟨.hbm, 541, rfl⟩
abbrev main_v368 : Ref sig .tc := ⟨.hbm, 542, rfl⟩
abbrev main_v369 : Ref sig .tc := ⟨.hbm, 543, rfl⟩
abbrev main_c_137 : Ref sig .tc := ⟨.hbm, 544, rfl⟩
abbrev main_v370 : Ref sig .tc := ⟨.hbm, 545, rfl⟩
abbrev main_v371 : Ref sig .tc := ⟨.hbm, 546, rfl⟩
abbrev main_v372 : Ref sig .tc := ⟨.hbm, 547, rfl⟩
abbrev main_v373 : Ref sig .tc := ⟨.hbm, 548, rfl⟩
abbrev main_v374 : Ref sig .tc := ⟨.hbm, 549, rfl⟩
abbrev main_v375 : Ref sig .tc := ⟨.hbm, 550, rfl⟩
abbrev main_v376 : Ref sig .tc := ⟨.hbm, 551, rfl⟩
abbrev main_v377 : Ref sig .tc := ⟨.hbm, 552, rfl⟩
abbrev main_v378 : Ref sig .tc := ⟨.hbm, 553, rfl⟩
abbrev main_cst_138 : Ref sig .tc := ⟨.hbm, 554, rfl⟩
abbrev main_v379 : Ref sig .tc := ⟨.hbm, 555, rfl⟩
abbrev main_v380 : Ref sig .tc := ⟨.hbm, 556, rfl⟩
abbrev main_cst_139 : Ref sig .tc := ⟨.hbm, 557, rfl⟩
abbrev main_v381 : Ref sig .tc := ⟨.hbm, 558, rfl⟩
abbrev main_v382 : Ref sig .tc := ⟨.hbm, 559, rfl⟩
abbrev main_cst_140 : Ref sig .tc := ⟨.hbm, 560, rfl⟩
abbrev main_v383 : Ref sig .tc := ⟨.hbm, 561, rfl⟩
abbrev main_v384 : Ref sig .tc := ⟨.hbm, 562, rfl⟩
abbrev main_cst_141 : Ref sig .tc := ⟨.hbm, 563, rfl⟩
abbrev main_v385 : Ref sig .tc := ⟨.hbm, 564, rfl⟩
abbrev main_v386 : Ref sig .tc := ⟨.hbm, 565, rfl⟩
abbrev main_v387 : Ref sig .tc := ⟨.hbm, 566, rfl⟩
abbrev main_v388 : Ref sig .tc := ⟨.hbm, 567, rfl⟩
abbrev main_cst_142 : Ref sig .tc := ⟨.hbm, 568, rfl⟩
abbrev main_v389 : Ref sig .tc := ⟨.hbm, 569, rfl⟩
abbrev main_v390 : Ref sig .tc := ⟨.hbm, 570, rfl⟩
abbrev main_cst_143 : Ref sig .tc := ⟨.hbm, 571, rfl⟩
abbrev main_v391 : Ref sig .tc := ⟨.hbm, 572, rfl⟩
abbrev main_v392 : Ref sig .tc := ⟨.hbm, 573, rfl⟩
abbrev main_cst_144 : Ref sig .tc := ⟨.hbm, 574, rfl⟩
abbrev main_v393 : Ref sig .tc := ⟨.hbm, 575, rfl⟩
abbrev main_v394 : Ref sig .tc := ⟨.hbm, 576, rfl⟩
abbrev main_cst_145 : Ref sig .tc := ⟨.hbm, 577, rfl⟩
abbrev main_v395 : Ref sig .tc := ⟨.hbm, 578, rfl⟩
abbrev main_v396 : Ref sig .tc := ⟨.hbm, 579, rfl⟩
abbrev main_v397 : Ref sig .tc := ⟨.hbm, 580, rfl⟩
abbrev main_v398 : Ref sig .tc := ⟨.hbm, 581, rfl⟩
abbrev main_cst_146 : Ref sig .tc := ⟨.hbm, 582, rfl⟩
abbrev main_v399 : Ref sig .tc := ⟨.hbm, 583, rfl⟩
abbrev main_v400 : Ref sig .tc := ⟨.hbm, 584, rfl⟩
abbrev main_cst_147 : Ref sig .tc := ⟨.hbm, 585, rfl⟩
abbrev main_v401 : Ref sig .tc := ⟨.hbm, 586, rfl⟩
abbrev main_v402 : Ref sig .tc := ⟨.hbm, 587, rfl⟩
abbrev main_cst_148 : Ref sig .tc := ⟨.hbm, 588, rfl⟩
abbrev main_v403 : Ref sig .tc := ⟨.hbm, 589, rfl⟩
abbrev main_v404 : Ref sig .tc := ⟨.hbm, 590, rfl⟩
abbrev main_cst_149 : Ref sig .tc := ⟨.hbm, 591, rfl⟩
abbrev main_v405 : Ref sig .tc := ⟨.hbm, 592, rfl⟩
abbrev main_v406 : Ref sig .tc := ⟨.hbm, 593, rfl⟩
abbrev main_v407 : Ref sig .tc := ⟨.hbm, 594, rfl⟩
abbrev main_v408 : Ref sig .tc := ⟨.hbm, 595, rfl⟩
abbrev main_v409 : Ref sig .tc := ⟨.hbm, 596, rfl⟩
abbrev main_v410 : Ref sig .tc := ⟨.hbm, 597, rfl⟩
abbrev main_v411 : Ref sig .tc := ⟨.hbm, 598, rfl⟩
abbrev main_v412 : Ref sig .tc := ⟨.hbm, 599, rfl⟩
abbrev main_v413 : Ref sig .tc := ⟨.hbm, 600, rfl⟩
abbrev main_v414 : Ref sig .tc := ⟨.hbm, 601, rfl⟩
abbrev main_v415 : Ref sig .tc := ⟨.hbm, 602, rfl⟩
abbrev main_cst_150 : Ref sig .tc := ⟨.hbm, 603, rfl⟩
abbrev main_v416 : Ref sig .tc := ⟨.hbm, 604, rfl⟩
abbrev main_cst_151 : Ref sig .tc := ⟨.hbm, 605, rfl⟩
abbrev main_v417 : Ref sig .tc := ⟨.hbm, 606, rfl⟩
abbrev main_v418 : Ref sig .tc := ⟨.hbm, 607, rfl⟩
abbrev main_cst_152 : Ref sig .tc := ⟨.hbm, 608, rfl⟩
abbrev main_v419 : Ref sig .tc := ⟨.hbm, 609, rfl⟩
abbrev main_v420 : Ref sig .tc := ⟨.hbm, 610, rfl⟩
abbrev main_cst_153 : Ref sig .tc := ⟨.hbm, 611, rfl⟩
abbrev main_v421 : Ref sig .tc := ⟨.hbm, 612, rfl⟩
abbrev main_v422 : Ref sig .tc := ⟨.hbm, 613, rfl⟩
abbrev main_c_154 : Ref sig .tc := ⟨.hbm, 614, rfl⟩
abbrev main_v423 : Ref sig .tc := ⟨.hbm, 615, rfl⟩
abbrev main_v424 : Ref sig .tc := ⟨.hbm, 616, rfl⟩
abbrev main_c_155 : Ref sig .tc := ⟨.hbm, 617, rfl⟩
abbrev main_v425 : Ref sig .tc := ⟨.hbm, 618, rfl⟩
abbrev main_v426 : Ref sig .tc := ⟨.hbm, 619, rfl⟩
abbrev main_c_156 : Ref sig .tc := ⟨.hbm, 620, rfl⟩
abbrev main_v427 : Ref sig .tc := ⟨.hbm, 621, rfl⟩
abbrev main_v428 : Ref sig .tc := ⟨.hbm, 622, rfl⟩
abbrev main_c_157 : Ref sig .tc := ⟨.hbm, 623, rfl⟩
abbrev main_v429 : Ref sig .tc := ⟨.hbm, 624, rfl⟩
abbrev main_v430 : Ref sig .tc := ⟨.hbm, 625, rfl⟩
abbrev main_c_158 : Ref sig .tc := ⟨.hbm, 626, rfl⟩
abbrev main_v431 : Ref sig .tc := ⟨.hbm, 627, rfl⟩
abbrev main_v432 : Ref sig .tc := ⟨.hbm, 628, rfl⟩
abbrev main_v433 : Ref sig .tc := ⟨.hbm, 629, rfl⟩
abbrev main_c_159 : Ref sig .tc := ⟨.hbm, 630, rfl⟩
abbrev main_v434 : Ref sig .tc := ⟨.hbm, 631, rfl⟩
abbrev main_v435 : Ref sig .tc := ⟨.hbm, 632, rfl⟩
abbrev main_v436 : Ref sig .tc := ⟨.hbm, 633, rfl⟩
abbrev main_c_160 : Ref sig .tc := ⟨.hbm, 634, rfl⟩
abbrev main_v437 : Ref sig .tc := ⟨.hbm, 635, rfl⟩
abbrev main_v438 : Ref sig .tc := ⟨.hbm, 636, rfl⟩
abbrev main_v439 : Ref sig .tc := ⟨.hbm, 637, rfl⟩
abbrev main_c_161 : Ref sig .tc := ⟨.hbm, 638, rfl⟩
abbrev main_v440 : Ref sig .tc := ⟨.hbm, 639, rfl⟩
abbrev main_v441 : Ref sig .tc := ⟨.hbm, 640, rfl⟩
abbrev main_v442 : Ref sig .tc := ⟨.hbm, 641, rfl⟩
abbrev main_c_162 : Ref sig .tc := ⟨.hbm, 642, rfl⟩
abbrev main_v443 : Ref sig .tc := ⟨.hbm, 643, rfl⟩
abbrev main_v444 : Ref sig .tc := ⟨.hbm, 644, rfl⟩
abbrev main_v445 : Ref sig .tc := ⟨.hbm, 645, rfl⟩
abbrev main_v446 : Ref sig .tc := ⟨.hbm, 646, rfl⟩
abbrev main_v447 : Ref sig .tc := ⟨.hbm, 647, rfl⟩
abbrev main_cst_163 : Ref sig .tc := ⟨.hbm, 648, rfl⟩
abbrev main_call16_v0 : Ref sig .tc := ⟨.hbm, 649, rfl⟩
abbrev main_call16_v1 : Ref sig .tc := ⟨.hbm, 650, rfl⟩
abbrev main_v448 : Ref sig .tc := ⟨.hbm, 651, rfl⟩
abbrev main_c_164 : Ref sig .tc := ⟨.hbm, 652, rfl⟩
abbrev main_v449 : Ref sig .tc := ⟨.hbm, 653, rfl⟩
abbrev main_v450 : Ref sig .tc := ⟨.hbm, 654, rfl⟩
abbrev main_v451 : Ref sig .tc := ⟨.hbm, 655, rfl⟩
abbrev main_c_165 : Ref sig .tc := ⟨.hbm, 656, rfl⟩
abbrev main_v452 : Ref sig .tc := ⟨.hbm, 657, rfl⟩
abbrev main_v453 : Ref sig .tc := ⟨.hbm, 658, rfl⟩
abbrev main_v454 : Ref sig .tc := ⟨.hbm, 659, rfl⟩
abbrev main_c_166 : Ref sig .tc := ⟨.hbm, 660, rfl⟩
abbrev main_call17_v0 : Ref sig .tc := ⟨.hbm, 661, rfl⟩
abbrev main_call17_v1 : Ref sig .tc := ⟨.hbm, 662, rfl⟩
abbrev main_v455 : Ref sig .tc := ⟨.hbm, 663, rfl⟩
abbrev main_c_167 : Ref sig .tc := ⟨.hbm, 664, rfl⟩
abbrev main_v456 : Ref sig .tc := ⟨.hbm, 665, rfl⟩
abbrev main_v457 : Ref sig .tc := ⟨.hbm, 666, rfl⟩
abbrev main_c_168 : Ref sig .tc := ⟨.hbm, 667, rfl⟩
abbrev main_v458 : Ref sig .tc := ⟨.hbm, 668, rfl⟩
abbrev main_v459 : Ref sig .tc := ⟨.hbm, 669, rfl⟩
abbrev main_v460 : Ref sig .tc := ⟨.hbm, 670, rfl⟩
abbrev main_v461 : Ref sig .tc := ⟨.hbm, 671, rfl⟩
abbrev main_v462 : Ref sig .tc := ⟨.hbm, 672, rfl⟩
abbrev main_c_169 : Ref sig .tc := ⟨.hbm, 673, rfl⟩
abbrev main_v463 : Ref sig .tc := ⟨.hbm, 674, rfl⟩
abbrev main_v464 : Ref sig .tc := ⟨.hbm, 675, rfl⟩
abbrev main_c_170 : Ref sig .tc := ⟨.hbm, 676, rfl⟩
abbrev main_v465 : Ref sig .tc := ⟨.hbm, 677, rfl⟩
abbrev main_v466 : Ref sig .tc := ⟨.hbm, 678, rfl⟩
abbrev main_c_171 : Ref sig .tc := ⟨.hbm, 679, rfl⟩
abbrev main_v467 : Ref sig .tc := ⟨.hbm, 680, rfl⟩
abbrev main_v468 : Ref sig .tc := ⟨.hbm, 681, rfl⟩
abbrev main_c_172 : Ref sig .tc := ⟨.hbm, 682, rfl⟩
abbrev main_v469 : Ref sig .tc := ⟨.hbm, 683, rfl⟩
abbrev main_v470 : Ref sig .tc := ⟨.hbm, 684, rfl⟩
abbrev main_c_173 : Ref sig .tc := ⟨.hbm, 685, rfl⟩
abbrev main_v471 : Ref sig .tc := ⟨.hbm, 686, rfl⟩
abbrev main_v472 : Ref sig .tc := ⟨.hbm, 687, rfl⟩
abbrev main_v473 : Ref sig .tc := ⟨.hbm, 688, rfl⟩
abbrev main_c_174 : Ref sig .tc := ⟨.hbm, 689, rfl⟩
abbrev main_v474 : Ref sig .tc := ⟨.hbm, 690, rfl⟩
abbrev main_v475 : Ref sig .tc := ⟨.hbm, 691, rfl⟩
abbrev main_v476 : Ref sig .tc := ⟨.hbm, 692, rfl⟩
abbrev main_c_175 : Ref sig .tc := ⟨.hbm, 693, rfl⟩
abbrev main_v477 : Ref sig .tc := ⟨.hbm, 694, rfl⟩
abbrev main_v478 : Ref sig .tc := ⟨.hbm, 695, rfl⟩
abbrev main_v479 : Ref sig .tc := ⟨.hbm, 696, rfl⟩
abbrev main_c_176 : Ref sig .tc := ⟨.hbm, 697, rfl⟩
abbrev main_v480 : Ref sig .tc := ⟨.hbm, 698, rfl⟩
abbrev main_v481 : Ref sig .tc := ⟨.hbm, 699, rfl⟩
abbrev main_v482 : Ref sig .tc := ⟨.hbm, 700, rfl⟩
abbrev main_c_177 : Ref sig .tc := ⟨.hbm, 701, rfl⟩
abbrev main_v483 : Ref sig .tc := ⟨.hbm, 702, rfl⟩
abbrev main_v484 : Ref sig .tc := ⟨.hbm, 703, rfl⟩
abbrev main_v485 : Ref sig .tc := ⟨.hbm, 704, rfl⟩
abbrev main_v486 : Ref sig .tc := ⟨.hbm, 705, rfl⟩
abbrev main_v487 : Ref sig .tc := ⟨.hbm, 706, rfl⟩
abbrev main_cst_178 : Ref sig .tc := ⟨.hbm, 707, rfl⟩
abbrev main_call18_v0 : Ref sig .tc := ⟨.hbm, 708, rfl⟩
abbrev main_call18_v1 : Ref sig .tc := ⟨.hbm, 709, rfl⟩
abbrev main_v488 : Ref sig .tc := ⟨.hbm, 710, rfl⟩
abbrev main_c_179 : Ref sig .tc := ⟨.hbm, 711, rfl⟩
abbrev main_v489 : Ref sig .tc := ⟨.hbm, 712, rfl⟩
abbrev main_v490 : Ref sig .tc := ⟨.hbm, 713, rfl⟩
abbrev main_v491 : Ref sig .tc := ⟨.hbm, 714, rfl⟩
abbrev main_c_180 : Ref sig .tc := ⟨.hbm, 715, rfl⟩
abbrev main_v492 : Ref sig .tc := ⟨.hbm, 716, rfl⟩
abbrev main_v493 : Ref sig .tc := ⟨.hbm, 717, rfl⟩
abbrev main_v494 : Ref sig .tc := ⟨.hbm, 718, rfl⟩
abbrev main_c_181 : Ref sig .tc := ⟨.hbm, 719, rfl⟩
abbrev main_call19_v0 : Ref sig .tc := ⟨.hbm, 720, rfl⟩
abbrev main_call19_v1 : Ref sig .tc := ⟨.hbm, 721, rfl⟩
abbrev main_v495 : Ref sig .tc := ⟨.hbm, 722, rfl⟩
abbrev main_c_182 : Ref sig .tc := ⟨.hbm, 723, rfl⟩
abbrev main_v496 : Ref sig .tc := ⟨.hbm, 724, rfl⟩
abbrev main_v497 : Ref sig .tc := ⟨.hbm, 725, rfl⟩
abbrev main_c_183 : Ref sig .tc := ⟨.hbm, 726, rfl⟩
abbrev main_v498 : Ref sig .tc := ⟨.hbm, 727, rfl⟩
abbrev main_v499 : Ref sig .tc := ⟨.hbm, 728, rfl⟩
abbrev main_v500 : Ref sig .tc := ⟨.hbm, 729, rfl⟩
abbrev main_v501 : Ref sig .tc := ⟨.hbm, 730, rfl⟩
abbrev main_v502 : Ref sig .tc := ⟨.hbm, 731, rfl⟩
abbrev main_cst_184 : Ref sig .tc := ⟨.hbm, 732, rfl⟩
abbrev main_v503 : Ref sig .tc := ⟨.hbm, 733, rfl⟩
abbrev main_v504 : Ref sig .tc := ⟨.hbm, 734, rfl⟩
abbrev main_c_185 : Ref sig .tc := ⟨.hbm, 735, rfl⟩
abbrev main_v505 : Ref sig .tc := ⟨.hbm, 736, rfl⟩
abbrev main_v506 : Ref sig .tc := ⟨.hbm, 737, rfl⟩
abbrev main_c_186 : Ref sig .tc := ⟨.hbm, 738, rfl⟩
abbrev main_v507 : Ref sig .tc := ⟨.hbm, 739, rfl⟩
abbrev main_v508 : Ref sig .tc := ⟨.hbm, 740, rfl⟩
abbrev main_c_187 : Ref sig .tc := ⟨.hbm, 741, rfl⟩
abbrev main_v509 : Ref sig .tc := ⟨.hbm, 742, rfl⟩
abbrev main_v510 : Ref sig .tc := ⟨.hbm, 743, rfl⟩
abbrev main_c_188 : Ref sig .tc := ⟨.hbm, 744, rfl⟩
abbrev main_v511 : Ref sig .tc := ⟨.hbm, 745, rfl⟩
abbrev main_v512 : Ref sig .tc := ⟨.hbm, 746, rfl⟩
abbrev main_c_189 : Ref sig .tc := ⟨.hbm, 747, rfl⟩
abbrev main_v513 : Ref sig .tc := ⟨.hbm, 748, rfl⟩
abbrev main_v514 : Ref sig .tc := ⟨.hbm, 749, rfl⟩
abbrev main_v515 : Ref sig .tc := ⟨.hbm, 750, rfl⟩
abbrev main_c_190 : Ref sig .tc := ⟨.hbm, 751, rfl⟩
abbrev main_v516 : Ref sig .tc := ⟨.hbm, 752, rfl⟩
abbrev main_v517 : Ref sig .tc := ⟨.hbm, 753, rfl⟩
abbrev main_v518 : Ref sig .tc := ⟨.hbm, 754, rfl⟩
abbrev main_c_191 : Ref sig .tc := ⟨.hbm, 755, rfl⟩
abbrev main_v519 : Ref sig .tc := ⟨.hbm, 756, rfl⟩
abbrev main_v520 : Ref sig .tc := ⟨.hbm, 757, rfl⟩
abbrev main_v521 : Ref sig .tc := ⟨.hbm, 758, rfl⟩
abbrev main_c_192 : Ref sig .tc := ⟨.hbm, 759, rfl⟩
abbrev main_v522 : Ref sig .tc := ⟨.hbm, 760, rfl⟩
abbrev main_v523 : Ref sig .tc := ⟨.hbm, 761, rfl⟩
abbrev main_v524 : Ref sig .tc := ⟨.hbm, 762, rfl⟩
abbrev main_c_193 : Ref sig .tc := ⟨.hbm, 763, rfl⟩
abbrev main_v525 : Ref sig .tc := ⟨.hbm, 764, rfl⟩
abbrev main_v526 : Ref sig .tc := ⟨.hbm, 765, rfl⟩
abbrev main_v527 : Ref sig .tc := ⟨.hbm, 766, rfl⟩
abbrev main_v528 : Ref sig .tc := ⟨.hbm, 767, rfl⟩
abbrev main_v529 : Ref sig .tc := ⟨.hbm, 768, rfl⟩
abbrev main_cst_194 : Ref sig .tc := ⟨.hbm, 769, rfl⟩
abbrev main_call20_v0 : Ref sig .tc := ⟨.hbm, 770, rfl⟩
abbrev main_call20_v1 : Ref sig .tc := ⟨.hbm, 771, rfl⟩
abbrev main_v530 : Ref sig .tc := ⟨.hbm, 772, rfl⟩
abbrev main_c_195 : Ref sig .tc := ⟨.hbm, 773, rfl⟩
abbrev main_v531 : Ref sig .tc := ⟨.hbm, 774, rfl⟩
abbrev main_v532 : Ref sig .tc := ⟨.hbm, 775, rfl⟩
abbrev main_v533 : Ref sig .tc := ⟨.hbm, 776, rfl⟩
abbrev main_c_196 : Ref sig .tc := ⟨.hbm, 777, rfl⟩
abbrev main_v534 : Ref sig .tc := ⟨.hbm, 778, rfl⟩
abbrev main_v535 : Ref sig .tc := ⟨.hbm, 779, rfl⟩
abbrev main_v536 : Ref sig .tc := ⟨.hbm, 780, rfl⟩
abbrev main_c_197 : Ref sig .tc := ⟨.hbm, 781, rfl⟩
abbrev main_call21_v0 : Ref sig .tc := ⟨.hbm, 782, rfl⟩
abbrev main_call21_v1 : Ref sig .tc := ⟨.hbm, 783, rfl⟩
abbrev main_v537 : Ref sig .tc := ⟨.hbm, 784, rfl⟩
abbrev main_c_198 : Ref sig .tc := ⟨.hbm, 785, rfl⟩
abbrev main_v538 : Ref sig .tc := ⟨.hbm, 786, rfl⟩
abbrev main_v539 : Ref sig .tc := ⟨.hbm, 787, rfl⟩
abbrev main_c_199 : Ref sig .tc := ⟨.hbm, 788, rfl⟩
abbrev main_v540 : Ref sig .tc := ⟨.hbm, 789, rfl⟩
abbrev main_v541 : Ref sig .tc := ⟨.hbm, 790, rfl⟩
abbrev main_v542 : Ref sig .tc := ⟨.hbm, 791, rfl⟩
abbrev main_v543 : Ref sig .tc := ⟨.hbm, 792, rfl⟩
abbrev main_v544 : Ref sig .tc := ⟨.hbm, 793, rfl⟩
abbrev main_c_200 : Ref sig .tc := ⟨.hbm, 794, rfl⟩
abbrev main_v545 : Ref sig .tc := ⟨.hbm, 795, rfl⟩
abbrev main_v546 : Ref sig .tc := ⟨.hbm, 796, rfl⟩
abbrev main_c_201 : Ref sig .tc := ⟨.hbm, 797, rfl⟩
abbrev main_v547 : Ref sig .tc := ⟨.hbm, 798, rfl⟩
abbrev main_v548 : Ref sig .tc := ⟨.hbm, 799, rfl⟩
abbrev main_c_202 : Ref sig .tc := ⟨.hbm, 800, rfl⟩
abbrev main_v549 : Ref sig .tc := ⟨.hbm, 801, rfl⟩
abbrev main_v550 : Ref sig .tc := ⟨.hbm, 802, rfl⟩
abbrev main_c_203 : Ref sig .tc := ⟨.hbm, 803, rfl⟩
abbrev main_v551 : Ref sig .tc := ⟨.hbm, 804, rfl⟩
abbrev main_v552 : Ref sig .tc := ⟨.hbm, 805, rfl⟩
abbrev main_c_204 : Ref sig .tc := ⟨.hbm, 806, rfl⟩
abbrev main_v553 : Ref sig .tc := ⟨.hbm, 807, rfl⟩
abbrev main_v554 : Ref sig .tc := ⟨.hbm, 808, rfl⟩
abbrev main_v555 : Ref sig .tc := ⟨.hbm, 809, rfl⟩
abbrev main_c_205 : Ref sig .tc := ⟨.hbm, 810, rfl⟩
abbrev main_v556 : Ref sig .tc := ⟨.hbm, 811, rfl⟩
abbrev main_v557 : Ref sig .tc := ⟨.hbm, 812, rfl⟩
abbrev main_v558 : Ref sig .tc := ⟨.hbm, 813, rfl⟩
abbrev main_c_206 : Ref sig .tc := ⟨.hbm, 814, rfl⟩
abbrev main_v559 : Ref sig .tc := ⟨.hbm, 815, rfl⟩
abbrev main_v560 : Ref sig .tc := ⟨.hbm, 816, rfl⟩
abbrev main_v561 : Ref sig .tc := ⟨.hbm, 817, rfl⟩
abbrev main_c_207 : Ref sig .tc := ⟨.hbm, 818, rfl⟩
abbrev main_v562 : Ref sig .tc := ⟨.hbm, 819, rfl⟩
abbrev main_v563 : Ref sig .tc := ⟨.hbm, 820, rfl⟩
abbrev main_v564 : Ref sig .tc := ⟨.hbm, 821, rfl⟩
abbrev main_c_208 : Ref sig .tc := ⟨.hbm, 822, rfl⟩
abbrev main_v565 : Ref sig .tc := ⟨.hbm, 823, rfl⟩
abbrev main_v566 : Ref sig .tc := ⟨.hbm, 824, rfl⟩
abbrev main_v567 : Ref sig .tc := ⟨.hbm, 825, rfl⟩
abbrev main_v568 : Ref sig .tc := ⟨.hbm, 826, rfl⟩
abbrev main_v569 : Ref sig .tc := ⟨.hbm, 827, rfl⟩
abbrev main_cst_209 : Ref sig .tc := ⟨.hbm, 828, rfl⟩
abbrev main_call22_v0 : Ref sig .tc := ⟨.hbm, 829, rfl⟩
abbrev main_call22_v1 : Ref sig .tc := ⟨.hbm, 830, rfl⟩
abbrev main_v570 : Ref sig .tc := ⟨.hbm, 831, rfl⟩
abbrev main_c_210 : Ref sig .tc := ⟨.hbm, 832, rfl⟩
abbrev main_v571 : Ref sig .tc := ⟨.hbm, 833, rfl⟩
abbrev main_v572 : Ref sig .tc := ⟨.hbm, 834, rfl⟩
abbrev main_v573 : Ref sig .tc := ⟨.hbm, 835, rfl⟩
abbrev main_c_211 : Ref sig .tc := ⟨.hbm, 836, rfl⟩
abbrev main_v574 : Ref sig .tc := ⟨.hbm, 837, rfl⟩
abbrev main_v575 : Ref sig .tc := ⟨.hbm, 838, rfl⟩
abbrev main_v576 : Ref sig .tc := ⟨.hbm, 839, rfl⟩
abbrev main_c_212 : Ref sig .tc := ⟨.hbm, 840, rfl⟩
abbrev main_call23_v0 : Ref sig .tc := ⟨.hbm, 841, rfl⟩
abbrev main_call23_v1 : Ref sig .tc := ⟨.hbm, 842, rfl⟩
abbrev main_v577 : Ref sig .tc := ⟨.hbm, 843, rfl⟩
abbrev main_c_213 : Ref sig .tc := ⟨.hbm, 844, rfl⟩
abbrev main_v578 : Ref sig .tc := ⟨.hbm, 845, rfl⟩
abbrev main_v579 : Ref sig .tc := ⟨.hbm, 846, rfl⟩
abbrev main_c_214 : Ref sig .tc := ⟨.hbm, 847, rfl⟩
abbrev main_v580 : Ref sig .tc := ⟨.hbm, 848, rfl⟩
abbrev main_v581 : Ref sig .tc := ⟨.hbm, 849, rfl⟩
abbrev main_v582 : Ref sig .tc := ⟨.hbm, 850, rfl⟩
abbrev main_v583 : Ref sig .tc := ⟨.hbm, 851, rfl⟩
abbrev main_v584 : Ref sig .tc := ⟨.hbm, 852, rfl⟩
abbrev main_cst_215 : Ref sig .tc := ⟨.hbm, 853, rfl⟩
abbrev main_v585 : Ref sig .tc := ⟨.hbm, 854, rfl⟩
abbrev main_v586 : Ref sig .tc := ⟨.hbm, 855, rfl⟩
abbrev main_cst_216 : Ref sig .tc := ⟨.hbm, 856, rfl⟩
abbrev main_v587 : Ref sig .tc := ⟨.hbm, 857, rfl⟩
abbrev main_v588 : Ref sig .tc := ⟨.hbm, 858, rfl⟩
abbrev main_c_217 : Ref sig .tc := ⟨.hbm, 859, rfl⟩
abbrev main_v589 : Ref sig .tc := ⟨.hbm, 860, rfl⟩
abbrev main_v590 : Ref sig .tc := ⟨.hbm, 861, rfl⟩
abbrev main_c_218 : Ref sig .tc := ⟨.hbm, 862, rfl⟩
abbrev main_v591 : Ref sig .tc := ⟨.hbm, 863, rfl⟩
abbrev main_v592 : Ref sig .tc := ⟨.hbm, 864, rfl⟩
abbrev main_c_219 : Ref sig .tc := ⟨.hbm, 865, rfl⟩
abbrev main_v593 : Ref sig .tc := ⟨.hbm, 866, rfl⟩
abbrev main_v594 : Ref sig .tc := ⟨.hbm, 867, rfl⟩
abbrev main_c_220 : Ref sig .tc := ⟨.hbm, 868, rfl⟩
abbrev main_v595 : Ref sig .tc := ⟨.hbm, 869, rfl⟩
abbrev main_v596 : Ref sig .tc := ⟨.hbm, 870, rfl⟩
abbrev main_c_221 : Ref sig .tc := ⟨.hbm, 871, rfl⟩
abbrev main_v597 : Ref sig .tc := ⟨.hbm, 872, rfl⟩
abbrev main_v598 : Ref sig .tc := ⟨.hbm, 873, rfl⟩
abbrev main_v599 : Ref sig .tc := ⟨.hbm, 874, rfl⟩
abbrev main_c_222 : Ref sig .tc := ⟨.hbm, 875, rfl⟩
abbrev main_v600 : Ref sig .tc := ⟨.hbm, 876, rfl⟩
abbrev main_v601 : Ref sig .tc := ⟨.hbm, 877, rfl⟩
abbrev main_v602 : Ref sig .tc := ⟨.hbm, 878, rfl⟩
abbrev main_c_223 : Ref sig .tc := ⟨.hbm, 879, rfl⟩
abbrev main_v603 : Ref sig .tc := ⟨.hbm, 880, rfl⟩
abbrev main_v604 : Ref sig .tc := ⟨.hbm, 881, rfl⟩
abbrev main_v605 : Ref sig .tc := ⟨.hbm, 882, rfl⟩
abbrev main_c_224 : Ref sig .tc := ⟨.hbm, 883, rfl⟩
abbrev main_v606 : Ref sig .tc := ⟨.hbm, 884, rfl⟩
abbrev main_v607 : Ref sig .tc := ⟨.hbm, 885, rfl⟩
abbrev main_v608 : Ref sig .tc := ⟨.hbm, 886, rfl⟩
abbrev main_c_225 : Ref sig .tc := ⟨.hbm, 887, rfl⟩
abbrev main_v609 : Ref sig .tc := ⟨.hbm, 888, rfl⟩
abbrev main_v610 : Ref sig .tc := ⟨.hbm, 889, rfl⟩
abbrev main_v611 : Ref sig .tc := ⟨.hbm, 890, rfl⟩
abbrev main_v612 : Ref sig .tc := ⟨.hbm, 891, rfl⟩
abbrev main_v613 : Ref sig .tc := ⟨.hbm, 892, rfl⟩
abbrev main_cst_226 : Ref sig .tc := ⟨.hbm, 893, rfl⟩
abbrev main_call24_v0 : Ref sig .tc := ⟨.hbm, 894, rfl⟩
abbrev main_call24_v1 : Ref sig .tc := ⟨.hbm, 895, rfl⟩
abbrev main_v614 : Ref sig .tc := ⟨.hbm, 896, rfl⟩
abbrev main_c_227 : Ref sig .tc := ⟨.hbm, 897, rfl⟩
abbrev main_v615 : Ref sig .tc := ⟨.hbm, 898, rfl⟩
abbrev main_v616 : Ref sig .tc := ⟨.hbm, 899, rfl⟩
abbrev main_v617 : Ref sig .tc := ⟨.hbm, 900, rfl⟩
abbrev main_c_228 : Ref sig .tc := ⟨.hbm, 901, rfl⟩
abbrev main_v618 : Ref sig .tc := ⟨.hbm, 902, rfl⟩
abbrev main_v619 : Ref sig .tc := ⟨.hbm, 903, rfl⟩
abbrev main_v620 : Ref sig .tc := ⟨.hbm, 904, rfl⟩
abbrev main_c_229 : Ref sig .tc := ⟨.hbm, 905, rfl⟩
abbrev main_call25_v0 : Ref sig .tc := ⟨.hbm, 906, rfl⟩
abbrev main_call25_v1 : Ref sig .tc := ⟨.hbm, 907, rfl⟩
abbrev main_v621 : Ref sig .tc := ⟨.hbm, 908, rfl⟩
abbrev main_c_230 : Ref sig .tc := ⟨.hbm, 909, rfl⟩
abbrev main_v622 : Ref sig .tc := ⟨.hbm, 910, rfl⟩
abbrev main_v623 : Ref sig .tc := ⟨.hbm, 911, rfl⟩
abbrev main_c_231 : Ref sig .tc := ⟨.hbm, 912, rfl⟩
abbrev main_v624 : Ref sig .tc := ⟨.hbm, 913, rfl⟩
abbrev main_v625 : Ref sig .tc := ⟨.hbm, 914, rfl⟩
abbrev main_v626 : Ref sig .tc := ⟨.hbm, 915, rfl⟩
abbrev main_v627 : Ref sig .tc := ⟨.hbm, 916, rfl⟩
abbrev main_v628 : Ref sig .tc := ⟨.hbm, 917, rfl⟩
abbrev main_c_232 : Ref sig .tc := ⟨.hbm, 918, rfl⟩
abbrev main_v629 : Ref sig .tc := ⟨.hbm, 919, rfl⟩
abbrev main_v630 : Ref sig .tc := ⟨.hbm, 920, rfl⟩
abbrev main_c_233 : Ref sig .tc := ⟨.hbm, 921, rfl⟩
abbrev main_v631 : Ref sig .tc := ⟨.hbm, 922, rfl⟩
abbrev main_v632 : Ref sig .tc := ⟨.hbm, 923, rfl⟩
abbrev main_c_234 : Ref sig .tc := ⟨.hbm, 924, rfl⟩
abbrev main_v633 : Ref sig .tc := ⟨.hbm, 925, rfl⟩
abbrev main_v634 : Ref sig .tc := ⟨.hbm, 926, rfl⟩
abbrev main_c_235 : Ref sig .tc := ⟨.hbm, 927, rfl⟩
abbrev main_v635 : Ref sig .tc := ⟨.hbm, 928, rfl⟩
abbrev main_v636 : Ref sig .tc := ⟨.hbm, 929, rfl⟩
abbrev main_c_236 : Ref sig .tc := ⟨.hbm, 930, rfl⟩
abbrev main_v637 : Ref sig .tc := ⟨.hbm, 931, rfl⟩
abbrev main_v638 : Ref sig .tc := ⟨.hbm, 932, rfl⟩
abbrev main_v639 : Ref sig .tc := ⟨.hbm, 933, rfl⟩
abbrev main_c_237 : Ref sig .tc := ⟨.hbm, 934, rfl⟩
abbrev main_v640 : Ref sig .tc := ⟨.hbm, 935, rfl⟩
abbrev main_v641 : Ref sig .tc := ⟨.hbm, 936, rfl⟩
abbrev main_v642 : Ref sig .tc := ⟨.hbm, 937, rfl⟩
abbrev main_c_238 : Ref sig .tc := ⟨.hbm, 938, rfl⟩
abbrev main_v643 : Ref sig .tc := ⟨.hbm, 939, rfl⟩
abbrev main_v644 : Ref sig .tc := ⟨.hbm, 940, rfl⟩
abbrev main_v645 : Ref sig .tc := ⟨.hbm, 941, rfl⟩
abbrev main_c_239 : Ref sig .tc := ⟨.hbm, 942, rfl⟩
abbrev main_v646 : Ref sig .tc := ⟨.hbm, 943, rfl⟩
abbrev main_v647 : Ref sig .tc := ⟨.hbm, 944, rfl⟩
abbrev main_v648 : Ref sig .tc := ⟨.hbm, 945, rfl⟩
abbrev main_c_240 : Ref sig .tc := ⟨.hbm, 946, rfl⟩
abbrev main_v649 : Ref sig .tc := ⟨.hbm, 947, rfl⟩
abbrev main_v650 : Ref sig .tc := ⟨.hbm, 948, rfl⟩
abbrev main_v651 : Ref sig .tc := ⟨.hbm, 949, rfl⟩
abbrev main_v652 : Ref sig .tc := ⟨.hbm, 950, rfl⟩
abbrev main_v653 : Ref sig .tc := ⟨.hbm, 951, rfl⟩
abbrev main_cst_241 : Ref sig .tc := ⟨.hbm, 952, rfl⟩
abbrev main_call26_v0 : Ref sig .tc := ⟨.hbm, 953, rfl⟩
abbrev main_call26_v1 : Ref sig .tc := ⟨.hbm, 954, rfl⟩
abbrev main_v654 : Ref sig .tc := ⟨.hbm, 955, rfl⟩
abbrev main_c_242 : Ref sig .tc := ⟨.hbm, 956, rfl⟩
abbrev main_v655 : Ref sig .tc := ⟨.hbm, 957, rfl⟩
abbrev main_v656 : Ref sig .tc := ⟨.hbm, 958, rfl⟩
abbrev main_v657 : Ref sig .tc := ⟨.hbm, 959, rfl⟩
abbrev main_c_243 : Ref sig .tc := ⟨.hbm, 960, rfl⟩
abbrev main_v658 : Ref sig .tc := ⟨.hbm, 961, rfl⟩
abbrev main_v659 : Ref sig .tc := ⟨.hbm, 962, rfl⟩
abbrev main_v660 : Ref sig .tc := ⟨.hbm, 963, rfl⟩
abbrev main_c_244 : Ref sig .tc := ⟨.hbm, 964, rfl⟩
abbrev main_call27_v0 : Ref sig .tc := ⟨.hbm, 965, rfl⟩
abbrev main_call27_v1 : Ref sig .tc := ⟨.hbm, 966, rfl⟩
abbrev main_v661 : Ref sig .tc := ⟨.hbm, 967, rfl⟩
abbrev main_c_245 : Ref sig .tc := ⟨.hbm, 968, rfl⟩
abbrev main_v662 : Ref sig .tc := ⟨.hbm, 969, rfl⟩
abbrev main_v663 : Ref sig .tc := ⟨.hbm, 970, rfl⟩
abbrev main_c_246 : Ref sig .tc := ⟨.hbm, 971, rfl⟩
abbrev main_v664 : Ref sig .tc := ⟨.hbm, 972, rfl⟩
abbrev main_v665 : Ref sig .tc := ⟨.hbm, 973, rfl⟩
abbrev main_v666 : Ref sig .tc := ⟨.hbm, 974, rfl⟩
abbrev main_v667 : Ref sig .tc := ⟨.hbm, 975, rfl⟩
abbrev main_v668 : Ref sig .tc := ⟨.hbm, 976, rfl⟩
abbrev main_cst_247 : Ref sig .tc := ⟨.hbm, 977, rfl⟩
abbrev main_v669 : Ref sig .tc := ⟨.hbm, 978, rfl⟩
abbrev main_v670 : Ref sig .tc := ⟨.hbm, 979, rfl⟩
abbrev main_c_248 : Ref sig .tc := ⟨.hbm, 980, rfl⟩
abbrev main_v671 : Ref sig .tc := ⟨.hbm, 981, rfl⟩
abbrev main_v672 : Ref sig .tc := ⟨.hbm, 982, rfl⟩
abbrev main_c_249 : Ref sig .tc := ⟨.hbm, 983, rfl⟩
abbrev main_v673 : Ref sig .tc := ⟨.hbm, 984, rfl⟩
abbrev main_v674 : Ref sig .tc := ⟨.hbm, 985, rfl⟩
abbrev main_c_250 : Ref sig .tc := ⟨.hbm, 986, rfl⟩
abbrev main_v675 : Ref sig .tc := ⟨.hbm, 987, rfl⟩
abbrev main_v676 : Ref sig .tc := ⟨.hbm, 988, rfl⟩
abbrev main_c_251 : Ref sig .tc := ⟨.hbm, 989, rfl⟩
abbrev main_v677 : Ref sig .tc := ⟨.hbm, 990, rfl⟩
abbrev main_v678 : Ref sig .tc := ⟨.hbm, 991, rfl⟩
abbrev main_c_252 : Ref sig .tc := ⟨.hbm, 992, rfl⟩
abbrev main_v679 : Ref sig .tc := ⟨.hbm, 993, rfl⟩
abbrev main_v680 : Ref sig .tc := ⟨.hbm, 994, rfl⟩
abbrev main_v681 : Ref sig .tc := ⟨.hbm, 995, rfl⟩
abbrev main_c_253 : Ref sig .tc := ⟨.hbm, 996, rfl⟩
abbrev main_v682 : Ref sig .tc := ⟨.hbm, 997, rfl⟩
abbrev main_v683 : Ref sig .tc := ⟨.hbm, 998, rfl⟩
abbrev main_v684 : Ref sig .tc := ⟨.hbm, 999, rfl⟩
abbrev main_c_254 : Ref sig .tc := ⟨.hbm, 1000, rfl⟩
abbrev main_v685 : Ref sig .tc := ⟨.hbm, 1001, rfl⟩
abbrev main_v686 : Ref sig .tc := ⟨.hbm, 1002, rfl⟩
abbrev main_v687 : Ref sig .tc := ⟨.hbm, 1003, rfl⟩
abbrev main_c_255 : Ref sig .tc := ⟨.hbm, 1004, rfl⟩
abbrev main_v688 : Ref sig .tc := ⟨.hbm, 1005, rfl⟩
abbrev main_v689 : Ref sig .tc := ⟨.hbm, 1006, rfl⟩
abbrev main_v690 : Ref sig .tc := ⟨.hbm, 1007, rfl⟩
abbrev main_c_256 : Ref sig .tc := ⟨.hbm, 1008, rfl⟩
abbrev main_v691 : Ref sig .tc := ⟨.hbm, 1009, rfl⟩
abbrev main_v692 : Ref sig .tc := ⟨.hbm, 1010, rfl⟩
abbrev main_v693 : Ref sig .tc := ⟨.hbm, 1011, rfl⟩
abbrev main_v694 : Ref sig .tc := ⟨.hbm, 1012, rfl⟩
abbrev main_v695 : Ref sig .tc := ⟨.hbm, 1013, rfl⟩
abbrev main_cst_257 : Ref sig .tc := ⟨.hbm, 1014, rfl⟩
abbrev main_call28_v0 : Ref sig .tc := ⟨.hbm, 1015, rfl⟩
abbrev main_call28_v1 : Ref sig .tc := ⟨.hbm, 1016, rfl⟩
abbrev main_v696 : Ref sig .tc := ⟨.hbm, 1017, rfl⟩
abbrev main_c_258 : Ref sig .tc := ⟨.hbm, 1018, rfl⟩
abbrev main_v697 : Ref sig .tc := ⟨.hbm, 1019, rfl⟩
abbrev main_v698 : Ref sig .tc := ⟨.hbm, 1020, rfl⟩
abbrev main_v699 : Ref sig .tc := ⟨.hbm, 1021, rfl⟩
abbrev main_c_259 : Ref sig .tc := ⟨.hbm, 1022, rfl⟩
abbrev main_v700 : Ref sig .tc := ⟨.hbm, 1023, rfl⟩
abbrev main_v701 : Ref sig .tc := ⟨.hbm, 1024, rfl⟩
abbrev main_v702 : Ref sig .tc := ⟨.hbm, 1025, rfl⟩
abbrev main_c_260 : Ref sig .tc := ⟨.hbm, 1026, rfl⟩
abbrev main_call29_v0 : Ref sig .tc := ⟨.hbm, 1027, rfl⟩
abbrev main_call29_v1 : Ref sig .tc := ⟨.hbm, 1028, rfl⟩
abbrev main_v703 : Ref sig .tc := ⟨.hbm, 1029, rfl⟩
abbrev main_c_261 : Ref sig .tc := ⟨.hbm, 1030, rfl⟩
abbrev main_v704 : Ref sig .tc := ⟨.hbm, 1031, rfl⟩
abbrev main_v705 : Ref sig .tc := ⟨.hbm, 1032, rfl⟩
abbrev main_c_262 : Ref sig .tc := ⟨.hbm, 1033, rfl⟩
abbrev main_v706 : Ref sig .tc := ⟨.hbm, 1034, rfl⟩
abbrev main_v707 : Ref sig .tc := ⟨.hbm, 1035, rfl⟩
abbrev main_v708 : Ref sig .tc := ⟨.hbm, 1036, rfl⟩
abbrev main_v709 : Ref sig .tc := ⟨.hbm, 1037, rfl⟩
abbrev main_v710 : Ref sig .tc := ⟨.hbm, 1038, rfl⟩
abbrev main_c_263 : Ref sig .tc := ⟨.hbm, 1039, rfl⟩
abbrev main_v711 : Ref sig .tc := ⟨.hbm, 1040, rfl⟩
abbrev main_v712 : Ref sig .tc := ⟨.hbm, 1041, rfl⟩
abbrev main_c_264 : Ref sig .tc := ⟨.hbm, 1042, rfl⟩
abbrev main_v713 : Ref sig .tc := ⟨.hbm, 1043, rfl⟩
abbrev main_v714 : Ref sig .tc := ⟨.hbm, 1044, rfl⟩
abbrev main_c_265 : Ref sig .tc := ⟨.hbm, 1045, rfl⟩
abbrev main_v715 : Ref sig .tc := ⟨.hbm, 1046, rfl⟩
abbrev main_v716 : Ref sig .tc := ⟨.hbm, 1047, rfl⟩
abbrev main_c_266 : Ref sig .tc := ⟨.hbm, 1048, rfl⟩
abbrev main_v717 : Ref sig .tc := ⟨.hbm, 1049, rfl⟩
abbrev main_v718 : Ref sig .tc := ⟨.hbm, 1050, rfl⟩
abbrev main_c_267 : Ref sig .tc := ⟨.hbm, 1051, rfl⟩
abbrev main_v719 : Ref sig .tc := ⟨.hbm, 1052, rfl⟩
abbrev main_v720 : Ref sig .tc := ⟨.hbm, 1053, rfl⟩
abbrev main_v721 : Ref sig .tc := ⟨.hbm, 1054, rfl⟩
abbrev main_c_268 : Ref sig .tc := ⟨.hbm, 1055, rfl⟩
abbrev main_v722 : Ref sig .tc := ⟨.hbm, 1056, rfl⟩
abbrev main_v723 : Ref sig .tc := ⟨.hbm, 1057, rfl⟩
abbrev main_v724 : Ref sig .tc := ⟨.hbm, 1058, rfl⟩
abbrev main_c_269 : Ref sig .tc := ⟨.hbm, 1059, rfl⟩
abbrev main_v725 : Ref sig .tc := ⟨.hbm, 1060, rfl⟩
abbrev main_v726 : Ref sig .tc := ⟨.hbm, 1061, rfl⟩
abbrev main_v727 : Ref sig .tc := ⟨.hbm, 1062, rfl⟩
abbrev main_c_270 : Ref sig .tc := ⟨.hbm, 1063, rfl⟩
abbrev main_v728 : Ref sig .tc := ⟨.hbm, 1064, rfl⟩
abbrev main_v729 : Ref sig .tc := ⟨.hbm, 1065, rfl⟩
abbrev main_v730 : Ref sig .tc := ⟨.hbm, 1066, rfl⟩
abbrev main_c_271 : Ref sig .tc := ⟨.hbm, 1067, rfl⟩
abbrev main_v731 : Ref sig .tc := ⟨.hbm, 1068, rfl⟩
abbrev main_v732 : Ref sig .tc := ⟨.hbm, 1069, rfl⟩
abbrev main_v733 : Ref sig .tc := ⟨.hbm, 1070, rfl⟩
abbrev main_v734 : Ref sig .tc := ⟨.hbm, 1071, rfl⟩
abbrev main_v735 : Ref sig .tc := ⟨.hbm, 1072, rfl⟩
abbrev main_cst_272 : Ref sig .tc := ⟨.hbm, 1073, rfl⟩
abbrev main_call30_v0 : Ref sig .tc := ⟨.hbm, 1074, rfl⟩
abbrev main_call30_v1 : Ref sig .tc := ⟨.hbm, 1075, rfl⟩
abbrev main_v736 : Ref sig .tc := ⟨.hbm, 1076, rfl⟩
abbrev main_c_273 : Ref sig .tc := ⟨.hbm, 1077, rfl⟩
abbrev main_v737 : Ref sig .tc := ⟨.hbm, 1078, rfl⟩
abbrev main_v738 : Ref sig .tc := ⟨.hbm, 1079, rfl⟩
abbrev main_v739 : Ref sig .tc := ⟨.hbm, 1080, rfl⟩
abbrev main_c_274 : Ref sig .tc := ⟨.hbm, 1081, rfl⟩
abbrev main_v740 : Ref sig .tc := ⟨.hbm, 1082, rfl⟩
abbrev main_v741 : Ref sig .tc := ⟨.hbm, 1083, rfl⟩
abbrev main_v742 : Ref sig .tc := ⟨.hbm, 1084, rfl⟩
abbrev main_c_275 : Ref sig .tc := ⟨.hbm, 1085, rfl⟩
abbrev main_call31_v0 : Ref sig .tc := ⟨.hbm, 1086, rfl⟩
abbrev main_call31_v1 : Ref sig .tc := ⟨.hbm, 1087, rfl⟩
abbrev main_v743 : Ref sig .tc := ⟨.hbm, 1088, rfl⟩
abbrev main_c_276 : Ref sig .tc := ⟨.hbm, 1089, rfl⟩
abbrev main_v744 : Ref sig .tc := ⟨.hbm, 1090, rfl⟩
abbrev main_v745 : Ref sig .tc := ⟨.hbm, 1091, rfl⟩
abbrev main_c_277 : Ref sig .tc := ⟨.hbm, 1092, rfl⟩
abbrev main_v746 : Ref sig .tc := ⟨.hbm, 1093, rfl⟩
abbrev main_v747 : Ref sig .tc := ⟨.hbm, 1094, rfl⟩
abbrev main_v748 : Ref sig .tc := ⟨.hbm, 1095, rfl⟩
abbrev main_v749 : Ref sig .tc := ⟨.hbm, 1096, rfl⟩
abbrev main_v750 : Ref sig .tc := ⟨.hbm, 1097, rfl⟩
abbrev main_v751 : Ref sig .tc := ⟨.hbm, 1098, rfl⟩
abbrev main_v752 : Ref sig .tc := ⟨.hbm, 1099, rfl⟩
abbrev main_v753 : Ref sig .tc := ⟨.hbm, 1100, rfl⟩
abbrev main_cst_278 : Ref sig .tc := ⟨.hbm, 1101, rfl⟩
abbrev main_v754 : Ref sig .tc := ⟨.hbm, 1102, rfl⟩
abbrev main_v755 : Ref sig .tc := ⟨.hbm, 1103, rfl⟩
abbrev main_cst_279 : Ref sig .tc := ⟨.hbm, 1104, rfl⟩
abbrev main_v756 : Ref sig .tc := ⟨.hbm, 1105, rfl⟩
abbrev main_v757 : Ref sig .tc := ⟨.hbm, 1106, rfl⟩
abbrev main_v758 : Ref sig .tc := ⟨.hbm, 1107, rfl⟩
abbrev main_cst_280 : Ref sig .tc := ⟨.hbm, 1108, rfl⟩
abbrev main_v759 : Ref sig .tc := ⟨.hbm, 1109, rfl⟩
abbrev main_v760 : Ref sig .tc := ⟨.hbm, 1110, rfl⟩
abbrev main_v761 : Ref sig .tc := ⟨.hbm, 1111, rfl⟩
abbrev main_cst_281 : Ref sig .tc := ⟨.hbm, 1112, rfl⟩
abbrev main_v762 : Ref sig .tc := ⟨.hbm, 1113, rfl⟩

abbrev nD : Nat := 1
abbrev τ : Topo := Topo.v7x

variable {F : FTy → Type} [FloatOps F]

class Facts₀ : Prop where
  slices_S2000000x3_S2000000x1_0_0 : S2000000x3.Slices ![0, 0] S2000000x1
  shapeCasts_S2000000x1_S2000000 : S2000000x1.ShapeCasts S2000000
  bcast_S_S2000000 : S_.BroadcastsInDim S2000000 (![] : Fin 0 → Fin S2000000.rank)
  slices_S2000000x3_S2000000x1_0_1 : S2000000x3.Slices ![0, 1] S2000000x1
  slices_S2000000x3_S2000000x1_0_2 : S2000000x3.Slices ![0, 2] S2000000x1
  bcast_S_S16777216 : S_.BroadcastsInDim S16777216 (![] : Fin 0 → Fin S16777216.rank)
  bcast_S2000000_S2000000x1_0 : S2000000.BroadcastsInDim S2000000x1 (![0] : Fin 1 → Fin S2000000x1.rank)
  shapeCasts_S16777216_S256x256x256 : S16777216.ShapeCasts S256x256x256
  bcast_S_S256x256x256 : S_.BroadcastsInDim S256x256x256 (![] : Fin 0 → Fin S256x256x256.rank)
  reducesTo_S256x256x256_S_d0_1_2 : S256x256x256.ReducesTo [0, 1, 2] S_
  h_S_ : 0 < S_.numel
  scatter_S16777216_S2000000x1_S2000000_n_0_0_1_wf : ScatterDims.WF S16777216 S2000000x1 S2000000 [] [0] [0] 1

variable [Facts₀]

def scatter_S16777216_S2000000x1_S2000000_n_0_0_1 : ScatterDims S16777216 S2000000x1 S2000000 where
  updateWindowDims := []
  insertedWindowDims := [0]
  scatterDimsToOperandDims := [0]
  indexVectorDim := 1
  wf := scatter_S16777216_S2000000x1_S2000000_n_0_0_1_wf

class Facts : Prop extends Facts₀ where

variable [Facts]
-- ==== Proof.K.Kit.lean ====
/-
  The kernel program's @main around its one region, and what the region's body is run on.

  @main is: 65 stretches of host operations (the two clouds' taps, the concatenations, the single scatter-add and the two
  re-layings), the region (a grid of 8 points over the [65536, 256] array in blocks of 8192 rows, an output window of
  shape [1, 1] written back after the last point only, a [1, 1] scratch the body keeps between points), and one reshape
  of the [1, 1] result to a scalar. Here: the buffer contents the region finds (`V`: the fold of the host operations
  before it over the launch memory), @main reduced to the region continued by the last line (`hmain`), the three facts
  about that last line the launch asks for, the input window's block at a point (`iblk`), the frame claim from a frame
  run (`frame_of`), the body's two branch conditions decided over the grid (first point; last point), and where the
  output window is idle.
-/
import proofs.«159527_j65987877535944_2_alg».proof.Proof.Gen.Kernel.Launch
import proofs.«159527_j65987877535944_2_alg».proof.Proof.Gen.Kernel.Skeleton
import proofs.«159527_j65987877535944_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]

/-- Core `c`'s buffer contents when the region is entered: the host operations before it, folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- Every operation before the region touches TensorCore references only. -/
theorem pre_sub : (pre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩

set_option maxHeartbeats 4000000 in
/-- None of them allocates. -/
theorem pre_fresh : (pre (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host operations before the region, the region, and the reshape after it; so it reduces to the region
    continued by that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1] pre_sub pre_fresh main_chain

/-- The reshape after the region touches unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes neither of the region's two arrays (it writes the scalar result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.TRef.reshape, StableHlo.reshape_writes, Finset.mem_singleton] <;> exact StableHlo.devRef_ne_of_ne (by decide)

set_option maxHeartbeats 8000000 in
/-- The host operations write no argument array: each is found by the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point (it is fetched at every point), for any proof data
    whose input array is `V`'s and whose body leaves the block in place. -/
theorem before_in {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, decided over the grid -/

/-- The body's first conditional: the point is the first (the scratch is zeroed there). -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The body's second conditional: the point is the last (the scratch is copied to the output there). -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-! ## Where the windows are idle -/

theorem live_in : ∀ t : Fin cfg0.N, cfg0.idle 0 (grid0.coords t) = false := by decide +kernel
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
theorem live_out : ∀ t : Fin cfg0.N, isLast (grid0.coords t) → cfg0.idle 1 (grid0.coords t) = false := by decide +kernel

/-! ## The staging memrefs and the scratch -/

abbrev msIn (t : Fin cfg0.N) : Memref sig .tc .vmem S8192x256 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1 .f32 := win0_1.stage (cfg0.slots t 1)
abbrev hsOut (t : Fin cfg0.N) : (msOut t).IsWhole := hstage0_1 ((cfg0.slots t 1).cast nbuf0_1)
/-- The [1, 1] scratch the body keeps between points. -/
abbrev scr : Memref sig .tc .vmem S1x1 .f32 := Memref.whole cc0_scratch0

/-- What the launch hands the region besides the windows: the scratch at some contents and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.Kernel.Fr

end
-- ==== Proof.K.Runs.lean ====
/-
  The region's body run whole, in each of its three cases.

  The body, at grid point i: if i is the first point it stores zero into the [1, 1] scratch; it loads the point's
  [8192, 256] block and the scratch, and stores back scratch + (the block's Huber sum: lanes first, then rows); if i is
  the last point it copies the scratch into the [1, 1] output window. So a point is in one of three cases — first (and
  not last), neither, last (and not first) — and in each the body runs to the end from whole staging memrefs: the input's
  at its block, the scratch at what the point before left (at anything, at the first point), the output's handed back
  untouched where the body does not store into it. What each run leaves in the scratch (and, at the last point, in the
  output) is the list of pieces its stores wrote, found by running the body.
-/
import proofs.«159527_j65987877535944_2_alg».proof.Proof.K.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the scratch, found at anything, ends with the pieces `LS` (zero stored, then zero + the block's sum);
    the output window's buffer is handed back as found. -/
noncomputable def runFirst (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : isFirst i) (hl : ¬isLast i) (x0 : Vec F S8192x256 .f32) :
    { LS : List (View.Piece (Elt F) S1x1 .f32) //
      ∀ (xo : Vec F S1x1 .f32) (E : Set ℕ) (K : PUnit → sProp 𝕄),
        iprop(owns (c : Thread nD τ) a1 fullShare x0 ∗ owns (c : Thread nD τ) a2 fullShare xo ∗ (∃ d, owns (c : Thread nD τ) a3 fullShare d)
            ∗ (iprop(owns (c : Thread nD τ) a1 fullShare x0 ∗ owns (c : Thread nD τ) a2 fullShare xo ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, fun xo E K => ?run⟩
  case run =>
    simp only [cc0__huber_sum_kernel_eq_skeleton]; unfold cc0__huber_sum_kernel_skel
    unfold owns
    iintro ⟨⟨%f0, %hf0, H0⟩, ⟨%f1, %hf1, H1⟩, ⟨%ds0, %fs0, -, HS0⟩, Hk⟩
    obtain rfl := ha1.eq_unread hf0; obtain rfl := ha2.eq_unread hf1
    sl_exec (disch := first | exact hf | exact hl)
    sl_step
    iapply Hk
    isplitl [H0]
    · iexists _; isplitr; · ipureintro; exact ha1.read_unread _
      iexact H0
    isplitl [H1]
    · iexists _; isplitr; · ipureintro; exact ha2.read_unread _
      iexact H1
    iexists _; iexact HS0

set_option maxHeartbeats 1000000 in
/-- A point that is neither first nor last: the scratch, found at `xs`, ends with the pieces `LS` (`xs` + the block's sum);
    the output window's buffer is handed back as found. -/
noncomputable def runMid (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : ¬isFirst i) (hl : ¬isLast i) (x0 : Vec F S8192x256 .f32) (xs : Vec F S1x1 .f32) :
    { LS : List (View.Piece (Elt F) S1x1 .f32) //
      ∀ (xo : Vec F S1x1 .f32) (E : Set ℕ) (K : PUnit → sProp 𝕄),
        iprop(owns (c : Thread nD τ) a1 fullShare x0 ∗ owns (c : Thread nD τ) a2 fullShare xo ∗ owns (c : Thread nD τ) a3 fullShare xs
            ∗ (iprop(owns (c : Thread nD τ) a1 fullShare x0 ∗ owns (c : Thread nD τ) a2 fullShare xo ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, fun xo E K => ?run⟩
  case run =>
    simp only [cc0__huber_sum_kernel_eq_skeleton]; unfold cc0__huber_sum_kernel_skel
    unfold owns
    iintro ⟨⟨%f0, %hf0, H0⟩, ⟨%f1, %hf1, H1⟩, ⟨%fs0, %hfs0, HS0⟩, Hk⟩
    obtain rfl := ha1.eq_unread hf0; obtain rfl := ha2.eq_unread hf1; obtain rfl := ha3.eq_unread hfs0
    sl_exec (disch := first | exact hf | exact hl)
    sl_step
    iapply Hk
    isplitl [H0]
    · iexists _; isplitr; · ipureintro; exact ha1.read_unread _
      iexact H0
    isplitl [H1]
    · iexists _; isplitr; · ipureintro; exact ha2.read_unread _
      iexact H1
    iexists _; iexact HS0

set_option maxHeartbeats 1000000 in
/-- The last point: the scratch, found at `xs`, ends with the pieces `LS`, and the output window's buffer, found at
    anything, with the pieces `LO` (the scratch's final contents copied). -/
noncomputable def runLast (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : ¬isFirst i) (hl : isLast i) (x0 : Vec F S8192x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x0 ∗ (∃ d, owns (c : Thread nD τ) a2 fullShare d) ∗ owns (c : Thread nD τ) a3 fullShare xs
            ∗ (iprop(owns (c : Thread nD τ) a1 fullShare x0 ∗ (∃ e, a2.view.loc (c : Thread nD τ) ↦[a2.view.set]{fullShare} a2.view.writes (Elt F) e LO) ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, ?_, fun E K => ?run⟩
  case run =>
    simp only [cc0__huber_sum_kernel_eq_skeleton]; unfold cc0__huber_sum_kernel_skel
    unfold owns
    iintro ⟨⟨%f0, %hf0, H0⟩, ⟨%d1, %f1, -, H1⟩, ⟨%fs0, %hfs0, HS0⟩, Hk⟩
    obtain rfl := ha1.eq_unread hf0; obtain rfl := ha3.eq_unread hfs0
    sl_exec (disch := first | exact hf | exact hl)
    sl_step
    iapply Hk
    isplitl [H0]
    · iexists _; isplitr; · ipureintro; exact ha1.read_unread _
      iexact H0
    isplitl [H1]
    · iexists _; iexact H1
    iexists _; iexact HS0

end Cert.Kernel.Fr

end
-- ==== Proof.K.Frame.lean ====
/-
  The kernel program's frame run, with what its scratch and its output window hold point by point.

  The accumulation: after the first point the scratch holds what the first case's stores leave (zero, then zero plus the
  first block's sum); after each later point, what that point's case leaves over what the point before left (`accAt`, by
  recursion on the point). The output window's staging buffer is idle until the last point, where it receives the
  scratch's final contents and is written back (`outAt`). The region's invariant hands the body the scratch at what the
  point before left (at anything before the first point) and takes it back at this point's contents; the core owes
  nothing throughout. With the body's three runs this is the library's body obligation at every point, hence the run of
  @main to the library's post (every array of the region at what the proof data computes, every other buffer as the
  reshape after the region leaves it) and, read at the three argument arrays, the frame claim.
-/
import proofs.«159527_j65987877535944_2_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reshape after the region leaves the arguments alone -/

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The frame claim from a frame run: each argument array is no array of the region and is written by no host operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What each case leaves, read back -/

/-- The scratch as a view, and one staging buffer of the output window as a view: contents are stated through them. -/
abbrev VS : View sig .tc .vmem S1x1 .f32 := (scr).view
abbrev VO : View sig .tc .vmem S1x1 .f32 := (Memref.whole cc0_stg1_0 : Memref sig .tc .vmem S1x1 .f32).view

section Cases

variable (c : Dev nD) (i : grid0.Coords) (a1 : Memref sig .tc .vmem S8192x256 .f32) (ha1 : a1.IsWhole)
  (a2 : Memref sig .tc .vmem S1x1 .f32) (ha2 : a2.IsWhole) (a3 : Memref sig .tc .vmem S1x1 .f32) (ha3 : a3.IsWhole)

/-- The scratch after the first point. -/
def sFirst (hf : isFirst i) (hl : ¬isLast i) (x0 : Vec F S8192x256 .f32) : Vec F S1x1 .f32 :=
  VS.read (Elt F) (VS.writes (Elt F) VS.junk (runFirst c i a1 ha1 a2 ha2 a3 ha3 hf hl x0).1)
theorem sFirst_cover (hf : isFirst i) (hl : ¬isLast i) (x0 : Vec F S8192x256 .f32) (y : S1x1.Idx) :
    ∃ pc ∈ (runFirst c i a1 ha1 a2 ha2 a3 ha3 hf hl x0).1, y ∈ pc.1.set :=
  View.cover_of_tiledL (runFirst c i a1 ha1 a2 ha2 a3 ha3 hf hl x0).1 S1x1.size (by sl_kernel_rfl) y

/-- The scratch after a middle point that found it at `xs`. -/
def sMid (hf : ¬isFirst i) (hl : ¬isLast i) (x0 : Vec F S8192x256 .f32) (xs : Vec F S1x1 .f32) : Vec F S1x1 .f32 :=
  VS.read (Elt F) (VS.writes (Elt F) VS.junk (runMid c i a1 ha1 a2 ha2 a3 ha3 hf hl x0 xs).1)
theorem sMid_cover (hf : ¬isFirst i) (hl : ¬isLast i) (x0 : Vec F S8192x256 .f32) (xs : Vec F S1x1 .f32) (y : S1x1.Idx) :
    ∃ pc ∈ (runMid c i a1 ha1 a2 ha2 a3 ha3 hf hl x0 xs).1, y ∈ pc.1.set :=
  View.cover_of_tiledL (runMid c i a1 ha1 a2 ha2 a3 ha3 hf hl x0 xs).1 S1x1.size (by sl_kernel_rfl) y

/-- The scratch after the last point that found it at `xs`, -/
def sLast (hf : ¬isFirst i) (hl : isLast i) (x0 : Vec F S8192x256 .f32) (xs : Vec F S1x1 .f32) : Vec F S1x1 .f32 :=
  VS.read (Elt F) (VS.writes (Elt F) VS.junk (runLast c i a1 ha1 a2 ha2 a3 ha3 hf hl x0 xs).2.1)
theorem sLast_cover (hf : ¬isFirst i) (hl : isLast i) (x0 : Vec F S8192x256 .f32) (xs : Vec F S1x1 .f32) (y : S1x1.Idx) :
    ∃ pc ∈ (runLast c i a1 ha1 a2 ha2 a3 ha3 hf hl x0 xs).2.1, y ∈ pc.1.set :=
  View.cover_of_tiledL (runLast c i a1 ha1 a2 ha2 a3 ha3 hf hl x0 xs).2.1 S1x1.size (by sl_kernel_rfl) y

/-- and the output window's buffer after it. -/
def oLast (hf : ¬isFirst i) (hl : isLast i) (x0 : Vec F S8192x256 .f32) (xs : Vec F S1x1 .f32) : Vec F S1x1 .f32 :=
  VO.read (Elt F) (VO.writes (Elt F) VO.junk (runLast c i a1 ha1 a2 ha2 a3 ha3 hf hl x0 xs).1)
theorem oLast_cover (hf : ¬isFirst i) (hl : isLast i) (x0 : Vec F S8192x256 .f32) (xs : Vec F S1x1 .f32) (y : S1x1.Idx) :
    ∃ pc ∈ (runLast c i a1 ha1 a2 ha2 a3 ha3 hf hl x0 xs).1, y ∈ pc.1.set :=
  View.cover_of_tiledL (runLast c i a1 ha1 a2 ha2 a3 ha3 hf hl x0 xs).1 S1x1.size (by sl_kernel_rfl) y

end Cases

/-! ## The accumulation, point by point -/

theorem not_first_succ (n : ℕ) (hn : n + 1 < cfg0.N) : ¬isFirst (grid0.coords (⟨n + 1, hn⟩ : Fin cfg0.N)) :=
  fun h => Nat.succ_ne_zero n ((isFirst_iff ⟨n + 1, hn⟩).mp h)
theorem not_last_zero (hn : 0 < cfg0.N) : ¬isLast (grid0.coords (⟨0, hn⟩ : Fin cfg0.N)) :=
  fun h => absurd (show (0 : ℕ) = 7 from (isLast_iff ⟨0, hn⟩).mp h) (by decide)

/-- The scratch after the body at position `n`. -/
def accAt (c : Dev nD) : (n : ℕ) → n < cfg0.N → Vec F S1x1 .f32
  | 0, hn => sFirst c (grid0.coords ⟨0, hn⟩) (msIn ⟨0, hn⟩) (hsIn ⟨0, hn⟩) (msOut ⟨0, hn⟩) (hsOut ⟨0, hn⟩) scr (Memref.isWhole_whole _) ((isFirst_iff ⟨0, hn⟩).mpr rfl) (not_last_zero hn) (iblk m c 0 ⟨0, hn⟩)
  | n + 1, hn =>
    if h7 : n + 1 = 7 then
      sLast c (grid0.coords ⟨n + 1, hn⟩) (msIn ⟨n + 1, hn⟩) (hsIn ⟨n + 1, hn⟩) (msOut ⟨n + 1, hn⟩) (hsOut ⟨n + 1, hn⟩) scr (Memref.isWhole_whole _) (not_first_succ n hn) ((isLast_iff ⟨n + 1, hn⟩).mpr h7) (iblk m c 0 ⟨n + 1, hn⟩) (accAt c n (Nat.lt_of_succ_lt hn))
    else
      sMid c (grid0.coords ⟨n + 1, hn⟩) (msIn ⟨n + 1, hn⟩) (hsIn ⟨n + 1, hn⟩) (msOut ⟨n + 1, hn⟩) (hsOut ⟨n + 1, hn⟩) scr (Memref.isWhole_whole _) (not_first_succ n hn) (fun h => h7 ((isLast_iff ⟨n + 1, hn⟩).mp h)) (iblk m c 0 ⟨n + 1, hn⟩) (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val = 0) (hf : isFirst (grid0.coords t)) (hl : ¬isLast (grid0.coords t)) :
    accAt m c t.val t.isLt = sFirst c (grid0.coords t) (msIn t) (hsIn t) (msOut t) (hsOut t) scr (Memref.isWhole_whole _) hf hl (iblk m c 0 t) := by
  obtain ⟨n, hn⟩ := t
  cases n with
  | zero => rfl
  | succ n => exact absurd h0 (Nat.succ_ne_zero n)

theorem accAt_mid (c : Dev nD) (t : Fin cfg0.N) (hf : ¬isFirst (grid0.coords t)) (hl : ¬isLast (grid0.coords t)) :
    accAt m c t.val t.isLt = sMid c (grid0.coords t) (msIn t) (hsIn t) (msOut t) (hsOut t) scr (Memref.isWhole_whole _) hf hl (iblk m c 0 t) (accAt m c (t.val - 1) (pred_lt t)) := by
  obtain ⟨n, hn⟩ := t
  cases n with
  | zero => exact absurd ((isFirst_iff ⟨0, hn⟩).mpr rfl) hf
  | succ n => exact (dif_neg (fun h7 => hl ((isLast_iff ⟨n + 1, hn⟩).mpr h7))).trans rfl

theorem accAt_last (c : Dev nD) (t : Fin cfg0.N) (hf : ¬isFirst (grid0.coords t)) (hl : isLast (grid0.coords t)) :
    accAt m c t.val t.isLt = sLast c (grid0.coords t) (msIn t) (hsIn t) (msOut t) (hsOut t) scr (Memref.isWhole_whole _) hf hl (iblk m c 0 t) (accAt m c (t.val - 1) (pred_lt t)) := by
  obtain ⟨n, hn⟩ := t
  cases n with
  | zero => exact absurd ((isFirst_iff ⟨0, hn⟩).mpr rfl) hf
  | succ n => exact (dif_pos ((isLast_iff ⟨n + 1, hn⟩).mp hl)).trans rfl

open Classical in
/-- The output window's staging buffer after the body at point `t`: at the last point the scratch's final contents; at the
    other points the window is idle and nothing reads this. -/
def outAt (c : Dev nD) (t : Fin cfg0.N) : Vec F S1x1 .f32 :=
  if h : ¬isFirst (grid0.coords t) ∧ isLast (grid0.coords t) then
    oLast c (grid0.coords t) (msIn t) (hsIn t) (msOut t) (hsOut t) scr (Memref.isWhole_whole _) h.1 h.2 (iblk m c 0 t) (accAt m c (t.val - 1) (pred_lt t))
  else VO.read (Elt F) VO.junk

theorem outAt_last (c : Dev nD) (t : Fin cfg0.N) (hf : ¬isFirst (grid0.coords t)) (hl : isLast (grid0.coords t)) :
    outAt m c t = oLast c (grid0.coords t) (msIn t) (hsIn t) (msOut t) (hsOut t) scr (Memref.isWhole_whole _) hf hl (iblk m c 0 t) (accAt m c (t.val - 1) (pred_lt t)) := by
  unfold outAt; exact dif_pos ⟨hf, hl⟩

/-! ## The invariant and the proof data -/

/-- Before position `n`: before the first point what the launch hands over (the scratch at anything); afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]
theorem before0 (c : Dev nD) (t : Fin cfg0.N) (d) : (dats m 0 c).before 0 t d = iblk m c 0 t :=
  before_in m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: by cases on first / middle / last, that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (msIn t) fullShare ((dats m 0 c).after 0 t) from by
    unfold Dat.leavesExact; rw [live_in t], after_in]
  by_cases h0 : t.val = 0
  · have hf : isFirst (grid0.coords t) := (isFirst_iff t).mpr h0
    have hl : ¬isLast (grid0.coords t) := fun h => by have := (isLast_iff t).mp h; omega
    rw [Dat.leavesExact_idle (dats m 0 c) 1 t (idle_out t hl) (noFlush_out t hl)]
    rw [accAt_first m c t h0 hf hl]
    unfold sFirst; (try dsimp only)
    rw [PhiS_castSucc m c t, PhiS_zero m c _ _ h0, PhiA_eq]
    iintro ⟨⟨HS0, Hg⟩, Ho, ⟨%d0, H0⟩, ⟨%d1, H1⟩⟩
    iapply ((runFirst c (grid0.coords t) _ _ _ _ _ _ hf hl (iblk m c 0 t)).2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (sFirst_cover c _ _ _ _ _ _ _ _ _ _)
      iexact Hg
    isplitl [Ho]; · iexact Ho
    isplitl [H0]; · iexact H0
    iexists _; iexact H1
  · have hf : ¬isFirst (grid0.coords t) := fun h => h0 ((isFirst_iff t).mp h)
    by_cases h7 : t.val = 7
    · have hl : isLast (grid0.coords t) := (isLast_iff t).mpr h7
      rw [show (dats m 0 c).leavesExact 1 t = owns (c : Thread nD τ) (msOut t) fullShare ((dats m 0 c).after 1 t) from by
        unfold Dat.leavesExact; rw [live_out t hl], after_out]
      rw [accAt_last m c t hf hl, outAt_last m c t hf hl]
      unfold sLast oLast; (try dsimp only)
      rw [PhiS_castSucc m c t, PhiS_pos m c _ _ h0]
      iintro ⟨⟨HS0, Hg⟩, Ho, ⟨%d0, H0⟩, ⟨%d1, H1⟩⟩
      iapply ((runLast c (grid0.coords t) _ _ _ _ _ _ hf hl (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (sLast_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (oLast_cover c _ _ _ _ _ _ _ _ _ _ _)
    · have hl : ¬isLast (grid0.coords t) := fun h => h7 ((isLast_iff t).mp h)
      rw [Dat.leavesExact_idle (dats m 0 c) 1 t (idle_out t hl) (noFlush_out t hl)]
      rw [accAt_mid m c t hf hl]
      unfold sMid; (try dsimp only)
      rw [PhiS_castSucc m c t, PhiS_pos m c _ _ h0]
      iintro ⟨⟨HS0, Hg⟩, Ho, ⟨%d0, H0⟩, ⟨%d1, H1⟩⟩
      iapply ((runMid c (grid0.coords t) _ _ _ _ _ _ hf hl (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (sMid_cover c _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA_eq]
  iintro ⟨HS0, Hg⟩
  isplitl [HS0]
  · iexists _; iexact HS0
  iexact Hg

/-! ## The run and the frame -/

set_option backward.isDefEq.respectTransparency.types false in
/-- Every weakly fair execution of @main terminates, every array of the region at what the proof data computes and every
    other buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.Fr

end
-- ==== Proof.KI.Kit.lean ====
/-
  The kernel program's @main around its one region, and what the region's body is run on.

  @main is: 65 stretches of host operations (the two clouds' taps, the concatenations, the single scatter-add and the two
  re-layings), the region (a grid of 8 points over the [65536, 256] array in blocks of 8192 rows, an output window of
  shape [1, 1] written back after the last point only, a [1, 1] scratch the body keeps between points), and one reshape
  of the [1, 1] result to a scalar. Here: the buffer contents the region finds (`V`: the fold of the host operations
  before it over the launch memory), @main reduced to the region continued by the last line (`hmain`), the three facts
  about that last line the launch asks for, the input window's block at a point (`iblk`), the frame claim from a frame
  run (`frame_of`), the body's two branch conditions decided over the grid (first point; last point), and where the
  output window is idle.
-/
import proofs.«159527_j65987877535944_2_alg».proof.Proof.Gen.KernelIdeal.Launch
import proofs.«159527_j65987877535944_2_alg».proof.Proof.Gen.KernelIdeal.Skeleton
import proofs.«159527_j65987877535944_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host operations before the region, stretch by stretch. -/
abbrev pre : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64]

/-- Core `c`'s buffer contents when the region is entered: the host operations before it, folded over the launch memory. -/
abbrev V0 (c : Dev nD) : Valuation τ sig (Elt F) := StableHlo.after (List.flatten (pre (F := F))) (fun b => m (c, b))
/-- The same read at a TensorCore reference. -/
abbrev V (c : Dev nD) (b : Ref sig .tc) : Buf (Elt F) ((c : Thread nD τ).loc b) := V0 m c (Proc.devRef .tc b)

/-- Every operation before the region touches TensorCore references only. -/
theorem pre_sub : (pre (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub, hostOps0_55_sub, hostOps0_56_sub, hostOps0_57_sub, hostOps0_58_sub, hostOps0_59_sub, hostOps0_60_sub, hostOps0_61_sub, hostOps0_62_sub, hostOps0_63_sub, hostOps0_64_sub⟩

set_option maxHeartbeats 4000000 in
/-- None of them allocates. -/
theorem pre_fresh : (pre (F := F)).Forall fun ops => ops.Forall fun op => op.fresh = ∅ := by
  simp only [List.Forall]; repeat' constructor

theorem hostOps1_fresh : (hostOps1 : List (HloOp τ sig (Elt F))).Forall fun op => op.fresh = ∅ := by
  simp only [List.Forall]; repeat' constructor

/-- @main is the host operations before the region, the region, and the reshape after it; so it reduces to the region
    continued by that reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (pre (F := F)) [hostOps1] pre_sub pre_fresh main_chain

/-- The reshape after the region touches unscoped TensorCore references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes neither of the region's two arrays (it writes the scalar result). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.TRef.reshape, StableHlo.reshape_writes, Finset.mem_singleton] <;> exact StableHlo.devRef_ne_of_ne (by decide)

set_option maxHeartbeats 8000000 in
/-- The host operations write no argument array: each is found by the region as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
theorem V_main_arg1 (c : Dev nD) : V m c main_arg1 = m ((c : Thread nD τ).loc main_arg1) :=
  StableHlo.after_of_forall_not_mem (b := Proc.devRef .tc main_arg1) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
set_option maxHeartbeats 8000000 in
theorem V_main_arg2 (c : Dev nD) : V m c main_arg2 = m ((c : Thread nD τ).loc main_arg2) :=
  StableHlo.after_of_forall_not_mem (b := Proc.devRef .tc main_arg2) _ _ (List.forall_iff_forall_mem.mp (by
    simp only [pre, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, StableHlo.TRef.nullary, StableHlo.TRef.unary, StableHlo.TRef.binary, StableHlo.TRef.ternary, StableHlo.TRef.reshape, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The input window's blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's staging buffer holds its block at every point (it is fetched at every point), for any proof data
    whose input array is `V`'s and whose body leaves the block in place. -/
theorem before_in {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The branch conditions, decided over the grid -/

/-- The body's first conditional: the point is the first (the scratch is zeroed there). -/
abbrev isFirst (i : grid0.Coords) : Prop := (Scalar.cmpi .ne (Scalar.extui (Scalar.cmpi .eq (BitVec.ofNat 32 (i 0).val) 0#32)) 0#32) = 1#1
theorem isFirst_iff : ∀ t : Fin cfg0.N, isFirst (grid0.coords t) ↔ t.val = 0 :=
  (by decide +kernel : ∀ t : Fin grid0.N, isFirst (grid0.coords t) ↔ t.val = 0)

/-- The body's second conditional: the point is the last (the scratch is copied to the output there). -/
abbrev isLast (i : grid0.Coords) : Prop := k0_cond2 i = 1#1
theorem isLast_iff : ∀ t : Fin cfg0.N, isLast (grid0.coords t) ↔ t.val = 7 :=
  (by decide +kernel : ∀ t : Fin grid0.N, isLast (grid0.coords t) ↔ t.val = 7)

/-! ## Where the windows are idle -/

theorem live_in : ∀ t : Fin cfg0.N, cfg0.idle 0 (grid0.coords t) = false := by decide +kernel
theorem idle_out : ∀ t : Fin cfg0.N, ¬isLast (grid0.coords t) → cfg0.idle 1 (grid0.coords t) = true := by decide +kernel
theorem noFlush_out : ∀ t : Fin cfg0.N, ¬isLast (grid0.coords t) → (cfg0.win 1).flush t = false := by decide +kernel
theorem live_out : ∀ t : Fin cfg0.N, isLast (grid0.coords t) → cfg0.idle 1 (grid0.coords t) = false := by decide +kernel

/-! ## The staging memrefs and the scratch -/

abbrev msIn (t : Fin cfg0.N) : Memref sig .tc .vmem S8192x256 .f32 := win0_0.stage (cfg0.slots t 0)
abbrev hsIn (t : Fin cfg0.N) : (msIn t).IsWhole := hstage0_0 ((cfg0.slots t 0).cast nbuf0_0)
abbrev msOut (t : Fin cfg0.N) : Memref sig .tc .vmem S1x1 .f32 := win0_1.stage (cfg0.slots t 1)
abbrev hsOut (t : Fin cfg0.N) : (msOut t).IsWhole := hstage0_1 ((cfg0.slots t 1).cast nbuf0_1)
/-- The [1, 1] scratch the body keeps between points. -/
abbrev scr : Memref sig .tc .vmem S1x1 .f32 := Memref.whole cc0_scratch0

/-- What the launch hands the region besides the windows: the scratch at some contents and the generator register. -/
theorem PhiA_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

end Cert.KernelIdeal.Fr

end
-- ==== Proof.KI.Runs.lean ====
/-
  The region's body run whole, in each of its three cases.

  The body, at grid point i: if i is the first point it stores zero into the [1, 1] scratch; it loads the point's
  [8192, 256] block and the scratch, and stores back scratch + (the block's Huber sum: lanes first, then rows); if i is
  the last point it copies the scratch into the [1, 1] output window. So a point is in one of three cases — first (and
  not last), neither, last (and not first) — and in each the body runs to the end from whole staging memrefs: the input's
  at its block, the scratch at what the point before left (at anything, at the first point), the output's handed back
  untouched where the body does not store into it. What each run leaves in the scratch (and, at the last point, in the
  output) is the list of pieces its stores wrote, found by running the body.
-/
import proofs.«159527_j65987877535944_2_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point: the scratch, found at anything, ends with the pieces `LS` (zero stored, then zero + the block's sum);
    the output window's buffer is handed back as found. -/
noncomputable def runFirst (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : isFirst i) (hl : ¬isLast i) (x0 : Vec F S8192x256 .f32) :
    { LS : List (View.Piece (Elt F) S1x1 .f32) //
      ∀ (xo : Vec F S1x1 .f32) (E : Set ℕ) (K : PUnit → sProp 𝕄),
        iprop(owns (c : Thread nD τ) a1 fullShare x0 ∗ owns (c : Thread nD τ) a2 fullShare xo ∗ (∃ d, owns (c : Thread nD τ) a3 fullShare d)
            ∗ (iprop(owns (c : Thread nD τ) a1 fullShare x0 ∗ owns (c : Thread nD τ) a2 fullShare xo ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, fun xo E K => ?run⟩
  case run =>
    simp only [cc0__huber_sum_kernel_eq_skeleton]; unfold cc0__huber_sum_kernel_skel
    unfold owns
    iintro ⟨⟨%f0, %hf0, H0⟩, ⟨%f1, %hf1, H1⟩, ⟨%ds0, %fs0, -, HS0⟩, Hk⟩
    obtain rfl := ha1.eq_unread hf0; obtain rfl := ha2.eq_unread hf1
    sl_exec (disch := first | exact hf | exact hl)
    sl_step
    iapply Hk
    isplitl [H0]
    · iexists _; isplitr; · ipureintro; exact ha1.read_unread _
      iexact H0
    isplitl [H1]
    · iexists _; isplitr; · ipureintro; exact ha2.read_unread _
      iexact H1
    iexists _; iexact HS0

set_option maxHeartbeats 1000000 in
/-- A point that is neither first nor last: the scratch, found at `xs`, ends with the pieces `LS` (`xs` + the block's sum);
    the output window's buffer is handed back as found. -/
noncomputable def runMid (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : ¬isFirst i) (hl : ¬isLast i) (x0 : Vec F S8192x256 .f32) (xs : Vec F S1x1 .f32) :
    { LS : List (View.Piece (Elt F) S1x1 .f32) //
      ∀ (xo : Vec F S1x1 .f32) (E : Set ℕ) (K : PUnit → sProp 𝕄),
        iprop(owns (c : Thread nD τ) a1 fullShare x0 ∗ owns (c : Thread nD τ) a2 fullShare xo ∗ owns (c : Thread nD τ) a3 fullShare xs
            ∗ (iprop(owns (c : Thread nD τ) a1 fullShare x0 ∗ owns (c : Thread nD τ) a2 fullShare xo ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, fun xo E K => ?run⟩
  case run =>
    simp only [cc0__huber_sum_kernel_eq_skeleton]; unfold cc0__huber_sum_kernel_skel
    unfold owns
    iintro ⟨⟨%f0, %hf0, H0⟩, ⟨%f1, %hf1, H1⟩, ⟨%fs0, %hfs0, HS0⟩, Hk⟩
    obtain rfl := ha1.eq_unread hf0; obtain rfl := ha2.eq_unread hf1; obtain rfl := ha3.eq_unread hfs0
    sl_exec (disch := first | exact hf | exact hl)
    sl_step
    iapply Hk
    isplitl [H0]
    · iexists _; isplitr; · ipureintro; exact ha1.read_unread _
      iexact H0
    isplitl [H1]
    · iexists _; isplitr; · ipureintro; exact ha2.read_unread _
      iexact H1
    iexists _; iexact HS0

set_option maxHeartbeats 1000000 in
/-- The last point: the scratch, found at `xs`, ends with the pieces `LS`, and the output window's buffer, found at
    anything, with the pieces `LO` (the scratch's final contents copied). -/
noncomputable def runLast (c : Dev nD) (i : grid0.Coords) (a1 : Memref sig .tc .vmem S8192x256 .f32) (ha1 : a1.IsWhole)
    (a2 : Memref sig .tc .vmem S1x1 .f32) (ha2 : a2.IsWhole) (a3 : Memref sig .tc .vmem S1x1 .f32) (ha3 : a3.IsWhole)
    (hf : ¬isFirst i) (hl : isLast i) (x0 : Vec F S8192x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) a1 fullShare x0 ∗ (∃ d, owns (c : Thread nD τ) a2 fullShare d) ∗ owns (c : Thread nD τ) a3 fullShare xs
            ∗ (iprop(owns (c : Thread nD τ) a1 fullShare x0 ∗ (∃ e, a2.view.loc (c : Thread nD τ) ↦[a2.view.set]{fullShare} a2.view.writes (Elt F) e LO) ∗ (∃ f, a3.view.loc (c : Thread nD τ) ↦[a3.view.set]{fullShare} a3.view.writes (Elt F) f LS)) -∗ K ⟨⟩))
          ⊢ wp frame (wpE (defs₀ (F := F)) Variants.none c none) E (cc0__huber_sum_kernel i a1 ha1 a2 ha2 a3 ha3) K } := by
  refine ⟨?_, ?_, fun E K => ?run⟩
  case run =>
    simp only [cc0__huber_sum_kernel_eq_skeleton]; unfold cc0__huber_sum_kernel_skel
    unfold owns
    iintro ⟨⟨%f0, %hf0, H0⟩, ⟨%d1, %f1, -, H1⟩, ⟨%fs0, %hfs0, HS0⟩, Hk⟩
    obtain rfl := ha1.eq_unread hf0; obtain rfl := ha3.eq_unread hfs0
    sl_exec (disch := first | exact hf | exact hl)
    sl_step
    iapply Hk
    isplitl [H0]
    · iexists _; isplitr; · ipureintro; exact ha1.read_unread _
      iexact H0
    isplitl [H1]
    · iexists _; iexact H1
    iexists _; iexact HS0

end Cert.KernelIdeal.Fr

end
-- ==== Proof.KI.Frame.lean ====
/-
  The kernel program's frame run, with what its scratch and its output window hold point by point.

  The accumulation: after the first point the scratch holds what the first case's stores leave (zero, then zero plus the
  first block's sum); after each later point, what that point's case leaves over what the point before left (`accAt`, by
  recursion on the point). The output window's staging buffer is idle until the last point, where it receives the
  scratch's final contents and is written back (`outAt`). The region's invariant hands the body the scratch at what the
  point before left (at anything before the first point) and takes it back at this point's contents; the core owes
  nothing throughout. With the body's three runs this is the library's body obligation at every point, hence the run of
  @main to the library's post (every array of the region at what the proof data computes, every other buffer as the
  reshape after the region leaves it) and, read at the three argument arrays, the frame claim.
-/
import proofs.«159527_j65987877535944_2_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The reshape after the region leaves the arguments alone -/

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, StableHlo.TRef.reshape, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- The frame claim from a frame run: each argument array is no array of the region and is written by no host operation. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## What each case leaves, read back -/

/-- The scratch as a view, and one staging buffer of the output window as a view: contents are stated through them. -/
abbrev VS : View sig .tc .vmem S1x1 .f32 := (scr).view
abbrev VO : View sig .tc .vmem S1x1 .f32 := (Memref.whole cc0_stg1_0 : Memref sig .tc .vmem S1x1 .f32).view

section Cases

variable (c : Dev nD) (i : grid0.Coords) (a1 : Memref sig .tc .vmem S8192x256 .f32) (ha1 : a1.IsWhole)
  (a2 : Memref sig .tc .vmem S1x1 .f32) (ha2 : a2.IsWhole) (a3 : Memref sig .tc .vmem S1x1 .f32) (ha3 : a3.IsWhole)

/-- The scratch after the first point. -/
def sFirst (hf : isFirst i) (hl : ¬isLast i) (x0 : Vec F S8192x256 .f32) : Vec F S1x1 .f32 :=
  VS.read (Elt F) (VS.writes (Elt F) VS.junk (runFirst c i a1 ha1 a2 ha2 a3 ha3 hf hl x0).1)
theorem sFirst_cover (hf : isFirst i) (hl : ¬isLast i) (x0 : Vec F S8192x256 .f32) (y : S1x1.Idx) :
    ∃ pc ∈ (runFirst c i a1 ha1 a2 ha2 a3 ha3 hf hl x0).1, y ∈ pc.1.set :=
  View.cover_of_tiledL (runFirst c i a1 ha1 a2 ha2 a3 ha3 hf hl x0).1 S1x1.size (by sl_kernel_rfl) y

/-- The scratch after a middle point that found it at `xs`. -/
def sMid (hf : ¬isFirst i) (hl : ¬isLast i) (x0 : Vec F S8192x256 .f32) (xs : Vec F S1x1 .f32) : Vec F S1x1 .f32 :=
  VS.read (Elt F) (VS.writes (Elt F) VS.junk (runMid c i a1 ha1 a2 ha2 a3 ha3 hf hl x0 xs).1)
theorem sMid_cover (hf : ¬isFirst i) (hl : ¬isLast i) (x0 : Vec F S8192x256 .f32) (xs : Vec F S1x1 .f32) (y : S1x1.Idx) :
    ∃ pc ∈ (runMid c i a1 ha1 a2 ha2 a3 ha3 hf hl x0 xs).1, y ∈ pc.1.set :=
  View.cover_of_tiledL (runMid c i a1 ha1 a2 ha2 a3 ha3 hf hl x0 xs).1 S1x1.size (by sl_kernel_rfl) y

/-- The scratch after the last point that found it at `xs`, -/
def sLast (hf : ¬isFirst i) (hl : isLast i) (x0 : Vec F S8192x256 .f32) (xs : Vec F S1x1 .f32) : Vec F S1x1 .f32 :=
  VS.read (Elt F) (VS.writes (Elt F) VS.junk (runLast c i a1 ha1 a2 ha2 a3 ha3 hf hl x0 xs).2.1)
theorem sLast_cover (hf : ¬isFirst i) (hl : isLast i) (x0 : Vec F S8192x256 .f32) (xs : Vec F S1x1 .f32) (y : S1x1.Idx) :
    ∃ pc ∈ (runLast c i a1 ha1 a2 ha2 a3 ha3 hf hl x0 xs).2.1, y ∈ pc.1.set :=
  View.cover_of_tiledL (runLast c i a1 ha1 a2 ha2 a3 ha3 hf hl x0 xs).2.1 S1x1.size (by sl_kernel_rfl) y

/-- and the output window's buffer after it. -/
def oLast (hf : ¬isFirst i) (hl : isLast i) (x0 : Vec F S8192x256 .f32) (xs : Vec F S1x1 .f32) : Vec F S1x1 .f32 :=
  VO.read (Elt F) (VO.writes (Elt F) VO.junk (runLast c i a1 ha1 a2 ha2 a3 ha3 hf hl x0 xs).1)
theorem oLast_cover (hf : ¬isFirst i) (hl : isLast i) (x0 : Vec F S8192x256 .f32) (xs : Vec F S1x1 .f32) (y : S1x1.Idx) :
    ∃ pc ∈ (runLast c i a1 ha1 a2 ha2 a3 ha3 hf hl x0 xs).1, y ∈ pc.1.set :=
  View.cover_of_tiledL (runLast c i a1 ha1 a2 ha2 a3 ha3 hf hl x0 xs).1 S1x1.size (by sl_kernel_rfl) y

end Cases

/-! ## The accumulation, point by point -/

theorem not_first_succ (n : ℕ) (hn : n + 1 < cfg0.N) : ¬isFirst (grid0.coords (⟨n + 1, hn⟩ : Fin cfg0.N)) :=
  fun h => Nat.succ_ne_zero n ((isFirst_iff ⟨n + 1, hn⟩).mp h)
theorem not_last_zero (hn : 0 < cfg0.N) : ¬isLast (grid0.coords (⟨0, hn⟩ : Fin cfg0.N)) :=
  fun h => absurd (show (0 : ℕ) = 7 from (isLast_iff ⟨0, hn⟩).mp h) (by decide)

/-- The scratch after the body at position `n`. -/
def accAt (c : Dev nD) : (n : ℕ) → n < cfg0.N → Vec F S1x1 .f32
  | 0, hn => sFirst c (grid0.coords ⟨0, hn⟩) (msIn ⟨0, hn⟩) (hsIn ⟨0, hn⟩) (msOut ⟨0, hn⟩) (hsOut ⟨0, hn⟩) scr (Memref.isWhole_whole _) ((isFirst_iff ⟨0, hn⟩).mpr rfl) (not_last_zero hn) (iblk m c 0 ⟨0, hn⟩)
  | n + 1, hn =>
    if h7 : n + 1 = 7 then
      sLast c (grid0.coords ⟨n + 1, hn⟩) (msIn ⟨n + 1, hn⟩) (hsIn ⟨n + 1, hn⟩) (msOut ⟨n + 1, hn⟩) (hsOut ⟨n + 1, hn⟩) scr (Memref.isWhole_whole _) (not_first_succ n hn) ((isLast_iff ⟨n + 1, hn⟩).mpr h7) (iblk m c 0 ⟨n + 1, hn⟩) (accAt c n (Nat.lt_of_succ_lt hn))
    else
      sMid c (grid0.coords ⟨n + 1, hn⟩) (msIn ⟨n + 1, hn⟩) (hsIn ⟨n + 1, hn⟩) (msOut ⟨n + 1, hn⟩) (hsOut ⟨n + 1, hn⟩) scr (Memref.isWhole_whole _) (not_first_succ n hn) (fun h => h7 ((isLast_iff ⟨n + 1, hn⟩).mp h)) (iblk m c 0 ⟨n + 1, hn⟩) (accAt c n (Nat.lt_of_succ_lt hn))

theorem pred_lt (t : Fin cfg0.N) : t.val - 1 < cfg0.N := Nat.lt_of_le_of_lt (Nat.sub_le _ _) t.isLt

theorem accAt_first (c : Dev nD) (t : Fin cfg0.N) (h0 : t.val = 0) (hf : isFirst (grid0.coords t)) (hl : ¬isLast (grid0.coords t)) :
    accAt m c t.val t.isLt = sFirst c (grid0.coords t) (msIn t) (hsIn t) (msOut t) (hsOut t) scr (Memref.isWhole_whole _) hf hl (iblk m c 0 t) := by
  obtain ⟨n, hn⟩ := t
  cases n with
  | zero => rfl
  | succ n => exact absurd h0 (Nat.succ_ne_zero n)

theorem accAt_mid (c : Dev nD) (t : Fin cfg0.N) (hf : ¬isFirst (grid0.coords t)) (hl : ¬isLast (grid0.coords t)) :
    accAt m c t.val t.isLt = sMid c (grid0.coords t) (msIn t) (hsIn t) (msOut t) (hsOut t) scr (Memref.isWhole_whole _) hf hl (iblk m c 0 t) (accAt m c (t.val - 1) (pred_lt t)) := by
  obtain ⟨n, hn⟩ := t
  cases n with
  | zero => exact absurd ((isFirst_iff ⟨0, hn⟩).mpr rfl) hf
  | succ n => exact (dif_neg (fun h7 => hl ((isLast_iff ⟨n + 1, hn⟩).mpr h7))).trans rfl

theorem accAt_last (c : Dev nD) (t : Fin cfg0.N) (hf : ¬isFirst (grid0.coords t)) (hl : isLast (grid0.coords t)) :
    accAt m c t.val t.isLt = sLast c (grid0.coords t) (msIn t) (hsIn t) (msOut t) (hsOut t) scr (Memref.isWhole_whole _) hf hl (iblk m c 0 t) (accAt m c (t.val - 1) (pred_lt t)) := by
  obtain ⟨n, hn⟩ := t
  cases n with
  | zero => exact absurd ((isFirst_iff ⟨0, hn⟩).mpr rfl) hf
  | succ n => exact (dif_pos ((isLast_iff ⟨n + 1, hn⟩).mp hl)).trans rfl

open Classical in
/-- The output window's staging buffer after the body at point `t`: at the last point the scratch's final contents; at the
    other points the window is idle and nothing reads this. -/
def outAt (c : Dev nD) (t : Fin cfg0.N) : Vec F S1x1 .f32 :=
  if h : ¬isFirst (grid0.coords t) ∧ isLast (grid0.coords t) then
    oLast c (grid0.coords t) (msIn t) (hsIn t) (msOut t) (hsOut t) scr (Memref.isWhole_whole _) h.1 h.2 (iblk m c 0 t) (accAt m c (t.val - 1) (pred_lt t))
  else VO.read (Elt F) VO.junk

theorem outAt_last (c : Dev nD) (t : Fin cfg0.N) (hf : ¬isFirst (grid0.coords t)) (hl : isLast (grid0.coords t)) :
    outAt m c t = oLast c (grid0.coords t) (msIn t) (hsIn t) (msOut t) (hsOut t) scr (Memref.isWhole_whole _) hf hl (iblk m c 0 t) (accAt m c (t.val - 1) (pred_lt t)) := by
  unfold outAt; exact dif_pos ⟨hf, hl⟩

/-! ## The invariant and the proof data -/

/-- Before position `n`: before the first point what the launch hands over (the scratch at anything); afterwards the
    scratch at what the point before left, and the generator register at some state. -/
def PhiS (c : Dev nD) : (n : ℕ) → n ≤ cfg0.N → sProp 𝕄
  | 0, _ => Pipeline.ΦA spec0 c
  | n + 1, hn => iprop(iprop(owns (c : Thread nD τ) scr fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scr fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scr fullShare (accAt m c (n - 1) (by omega))) ∗ (∃ r, prngReg c r)) := by
  cases n with
  | zero => exact absurd rfl hz
  | succ n => rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_in (c : Dev nD) (t : Fin cfg0.N) : (dats m 0 c).after 0 t = iblk m c 0 t := by dsimp only [dats]
theorem after_out (c : Dev nD) (t : Fin cfg0.N) : (dats m 0 c).after 1 t = outAt m c t := by dsimp only [dats]
theorem before0 (c : Dev nD) (t : Fin cfg0.N) (d) : (dats m 0 c).before 0 t d = iblk m c 0 t :=
  before_in m (dats m 0 c) (A_eq m c 0) (after_in m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (msIn t) fullShare ((dats m 0 c).before 0 t d))
    ∗ (∃ d, owns (c : Thread nD τ) (msOut t) fullShare ((dats m 0 c).before 1 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t)

set_option maxHeartbeats 4800000 in
/-- The body at any point: by cases on first / middle / last, that case's run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  rw [show (dats m 0 c).leavesExact 0 t = owns (c : Thread nD τ) (msIn t) fullShare ((dats m 0 c).after 0 t) from by
    unfold Dat.leavesExact; rw [live_in t], after_in]
  by_cases h0 : t.val = 0
  · have hf : isFirst (grid0.coords t) := (isFirst_iff t).mpr h0
    have hl : ¬isLast (grid0.coords t) := fun h => by have := (isLast_iff t).mp h; omega
    rw [Dat.leavesExact_idle (dats m 0 c) 1 t (idle_out t hl) (noFlush_out t hl)]
    rw [accAt_first m c t h0 hf hl]
    unfold sFirst; (try dsimp only)
    rw [PhiS_castSucc m c t, PhiS_zero m c _ _ h0, PhiA_eq]
    iintro ⟨⟨HS0, Hg⟩, Ho, ⟨%d0, H0⟩, ⟨%d1, H1⟩⟩
    iapply ((runFirst c (grid0.coords t) _ _ _ _ _ _ hf hl (iblk m c 0 t)).2 _ Set.univ _)
    isplitl [H0]; · iexact H0
    isplitl [H1]; · iexact H1
    isplitl [HS0]; · iexact HS0
    iintro ⟨H0, H1, ⟨%es0, HS0⟩⟩
    isplitl [HS0 Hg]
    · isplitl [HS0]
      · unfold owns; iexists _; isplitr
        swap; · iexact HS0
        ipureintro; exact View.read_writes_of_cover _ _ _ _ _ (sFirst_cover c _ _ _ _ _ _ _ _ _ _)
      iexact Hg
    isplitl [Ho]; · iexact Ho
    isplitl [H0]; · iexact H0
    iexists _; iexact H1
  · have hf : ¬isFirst (grid0.coords t) := fun h => h0 ((isFirst_iff t).mp h)
    by_cases h7 : t.val = 7
    · have hl : isLast (grid0.coords t) := (isLast_iff t).mpr h7
      rw [show (dats m 0 c).leavesExact 1 t = owns (c : Thread nD τ) (msOut t) fullShare ((dats m 0 c).after 1 t) from by
        unfold Dat.leavesExact; rw [live_out t hl], after_out]
      rw [accAt_last m c t hf hl, outAt_last m c t hf hl]
      unfold sLast oLast; (try dsimp only)
      rw [PhiS_castSucc m c t, PhiS_pos m c _ _ h0]
      iintro ⟨⟨HS0, Hg⟩, Ho, ⟨%d0, H0⟩, ⟨%d1, H1⟩⟩
      iapply ((runLast c (grid0.coords t) _ _ _ _ _ _ hf hl (iblk m c 0 t) _).2.2 Set.univ _)
      isplitl [H0]; · iexact H0
      isplitl [H1]; · iexists _; iexact H1
      isplitl [HS0]; · iexact HS0
      iintro ⟨H0, ⟨%e1, H1⟩, ⟨%es0, HS0⟩⟩
      isplitl [HS0 Hg]
      · isplitl [HS0]
        · unfold owns; iexists _; isplitr
          swap; · iexact HS0
          ipureintro; exact View.read_writes_of_cover _ _ _ _ _ (sLast_cover c _ _ _ _ _ _ _ _ _ _ _)
        iexact Hg
      isplitl [Ho]; · iexact Ho
      isplitl [H0]; · iexact H0
      unfold owns; iexists _; isplitr
      swap; · iexact H1
      ipureintro; exact View.read_writes_of_cover _ _ _ _ _ (oLast_cover c _ _ _ _ _ _ _ _ _ _ _)
    · have hl : ¬isLast (grid0.coords t) := fun h => h7 ((isLast_iff t).mp h)
      rw [Dat.leavesExact_idle (dats m 0 c) 1 t (idle_out t hl) (noFlush_out t hl)]
      rw [accAt_mid m c t hf hl]
      unfold sMid; (try dsimp only)
      rw [PhiS_castSucc m c t, PhiS_pos m c _ _ h0]
      iintro ⟨⟨HS0, Hg⟩, Ho, ⟨%d0, H0⟩, ⟨%d1, H1⟩⟩
      iapply ((runMid c (grid0.coords t) _ _ _ _ _ _ hf hl (iblk m c 0 t) _).2 _ Set.univ _)
      isplitl [H0]; · iexact H0
      isplitl [H1]; · iexact H1
      isplitl [HS0]; · iexact HS0
      iintro ⟨H0, H1, ⟨%es0, HS0⟩⟩
      isplitl [HS0 Hg]
      · isplitl [HS0]
        · unfold owns; iexists _; isplitr
          swap; · iexact HS0
          ipureintro; exact View.read_writes_of_cover _ _ _ _ _ (sMid_cover c _ _ _ _ _ _ _ _ _ _ _)
        iexact Hg
      isplitl [Ho]; · iexact Ho
      isplitl [H0]; · iexact H0
      iexists _; iexact H1

theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives that back: the scratch's contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 8 := N_0; omega), PhiA_eq]
  iintro ⟨HS0, Hg⟩
  isplitl [HS0]
  · iexists _; iexact HS0
  iexact Hg

/-! ## The run and the frame -/

set_option backward.isDefEq.respectTransparency.types false in
/-- Every weakly fair execution of @main terminates, every array of the region at what the proof data computes and every
    other buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.Fr

end
-- ==== Proof.Spec.lean ====
/-
  The two programs' value computations from the tap arrays on, stated once.

  Both programs splat two point clouds of 2,000,000 points into a 256³ grid by trilinear taps: each cloud gives eight
  taps, a tap being, per point, a flat voxel index `J k` (already 0 where the tap falls outside the grid), an unsigned
  weight `U k` = wx·wy·wz, and a mask `M k` (the tap falls inside the grid); taps 0‥7 are the predicted cloud's, 8‥15 the
  ground-truth cloud's. A negative flat index wraps by 16,777,216 before it is used.

  * The reference adds each cloud's taps into a zero volume one tap after the other (the weight `select M U 0`), subtracts
    the ground-truth volume from the predicted one, and sums the Huber function of the difference over the grid: `refVal`.
  * The kernel's program concatenates all sixteen index arrays and all sixteen weight arrays — the predicted cloud's
    weights multiplied by +1, the ground-truth cloud's by −1 — and adds them into ONE zero volume, which it re-lays as
    [65536, 256]: `kerArr`. Its region then sums the Huber function over that array: `kerVal`, stated as the plain sum.

  With every weight a real number the signed single volume is the difference of the two volumes, voxel by voxel
  (a sum of negated reals is the negated sum), so `kerVal (kerArr J U M) = refVal J U M`.
-/
import proofs.«159527_j65987877535944_2_alg».proof.KernelIdeal
import proofs.«159527_j65987877535944_2_alg».proof.ReferenceIdeal
import Idealize.ShloMosaic.PureOps.Ideal

noncomputable section

namespace Cert.Splat

open Idealize.ShloMosaic

/-- The Huber function (δ = 1) on one extended real, spelt as both programs compute it: (0.5·d)·d where |d| ≤ 1, else |d| − 0.5. -/
def hub (d : Ideal .f32) : Ideal .f32 :=
  Scalar.select (FloatOps.cmpf .ole (FloatOps.absf d) (FloatOps.ofBits .f32 0x3F800000#32))
    (FloatOps.mulf (FloatOps.mulf (FloatOps.ofBits .f32 0x3F000000#32) d) d)
    (FloatOps.subf (FloatOps.absf d) (FloatOps.ofBits .f32 0x3F000000#32))

/-! ## The reference's form -/

section Ref

open Cert.ReferenceIdeal Cert.ReferenceIdeal.Facts₀ Cert.ReferenceIdeal.Facts

variable [Cert.ReferenceIdeal.Facts]

/-- A tap's weight where the tap is inside the grid, zero elsewhere. -/
def refWeight (M : IVec S2000000 1) (U : FVec Ideal S2000000 .f32) : FVec Ideal S2000000 .f32 :=
  select M U (broadcastInDim S2000000 ![] bcast_S_S2000000 (constant (F := Ideal) S_ .f32 0x00000000#32))

/-- A tap's flat indices, negative ones wrapped by the volume's size, as the column the scatter reads. -/
def refIdx (J : IVec S2000000 32) : IVec S2000000x1 32 :=
  broadcastInDim S2000000x1 ![0] bcast_S2000000_S2000000x1_0
    (select (cmpi .slt J (broadcastInDim S2000000 ![] bcast_S_S2000000 (constantI S_ 32 0#32)))
      (addi J (broadcastInDim S2000000 ![] bcast_S_S2000000 (constantI S_ 32 16777216#32))) J)

/-- One tap added into a volume. -/
def refStep (acc : FVec Ideal S16777216 .f32) (J : IVec S2000000 32) (U : FVec Ideal S2000000 .f32) (M : IVec S2000000 1) :
    FVec Ideal S16777216 .f32 :=
  Host.scatterAdd scatter_S16777216_S2000000x1_S2000000_n_0_0_1 acc (refIdx J) (refWeight M U)

/-- The zero volume. -/
def refZeros : FVec Ideal S16777216 .f32 :=
  broadcastInDim S16777216 ![] bcast_S_S16777216 (constant (F := Ideal) S_ .f32 0x00000000#32)

/-- One cloud's volume: its eight taps added one after the other into zeros. -/
def refVol (J : Fin 8 → IVec S2000000 32) (U : Fin 8 → FVec Ideal S2000000 .f32) (M : Fin 8 → IVec S2000000 1) :
    FVec Ideal S16777216 .f32 :=
  refStep (refStep (refStep (refStep (refStep (refStep (refStep (refStep refZeros
    (J 0) (U 0) (M 0)) (J 1) (U 1) (M 1)) (J 2) (U 2) (M 2)) (J 3) (U 3) (M 3))
    (J 4) (U 4) (M 4)) (J 5) (U 5) (M 5)) (J 6) (U 6) (M 6)) (J 7) (U 7) (M 7)

/-- The Huber function over the grid, in the host's operations. -/
def refHuber (d : FVec Ideal S256x256x256 .f32) : FVec Ideal S256x256x256 .f32 :=
  select (cmpf .ole (Host.absf d) (broadcastInDim S256x256x256 ![] bcast_S_S256x256x256 (constant (F := Ideal) S_ .f32 0x3F800000#32)))
    (mulf (mulf (broadcastInDim S256x256x256 ![] bcast_S_S256x256x256 (constant (F := Ideal) S_ .f32 0x3F000000#32)) d) d)
    (subf (Host.absf d) (broadcastInDim S256x256x256 ![] bcast_S_S256x256x256 (constant (F := Ideal) S_ .f32 0x3F000000#32)))

/-- The reference's result: the sum over the grid of the Huber function of (predicted volume − ground-truth volume). -/
def refVal (J : Fin 16 → IVec S2000000 32) (U : Fin 16 → FVec Ideal S2000000 .f32) (M : Fin 16 → IVec S2000000 1) :
    FVec Ideal S_ .f32 :=
  Host.reduceAdd
    (refHuber (subf
      (shapeCast _ (refVol (fun k => J (Fin.castLE (by decide) k)) (fun k => U (Fin.castLE (by decide) k)) (fun k => M (Fin.castLE (by decide) k))) shapeCasts_S16777216_S256x256x256)
      (shapeCast _ (refVol (fun k => J (Fin.natAdd 8 k)) (fun k => U (Fin.natAdd 8 k)) (fun k => M (Fin.natAdd 8 k))) shapeCasts_S16777216_S256x256x256)))
    (constant (F := Ideal) S_ .f32 0x00000000#32) reducesTo_S256x256x256_S_d0_1_2 h_S_

end Ref

/-! ## The kernel's form -/

section Ker

open Cert.KernelIdeal Cert.KernelIdeal.Facts₀ Cert.KernelIdeal.Facts

variable [Cert.KernelIdeal.Facts]

/-- A tap's weight times the cloud's sign (the bit pattern of +1 or −1) where the tap is inside the grid, zero elsewhere. -/
def kerWeight (sgn : BitVec 32) (M : IVec S2000000 1) (U : FVec Ideal S2000000 .f32) : FVec Ideal S2000000 .f32 :=
  select M (mulf U (broadcastInDim S2000000 ![] bcast_S_S2000000 (constant (F := Ideal) S_ .f32 sgn)))
    (broadcastInDim S2000000 ![] bcast_S_S2000000 (constant (F := Ideal) S_ .f32 0x00000000#32))

/-- Eight arrays over the points laid end to end. -/
def cat8 {α : Type} (x : Fin 8 → (S2000000.Idx → α)) : S16000000.Idx → α :=
  concatenate S16000000 0 [⟨S2000000, x 0⟩, ⟨S2000000, x 1⟩, ⟨S2000000, x 2⟩, ⟨S2000000, x 3⟩, ⟨S2000000, x 4⟩, ⟨S2000000, x 5⟩, ⟨S2000000, x 6⟩, ⟨S2000000, x 7⟩]
    concatenates_S2000000_S2000000_S2000000_S2000000_S2000000_S2000000_S2000000_S2000000_S16000000_d0

/-- The two clouds' arrays laid end to end. -/
def cat2 {α : Type} (a b : S16000000.Idx → α) : S32000000.Idx → α :=
  concatenate S32000000 0 [⟨S16000000, a⟩, ⟨S16000000, b⟩] concatenates_S16000000_S16000000_S32000000_d0

/-- All sixteen taps' flat indices, negative ones wrapped by the volume's size, as the column the scatter reads. -/
def kerIdx (J : Fin 16 → IVec S2000000 32) : IVec S32000000x1 32 :=
  broadcastInDim S32000000x1 ![0] bcast_S32000000_S32000000x1_0
    (select (cmpi .slt (cat2 (cat8 fun k => J (Fin.castLE (by decide) k)) (cat8 fun k => J (Fin.natAdd 8 k)))
        (broadcastInDim S32000000 ![] bcast_S_S32000000 (constantI S_ 32 0#32)))
      (addi (cat2 (cat8 fun k => J (Fin.castLE (by decide) k)) (cat8 fun k => J (Fin.natAdd 8 k)))
        (broadcastInDim S32000000 ![] bcast_S_S32000000 (constantI S_ 32 16777216#32)))
      (cat2 (cat8 fun k => J (Fin.castLE (by decide) k)) (cat8 fun k => J (Fin.natAdd 8 k))))

/-- All sixteen taps' signed weights: +1 times the predicted cloud's, −1 times the ground-truth cloud's. -/
def kerUpd (U : Fin 16 → FVec Ideal S2000000 .f32) (M : Fin 16 → IVec S2000000 1) : FVec Ideal S32000000 .f32 :=
  cat2 (cat8 fun k => kerWeight 0x3F800000#32 (M (Fin.castLE (by decide) k)) (U (Fin.castLE (by decide) k)))
    (cat8 fun k => kerWeight 0xBF800000#32 (M (Fin.natAdd 8 k)) (U (Fin.natAdd 8 k)))

/-- The array the region is handed: the single signed volume, re-laid as [65536, 256]. -/
def kerArr (J : Fin 16 → IVec S2000000 32) (U : Fin 16 → FVec Ideal S2000000 .f32) (M : Fin 16 → IVec S2000000 1) :
    FVec Ideal S65536x256 .f32 :=
  shapeCast _ (shapeCast _
    (Host.scatterAdd scatter_S16777216_S32000000x1_S32000000_n_0_0_1
      (broadcastInDim S16777216 ![] bcast_S_S16777216 (constant (F := Ideal) S_ .f32 0x00000000#32)) (kerIdx J) (kerUpd U M))
    shapeCasts_S16777216_S256x256x256) shapeCasts_S256x256x256_S65536x256

/-- The region's result on an array `x`: the sum of the Huber function over all of it. -/
def kerVal (x : FVec Ideal S65536x256 .f32) : FVec Ideal S_ .f32 :=
  fun _ => ∑ i : S65536x256.Idx, hub (x i)

end Ker

end Cert.Splat

end
-- ==== Proof.LibRowSum.lean ====
/-
  The sum along the second axis of an `[m, n]` array, read by coordinates.

  Summing an `[m, n]` array along its second axis leaves a vector of `m` numbers. The entry `p` of that vector is the
  sum of the `n` entries of row `p`: the index of the array lying over the reduced index `p` with coordinate `k` on the
  summed axis is `(p, k)`.
-/
import Idealize.ShloMosaic.PureOps.Ideal.Laws
import Idealize.ShloMosaic.Lib.ValueIdx

namespace Cert.LibRowSum

open Idealize.ShloMosaic Idealize.ShloMosaic.ValueIdx

/-- Over the reduced index `p`, the array index with coordinate `k` on the summed (second) axis is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The sum of an `[m, n]` array of extended reals along its second axis is, at `p`, the sum of row `p`'s entries. -/
theorem multiReduction_row_apply {φ : FTy} {m n : ℕ} (src : FVec Ideal (⟨2, ![m, n]⟩ : Shape) φ) (acc : BitVec φ.bits)
    (h : (⟨2, ![m, n]⟩ : Shape).Reduces [1] (⟨1, ![m]⟩ : Shape)) (hφ : FKind.Formats φ)
    (hacc : acc = FKind.add.neutral φ hφ) (p : Fin m) :
    multiReduction .add [1] (⟨1, ![m]⟩ : Shape) src acc h hφ hacc (ix1 p) = ∑ k : Fin n, src (ix2 p k) :=
  (Ideal.multiReduction_add_single src acc h hφ hacc (ix1 p)).trans
    (Finset.sum_congr rfl fun k _ => congrArg src (lift_row h p k))

/-- The host's sum of an `[m, n]` array along its second axis from the start value `init` is, at `p`, `init` plus the
    sum of row `p`'s entries. -/
theorem hostReduceAdd_row_apply {m n : ℕ} (h' : (⟨2, ![m, n]⟩ : Shape).ReducesTo [1] (⟨1, ![m]⟩ : Shape))
    (h : (⟨2, ![m, n]⟩ : Shape).Reduces [1] (⟨1, ![m]⟩ : Shape)) (x : (⟨2, ![m, n]⟩ : Shape).Idx → EReal) (init : EReal)
    (p : Fin m) : Ideal.hostReduceAdd h' x init (ix1 p) = init + ∑ k : Fin n, x (ix2 p k) :=
  (Ideal.hostReduceAdd_single h' h x init (ix1 p)).trans
    (congrArg (init + ·) (Finset.sum_congr rfl fun k _ => congrArg x (lift_row h p k)))

end Cert.LibRowSum
-- ==== Proof.LibColumn.lean ====
/-
  Two layout operations of a column vector, read at an index written by coordinates.

  A sum along the rows of an `[a, n]` array kept as a column (`keepdims`) is a vector of `a` numbers cast to `[a, 1]`
  and then repeated along the second axis to `[a, b]`. Read at `(p, c)`, the cast gives the vector's entry `p` (the
  row-major position of `(p, 0)` in `[a, 1]` is `p`), and the repeat gives the column's entry `(p, 0)`, whatever `c`.
-/
import Idealize.ShloMosaic.Lib.Pipeline.Value
import Idealize.ShloMosaic.Lib.ValueIdx

namespace Cert.LibColumn

open Idealize.ShloMosaic Idealize.ShloMosaic.ValueIdx

variable {α : Type}

/-- An `[a]` vector cast to an `[a, 1]` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KI.PayIdeal.lean ====
/-
  The region body's arithmetic over the extended reals.

  At a grid point the body adds to the [1, 1] accumulator the Huber function of the point's [8192, 256] block summed
  over its lanes and then over its rows: read at its one index, accumulator + ∑ over rows r, ∑ over lanes l, of
  Huber (x (r, l)). The value the first point stores before that is zero.
-/
import proofs.«159527_j65987877535944_2_alg».proof.Proof.Gen.KernelIdeal.Skeleton
import proofs.«159527_j65987877535944_2_alg».proof.Proof.Spec
import proofs.«159527_j65987877535944_2_alg».proof.Proof.LibRowSum
import proofs.«159527_j65987877535944_2_alg».proof.Proof.LibColumn
import Idealize.ShloMosaic.PureOps.Ideal.Laws
import Idealize.ShloMosaic.Lib.ValueIdx
import Idealize.ShloMosaic.Lib.Pipeline.Value

noncomputable section

namespace Cert.KernelIdeal.Fr

open Cert.KernelIdeal Cert.KernelIdeal.Gen
open Idealize.ShloMosaic Idealize.ShloMosaic.ValueIdx

/-- Over the reduced index `p` of an [n, 1] column summed along its first axis, the column's index with coordinate `k` on
    the summed axis is `(k, p)`. -/
theorem lift_col {n : ℕ} (h : (⟨2, ![n, 1]⟩ : Shape).Reduces [0] (⟨1, ![1]⟩ : Shape)) (p : Fin 1)
    (k : Fin ((⟨2, ![n, 1]⟩ : Shape).size 0)) : h.lift (ix1 p) k = ix2 (⟨k.val, k.isLt⟩ : Fin n) p := by
  funext c; apply Fin.ext
  fin_cases c <;> rfl

/-- The sum of an [n, 1] column along its first axis is, at its one index, the sum of the column's n entries. -/
theorem multiReduction_col_apply {φ : FTy} {n : ℕ} (src : FVec Ideal (⟨2, ![n, 1]⟩ : Shape) φ) (acc : BitVec φ.bits)
    (h : (⟨2, ![n, 1]⟩ : Shape).Reduces [0] (⟨1, ![1]⟩ : Shape)) (hφ : FKind.Formats φ)
    (hacc : acc = FKind.add.neutral φ hφ) (p : Fin 1) :
    multiReduction .add [0] (⟨1, ![1]⟩ : Shape) src acc h hφ hacc (ix1 p) = ∑ k : Fin n, src (ix2 k p) :=
  (Ideal.multiReduction_add_single src acc h hφ hacc (ix1 p)).trans
    (Finset.sum_congr rfl fun k _ => congrArg src (lift_col h p k))

/-- The first point's reset stores zero. -/
theorem pay1_apply (j : S1x1.Idx) : k0_pay1 (F := Ideal) j = 0 := by
  unfold k0_pay1
  simp only [shapeCast_self]
  exact Ideal.ofBits_zero_f32

/-- A point's update: the accumulator plus the block's Huber sum. -/
theorem pay2_apply (x : Vec Ideal S8192x256 .f32) (acc : Vec Ideal S1x1 .f32) (j : S1x1.Idx) :
    k0_pay2 (F := Ideal) x acc j = acc j + ∑ r : Fin 8192, ∑ l : Fin 256, Cert.Splat.hub (x (ix2 r l)) := by
  obtain ⟨p, q, rfl⟩ : ∃ (p : Fin 1) (q : Fin 1), j = ix2 p q := ⟨j 0, j 1, eq_ix2 j⟩
  unfold k0_pay2
  simp only [shapeCast_self]
  simp only [addf, Ideal.addf_def]
  congr 1
  refine (Cert.LibColumn.shapeCast_a_a1_apply _ shapeCasts_S1_S1x1 p q).trans ?_
  refine (multiReduction_col_apply _ _ reduces_S8192x1_S1 (.inl rfl) rfl p).trans ?_
  refine Finset.sum_congr rfl fun r _ => ?_
  refine (Cert.LibColumn.shapeCast_a_a1_apply _ shapeCasts_S8192_S8192x1 r p).trans ?_
  refine (Cert.LibRowSum.multiReduction_row_apply _ _ reduces_S8192x256_S8192 (.inl rfl) rfl r).trans ?_
  exact Finset.sum_congr rfl fun l _ => rfl

end Cert.KernelIdeal.Fr

end
-- ==== Proof.KI.Value.lean ====
/-
  The kernel program's result, read off its frame run.

  Each case of the body leaves in the scratch the per-point update of what it found there — at the first point of the
  zero it has just stored — applied to the point's block; so after point n the scratch holds the chain of updates over
  blocks 0 ‥ n (`chain`, by induction on the point). The output window is written back once, after the last point, with
  the scratch's final contents, and its one block is the whole [1, 1] array; the reshape after the region makes it the
  scalar result. Over the extended reals an update adds the block's Huber sum, so the chain is zero plus the eight
  blocks' sums, which is the Huber sum over the whole [65536, 256] array the region is handed: block t, row r is row
  8192·t + r of the array.
-/
import proofs.«159527_j65987877535944_2_alg».proof.Proof.KI.Frame
import proofs.«159527_j65987877535944_2_alg».proof.Proof.KI.PayIdeal
import Idealize.ShloMosaic.Lib.Pipeline.Value
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

theorem hz : (![0, 0] : Fin 2 → Nat) = fun _ => 0 := funext fun a => by fin_cases a <;> rfl

/-! ## Each case's pieces, read back -/

section Cases

variable (c : Dev nD) (i : grid0.Coords) (a1 : Memref sig .tc .vmem S8192x256 .f32) (ha1 : a1.IsWhole)
  (a2 : Memref sig .tc .vmem S1x1 .f32) (ha2 : a2.IsWhole) (a3 : Memref sig .tc .vmem S1x1 .f32) (ha3 : a3.IsWhole)

/-- A middle point leaves the update of what it found. -/
theorem sMid_eq (hf : ¬isFirst i) (hl : ¬isLast i) (x : Vec F S8192x256 .f32) (xs : Vec F S1x1 .f32) :
    sMid c i a1 ha1 a2 ha2 a3 ha3 hf hl x xs = k0_pay2 x xs := by
  unfold sMid
  rw [View.read_writes_eq_canon _ _ _ (sMid_cover c i a1 ha1 a2 ha2 a3 ha3 hf hl x xs)]
  unfold runMid
  dsimp only
  rw [View.canon_unit_zero hz]
  simp only [View.readAt_eq_ld, ha1.read_unread, ha3.read_unread, View.ld_unit_zero (S := S8192x256) hz, View.ld_unit_zero (S := S1x1) hz]

/-- The first point leaves the update of the zero it stored. -/
theorem sFirst_eq (hf : isFirst i) (hl : ¬isLast i) (x : Vec F S8192x256 .f32) :
    sFirst c i a1 ha1 a2 ha2 a3 ha3 hf hl x = k0_pay2 x k0_pay1 := by
  unfold sFirst
  rw [View.read_writes_eq_canon _ _ _ (sFirst_cover c i a1 ha1 a2 ha2 a3 ha3 hf hl x)]
  unfold runFirst
  dsimp only
  sl_unfold_words
  rw [View.canon_cons_unit_zero (S := S1x1) hz, View.readCov_unit_zero (S := S1x1) _ hz]
  simp only [View.readAt_eq_ld, ha1.read_unread, View.ld_unit_zero (S := S8192x256) hz, View.ld_unit_zero (S := S1x1) hz]

/-- The last point leaves the update of what it found, in the scratch -/
theorem sLast_eq (hf : ¬isFirst i) (hl : isLast i) (x : Vec F S8192x256 .f32) (xs : Vec F S1x1 .f32) :
    sLast c i a1 ha1 a2 ha2 a3 ha3 hf hl x xs = k0_pay2 x xs := by
  unfold sLast
  rw [View.read_writes_eq_canon _ _ _ (sLast_cover c i a1 ha1 a2 ha2 a3 ha3 hf hl x xs)]
  unfold runLast
  dsimp only
  sl_unfold_words
  rw [View.canon_unit_zero hz]
  simp only [View.readAt_eq_ld, ha1.read_unread, ha3.read_unread, View.ld_unit_zero (S := S8192x256) hz, View.ld_unit_zero (S := S1x1) hz]

/-- and, copied, in the output window. -/
theorem oLast_eq (hf : ¬isFirst i) (hl : isLast i) (x : Vec F S8192x256 .f32) (xs : Vec F S1x1 .f32) :
    oLast c i a1 ha1 a2 ha2 a3 ha3 hf hl x xs = k0_pay2 x xs := by
  unfold oLast
  rw [View.read_writes_eq_canon _ _ _ (oLast_cover c i a1 ha1 a2 ha2 a3 ha3 hf hl x xs)]
  unfold runLast
  dsimp only
  sl_unfold_words
  rw [View.canon_unit_zero hz]
  simp only [View.readAt_eq_ld, ha1.read_unread, ha3.read_unread, View.ld_unit_zero (S := S8192x256) hz, View.ld_unit_zero (S := S1x1) hz, View.readCov_unit_zero (S := S1x1) _ hz]

end Cases

variable (m : (ℓ : Loc nD τ sig) → Buf (Elt F) ℓ) (ρ : Dev nD → PrngReg)

/-! ## The chain of updates -/

/-- The scratch after point `n`: the updates over blocks 0 ‥ n, from the zero the first point stores. -/
def chain (c : Dev nD) : (n : ℕ) → n < cfg0.N → Vec F S1x1 .f32
  | 0, h => k0_pay2 (iblk m c 0 ⟨0, h⟩) k0_pay1
  | n + 1, h => k0_pay2 (iblk m c 0 ⟨n + 1, h⟩) (chain c n (Nat.lt_of_succ_lt h))

theorem accAt_eq (c : Dev nD) : ∀ (n : ℕ) (h : n < cfg0.N), accAt m c n h = chain m c n h
  | 0, h => sFirst_eq ..
  | n + 1, h => by
    show (if h7 : n + 1 = 7 then _ else _) = _
    split
    · rw [sLast_eq]; show k0_pay2 _ (accAt m c n _) = k0_pay2 _ (chain m c n _); rw [accAt_eq c n]
    · rw [sMid_eq]; show k0_pay2 _ (accAt m c n _) = k0_pay2 _ (chain m c n _); rw [accAt_eq c n]

theorem seven_lt : 7 < cfg0.N := by rw [show cfg0.N = 8 from N_0]; decide

/-- The [1, 1] result of the region: the chain after the last point. -/
abbrev result (c : Dev nD) : Buf (Elt F) ((c : Thread nD τ).loc main_call32_v0) := chain m c 7 seven_lt

/-- The one write-back, at the last point, writes it: the output window's one block is its whole array. -/
theorem flushed_eq (c : Dev nD) (t : Fin cfg0.N) (hf : (cfg0.win 1).flush t = true) :
    (dats m 0 c).flushed 1 t = ((cfg0.win 1).blk t).view.read (Elt F) (result m c) := by
  have hN : cfg0.N = 8 := N_0
  have h7 : t.val = 7 := by have := (flush0_1 t).mp hf; have := t.isLt; omega
  obtain rfl : t = t0_7 := Fin.ext h7
  have hnf : ¬isFirst (grid0.coords t0_7) := fun h => absurd ((isFirst_iff t0_7).mp h) (by decide)
  have hl : isLast (grid0.coords t0_7) := (isLast_iff t0_7).mpr rfl
  show (cfg0.win 1).cut (grid0.coords t0_7) ((dats m 0 c).after 1 t0_7) = _
  rw [after_out, outAt_last m c t0_7 hnf hl, oLast_eq, accAt_eq]
  have hz' : (fun a => win0_1.index t0_7 a * main_call32_v0.ty.shape.size a) = fun _ => 0 := funext fun a => by fin_cases a <;> decide
  exact (Memref.read_access_unit_zero (Elt F) main_call32_v0 hz' (fun a => by rw [congrFun hz' a]; simp) (result m c)).symm

/-- So the region's [1, 1] array ends at the chain after the last point. -/
theorem final_o (c : Dev nD) : (dats m 0 c).arrAt 1 cfg0.N = result m c :=
  (dats m 0 c).arrAt_eq_of_cover 1 (result m c) (flushed_eq m c) fun i =>
    ⟨t0_7, (flush0_1 t0_7).mpr rfl, by
      show i ∈ ((View.whole main_call32_v0).slice (win0_1.rect t0_7)).set
      rw [View.set_slice_whole, Rect.mem_set_unit]
      intro a
      have h0 : (i 0 : Nat) < 1 := (i 0).isLt
      have h1 : (i 1 : Nat) < 1 := (i 1).isLt
      match a with
      | ⟨0, _⟩ => show win0_1.index t0_7 0 * win0_1.size 0 ≤ (i 0 : Nat) ∧ (i 0 : Nat) < win0_1.index t0_7 0 * win0_1.size 0 + win0_1.xsize (grid0.coords t0_7) 0
                  rw [show win0_1.index t0_7 0 * win0_1.size 0 = 0 from by decide +kernel, show win0_1.xsize (grid0.coords t0_7) 0 = 1 from by decide +kernel]; omega
      | ⟨1, _⟩ => show win0_1.index t0_7 1 * win0_1.size 1 ≤ (i 1 : Nat) ∧ (i 1 : Nat) < win0_1.index t0_7 1 * win0_1.size 1 + win0_1.xsize (grid0.coords t0_7) 1
                  rw [show win0_1.index t0_7 1 * win0_1.size 1 = 0 from by decide +kernel, show win0_1.xsize (grid0.coords t0_7) 1 = 1 from by decide +kernel]; omega⟩

/-- The reshape after the region makes it the scalar result. -/
theorem tail_eq (c : Dev nD) :
    Pipeline.afterTail₀ cfgs (dats m) 0 (V0 m) [hostOps1] c main_v684 = shapeCast S_ (result m c) shapeCasts_S1x1_S_ := by
  unfold Pipeline.afterTail₀
  show StableHlo.after hostOps1 _ (Proc.devRef .tc main_v684) = _
  after_results
  exact congrArg (fun x : S1x1.Idx → Elt F .f32 => shapeCast S_ x shapeCasts_S1x1_S_)
    ((Pipeline.withArrays_arr spec0 launch0.win.arr_inj c (V0 m c) (fun w => (dats m 0 c).arrAt w cfg0.N) 1).trans (final_o m c))

/-- The run, read: the result at the reshaped chain, the arguments unchanged. -/
theorem run_chain : θ_run defs (onTc (τ := τ) (main (F := F))) ⟨m, fun _ => 0, ρ⟩ (fun r => ∀ c : Dev nD,
      r.2.mem ((c.tc : Thread nD τ).loc main_v684) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v684 (Pipeline.mem_restRefs_of main_v684 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Fr

end
-- ==== Proof.KI.BlockRead.lean ====
/-
  Blocks of rows of a [65536, 256] array, and the Huber sum over it block by block.

  The region's input window cuts the array into eight blocks of 8192 rows: block t, read at (r, l), is the array at
  (8192·t + r, l). The eight row ranges partition the 65536 rows, so a sum over every index of the array is the sum
  over t of the sums over block t.
-/
import proofs.«159527_j65987877535944_2_alg».proof.Proof.KI.Kit
import proofs.«159527_j65987877535944_2_alg».proof.Proof.Spec
import Idealize.ShloMosaic.Lib.ValueIdx
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL.Sem

/-- The input window's index map over the grid: block row `t`, block column 0. -/
theorem index_in : ∀ t : Fin cfg0.N, win0_0.index t 0 = t.val ∧ win0_0.index t 1 = 0 :=
  (by decide +kernel : ∀ t : Fin grid0.N, win0_0.index t 0 = t.val ∧ win0_0.index t 1 = 0)

/-- Block `t` of an array `A`, read at (r, l), is `A` at (8192·t + r, l). -/
theorem blk_read {F : FTy → Type} [FloatOps F] (A : S65536x256.Idx → Elt F .f32) (t : Fin cfg0.N) (r : Fin 8192) (l : Fin 256)
    (hrow : 8192 * t.val + r.val < 65536) :
    (((cfg0.win 0).blk t).view.read (Elt F) A : S8192x256.Idx → Elt F .f32) (ix2 r l)
      = A (ix2 (⟨8192 * t.val + r.val, hrow⟩ : Fin 65536) l) := by
  have hi := index_in t
  rw [View.read_apply]
  refine congrArg A ?_
  funext a
  apply Fin.ext
  match a with
  | ⟨0, _⟩ => show win0_0.index t 0 * 8192 + 1 * r.val = 8192 * t.val + r.val; rw [hi.1]; omega
  | ⟨1, _⟩ => show win0_0.index t 1 * 256 + 1 * l.val = l.val; rw [hi.2]; omega

/-- The Huber sum over rows 8192·t ‥ 8192·t + 8191 of an array. -/
def blockSum (d : S65536x256.Idx → EReal) (t : Fin 8) : EReal :=
  ∑ r : Fin 8192, ∑ l : Fin 256, Cert.Splat.hub (d (ix2 (⟨8192 * t.val + r.val, by have := t.isLt; have := r.isLt; omega⟩ : Fin 65536) l))

/-- The eight row ranges partition the rows: the sum over the whole array is the sum of the eight block sums. -/
theorem sum_blocks (d : S65536x256.Idx → EReal) : ∑ i : S65536x256.Idx, Cert.Splat.hub (d i) = ∑ t : Fin 8, blockSum d t := by
  rw [sum_idx2 (n0 := 65536) (n1 := 256) (fun i => Cert.Splat.hub (d i))]
  rw [← Equiv.sum_comp (finProdFinEquiv : Fin 8 × Fin 8192 ≃ Fin 65536) (fun R : Fin 65536 => ∑ l : Fin 256, Cert.Splat.hub (d (ix2 R l))),
    Fintype.sum_prod_type]
  refine Finset.sum_congr rfl fun t _ => Finset.sum_congr rfl fun r _ => Finset.sum_congr rfl fun l _ => ?_
  refine congrArg (fun R : Fin 65536 => Cert.Splat.hub (d (ix2 R l))) (Fin.ext ?_)
  show r.val + 8192 * t.val = 8192 * t.val + r.val
  omega

end Cert.KernelIdeal.Fr

end
-- ==== Proof.KI.ValueIdeal.lean ====
/-
  The kernel program's result over the extended reals: the Huber sum over the whole array the region is handed.

  An update adds a block's Huber sum to the accumulator and the first point starts from zero, so the chain after the
  eighth point is 0 + B₀ + B₁ + … + B₇ with Bₜ the Huber sum over block t of the region's input array; the eight
  blocks partition the array's rows, so that is the sum over every index of the array.
-/
import proofs.«159527_j65987877535944_2_alg».proof.Proof.KI.Value
import proofs.«159527_j65987877535944_2_alg».proof.Proof.KI.BlockRead

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The [65536, 256] array the region is handed on core `c`: what the host operations before it leave. -/
def arrIn (c : Dev nD) : S65536x256.Idx → EReal := V m c main_v683

theorem arrIn_def (c : Dev nD) : arrIn m c = V m c main_v683 := rfl

/-- The input window's block at a point is that block of the array. -/
theorem iblk_eq (c : Dev nD) (t : Fin cfg0.N) :
    (iblk m c 0 t : Vec Ideal S8192x256 .f32) = ((cfg0.win 0).blk t).view.read (Elt Ideal) (arrIn m c) := rfl

attribute [irreducible] arrIn

/-- A point's update over the extended reals, at the chain's one index: the block's Huber sum is added. -/
theorem chain_succ (c : Dev nD) (n : ℕ) (h : n + 1 < cfg0.N) (j : S1x1.Idx) :
    chain m c (n + 1) h j = chain m c n (Nat.lt_of_succ_lt h) j
      + ∑ r : Fin 8192, ∑ l : Fin 256, Cert.Splat.hub ((iblk m c 0 ⟨n + 1, h⟩ : Vec Ideal S8192x256 .f32) (ix2 r l)) :=
  pay2_apply _ _ j
theorem chain_zero (c : Dev nD) (h : 0 < cfg0.N) (j : S1x1.Idx) :
    chain m c 0 h j = 0 + ∑ r : Fin 8192, ∑ l : Fin 256, Cert.Splat.hub ((iblk m c 0 ⟨0, h⟩ : Vec Ideal S8192x256 .f32) (ix2 r l)) := by
  refine (pay2_apply _ _ j).trans ?_
  rw [pay1_apply]

/-- A block's Huber sum, read off the region's input array (the point's number `n` being block `t`'s). -/
theorem blk_sum (c : Dev nD) (t : Fin 8) (n : ℕ) (h : n < cfg0.N) (hn : n = t.val) :
    ∑ r : Fin 8192, ∑ l : Fin 256, Cert.Splat.hub ((iblk m c 0 ⟨n, h⟩ : Vec Ideal S8192x256 .f32) (ix2 r l))
      = blockSum (arrIn m c) t := by
  subst hn
  rw [iblk_eq]
  exact Finset.sum_congr rfl fun r _ => Finset.sum_congr rfl fun l _ =>
    congrArg Cert.Splat.hub (blk_read (F := Ideal) (arrIn m c) ⟨t.val, h⟩ r l
      (by show 8192 * t.val + r.val < 65536; have := t.isLt; have := r.isLt; omega))

/-- The region's [1, 1] result is, at its one index, the Huber sum over the whole input array. -/
theorem result_apply (c : Dev nD) (j : S1x1.Idx) :
    result m c j = ∑ i : S65536x256.Idx, Cert.Splat.hub (arrIn m c i) := by
  have hN : cfg0.N = 8 := N_0
  rw [sum_blocks, Fin.sum_univ_eight]
  show chain m c 7 _ j = _
  rw [chain_succ, chain_succ, chain_succ, chain_succ, chain_succ, chain_succ, chain_succ, chain_zero,
    blk_sum m c 0 0 _ rfl, blk_sum m c 1 (0 + 1) _ rfl, blk_sum m c 2 (1 + 1) _ rfl, blk_sum m c 3 (2 + 1) _ rfl, blk_sum m c 4 (3 + 1) _ rfl,
    blk_sum m c 5 (4 + 1) _ rfl, blk_sum m c 6 (5 + 1) _ rfl, blk_sum m c 7 (6 + 1) _ rfl,
    zero_add]

/-- The kernel program's run over the extended reals: its result is the region's value of the array it is handed. -/
theorem run_value : θ_run defs (onTc (τ := τ) (main (F := Ideal))) ⟨m, fun _ => 0, ρ⟩ (fun r => ∀ c : Dev nD,
      r.2.mem ((c.tc : Thread nD τ).loc main_v684) = Cert.Splat.kerVal (arrIn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (funext fun j => result_apply m c _), (h c).2⟩) (run_chain m ρ)

end Cert.KernelIdeal.Fr

end
-- ==== Proof.LibRefNe.lean ====
/-
  References with different index numbers are different.

  A reference is a memory space, an index among that space's buffers, and a proof that the processor names it. Two
  references of one space whose indices are different numbers are different references: comparing them costs one
  comparison of numerals.
-/
import Idealize.ShloMosaic.Lib.StableHlo.Run

namespace Cert.LibRefNe

open Idealize.ShloMosaic

/-- Two references of one memory space with different index numbers are different. -/
theorem ref_ne_of_idx {sig : RefSig} {κ : Kind} {s : Space} {i j : Fin (sig.nNear κ s)}
    (hi : sig.names κ s i = true) (hj : sig.names κ s j = true) (h : i.val ≠ j.val) :
    (⟨s, i, hi⟩ : Ref sig κ) ≠ ⟨s, j, hj⟩ :=
  fun e => h (congrArg (fun r : Ref sig κ => r.idx.val) e)

end Cert.LibRefNe
-- ==== Proof.LibScatterColumn.lean ====
/-
  A scatter of scalars into a one-axis operand, read through its dimension record.

  The record: the updates are a vector of `n` scalars (no update window axes), the operand has one axis of `V`
  positions and that axis is an inserted window axis, the scatter indices are an `[n, 1]` column whose second axis
  is the index vector (of one component, naming operand axis 0). Then update `j` lands at the position that the
  index word in row `j` of the column denotes READ SIGNED, when that is within `0 ≤ · < V`, and is dropped otherwise:
  `resultIdx?_column`. The landing map `land V` depends on the word alone — not on `n` — so two scatters of
  different lengths into the same operand land equal words at equal positions.
-/
import Idealize.ShloMosaic.PureOps.Ideal
import Idealize.ShloMosaic.Lib.ValueIdx

namespace Cert.Splat
open Idealize.ShloMosaic Idealize.ShloMosaic.ValueIdx

/-- Where a signed index word lands in a one-axis operand of `V` elements: at that position when it is in range. -/
def land (V : Nat) {w : Nat} (b : BitVec w) : Option (⟨1, ![V]⟩ : Shape).Idx :=
  if h : 0 ≤ b.toInt ∧ b.toInt < (V : Int) then some (ix1 ⟨b.toInt.toNat, by omega⟩) else none

/-- Update `j` of a scatter of `n` scalars through an `[n, 1]` index column into a one-axis operand lands where the
    word in row `j` says. -/
theorem resultIdx?_column {V n w : Nat}
    (wf : ScatterDims.WF ⟨1, ![V]⟩ ⟨2, ![n, 1]⟩ ⟨1, ![n]⟩ [] [0] [0] 1)
    (j : (⟨1, ![n]⟩ : Shape).Idx) (idx : IVec ⟨2, ![n, 1]⟩ w) :
    (⟨[], [0], [0], 1, wf⟩ : ScatterDims ⟨1, ![V]⟩ ⟨2, ![n, 1]⟩ ⟨1, ![n]⟩).resultIdx? j idx
      = land V (idx (ix2 (j 0) 0)) := by
  have hw : ∀ a, (⟨[], [0], [0], 1, wf⟩ : ScatterDims ⟨1, ![V]⟩ ⟨2, ![n, 1]⟩ ⟨1, ![n]⟩).window j a = 0 := by
    intro a
    unfold ScatterDims.window
    rw [dif_neg]
    simp [ScatterDims.sKept, Shape.kept, List.finRange]
  have hs : ∀ a, (⟨[], [0], [0], 1, wf⟩ : ScatterDims ⟨1, ![V]⟩ ⟨2, ![n, 1]⟩ ⟨1, ![n]⟩).start j idx a = (idx (ix2 (j 0) 0)).toInt := by
    intro a
    unfold ScatterDims.start
    have ha : a ∈ ([0] : List (Fin 1)) := by simp [Subsingleton.elim a 0]
    rw [dif_pos ha]
    congr 2
    funext b
    have ha0 : a = 0 := Subsingleton.elim _ _
    subst ha0
    refine Fin.ext ?_
    unfold ScatterDims.siIdx
    by_cases hb : b.val = 1
    · rw [dif_pos hb]
      have hb1 : b = 1 := Fin.ext hb
      subst hb1
      simp
      rfl
    · rw [dif_neg hb]
      have hb0 : b = 0 := Fin.ext (by have hlt : b.val < 2 := b.isLt; show b.val = 0; omega)
      subst hb0
      unfold ScatterDims.siCoord
      simp only [Fin.coe_cast]
      exact congrArg (fun x => (j x).val) (Subsingleton.elim _ _)
  unfold ScatterDims.resultIdx? land
  simp only [hw, hs]
  by_cases h : 0 ≤ (idx (ix2 (j 0) 0)).toInt ∧ (idx (ix2 (j 0) 0)).toInt < (V : Int)
  · have h' : ∀ a : Fin 1, 0 ≤ (idx (ix2 (j 0) 0)).toInt + ((0 : Nat) : Int) ∧ (idx (ix2 (j 0) 0)).toInt + ((0 : Nat) : Int) < ((![V] a : Nat) : Int) := by
      intro a
      have ha0 : a = 0 := Subsingleton.elim _ _
      subst ha0
      simpa using h
    rw [dif_pos h', dif_pos h]
    refine congrArg some (funext fun a => ?_)
    have ha0 : a = 0 := Subsingleton.elim _ _
    subst ha0
    refine Fin.ext ?_
    simp
  · have h' : ¬ ∀ a : Fin 1, 0 ≤ (idx (ix2 (j 0) 0)).toInt + ((0 : Nat) : Int) ∧ (idx (ix2 (j 0) 0)).toInt + ((0 : Nat) : Int) < ((![V] a : Nat) : Int) := by
      intro hh
      exact h (by simpa using hh 0)
    rw [dif_neg h', dif_neg h]

end Cert.Splat
-- ==== Proof.LibRealSum.lean ====
/-
  Finite sums of real numbers inside the extended reals.

  Addition of extended reals is commutative and associative, but negation distributes over a sum only away from the
  pair ⊤, ⊥. For REAL summands everything is as in ℝ: a finite sum of (coerced) reals is the coerced sum, it is itself
  real, and the sum of the negated terms is the negated sum. The last lemma is the shape in which these are used: one
  signed accumulation of two families of eight reals against the difference of the two separately accumulated sums.
-/
import Mathlib.Data.EReal.Operations
import Mathlib.Algebra.BigOperators.Fin
import Mathlib.Tactic.Ring
import Mathlib.Tactic.NormNum

namespace Cert.Splat

open scoped BigOperators

/-- The coercion ℝ → EReal commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_finset_sum]; exact Finset.sum_congr rfl fun i _ => hg i⟩

/-- The sum of the negated reals is the negated sum. -/
theorem sum_neg_real {ι : Type*} (s : Finset ι) (f : ι → EReal) (h : ∀ i, ∃ r : ℝ, f i = (r : EReal)) :
    ∑ i ∈ s, -(f i) = -(∑ i ∈ s, f i) := by
  choose g hg using h
  simp only [hg, ← EReal.coe_neg, ← coe_finset_sum, Finset.sum_neg_distrib]

/-- One accumulation of eight reals `a` and eight negated reals `b` from zero is the difference of the two chains that
    accumulate `a` and `b` from zero one term after the other. -/
theorem signed_sum_eq_sub (a b : Fin 8 → EReal) (ha : ∀ k, ∃ r : ℝ, a k = (r : EReal)) (hb : ∀ k, ∃ r : ℝ, b k = (r : EReal)) :
    0 + (∑ k, a k + ∑ k, -(b k))
      = ((((((((0 + a 0) + a 1) + a 2) + a 3) + a 4) + a 5) + a 6) + a 7)
        - ((((((((0 + b 0) + b 1) + b 2) + b 3) + b 4) + b 5) + b 6) + b 7) := by
  choose α hα using ha
  choose β hβ using hb
  simp only [hα, hβ, Fin.sum_univ_eight]
  norm_cast
  ring

end Cert.Splat
-- ==== Proof.LibCatSum.lean ====
/-
  The rows of the thirty-two-million-row arrays, taken apart.

  The kernel's index and weight arrays are two runs of 16,000,000 rows laid end to end, each run being eight arrays
  of 2,000,000 rows laid end to end. Row `p` of the whole is therefore row `p mod 2,000,000` of piece
  `(p mod 16,000,000) / 2,000,000` of run `p / 16,000,000`. This is stated as two bijections of index types
  (`split2`, `split8`, built from the standard bijections `Fin (m + n) ≃ Fin m ⊕ Fin n` and `Fin (m · n) ≃ Fin m × Fin n`),
  with the laid-out arrays read through them (`cat2_inl`, `cat2_inr`, `cat8_apply`); hence a sum over all rows of any
  function of the laid-out arrays' entries is the sum over runs, pieces and points (`sum_cat`; `sum_cat_filter` for a sum
  over the rows selected by a property of the first array's entry).
-/
import proofs.«159527_j65987877535944_2_alg».proof.Proof.Spec
import Idealize.ShloMosaic.Lib.ValueIdx
import Idealize.ShloMosaic.Lib.Pipeline.Value

noncomputable section

namespace Cert.Splat
open Idealize.ShloMosaic Idealize.ShloMosaic.ValueIdx
open Cert.KernelIdeal Cert.KernelIdeal.Facts₀ Cert.KernelIdeal.Facts

/-- A one-axis index is its coordinate. -/
def idxEquiv1 (n : Nat) : (⟨1, ![n]⟩ : Shape).Idx ≃ Fin n where
  toFun p := p 0
  invFun := ix1
  left_inv p := (eq_ix1 p).symm
  right_inv _ := rfl

/-- The 32,000,000 rows: the first 16,000,000, then the second 16,000,000. -/
def split2 : S32000000.Idx ≃ S16000000.Idx ⊕ S16000000.Idx :=
  (idxEquiv1 32000000).trans ((finSumFinEquiv (m := 16000000) (n := 16000000)).symm.trans
    (Equiv.sumCongr (idxEquiv1 16000000).symm (idxEquiv1 16000000).symm))

/-- 16,000,000 rows: eight runs of 2,000,000. -/
def split8 : S16000000.Idx ≃ Fin 8 × S2000000.Idx :=
  (idxEquiv1 16000000).trans ((finProdFinEquiv (m := 8) (n := 2000000)).symm.trans
    (Equiv.prodCongr (Equiv.refl _) (idxEquiv1 2000000).symm))

theorem split2_symm_inl_val (q : S16000000.Idx) : ((split2.symm (Sum.inl q)) 0).val = (q 0).val := rfl
theorem split2_symm_inr_val (q : S16000000.Idx) : ((split2.symm (Sum.inr q)) 0).val = 16000000 + (q 0).val := rfl
theorem split8_symm_val (k : Fin 8) (j : S2000000.Idx) : ((split8.symm (k, j)) 0).val = (j 0).val + 2000000 * k.val := rfl

variable [Cert.KernelIdeal.Facts]
variable {α : Type}

theorem cat2_inl (a b : S16000000.Idx → α) (q : S16000000.Idx) : cat2 a b (split2.symm (Sum.inl q)) = a q := by
  unfold cat2
  refine concatenate_pair_apply_left (t := S32000000) 0 a b _ _ rfl q ?_
  intro c
  have : c = 0 := Subsingleton.elim _ _
  subst this
  exact (split2_symm_inl_val q).symm

theorem cat2_inr (a b : S16000000.Idx → α) (q : S16000000.Idx) : cat2 a b (split2.symm (Sum.inr q)) = b q := by
  unfold cat2
  refine concatenate_pair_apply_right (t := S32000000) 0 a b _ _ rfl rfl q ?_ ?_
  · intro c hc
    exact absurd (Subsingleton.elim _ _) hc
  · rw [split2_symm_inr_val]
    show (q 0).val + 16000000 = _
    omega

theorem cat8_apply (x : Fin 8 → (S2000000.Idx → α)) (k : Fin 8) (j : S2000000.Idx) :
    cat8 x (split8.symm (k, j)) = x k j := by
  unfold cat8
  have hj : (j 0).val < 2000000 := (j 0).isLt
  refine concatenate_ofFn_apply (t := S16000000) (s₁ := S2000000) 0 x _ rfl 2000000 rfl (split8.symm (k, j)) k ?_ j ?_ ?_
  · rw [split8_symm_val]; omega
  · rw [split8_symm_val]
    show (j 0).val = _
    omega
  · intro c hc
    exact absurd (Subsingleton.elim _ _) hc

/-- A sum over all 32,000,000 rows of a function of two laid-out arrays' entries is the sum over the two runs' eight
    pieces and their 2,000,000 points. -/
theorem sum_cat {β γ M : Type} [AddCommMonoid M] (F : β → γ → M)
    (JA JB : Fin 8 → (S2000000.Idx → β)) (WA WB : Fin 8 → (S2000000.Idx → γ)) :
    ∑ p : S32000000.Idx, F (cat2 (cat8 JA) (cat8 JB) p) (cat2 (cat8 WA) (cat8 WB) p)
      = (∑ k : Fin 8, ∑ j : S2000000.Idx, F (JA k j) (WA k j)) + (∑ k : Fin 8, ∑ j : S2000000.Idx, F (JB k j) (WB k j)) := by
  rw [← Equiv.sum_comp split2.symm, Fintype.sum_sum_type]
  simp only [cat2_inl, cat2_inr]
  refine congrArg₂ (· + ·) ?_ ?_
  · rw [← Equiv.sum_comp split8.symm, Fintype.sum_prod_type]
    simp only [cat8_apply]
  · rw [← Equiv.sum_comp split8.symm, Fintype.sum_prod_type]
    simp only [cat8_apply]

/-- The same for a sum over the rows at which a property of the first laid-out array's entry holds. -/
theorem sum_cat_filter {β M : Type} [AddCommMonoid M] (P : β → Prop) [DecidablePred P]
    (JA JB : Fin 8 → (S2000000.Idx → β)) (WA WB : Fin 8 → (S2000000.Idx → M)) :
    ∑ p ∈ Finset.univ.filter (fun p => P (cat2 (cat8 JA) (cat8 JB) p)), cat2 (cat8 WA) (cat8 WB) p
      = (∑ k : Fin 8, ∑ j ∈ Finset.univ.filter (fun j => P (JA k j)), WA k j)
        + (∑ k : Fin 8, ∑ j ∈ Finset.univ.filter (fun j => P (JB k j)), WB k j) := by
  rw [Finset.sum_filter]
  refine (sum_cat (fun b w => if P b then w else 0) JA JB WA WB).trans ?_
  simp only [Finset.sum_filter]

end Cert.Splat
-- ==== Proof.LibShapeCastSum.lean ====
/-
  Sums through a re-laying.

  A shape cast lists the same elements in row-major order under another shape: it is precomposition with a bijection
  of the two index types. A sum over every index of the re-laid array, of any function of its entries, is therefore
  the sum over every index of the array itself; likewise for a function of two arrays re-laid the same way.
-/
import Idealize.ShloMosaic.PureOps.Ideal

namespace Cert.Splat
open Idealize.ShloMosaic

/-- The sum of `f` over a re-laid array's entries is the sum over the array's. -/
theorem sum_shapeCast {s t : Shape} {α M : Type} [AddCommMonoid M] (x : s.Idx → α) (h : s.ShapeCasts t) (f : α → M) :
    ∑ j : t.Idx, f (shapeCast t x h j) = ∑ i : s.Idx, f (x i) :=
  Equiv.sum_comp (Shape.reshapeEquiv h) (fun i => f (x i))

/-- The same for a function of two arrays re-laid alike. -/
theorem sum_shapeCast₂ {s t : Shape} {α β M : Type} [AddCommMonoid M] (x : s.Idx → α) (y : s.Idx → β)
    (h h' : s.ShapeCasts t) (f : α → β → M) :
    ∑ j : t.Idx, f (shapeCast t x h j) (shapeCast t y h' j) = ∑ i : s.Idx, f (x i) (y i) :=
  Equiv.sum_comp (Shape.reshapeEquiv h) (fun i => f (x i) (y i))

end Cert.Splat
-- ==== Proof.Bridge.lean ====
/-
  The single signed volume against the difference of the two volumes.

  Each of the sixteen taps adds, to voxel `i`, the sum of the (masked) weights of the points whose flat index — a
  negative one wrapped by the volume's size — lands on `i`: `tapSum`. The reference accumulates eight such sums per
  cloud from zero, one after the other (`refVol_apply`), and subtracts. The kernel's one scatter over the 32,000,000
  laid-out rows is zero plus the sum over all rows, which splits by run, piece and point into the sixteen tap sums, the
  ground-truth cloud's with every weight multiplied by −1 (`kerVol_apply`). With real weights the sum of the negated
  weights is the negated sum and the whole is arithmetic in ℝ (`vol_eq`). Both programs then sum the same Huber
  function over the same voxels, listed through bijective re-layings of the index type (`bridge`).
-/
import proofs.«159527_j65987877535944_2_alg».proof.Proof.Spec
import proofs.«159527_j65987877535944_2_alg».proof.Proof.LibScatterColumn
import proofs.«159527_j65987877535944_2_alg».proof.Proof.LibRealSum
import proofs.«159527_j65987877535944_2_alg».proof.Proof.LibCatSum
import proofs.«159527_j65987877535944_2_alg».proof.Proof.LibShapeCastSum
import Idealize.ShloMosaic.PureOps.Ideal.Laws
import Idealize.ShloMosaic.Lib.IdealHost
import Idealize.ShloMosaic.Lib.Pipeline.Value

noncomputable section

namespace Cert.Splat
open Idealize.ShloMosaic Idealize.ShloMosaic.ValueIdx

/-- A flat index word, a negative one wrapped by the volume's size. -/
def wrap (b : BitVec 32) : BitVec 32 :=
  Scalar.select (IntOp.cmpi .slt b 0#32) (IntOp.addi b 16777216#32) b

/-- One tap's contribution to voxel `i`: the sum of the weights `W` of the points whose wrapped index lands on `i`. -/
def tapSum (Jk : IVec Cert.ReferenceIdeal.S2000000 32) (W : Cert.ReferenceIdeal.S2000000.Idx → EReal)
    (i : Cert.ReferenceIdeal.S16777216.Idx) : EReal :=
  ∑ j ∈ Finset.univ.filter (fun j => land 16777216 (wrap (Jk j)) = some i), W j

section Ref
open Cert.ReferenceIdeal Cert.ReferenceIdeal.Facts₀ Cert.ReferenceIdeal.Facts
variable [Cert.ReferenceIdeal.Facts]

theorem refIdx_apply (Jk : IVec S2000000 32) (j : S2000000.Idx) : refIdx Jk (ix2 (j 0) 0) = wrap (Jk j) := by
  unfold refIdx
  rw [broadcastInDim_apply _ _ _ _ j (by
    intro a
    have ha : a = 0 := Subsingleton.elim _ _
    subst ha
    rw [if_neg (by decide)]
    rfl)]
  unfold wrap
  simp only [select_apply, broadcastInDim_scalar_apply]
  rfl

theorem refStep_apply (acc : FVec Ideal S16777216 .f32) (Jk : IVec S2000000 32) (Uk : FVec Ideal S2000000 .f32)
    (Mk : IVec S2000000 1) (i : S16777216.Idx) :
    refStep acc Jk Uk Mk i = acc i + tapSum Jk (refWeight Mk Uk) i := by
  unfold refStep tapSum Host.scatterAdd
  rw [Ideal.hostScatterAdd_def]
  unfold Ideal.hostScatterAdd
  refine congrArg (acc i + ·) (Finset.sum_congr (Finset.filter_congr fun j _ => ?_) fun _ _ => rfl)
  rw [show scatter_S16777216_S2000000x1_S2000000_n_0_0_1 = ⟨[], [0], [0], 1, scatter_S16777216_S2000000x1_S2000000_n_0_0_1_wf⟩ from rfl,
    resultIdx?_column, refIdx_apply]

theorem refZeros_apply (i : S16777216.Idx) : refZeros i = 0 := by
  unfold refZeros
  rw [broadcastInDim_scalar_apply]
  exact Ideal.ofBits_zero_f32

theorem refVol_apply (J : Fin 8 → IVec S2000000 32) (U : Fin 8 → FVec Ideal S2000000 .f32) (M : Fin 8 → IVec S2000000 1)
    (i : S16777216.Idx) :
    refVol J U M i = ((((((((0 + tapSum (J 0) (refWeight (M 0) (U 0)) i) + tapSum (J 1) (refWeight (M 1) (U 1)) i)
      + tapSum (J 2) (refWeight (M 2) (U 2)) i) + tapSum (J 3) (refWeight (M 3) (U 3)) i)
      + tapSum (J 4) (refWeight (M 4) (U 4)) i) + tapSum (J 5) (refWeight (M 5) (U 5)) i)
      + tapSum (J 6) (refWeight (M 6) (U 6)) i) + tapSum (J 7) (refWeight (M 7) (U 7)) i) := by
  unfold refVol
  simp only [refStep_apply, refZeros_apply]

theorem refHuber_apply (d : FVec Ideal S256x256x256 .f32) (i : S256x256x256.Idx) : refHuber d i = hub (d i) := by
  unfold refHuber hub
  simp only [select_apply, broadcastInDim_scalar_apply]
  rfl

theorem refHuber_sub_apply (A B : FVec Ideal S256x256x256 .f32) (i : S256x256x256.Idx) :
    refHuber (subf A B) i = hub (A i - B i) :=
  (refHuber_apply _ i).trans (congrArg hub (subf_apply A B i))

end Ref

section Ker
open Cert.KernelIdeal Cert.KernelIdeal.Facts₀ Cert.KernelIdeal.Facts
variable [Cert.KernelIdeal.Facts]

theorem kerIdx_apply (J : Fin 16 → IVec S2000000 32) (p : S32000000.Idx) :
    kerIdx J (ix2 (p 0) 0)
      = wrap (cat2 (cat8 fun k => J (Fin.castLE (by decide) k)) (cat8 fun k => J (Fin.natAdd 8 k)) p) := by
  unfold kerIdx
  rw [broadcastInDim_apply _ _ _ _ p (by
    intro a
    have ha : a = 0 := Subsingleton.elim _ _
    subst ha
    rw [if_neg (by decide)]
    rfl)]
  unfold wrap
  simp only [select_apply, broadcastInDim_scalar_apply]
  rfl

/-- The kernel's scatter at a voxel, for any operand, index column and updates: the operand there plus the updates of
    the rows whose index word lands there. -/
theorem scatter32_apply (acc : FVec Ideal S16777216 .f32) (idx : IVec S32000000x1 32) (upd : FVec Ideal S32000000 .f32)
    (i : S16777216.Idx) :
    Host.scatterAdd scatter_S16777216_S32000000x1_S32000000_n_0_0_1 acc idx upd i
      = acc i + ∑ p ∈ Finset.univ.filter (fun p => land 16777216 (idx (ix2 (p 0) 0)) = some i), upd p := by
  unfold Host.scatterAdd
  rw [Ideal.hostScatterAdd_def]
  unfold Ideal.hostScatterAdd
  refine congrArg (acc i + ·) (Finset.sum_congr (Finset.filter_congr fun p _ => ?_) fun _ _ => rfl)
  rw [show scatter_S16777216_S32000000x1_S32000000_n_0_0_1
      = ⟨[], [0], [0], 1, scatter_S16777216_S32000000x1_S32000000_n_0_0_1_wf⟩ from rfl,
    resultIdx?_column]

/-- The kernel's scatter of its own arrays at a voxel. -/
theorem kerScatter_raw (J : Fin 16 → IVec S2000000 32) (U : Fin 16 → FVec Ideal S2000000 .f32) (M : Fin 16 → IVec S2000000 1)
    (i : S16777216.Idx) :
    Host.scatterAdd scatter_S16777216_S32000000x1_S32000000_n_0_0_1
        (broadcastInDim S16777216 ![] bcast_S_S16777216 (constant (F := Ideal) S_ .f32 0x00000000#32)) (kerIdx J) (kerUpd U M) i
      = (broadcastInDim S16777216 ![] bcast_S_S16777216 (constant (F := Ideal) S_ .f32 0x00000000#32)) i
        + ∑ p ∈ Finset.univ.filter (fun p => land 16777216 (kerIdx J (ix2 (p 0) 0)) = some i), kerUpd U M p :=
  scatter32_apply _ _ _ i

/-- The zero volume reads zero. -/
theorem kerZeros_apply (i : S16777216.Idx) :
    (broadcastInDim S16777216 ![] bcast_S_S16777216 (constant (F := Ideal) S_ .f32 0x00000000#32)) i = 0 := by
  rw [broadcastInDim_scalar_apply, constant_apply, Ideal.ofBits_zero_f32]

/-- The rows landing on a voxel, through the laid-out index arrays. -/
theorem kerFilter_eq (J : Fin 16 → IVec S2000000 32) (i : S16777216.Idx) :
    Finset.univ.filter (fun p => land 16777216 (kerIdx J (ix2 (p 0) 0)) = some i)
      = Finset.univ.filter (fun p => land 16777216
          (wrap (cat2 (cat8 fun k => J (Fin.castLE (by decide) k)) (cat8 fun k => J (Fin.natAdd 8 k)) p)) = some i) :=
  Finset.filter_congr fun p _ => by rw [kerIdx_apply]

/-- The kernel's single volume at a voxel: zero plus the sum of the signed masked weights of the rows landing on it. -/
theorem kerScatter_apply (J : Fin 16 → IVec S2000000 32) (U : Fin 16 → FVec Ideal S2000000 .f32) (M : Fin 16 → IVec S2000000 1)
    (i : S16777216.Idx) :
    Host.scatterAdd scatter_S16777216_S32000000x1_S32000000_n_0_0_1
        (broadcastInDim S16777216 ![] bcast_S_S16777216 (constant (F := Ideal) S_ .f32 0x00000000#32)) (kerIdx J) (kerUpd U M) i
      = 0 + ∑ p ∈ Finset.univ.filter (fun p => land 16777216
          (wrap (cat2 (cat8 fun k => J (Fin.castLE (by decide) k)) (cat8 fun k => J (Fin.natAdd 8 k)) p)) = some i),
          kerUpd U M p := by
  rw [kerScatter_raw, kerZeros_apply, kerFilter_eq]

/-- The kernel's single volume at a voxel: zero plus the sixteen tap sums of the signed masked weights. -/
theorem kerVol_apply (J : Fin 16 → IVec S2000000 32) (U : Fin 16 → FVec Ideal S2000000 .f32) (M : Fin 16 → IVec S2000000 1)
    (i : S16777216.Idx) :
    Host.scatterAdd scatter_S16777216_S32000000x1_S32000000_n_0_0_1
        (broadcastInDim S16777216 ![] bcast_S_S16777216 (constant (F := Ideal) S_ .f32 0x00000000#32)) (kerIdx J) (kerUpd U M) i
      = 0 + ((∑ k : Fin 8, tapSum (J (Fin.castLE (by decide) k))
                (kerWeight 0x3F800000#32 (M (Fin.castLE (by decide) k)) (U (Fin.castLE (by decide) k))) i)
          + (∑ k : Fin 8, tapSum (J (Fin.natAdd 8 k)) (kerWeight 0xBF800000#32 (M (Fin.natAdd 8 k)) (U (Fin.natAdd 8 k))) i)) := by
  rw [kerScatter_apply]
  refine congrArg (0 + ·) ?_
  unfold kerUpd tapSum
  exact sum_cat_filter (fun b => land 16777216 (wrap b) = some i)
    (fun k => J (Fin.castLE (by decide) k)) (fun k => J (Fin.natAdd 8 k))
    (fun k => kerWeight 0x3F800000#32 (M (Fin.castLE (by decide) k)) (U (Fin.castLE (by decide) k)))
    (fun k => kerWeight 0xBF800000#32 (M (Fin.natAdd 8 k)) (U (Fin.natAdd 8 k)))

end Ker

section Both
variable [Cert.KernelIdeal.Facts] [Cert.ReferenceIdeal.Facts]

theorem ofBits_one_f32 : Ideal.ofBits .f32 0x3F800000#32 = 1 := by
  simp [Ideal.ofBits, Ideal.ieee, -EReal.coe_mul]; norm_num

theorem ofBits_neg_one_f32 : Ideal.ofBits .f32 0xBF800000#32 = -1 := by
  simp [Ideal.ofBits, Ideal.ieee, -EReal.coe_mul]; norm_num

theorem kerWeight_apply (sgn : BitVec 32) (Mk : IVec Cert.ReferenceIdeal.S2000000 1) (Uk : FVec Ideal Cert.ReferenceIdeal.S2000000 .f32)
    (j : Cert.ReferenceIdeal.S2000000.Idx) :
    kerWeight sgn Mk Uk j = Scalar.select (Mk j) (Uk j * Ideal.ofBits .f32 sgn) 0 := by
  show Scalar.select (Mk j) (Uk j * Ideal.ofBits .f32 sgn) (Ideal.ofBits .f32 0x00000000#32) = _
  rw [Ideal.ofBits_zero_f32]

theorem refWeight_apply (Mk : IVec Cert.ReferenceIdeal.S2000000 1) (Uk : FVec Ideal Cert.ReferenceIdeal.S2000000 .f32)
    (j : Cert.ReferenceIdeal.S2000000.Idx) :
    refWeight Mk Uk j = Scalar.select (Mk j) (Uk j) 0 := by
  show Scalar.select (Mk j) (Uk j) (Ideal.ofBits .f32 0x00000000#32) = _
  rw [Ideal.ofBits_zero_f32]

theorem kerWeight_pos (Mk : IVec Cert.ReferenceIdeal.S2000000 1) (Uk : FVec Ideal Cert.ReferenceIdeal.S2000000 .f32)
    (j : Cert.ReferenceIdeal.S2000000.Idx) : kerWeight 0x3F800000#32 Mk Uk j = refWeight Mk Uk j := by
  rw [kerWeight_apply, refWeight_apply, ofBits_one_f32, mul_one]

theorem kerWeight_neg (Mk : IVec Cert.ReferenceIdeal.S2000000 1) (Uk : FVec Ideal Cert.ReferenceIdeal.S2000000 .f32)
    (j : Cert.ReferenceIdeal.S2000000.Idx) : kerWeight 0xBF800000#32 Mk Uk j = -(refWeight Mk Uk j) := by
  rw [kerWeight_apply, refWeight_apply, ofBits_neg_one_f32, mul_neg, mul_one]
  unfold Scalar.select
  split <;> simp

theorem refWeight_real (Mk : IVec Cert.ReferenceIdeal.S2000000 1) (Uk : FVec Ideal Cert.ReferenceIdeal.S2000000 .f32)
    (hU : ∀ j, ∃ r : ℝ, Uk j = (r : EReal)) (j : Cert.ReferenceIdeal.S2000000.Idx) :
    ∃ r : ℝ, refWeight Mk Uk j = (r : EReal) := by
  rw [refWeight_apply]
  unfold Scalar.select
  split
  · exact hU j
  · exact ⟨0, rfl⟩

theorem tapSum_real (Jk : IVec Cert.ReferenceIdeal.S2000000 32) (Mk : IVec Cert.ReferenceIdeal.S2000000 1)
    (Uk : FVec Ideal Cert.ReferenceIdeal.S2000000 .f32) (hU : ∀ j, ∃ r : ℝ, Uk j = (r : EReal))
    (i : Cert.ReferenceIdeal.S16777216.Idx) : ∃ r : ℝ, tapSum Jk (refWeight Mk Uk) i = (r : EReal) :=
  sum_real _ _ (refWeight_real Mk Uk hU)

theorem tapSum_pos (Jk : IVec Cert.ReferenceIdeal.S2000000 32) (Mk : IVec Cert.ReferenceIdeal.S2000000 1)
    (Uk : FVec Ideal Cert.ReferenceIdeal.S2000000 .f32) (i : Cert.ReferenceIdeal.S16777216.Idx) :
    tapSum Jk (kerWeight 0x3F800000#32 Mk Uk) i = tapSum Jk (refWeight Mk Uk) i :=
  Finset.sum_congr rfl fun j _ => kerWeight_pos Mk Uk j

theorem tapSum_neg (Jk : IVec Cert.ReferenceIdeal.S2000000 32) (Mk : IVec Cert.ReferenceIdeal.S2000000 1)
    (Uk : FVec Ideal Cert.ReferenceIdeal.S2000000 .f32) (hU : ∀ j, ∃ r : ℝ, Uk j = (r : EReal))
    (i : Cert.ReferenceIdeal.S16777216.Idx) :
    tapSum Jk (kerWeight 0xBF800000#32 Mk Uk) i = -(tapSum Jk (refWeight Mk Uk) i) := by
  unfold tapSum
  rw [Finset.sum_congr rfl fun j _ => kerWeight_neg Mk Uk j]
  exact sum_neg_real _ _ (refWeight_real Mk Uk hU)

/-- Voxel by voxel, the single signed volume is the predicted cloud's volume less the ground-truth cloud's. -/
theorem vol_eq (J : Fin 16 → IVec Cert.ReferenceIdeal.S2000000 32) (U : Fin 16 → FVec Ideal Cert.ReferenceIdeal.S2000000 .f32)
    (M : Fin 16 → IVec Cert.ReferenceIdeal.S2000000 1) (hU : ∀ k i, ∃ r : ℝ, U k i = (r : EReal))
    (i : Cert.ReferenceIdeal.S16777216.Idx) :
    Host.scatterAdd Cert.KernelIdeal.scatter_S16777216_S32000000x1_S32000000_n_0_0_1
        (broadcastInDim Cert.KernelIdeal.S16777216 ![] Cert.KernelIdeal.Facts₀.bcast_S_S16777216
          (constant (F := Ideal) Cert.KernelIdeal.S_ .f32 0x00000000#32)) (kerIdx J) (kerUpd U M) i
      = refVol (fun k => J (Fin.castLE (by decide) k)) (fun k => U (Fin.castLE (by decide) k)) (fun k => M (Fin.castLE (by decide) k)) i
        - refVol (fun k => J (Fin.natAdd 8 k)) (fun k => U (Fin.natAdd 8 k)) (fun k => M (Fin.natAdd 8 k)) i := by
  rw [kerVol_apply, refVol_apply, refVol_apply]
  simp only [tapSum_pos, tapSum_neg _ _ _ (hU _)]
  exact signed_sum_eq_sub
    (fun k => tapSum (J (Fin.castLE (by decide) k)) (refWeight (M (Fin.castLE (by decide) k)) (U (Fin.castLE (by decide) k))) i)
    (fun k => tapSum (J (Fin.natAdd 8 k)) (refWeight (M (Fin.natAdd 8 k)) (U (Fin.natAdd 8 k))) i)
    (fun k => tapSum_real _ _ _ (hU _) i) (fun k => tapSum_real _ _ _ (hU _) i)

/-- The kernel's region result on the re-laid single volume is the reference's result. -/
theorem bridge (J : Fin 16 → IVec Cert.ReferenceIdeal.S2000000 32) (U : Fin 16 → FVec Ideal Cert.ReferenceIdeal.S2000000 .f32)
    (M : Fin 16 → IVec Cert.ReferenceIdeal.S2000000 1) (hU : ∀ k i, ∃ r : ℝ, U k i = (r : EReal)) :
    kerVal (kerArr J U M) = refVal J U M := by
  funext c
  unfold kerVal refVal kerArr
  rw [hostReduceAdd_apply, Ideal.hostReduceAdd_total _ (fun b => b.elim0)]
  rw [constant_apply, Ideal.ofBits_zero_f32, zero_add]
  refine (sum_shapeCast _ _ hub).trans ?_
  refine (sum_shapeCast _ _ hub).trans ?_
  refine Eq.trans ?_ (Finset.sum_congr rfl fun i _ => (refHuber_sub_apply _ _ i).symm)
  refine Eq.trans ?_ (sum_shapeCast₂ _ _ _ _ (fun a b => hub (a - b))).symm
  exact Finset.sum_congr rfl fun i _ => congrArg hub (vol_eq J U M hU i)

end Both

end Cert.Splat
-- ==== Proof.Taps.lean ====
/-
  The sixteen trilinear taps of the reference program, named as stages of its value computation.

  The reference splats two clouds of 2,000,000 points: taps 0‥7 belong to the predicted cloud
  (coords + registration_pred), taps 8‥15 to the ground-truth cloud (coords + registration_gt). A tap is, per point,
  a flat voxel index (already 0 where the tap falls outside the grid), the weight wx·wy·wz, and the mask
  "the tap falls inside the grid". Each is one stage of the reference's computation, a function of the argument
  arrays x0 = registration_pred, x1 = registration_gt, x2 = coords.
-/
import proofs.«159527_j65987877535944_2_alg».proof.Proof.RefRead

noncomputable section

namespace Cert.Splat

open Idealize.ShloMosaic

/-- Tap k's flat voxel index per point: the chosen index where the tap is inside the grid, 0 elsewhere. -/
def tapJ (x0 x1 x2 : FVec Ideal Cert.ReferenceIdeal.S2000000x3 .f32) : Fin 16 → IVec Cert.ReferenceIdeal.S2000000 32 :=
  ![Cert.ReferenceIdeal.Read.val_main_v79 (F := Ideal) x0 x2,
    Cert.ReferenceIdeal.Read.val_main_v119 (F := Ideal) x0 x2,
    Cert.ReferenceIdeal.Read.val_main_v161 (F := Ideal) x0 x2,
    Cert.ReferenceIdeal.Read.val_main_v201 (F := Ideal) x0 x2,
    Cert.ReferenceIdeal.Read.val_main_v245 (F := Ideal) x0 x2,
    Cert.ReferenceIdeal.Read.val_main_v285 (F := Ideal) x0 x2,
    Cert.ReferenceIdeal.Read.val_main_v327 (F := Ideal) x0 x2,
    Cert.ReferenceIdeal.Read.val_main_v367 (F := Ideal) x0 x2,
    Cert.ReferenceIdeal.Read.val_main_v455 (F := Ideal) x1 x2,
    Cert.ReferenceIdeal.Read.val_main_v495 (F := Ideal) x1 x2,
    Cert.ReferenceIdeal.Read.val_main_v537 (F := Ideal) x1 x2,
    Cert.ReferenceIdeal.Read.val_main_v577 (F := Ideal) x1 x2,
    Cert.ReferenceIdeal.Read.val_main_v621 (F := Ideal) x1 x2,
    Cert.ReferenceIdeal.Read.val_main_v661 (F := Ideal) x1 x2,
    Cert.ReferenceIdeal.Read.val_main_v703 (F := Ideal) x1 x2,
    Cert.ReferenceIdeal.Read.val_main_v743 (F := Ideal) x1 x2]

/-- Tap k's weight per point: the product wx·wy·wz of the three one-dimensional linear weights. -/
def tapU (x0 x1 x2 : FVec Ideal Cert.ReferenceIdeal.S2000000x3 .f32) : Fin 16 → FVec Ideal Cert.ReferenceIdeal.S2000000 .f32 :=
  ![Cert.ReferenceIdeal.Read.val_main_v71 (F := Ideal) x0 x2,
    Cert.ReferenceIdeal.Read.val_main_v111 (F := Ideal) x0 x2,
    Cert.ReferenceIdeal.Read.val_main_v153 (F := Ideal) x0 x2,
    Cert.ReferenceIdeal.Read.val_main_v193 (F := Ideal) x0 x2,
    Cert.ReferenceIdeal.Read.val_main_v237 (F := Ideal) x0 x2,
    Cert.ReferenceIdeal.Read.val_main_v277 (F := Ideal) x0 x2,
    Cert.ReferenceIdeal.Read.val_main_v319 (F := Ideal) x0 x2,
    Cert.ReferenceIdeal.Read.val_main_v359 (F := Ideal) x0 x2,
    Cert.ReferenceIdeal.Read.val_main_v447 (F := Ideal) x1 x2,
    Cert.ReferenceIdeal.Read.val_main_v487 (F := Ideal) x1 x2,
    Cert.ReferenceIdeal.Read.val_main_v529 (F := Ideal) x1 x2,
    Cert.ReferenceIdeal.Read.val_main_v569 (F := Ideal) x1 x2,
    Cert.ReferenceIdeal.Read.val_main_v613 (F := Ideal) x1 x2,
    Cert.ReferenceIdeal.Read.val_main_v653 (F := Ideal) x1 x2,
    Cert.ReferenceIdeal.Read.val_main_v695 (F := Ideal) x1 x2,
    Cert.ReferenceIdeal.Read.val_main_v735 (F := Ideal) x1 x2]

/-- Tap k's mask per point: 1 where all three voxel coordinates of the tap lie in [0, 256). -/
def tapM (x0 x1 x2 : FVec Ideal Cert.ReferenceIdeal.S2000000x3 .f32) : Fin 16 → IVec Cert.ReferenceIdeal.S2000000 1 :=
  ![Cert.ReferenceIdeal.Read.val_main_v69 (F := Ideal) x0 x2,
    Cert.ReferenceIdeal.Read.val_main_v109 (F := Ideal) x0 x2,
    Cert.ReferenceIdeal.Read.val_main_v151 (F := Ideal) x0 x2,
    Cert.ReferenceIdeal.Read.val_main_v191 (F := Ideal) x0 x2,
    Cert.ReferenceIdeal.Read.val_main_v235 (F := Ideal) x0 x2,
    Cert.ReferenceIdeal.Read.val_main_v275 (F := Ideal) x0 x2,
    Cert.ReferenceIdeal.Read.val_main_v317 (F := Ideal) x0 x2,
    Cert.ReferenceIdeal.Read.val_main_v357 (F := Ideal) x0 x2,
    Cert.ReferenceIdeal.Read.val_main_v445 (F := Ideal) x1 x2,
    Cert.ReferenceIdeal.Read.val_main_v485 (F := Ideal) x1 x2,
    Cert.ReferenceIdeal.Read.val_main_v527 (F := Ideal) x1 x2,
    Cert.ReferenceIdeal.Read.val_main_v567 (F := Ideal) x1 x2,
    Cert.ReferenceIdeal.Read.val_main_v611 (F := Ideal) x1 x2,
    Cert.ReferenceIdeal.Read.val_main_v651 (F := Ideal) x1 x2,
    Cert.ReferenceIdeal.Read.val_main_v693 (F := Ideal) x1 x2,
    Cert.ReferenceIdeal.Read.val_main_v733 (F := Ideal) x1 x2]

end Cert.Splat

end
-- ==== Proof.RefVal.lean ====
/-
  The reference program's last stage is `refVal` of its own sixteen taps.

  The reference's computation, read from the first scatter on: each of a cloud's eight scatters adds one tap (its
  wrapped flat index as a column, its weight where the mask holds and 0 elsewhere) into the volume the previous one
  left, starting from zeros; the two volumes are re-laid as 256×256×256 and subtracted, and the Huber function
  select(|d| ≤ 1, (0.5·d)·d, |d| − 0.5) of the difference is summed over the grid. Every step is the one `refVal`
  spells, so the equality is by unfolding.
-/
import proofs.«159527_j65987877535944_2_alg».proof.Proof.Spec
import proofs.«159527_j65987877535944_2_alg».proof.Proof.Taps

noncomputable section

namespace Cert.Splat

open Cert.ReferenceIdeal Idealize.ShloMosaic Idealize.ShloMosaic.TcCoe Idealize.SL.Sem Idealize.ShloMosaic.StableHlo

variable [Cert.ReferenceIdeal.Facts]

/-! ## One scatter is one tap added into the volume -/

theorem stage_v86 (x0 x2 : FVec Ideal S2000000x3 .f32) :
    Cert.ReferenceIdeal.Read.val_main_v86 (F := Ideal) x0 x2 = refStep (Cert.ReferenceIdeal.Read.val_main_v40 (F := Ideal)) (Cert.ReferenceIdeal.Read.val_main_v79 (F := Ideal) x0 x2) (Cert.ReferenceIdeal.Read.val_main_v71 (F := Ideal) x0 x2) (Cert.ReferenceIdeal.Read.val_main_v69 (F := Ideal) x0 x2) := by
  unfold Cert.ReferenceIdeal.Read.val_main_v86 refStep refIdx refWeight
  unfold Cert.ReferenceIdeal.Read.val_main_v85 Cert.ReferenceIdeal.Read.val_main_v84 Cert.ReferenceIdeal.Read.val_main_v81 Cert.ReferenceIdeal.Read.val_main_v80 Cert.ReferenceIdeal.Read.val_main_c_27 Cert.ReferenceIdeal.Read.val_main_v83 Cert.ReferenceIdeal.Read.val_main_v82 Cert.ReferenceIdeal.Read.val_main_c_28 Cert.ReferenceIdeal.Read.val_main_v72 Cert.ReferenceIdeal.Read.val_main_call0_v1 Cert.ReferenceIdeal.Read.val_main_call0_v0 Cert.ReferenceIdeal.Read.val_main_cst_23
  rfl

theorem stage_v126 (x0 x2 : FVec Ideal S2000000x3 .f32) :
    Cert.ReferenceIdeal.Read.val_main_v126 (F := Ideal) x0 x2 = refStep (Cert.ReferenceIdeal.Read.val_main_v86 (F := Ideal) x0 x2) (Cert.ReferenceIdeal.Read.val_main_v119 (F := Ideal) x0 x2) (Cert.ReferenceIdeal.Read.val_main_v111 (F := Ideal) x0 x2) (Cert.ReferenceIdeal.Read.val_main_v109 (F := Ideal) x0 x2) := by
  unfold Cert.ReferenceIdeal.Read.val_main_v126 refStep refIdx refWeight
  unfold Cert.ReferenceIdeal.Read.val_main_v125 Cert.ReferenceIdeal.Read.val_main_v124 Cert.ReferenceIdeal.Read.val_main_v121 Cert.ReferenceIdeal.Read.val_main_v120 Cert.ReferenceIdeal.Read.val_main_c_42 Cert.ReferenceIdeal.Read.val_main_v123 Cert.ReferenceIdeal.Read.val_main_v122 Cert.ReferenceIdeal.Read.val_main_c_43 Cert.ReferenceIdeal.Read.val_main_v112 Cert.ReferenceIdeal.Read.val_main_call2_v1 Cert.ReferenceIdeal.Read.val_main_call2_v0 Cert.ReferenceIdeal.Read.val_main_cst_38
  rfl

theorem stage_v168 (x0 x2 : FVec Ideal S2000000x3 .f32) :
    Cert.ReferenceIdeal.Read.val_main_v168 (F := Ideal) x0 x2 = refStep (Cert.ReferenceIdeal.Read.val_main_v126 (F := Ideal) x0 x2) (Cert.ReferenceIdeal.Read.val_main_v161 (F := Ideal) x0 x2) (Cert.ReferenceIdeal.Read.val_main_v153 (F := Ideal) x0 x2) (Cert.ReferenceIdeal.Read.val_main_v151 (F := Ideal) x0 x2) := by
  unfold Cert.ReferenceIdeal.Read.val_main_v168 refStep refIdx refWeight
  unfold Cert.ReferenceIdeal.Read.val_main_v167 Cert.ReferenceIdeal.Read.val_main_v166 Cert.ReferenceIdeal.Read.val_main_v163 Cert.ReferenceIdeal.Read.val_main_v162 Cert.ReferenceIdeal.Read.val_main_c_58 Cert.ReferenceIdeal.Read.val_main_v165 Cert.ReferenceIdeal.Read.val_main_v164 Cert.ReferenceIdeal.Read.val_main_c_59 Cert.ReferenceIdeal.Read.val_main_v154 Cert.ReferenceIdeal.Read.val_main_call4_v1 Cert.ReferenceIdeal.Read.val_main_call4_v0 Cert.ReferenceIdeal.Read.val_main_cst_54
  rfl

theorem stage_v208 (x0 x2 : FVec Ideal S2000000x3 .f32) :
    Cert.ReferenceIdeal.Read.val_main_v208 (F := Ideal) x0 x2 = refStep (Cert.ReferenceIdeal.Read.val_main_v168 (F := Ideal) x0 x2) (Cert.ReferenceIdeal.Read.val_main_v201 (F := Ideal) x0 x2) (Cert.ReferenceIdeal.Read.val_main_v193 (F := Ideal) x0 x2) (Cert.ReferenceIdeal.Read.val_main_v191 (F := Ideal) x0 x2) := by
  unfold Cert.ReferenceIdeal.Read.val_main_v208 refStep refIdx refWeight
  unfold Cert.ReferenceIdeal.Read.val_main_v207 Cert.ReferenceIdeal.Read.val_main_v206 Cert.ReferenceIdeal.Read.val_main_v203 Cert.ReferenceIdeal.Read.val_main_v202 Cert.ReferenceIdeal.Read.val_main_c_73 Cert.ReferenceIdeal.Read.val_main_v205 Cert.ReferenceIdeal.Read.val_main_v204 Cert.ReferenceIdeal.Read.val_main_c_74 Cert.ReferenceIdeal.Read.val_main_v194 Cert.ReferenceIdeal.Read.val_main_call6_v1 Cert.ReferenceIdeal.Read.val_main_call6_v0 Cert.ReferenceIdeal.Read.val_main_cst_69
  rfl

theorem stage_v252 (x0 x2 : FVec Ideal S2000000x3 .f32) :
    Cert.ReferenceIdeal.Read.val_main_v252 (F := Ideal) x0 x2 = refStep (Cert.ReferenceIdeal.Read.val_main_v208 (F := Ideal) x0 x2) (Cert.ReferenceIdeal.Read.val_main_v245 (F := Ideal) x0 x2) (Cert.ReferenceIdeal.Read.val_main_v237 (F := Ideal) x0 x2) (Cert.ReferenceIdeal.Read.val_main_v235 (F := Ideal) x0 x2) := by
  unfold Cert.ReferenceIdeal.Read.val_main_v252 refStep refIdx refWeight
  unfold Cert.ReferenceIdeal.Read.val_main_v251 Cert.ReferenceIdeal.Read.val_main_v250 Cert.ReferenceIdeal.Read.val_main_v247 Cert.ReferenceIdeal.Read.val_main_v246 Cert.ReferenceIdeal.Read.val_main_c_90 Cert.ReferenceIdeal.Read.val_main_v249 Cert.ReferenceIdeal.Read.val_main_v248 Cert.ReferenceIdeal.Read.val_main_c_91 Cert.ReferenceIdeal.Read.val_main_v238 Cert.ReferenceIdeal.Read.val_main_call8_v1 Cert.ReferenceIdeal.Read.val_main_call8_v0 Cert.ReferenceIdeal.Read.val_main_cst_86
  rfl

theorem stage_v292 (x0 x2 : FVec Ideal S2000000x3 .f32) :
    Cert.ReferenceIdeal.Read.val_main_v292 (F := Ideal) x0 x2 = refStep (Cert.ReferenceIdeal.Read.val_main_v252 (F := Ideal) x0 x2) (Cert.ReferenceIdeal.Read.val_main_v285 (F := Ideal) x0 x2) (Cert.ReferenceIdeal.Read.val_main_v277 (F := Ideal) x0 x2) (Cert.ReferenceIdeal.Read.val_main_v275 (F := Ideal) x0 x2) := by
  unfold Cert.ReferenceIdeal.Read.val_main_v292 refStep refIdx refWeight
  unfold Cert.ReferenceIdeal.Read.val_main_v291 Cert.ReferenceIdeal.Read.val_main_v290 Cert.ReferenceIdeal.Read.val_main_v287 Cert.ReferenceIdeal.Read.val_main_v286 Cert.ReferenceIdeal.Read.val_main_c_105 Cert.ReferenceIdeal.Read.val_main_v289 Cert.ReferenceIdeal.Read.val_main_v288 Cert.ReferenceIdeal.Read.val_main_c_106 Cert.ReferenceIdeal.Read.val_main_v278 Cert.ReferenceIdeal.Read.val_main_call10_v1 Cert.ReferenceIdeal.Read.val_main_call10_v0 Cert.ReferenceIdeal.Read.val_main_cst_101
  rfl

theorem stage_v334 (x0 x2 : FVec Ideal S2000000x3 .f32) :
    Cert.ReferenceIdeal.Read.val_main_v334 (F := Ideal) x0 x2 = refStep (Cert.ReferenceIdeal.Read.val_main_v292 (F := Ideal) x0 x2) (Cert.ReferenceIdeal.Read.val_main_v327 (F := Ideal) x0 x2) (Cert.ReferenceIdeal.Read.val_main_v319 (F := Ideal) x0 x2) (Cert.ReferenceIdeal.Read.val_main_v317 (F := Ideal) x0 x2) := by
  unfold Cert.ReferenceIdeal.Read.val_main_v334 refStep refIdx refWeight
  unfold Cert.ReferenceIdeal.Read.val_main_v333 Cert.ReferenceIdeal.Read.val_main_v332 Cert.ReferenceIdeal.Read.val_main_v329 Cert.ReferenceIdeal.Read.val_main_v328 Cert.ReferenceIdeal.Read.val_main_c_121 Cert.ReferenceIdeal.Read.val_main_v331 Cert.ReferenceIdeal.Read.val_main_v330 Cert.ReferenceIdeal.Read.val_main_c_122 Cert.ReferenceIdeal.Read.val_main_v320 Cert.ReferenceIdeal.Read.val_main_call12_v1 Cert.ReferenceIdeal.Read.val_main_call12_v0 Cert.ReferenceIdeal.Read.val_main_cst_117
  rfl

theorem stage_v374 (x0 x2 : FVec Ideal S2000000x3 .f32) :
    Cert.ReferenceIdeal.Read.val_main_v374 (F := Ideal) x0 x2 = refStep (Cert.ReferenceIdeal.Read.val_main_v334 (F := Ideal) x0 x2) (Cert.ReferenceIdeal.Read.val_main_v367 (F := Ideal) x0 x2) (Cert.ReferenceIdeal.Read.val_main_v359 (F := Ideal) x0 x2) (Cert.ReferenceIdeal.Read.val_main_v357 (F := Ideal) x0 x2) := by
  unfold Cert.ReferenceIdeal.Read.val_main_v374 refStep refIdx refWeight
  unfold Cert.ReferenceIdeal.Read.val_main_v373 Cert.ReferenceIdeal.Read.val_main_v372 Cert.ReferenceIdeal.Read.val_main_v369 Cert.ReferenceIdeal.Read.val_main_v368 Cert.ReferenceIdeal.Read.val_main_c_136 Cert.ReferenceIdeal.Read.val_main_v371 Cert.ReferenceIdeal.Read.val_main_v370 Cert.ReferenceIdeal.Read.val_main_c_137 Cert.ReferenceIdeal.Read.val_main_v360 Cert.ReferenceIdeal.Read.val_main_call14_v1 Cert.ReferenceIdeal.Read.val_main_call14_v0 Cert.ReferenceIdeal.Read.val_main_cst_132
  rfl

theorem stage_v462 (x1 x2 : FVec Ideal S2000000x3 .f32) :
    Cert.ReferenceIdeal.Read.val_main_v462 (F := Ideal) x1 x2 = refStep (Cert.ReferenceIdeal.Read.val_main_v416 (F := Ideal)) (Cert.ReferenceIdeal.Read.val_main_v455 (F := Ideal) x1 x2) (Cert.ReferenceIdeal.Read.val_main_v447 (F := Ideal) x1 x2) (Cert.ReferenceIdeal.Read.val_main_v445 (F := Ideal) x1 x2) := by
  unfold Cert.ReferenceIdeal.Read.val_main_v462 refStep refIdx refWeight
  unfold Cert.ReferenceIdeal.Read.val_main_v461 Cert.ReferenceIdeal.Read.val_main_v460 Cert.ReferenceIdeal.Read.val_main_v457 Cert.ReferenceIdeal.Read.val_main_v456 Cert.ReferenceIdeal.Read.val_main_c_167 Cert.ReferenceIdeal.Read.val_main_v459 Cert.ReferenceIdeal.Read.val_main_v458 Cert.ReferenceIdeal.Read.val_main_c_168 Cert.ReferenceIdeal.Read.val_main_v448 Cert.ReferenceIdeal.Read.val_main_call16_v1 Cert.ReferenceIdeal.Read.val_main_call16_v0 Cert.ReferenceIdeal.Read.val_main_cst_163
  rfl

theorem stage_v502 (x1 x2 : FVec Ideal S2000000x3 .f32) :
    Cert.ReferenceIdeal.Read.val_main_v502 (F := Ideal) x1 x2 = refStep (Cert.ReferenceIdeal.Read.val_main_v462 (F := Ideal) x1 x2) (Cert.ReferenceIdeal.Read.val_main_v495 (F := Ideal) x1 x2) (Cert.ReferenceIdeal.Read.val_main_v487 (F := Ideal) x1 x2) (Cert.ReferenceIdeal.Read.val_main_v485 (F := Ideal) x1 x2) := by
  unfold Cert.ReferenceIdeal.Read.val_main_v502 refStep refIdx refWeight
  unfold Cert.ReferenceIdeal.Read.val_main_v501 Cert.ReferenceIdeal.Read.val_main_v500 Cert.ReferenceIdeal.Read.val_main_v497 Cert.ReferenceIdeal.Read.val_main_v496 Cert.ReferenceIdeal.Read.val_main_c_182 Cert.ReferenceIdeal.Read.val_main_v499 Cert.ReferenceIdeal.Read.val_main_v498 Cert.ReferenceIdeal.Read.val_main_c_183 Cert.ReferenceIdeal.Read.val_main_v488 Cert.ReferenceIdeal.Read.val_main_call18_v1 Cert.ReferenceIdeal.Read.val_main_call18_v0 Cert.ReferenceIdeal.Read.val_main_cst_178
  rfl

theorem stage_v544 (x1 x2 : FVec Ideal S2000000x3 .f32) :
    Cert.ReferenceIdeal.Read.val_main_v544 (F := Ideal) x1 x2 = refStep (Cert.ReferenceIdeal.Read.val_main_v502 (F := Ideal) x1 x2) (Cert.ReferenceIdeal.Read.val_main_v537 (F := Ideal) x1 x2) (Cert.ReferenceIdeal.Read.val_main_v529 (F := Ideal) x1 x2) (Cert.ReferenceIdeal.Read.val_main_v527 (F := Ideal) x1 x2) := by
  unfold Cert.ReferenceIdeal.Read.val_main_v544 refStep refIdx refWeight
  unfold Cert.ReferenceIdeal.Read.val_main_v543 Cert.ReferenceIdeal.Read.val_main_v542 Cert.ReferenceIdeal.Read.val_main_v539 Cert.ReferenceIdeal.Read.val_main_v538 Cert.ReferenceIdeal.Read.val_main_c_198 Cert.ReferenceIdeal.Read.val_main_v541 Cert.ReferenceIdeal.Read.val_main_v540 Cert.ReferenceIdeal.Read.val_main_c_199 Cert.ReferenceIdeal.Read.val_main_v530 Cert.ReferenceIdeal.Read.val_main_call20_v1 Cert.ReferenceIdeal.Read.val_main_call20_v0 Cert.ReferenceIdeal.Read.val_main_cst_194
  rfl

theorem stage_v584 (x1 x2 : FVec Ideal S2000000x3 .f32) :
    Cert.ReferenceIdeal.Read.val_main_v584 (F := Ideal) x1 x2 = refStep (Cert.ReferenceIdeal.Read.val_main_v544 (F := Ideal) x1 x2) (Cert.ReferenceIdeal.Read.val_main_v577 (F := Ideal) x1 x2) (Cert.ReferenceIdeal.Read.val_main_v569 (F := Ideal) x1 x2) (Cert.ReferenceIdeal.Read.val_main_v567 (F := Ideal) x1 x2) := by
  unfold Cert.ReferenceIdeal.Read.val_main_v584 refStep refIdx refWeight
  unfold Cert.ReferenceIdeal.Read.val_main_v583 Cert.ReferenceIdeal.Read.val_main_v582 Cert.ReferenceIdeal.Read.val_main_v579 Cert.ReferenceIdeal.Read.val_main_v578 Cert.ReferenceIdeal.Read.val_main_c_213 Cert.ReferenceIdeal.Read.val_main_v581 Cert.ReferenceIdeal.Read.val_main_v580 Cert.ReferenceIdeal.Read.val_main_c_214 Cert.ReferenceIdeal.Read.val_main_v570 Cert.ReferenceIdeal.Read.val_main_call22_v1 Cert.ReferenceIdeal.Read.val_main_call22_v0 Cert.ReferenceIdeal.Read.val_main_cst_209
  rfl

theorem stage_v628 (x1 x2 : FVec Ideal S2000000x3 .f32) :
    Cert.ReferenceIdeal.Read.val_main_v628 (F := Ideal) x1 x2 = refStep (Cert.ReferenceIdeal.Read.val_main_v584 (F := Ideal) x1 x2) (Cert.ReferenceIdeal.Read.val_main_v621 (F := Ideal) x1 x2) (Cert.ReferenceIdeal.Read.val_main_v613 (F := Ideal) x1 x2) (Cert.ReferenceIdeal.Read.val_main_v611 (F := Ideal) x1 x2) := by
  unfold Cert.ReferenceIdeal.Read.val_main_v628 refStep refIdx refWeight
  unfold Cert.ReferenceIdeal.Read.val_main_v627 Cert.ReferenceIdeal.Read.val_main_v626 Cert.ReferenceIdeal.Read.val_main_v623 Cert.ReferenceIdeal.Read.val_main_v622 Cert.ReferenceIdeal.Read.val_main_c_230 Cert.ReferenceIdeal.Read.val_main_v625 Cert.ReferenceIdeal.Read.val_main_v624 Cert.ReferenceIdeal.Read.val_main_c_231 Cert.ReferenceIdeal.Read.val_main_v614 Cert.ReferenceIdeal.Read.val_main_call24_v1 Cert.ReferenceIdeal.Read.val_main_call24_v0 Cert.ReferenceIdeal.Read.val_main_cst_226
  rfl

theorem stage_v668 (x1 x2 : FVec Ideal S2000000x3 .f32) :
    Cert.ReferenceIdeal.Read.val_main_v668 (F := Ideal) x1 x2 = refStep (Cert.ReferenceIdeal.Read.val_main_v628 (F := Ideal) x1 x2) (Cert.ReferenceIdeal.Read.val_main_v661 (F := Ideal) x1 x2) (Cert.ReferenceIdeal.Read.val_main_v653 (F := Ideal) x1 x2) (Cert.ReferenceIdeal.Read.val_main_v651 (F := Ideal) x1 x2) := by
  unfold Cert.ReferenceIdeal.Read.val_main_v668 refStep refIdx refWeight
  unfold Cert.ReferenceIdeal.Read.val_main_v667 Cert.ReferenceIdeal.Read.val_main_v666 Cert.ReferenceIdeal.Read.val_main_v663 Cert.ReferenceIdeal.Read.val_main_v662 Cert.ReferenceIdeal.Read.val_main_c_245 Cert.ReferenceIdeal.Read.val_main_v665 Cert.ReferenceIdeal.Read.val_main_v664 Cert.ReferenceIdeal.Read.val_main_c_246 Cert.ReferenceIdeal.Read.val_main_v654 Cert.ReferenceIdeal.Read.val_main_call26_v1 Cert.ReferenceIdeal.Read.val_main_call26_v0 Cert.ReferenceIdeal.Read.val_main_cst_241
  rfl

theorem stage_v710 (x1 x2 : FVec Ideal S2000000x3 .f32) :
    Cert.ReferenceIdeal.Read.val_main_v710 (F := Ideal) x1 x2 = refStep (Cert.ReferenceIdeal.Read.val_main_v668 (F := Ideal) x1 x2) (Cert.ReferenceIdeal.Read.val_main_v703 (F := Ideal) x1 x2) (Cert.ReferenceIdeal.Read.val_main_v695 (F := Ideal) x1 x2) (Cert.ReferenceIdeal.Read.val_main_v693 (F := Ideal) x1 x2) := by
  unfold Cert.ReferenceIdeal.Read.val_main_v710 refStep refIdx refWeight
  unfold Cert.ReferenceIdeal.Read.val_main_v709 Cert.ReferenceIdeal.Read.val_main_v708 Cert.ReferenceIdeal.Read.val_main_v705 Cert.ReferenceIdeal.Read.val_main_v704 Cert.ReferenceIdeal.Read.val_main_c_261 Cert.ReferenceIdeal.Read.val_main_v707 Cert.ReferenceIdeal.Read.val_main_v706 Cert.ReferenceIdeal.Read.val_main_c_262 Cert.ReferenceIdeal.Read.val_main_v696 Cert.ReferenceIdeal.Read.val_main_call28_v1 Cert.ReferenceIdeal.Read.val_main_call28_v0 Cert.ReferenceIdeal.Read.val_main_cst_257
  rfl

theorem stage_v750 (x1 x2 : FVec Ideal S2000000x3 .f32) :
    Cert.ReferenceIdeal.Read.val_main_v750 (F := Ideal) x1 x2 = refStep (Cert.ReferenceIdeal.Read.val_main_v710 (F := Ideal) x1 x2) (Cert.ReferenceIdeal.Read.val_main_v743 (F := Ideal) x1 x2) (Cert.ReferenceIdeal.Read.val_main_v735 (F := Ideal) x1 x2) (Cert.ReferenceIdeal.Read.val_main_v733 (F := Ideal) x1 x2) := by
  unfold Cert.ReferenceIdeal.Read.val_main_v750 refStep refIdx refWeight
  unfold Cert.ReferenceIdeal.Read.val_main_v749 Cert.ReferenceIdeal.Read.val_main_v748 Cert.ReferenceIdeal.Read.val_main_v745 Cert.ReferenceIdeal.Read.val_main_v744 Cert.ReferenceIdeal.Read.val_main_c_276 Cert.ReferenceIdeal.Read.val_main_v747 Cert.ReferenceIdeal.Read.val_main_v746 Cert.ReferenceIdeal.Read.val_main_c_277 Cert.ReferenceIdeal.Read.val_main_v736 Cert.ReferenceIdeal.Read.val_main_call30_v1 Cert.ReferenceIdeal.Read.val_main_call30_v0 Cert.ReferenceIdeal.Read.val_main_cst_272
  rfl

/-! ## A cloud's eight scatters are its volume -/

theorem vol_pred (x0 x1 x2 : FVec Ideal S2000000x3 .f32) :
    Cert.ReferenceIdeal.Read.val_main_v374 (F := Ideal) x0 x2 =
      refVol (fun k => tapJ x0 x1 x2 (Fin.castLE (by decide) k)) (fun k => tapU x0 x1 x2 (Fin.castLE (by decide) k)) (fun k => tapM x0 x1 x2 (Fin.castLE (by decide) k)) := by
  rw [stage_v374, stage_v334, stage_v292, stage_v252, stage_v208, stage_v168, stage_v126, stage_v86]
  unfold Cert.ReferenceIdeal.Read.val_main_v40 Cert.ReferenceIdeal.Read.val_main_cst_11
  rfl

theorem vol_gt (x0 x1 x2 : FVec Ideal S2000000x3 .f32) :
    Cert.ReferenceIdeal.Read.val_main_v750 (F := Ideal) x1 x2 =
      refVol (fun k => tapJ x0 x1 x2 (Fin.natAdd 8 k)) (fun k => tapU x0 x1 x2 (Fin.natAdd 8 k)) (fun k => tapM x0 x1 x2 (Fin.natAdd 8 k)) := by
  rw [stage_v750, stage_v710, stage_v668, stage_v628, stage_v584, stage_v544, stage_v502, stage_v462]
  unfold Cert.ReferenceIdeal.Read.val_main_v416 Cert.ReferenceIdeal.Read.val_main_cst_150
  rfl

/-! ## The whole value -/

theorem val_eq_refVal (x0 x1 x2 : FVec Ideal S2000000x3 .f32) :
    Cert.ReferenceIdeal.Read.val_main_v762 (F := Ideal) x0 x1 x2 = refVal (tapJ x0 x1 x2) (tapU x0 x1 x2) (tapM x0 x1 x2) := by
  unfold Cert.ReferenceIdeal.Read.val_main_v762 Cert.ReferenceIdeal.Read.val_main_v761 Cert.ReferenceIdeal.Read.val_main_v755 Cert.ReferenceIdeal.Read.val_main_v758 Cert.ReferenceIdeal.Read.val_main_v760 Cert.ReferenceIdeal.Read.val_main_v757 Cert.ReferenceIdeal.Read.val_main_v753 Cert.ReferenceIdeal.Read.val_main_v754 Cert.ReferenceIdeal.Read.val_main_v756 Cert.ReferenceIdeal.Read.val_main_v759 Cert.ReferenceIdeal.Read.val_main_cst_278 Cert.ReferenceIdeal.Read.val_main_cst_279 Cert.ReferenceIdeal.Read.val_main_cst_280 Cert.ReferenceIdeal.Read.val_main_cst_281 Cert.ReferenceIdeal.Read.val_main_v752 Cert.ReferenceIdeal.Read.val_main_v375 Cert.ReferenceIdeal.Read.val_main_v751
  rw [vol_pred x0 x1 x2, vol_gt x0 x1 x2]
  rfl

end Cert.Splat

end
-- ==== Proof.RefSide.lean ====
/-
  The reference program's result is `refVal` of its own sixteen taps.

  The run names the result of the reference as its last stage applied to the three argument arrays as the launch holds
  them; that stage is `refVal` of the sixteen taps computed from those arrays.
-/
import proofs.«159527_j65987877535944_2_alg».proof.Proof.RefVal
import proofs.«159527_j65987877535944_2_alg».proof.Proof.RefRun

noncomputable section

namespace Cert.Splat

open Cert.ReferenceIdeal Idealize.ShloMosaic Idealize.ShloMosaic.TcCoe Idealize.SL.Sem Idealize.ShloMosaic.StableHlo

variable [Cert.ReferenceIdeal.Facts]

/-- The reference program's result, as its run names it, is `refVal` of the program's own taps. -/
theorem ref_result (m : (ℓ : Loc nD τ sig) → Buf (Elt Ideal) ℓ) (c : Dev nD) :
    Cert.ReferenceIdeal.Value.res_out0 (F := Ideal) m c =
      refVal (tapJ (m ((c.tc : Thread nD τ).loc main_arg0)) (m ((c.tc : Thread nD τ).loc main_arg1)) (m ((c.tc : Thread nD τ).loc main_arg2)))
        (tapU (m ((c.tc : Thread nD τ).loc main_arg0)) (m ((c.tc : Thread nD τ).loc main_arg1)) (m ((c.tc : Thread nD τ).loc main_arg2)))
        (tapM (m ((c.tc : Thread nD τ).loc main_arg0)) (m ((c.tc : Thread nD τ).loc main_arg1)) (m ((c.tc : Thread nD τ).loc main_arg2))) :=
  (show Cert.ReferenceIdeal.Value.res_out0 (F := Ideal) m c =
      Cert.ReferenceIdeal.Read.val_main_v762 (F := Ideal) (m ((c.tc : Thread nD τ).loc main_arg0)) (m ((c.tc : Thread nD τ).loc main_arg1)) (m ((c.tc : Thread nD τ).loc main_arg2)) by
    show Cert.ReferenceIdeal.Value.res_main_v762 (F := Ideal) m c = _
    unfold Cert.ReferenceIdeal.Value.res_main_v762
    rfl).trans (val_eq_refVal _ _ _)

end Cert.Splat

end
-- ==== Proof.RealLib.lean ====
/-
  "Every entry is a real number": the predicate and its closure under the operations the tap weights are made of.

  At the exact instance a float is an extended real. The sum, difference and product of two reals are real, the floor
  of a real is real, a finite bit pattern denotes a real, and a slice, a re-laying or a broadcast only re-indexes.
-/
import Idealize.ShloMosaic.PureOps.Ideal
import Idealize.ShloMosaic.PureOps.Vector
import Idealize.ShloMosaic.PureOps.ShapeOps

noncomputable section

namespace Cert.Splat

open Idealize.ShloMosaic

/-- Every entry of the array is a real number (no infinity). -/
def AllReal {s : Shape} (v : FVec Ideal s .f32) : Prop := ∀ i, ∃ r : ℝ, v i = (r : EReal)

theorem AllReal.addf {s : Shape} {a b : FVec Ideal s .f32} (ha : AllReal a) (hb : AllReal b) : AllReal (addf a b) := by
  intro i
  obtain ⟨x, hx⟩ := ha i
  obtain ⟨y, hy⟩ := hb i
  refine ⟨x + y, ?_⟩
  show a i + b i = _
  rw [hx, hy, EReal.coe_add]

theorem AllReal.subf {s : Shape} {a b : FVec Ideal s .f32} (ha : AllReal a) (hb : AllReal b) : AllReal (subf a b) := by
  intro i
  obtain ⟨x, hx⟩ := ha i
  obtain ⟨y, hy⟩ := hb i
  refine ⟨x - y, ?_⟩
  show a i - b i = _
  rw [hx, hy, EReal.coe_sub]

theorem AllReal.mulf {s : Shape} {a b : FVec Ideal s .f32} (ha : AllReal a) (hb : AllReal b) : AllReal (mulf a b) := by
  intro i
  obtain ⟨x, hx⟩ := ha i
  obtain ⟨y, hy⟩ := hb i
  refine ⟨x * y, ?_⟩
  show a i * b i = _
  rw [hx, hy, EReal.coe_mul]

/-- The floor of a real is an integer, hence real. -/
theorem AllReal.floor {s : Shape} {a : FVec Ideal s .f32} (ha : AllReal a) : AllReal (Host.floor a) := by
  intro i
  obtain ⟨x, hx⟩ := ha i
  refine ⟨((⌊x⌋ : ℤ) : ℝ), ?_⟩
  show Ideal.liftRound Int.floor (a i) = _
  rw [hx]
  rfl

/-- A broadcast reads its operand at some index. -/
theorem AllReal.bcast {s t : Shape} {y : FVec Ideal s .f32} (hy : AllReal y) (dims : Fin s.rank → Fin t.rank)
    (h : s.BroadcastsInDim t dims) : AllReal (broadcastInDim t dims h y) :=
  fun _ => hy _

/-- A slice reads its operand at some index. -/
theorem AllReal.slice {s t : Shape} {y : FVec Ideal s .f32} (hy : AllReal y) (off : Fin s.rank → Nat)
    (h : s.Slices off t) : AllReal (extractStridedSlice t off y h) :=
  fun _ => hy _

/-- A re-laying reads its operand at some index. -/
theorem AllReal.cast {s t : Shape} {y : FVec Ideal s .f32} (hy : AllReal y) (h : s.ShapeCasts t) :
    AllReal (shapeCast t y h) :=
  fun _ => hy _

/-- A bit pattern whose exponent field is not all ones denotes a real. -/
theorem ofBits_real (b : BitVec 32) (h : (b.extractLsb' 23 8).toNat ≠ 2 ^ 8 - 1) :
    ∃ r : ℝ, Ideal.ofBits .f32 b = (r : EReal) := by
  unfold Ideal.ofBits Ideal.ieee
  simp only [h, if_false]
  split_ifs <;> exact ⟨_, rfl⟩

/-- A constant of a finite bit pattern is real everywhere. -/
theorem AllReal.const (s : Shape) (b : BitVec 32) (h : (b.extractLsb' 23 8).toNat ≠ 2 ^ 8 - 1) :
    AllReal (constant (F := Ideal) s .f32 b) :=
  fun _ => ofBits_real b h

end Cert.Splat

end
-- ==== Proof.PreReal.lean ====
/-
  The precondition "every input entry is finite" gives: every input entry is a real number.

  The precondition is the conjunction, over the three input arrays, of "all entries satisfy |x| < +∞". An
  extended real whose absolute value max x (−x) is below +∞ is neither +∞ nor −∞, hence a real.
-/
import proofs.«159527_j65987877535944_2_alg».proof.Pre_finite_inputs
import proofs.«159527_j65987877535944_2_alg».proof.Proof.RealLib
import Idealize.ShloMosaic.Lib.ReduceAll
import Idealize.ShloMosaic.Lib.Affine
import Idealize.ShloMosaic.Lib.ValueIdx

noncomputable section

namespace Cert.Splat

open Idealize.ShloMosaic

/-- An extended real with |x| < +∞ (the comparison answering 1) is a real. -/
theorem real_of_abs_lt_top (x : EReal)
    (h : FloatOps.cmpf (F := Ideal) .olt (FloatOps.hostAbsf (F := Ideal) (φ := .f32) x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hn
    have h0 : Ideal.cmp .olt (max x (-x)) ⊤ = 0#1 := by simp [Ideal.cmp, hn]
    rw [h0] at h'
    exact absurd h' (by decide)
  induction x using EReal.rec with
  | bot => simp at hlt
  | coe r => exact ⟨r, rfl⟩
  | top => simp at hlt

private instance : Subsingleton Cert.Pre_finite_inputs.S_.Idx := ⟨fun a b => funext fun d => d.elim0⟩

theorem real_of_pre [Cert.Pre_finite_inputs.Facts] (x0 x1 x2 : FVec Ideal Cert.Pre_finite_inputs.S2000000x3 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_, fun i => ?_⟩
  · exact real_of_abs_lt_top _ (Host.reduce_andi_all _ _ _ _ _ h0 i)
  · exact real_of_abs_lt_top _ (Host.reduce_andi_all _ _ _ _ _ h1 i)
  · exact real_of_abs_lt_top _ (Host.reduce_andi_all _ _ _ _ _ h2 i)

end Cert.Splat

end
-- ==== Proof.RefReal.lean ====
/-
  The tap weights of the reference are real numbers when the inputs are.

  A tap's weight is a product of three one-dimensional linear weights, each f or 1 − f with f = p − ⌊p⌋ the fractional
  part of a voxel coordinate p = ((x + 1)·256 − 1)·0.5 of a point x = coords + registration. Every step (a sum, a
  difference, a product, a floor, a finite constant, a slice or a re-laying) keeps "every entry is a real number",
  so the walk below goes stage by stage from the input arrays to the sixteen weights.
-/
import proofs.«159527_j65987877535944_2_alg».proof.Proof.Taps
import proofs.«159527_j65987877535944_2_alg».proof.Proof.RealLib
import proofs.«159527_j65987877535944_2_alg».proof.Proof.PreReal

noncomputable section

namespace Cert.Splat

open Idealize.ShloMosaic

/-! ## Stage by stage -/

theorem real_cst_14 : AllReal (Cert.ReferenceIdeal.Read.val_main_cst_14 (F := Ideal)) := by
  unfold Cert.ReferenceIdeal.Read.val_main_cst_14; exact AllReal.const _ _ (by decide)
theorem real_v45 : AllReal (Cert.ReferenceIdeal.Read.val_main_v45 (F := Ideal)) := by
  unfold Cert.ReferenceIdeal.Read.val_main_v45; exact AllReal.bcast (real_cst_14) _ _
theorem real_v0 {x0 x2 : FVec Ideal Cert.ReferenceIdeal.S2000000x3 .f32} (h0 : AllReal x0) (h2 : AllReal x2) : AllReal (Cert.ReferenceIdeal.Read.val_main_v0 (F := Ideal) x0 x2) := by
  unfold Cert.ReferenceIdeal.Read.val_main_v0; exact AllReal.addf (h2) (h0)
theorem real_v1 {x0 x2 : FVec Ideal Cert.ReferenceIdeal.S2000000x3 .f32} (h0 : AllReal x0) (h2 : AllReal x2) : AllReal (Cert.ReferenceIdeal.Read.val_main_v1 (F := Ideal) x0 x2) := by
  unfold Cert.ReferenceIdeal.Read.val_main_v1; exact AllReal.slice (real_v0 h0 h2) _ _
theorem real_v2 {x0 x2 : FVec Ideal Cert.ReferenceIdeal.S2000000x3 .f32} (h0 : AllReal x0) (h2 : AllReal x2) : AllReal (Cert.ReferenceIdeal.Read.val_main_v2 (F := Ideal) x0 x2) := by
  unfold Cert.ReferenceIdeal.Read.val_main_v2; exact AllReal.cast (real_v1 h0 h2) _
theorem real_cst : AllReal (Cert.ReferenceIdeal.Read.val_main_cst (F := Ideal)) := by
  unfold Cert.ReferenceIdeal.Read.val_main_cst; exact AllReal.const _ _ (by decide)
theorem real_v3 : AllReal (Cert.ReferenceIdeal.Read.val_main_v3 (F := Ideal)) := by
  unfold Cert.ReferenceIdeal.Read.val_main_v3; exact AllReal.bcast (real_cst) _ _
theorem real_v4 {x0 x2 : FVec Ideal Cert.ReferenceIdeal.S2000000x3 .f32} (h0 : AllReal x0) (h2 : AllReal x2) : AllReal (Cert.ReferenceIdeal.Read.val_main_v4 (F := Ideal) x0 x2) := by
  unfold Cert.ReferenceIdeal.Read.val_main_v4; exact AllReal.addf (real_v2 h0 h2) (real_v3)
theorem real_cst_0 : AllReal (Cert.ReferenceIdeal.Read.val_main_cst_0 (F := Ideal)) := by
  unfold Cert.ReferenceIdeal.Read.val_main_cst_0; exact AllReal.const _ _ (by decide)
theorem real_v5 : AllReal (Cert.ReferenceIdeal.Read.val_main_v5 (F := Ideal)) := by
  unfold Cert.ReferenceIdeal.Read.val_main_v5; exact AllReal.bcast (real_cst_0) _ _
theorem real_v6 {x0 x2 : FVec Ideal Cert.ReferenceIdeal.S2000000x3 .f32} (h0 : AllReal x0) (h2 : AllReal x2) : AllReal (Cert.ReferenceIdeal.Read.val_main_v6 (F := Ideal) x0 x2) := by
  unfold Cert.ReferenceIdeal.Read.val_main_v6; exact AllReal.mulf (real_v4 h0 h2) (real_v5)
theorem real_cst_1 : AllReal (Cert.ReferenceIdeal.Read.val_main_cst_1 (F := Ideal)) := by
  unfold Cert.ReferenceIdeal.Read.val_main_cst_1; exact AllReal.const _ _ (by decide)
theorem real_v7 : AllReal (Cert.ReferenceIdeal.Read.val_main_v7 (F := Ideal)) := by
  unfold Cert.ReferenceIdeal.Read.val_main_v7; exact AllReal.bcast (real_cst_1) _ _
theorem real_v8 {x0 x2 : FVec Ideal Cert.ReferenceIdeal.S2000000x3 .f32} (h0 : AllReal x0) (h2 : AllReal x2) : AllReal (Cert.ReferenceIdeal.Read.val_main_v8 (F := Ideal) x0 x2) := by
  unfold Cert.ReferenceIdeal.Read.val_main_v8; exact AllReal.subf (real_v6 h0 h2) (real_v7)
theorem real_cst_2 : AllReal (Cert.ReferenceIdeal.Read.val_main_cst_2 (F := Ideal)) := by
  unfold Cert.ReferenceIdeal.Read.val_main_cst_2; exact AllReal.const _ _ (by decide)
theorem real_v9 : AllReal (Cert.ReferenceIdeal.Read.val_main_v9 (F := Ideal)) := by
  unfold Cert.ReferenceIdeal.Read.val_main_v9; exact AllReal.bcast (real_cst_2) _ _
theorem real_v10 {x0 x2 : FVec Ideal Cert.ReferenceIdeal.S2000000x3 .f32} (h0 : AllReal x0) (h2 : AllReal x2) : AllReal (Cert.ReferenceIdeal.Read.val_main_v10 (F := Ideal) x0 x2) := by
  unfold Cert.ReferenceIdeal.Read.val_main_v10; exact AllReal.mulf (real_v8 h0 h2) (real_v9)
theorem real_v31 {x0 x2 : FVec Ideal Cert.ReferenceIdeal.S2000000x3 .f32} (h0 : AllReal x0) (h2 : AllReal x2) : AllReal (Cert.ReferenceIdeal.Read.val_main_v31 (F := Ideal) x0 x2) := by
  unfold Cert.ReferenceIdeal.Read.val_main_v31; exact AllReal.floor (real_v10 h0 h2)
theorem real_v34 {x0 x2 : FVec Ideal Cert.ReferenceIdeal.S2000000x3 .f32} (h0 : AllReal x0) (h2 : AllReal x2) : AllReal (Cert.ReferenceIdeal.Read.val_main_v34 (F := Ideal) x0 x2) := by
  unfold Cert.ReferenceIdeal.Read.val_main_v34; exact AllReal.subf (real_v10 h0 h2) (real_v31 h0 h2)
theorem real_v46 {x0 x2 : FVec Ideal Cert.ReferenceIdeal.S2000000x3 .f32} (h0 : AllReal x0) (h2 : AllReal x2) : AllReal (Cert.ReferenceIdeal.Read.val_main_v46 (F := Ideal) x0 x2) := by
  unfold Cert.ReferenceIdeal.Read.val_main_v46; exact AllReal.subf (real_v45) (real_v34 h0 h2)
theorem real_cst_13 : AllReal (Cert.ReferenceIdeal.Read.val_main_cst_13 (F := Ideal)) := by
  unfold Cert.ReferenceIdeal.Read.val_main_cst_13; exact AllReal.const _ _ (by decide)
theorem real_v43 : AllReal (Cert.ReferenceIdeal.Read.val_main_v43 (F := Ideal)) := by
  unfold Cert.ReferenceIdeal.Read.val_main_v43; exact AllReal.bcast (real_cst_13) _ _
theorem real_v11 {x0 x2 : FVec Ideal Cert.ReferenceIdeal.S2000000x3 .f32} (h0 : AllReal x0) (h2 : AllReal x2) : AllReal (Cert.ReferenceIdeal.Read.val_main_v11 (F := Ideal) x0 x2) := by
  unfold Cert.ReferenceIdeal.Read.val_main_v11; exact AllReal.slice (real_v0 h0 h2) _ _
theorem real_v12 {x0 x2 : FVec Ideal Cert.ReferenceIdeal.S2000000x3 .f32} (h0 : AllReal x0) (h2 : AllReal x2) : AllReal (Cert.ReferenceIdeal.Read.val_main_v12 (F := Ideal) x0 x2) := by
  unfold Cert.ReferenceIdeal.Read.val_main_v12; exact AllReal.cast (real_v11 h0 h2) _
theorem real_cst_3 : AllReal (Cert.ReferenceIdeal.Read.val_main_cst_3 (F := Ideal)) := by
  unfold Cert.ReferenceIdeal.Read.val_main_cst_3; exact AllReal.const _ _ (by decide)
theorem real_v13 : AllReal (Cert.ReferenceIdeal.Read.val_main_v13 (F := Ideal)) := by
  unfold Cert.ReferenceIdeal.Read.val_main_v13; exact AllReal.bcast (real_cst_3) _ _
theorem real_v14 {x0 x2 : FVec Ideal Cert.ReferenceIdeal.S2000000x3 .f32} (h0 : AllReal x0) (h2 : AllReal x2) : AllReal (Cert.ReferenceIdeal.Read.val_main_v14 (F := Ideal) x0 x2) := by
  unfold Cert.ReferenceIdeal.Read.val_main_v14; exact AllReal.addf (real_v12 h0 h2) (real_v13)
theorem real_cst_4 : AllReal (Cert.ReferenceIdeal.Read.val_main_cst_4 (F := Ideal)) := by
  unfold Cert.ReferenceIdeal.Read.val_main_cst_4; exact AllReal.const _ _ (by decide)
theorem real_v15 : AllReal (Cert.ReferenceIdeal.Read.val_main_v15 (F := Ideal)) := by
  unfold Cert.ReferenceIdeal.Read.val_main_v15; exact AllReal.bcast (real_cst_4) _ _
theorem real_v16 {x0 x2 : FVec Ideal Cert.ReferenceIdeal.S2000000x3 .f32} (h0 : AllReal x0) (h2 : AllReal x2) : AllReal (Cert.ReferenceIdeal.Read.val_main_v16 (F := Ideal) x0 x2) := by
  unfold Cert.ReferenceIdeal.Read.val_main_v16; exact AllReal.mulf (real_v14 h0 h2) (real_v15)
theorem real_cst_5 : AllReal (Cert.ReferenceIdeal.Read.val_main_cst_5 (F := Ideal)) := by
  unfold Cert.ReferenceIdeal.Read.val_main_cst_5; exact AllReal.const _ _ (by decide)
theorem real_v17 : AllReal (Cert.ReferenceIdeal.Read.val_main_v17 (F := Ideal)) := by
  unfold Cert.ReferenceIdeal.Read.val_main_v17; exact AllReal.bcast (real_cst_5) _ _
theorem real_v18 {x0 x2 : FVec Ideal Cert.ReferenceIdeal.S2000000x3 .f32} (h0 : AllReal x0) (h2 : AllReal x2) : AllReal (Cert.ReferenceIdeal.Read.val_main_v18 (F := Ideal) x0 x2) := by
  unfold Cert.ReferenceIdeal.Read.val_main_v18; exact AllReal.subf (real_v16 h0 h2) (real_v17)
theorem real_cst_6 : AllReal (Cert.ReferenceIdeal.Read.val_main_cst_6 (F := Ideal)) := by
  unfold Cert.ReferenceIdeal.Read.val_main_cst_6; exact AllReal.const _ _ (by decide)
theorem real_v19 : AllReal (Cert.ReferenceIdeal.Read.val_main_v19 (F := Ideal)) := by
  unfold Cert.ReferenceIdeal.Read.val_main_v19; exact AllReal.bcast (real_cst_6) _ _
theorem real_v20 {x0 x2 : FVec Ideal Cert.ReferenceIdeal.S2000000x3 .f32} (h0 : AllReal x0) (h2 : AllReal x2) : AllReal (Cert.ReferenceIdeal.Read.val_main_v20 (F := Ideal) x0 x2) := by
  unfold Cert.ReferenceIdeal.Read.val_main_v20; exact AllReal.mulf (real_v18 h0 h2) (real_v19)
theorem real_v32 {x0 x2 : FVec Ideal Cert.ReferenceIdeal.S2000000x3 .f32} (h0 : AllReal x0) (h2 : AllReal x2) : AllReal (Cert.ReferenceIdeal.Read.val_main_v32 (F := Ideal) x0 x2) := by
  unfold Cert.ReferenceIdeal.Read.val_main_v32; exact AllReal.floor (real_v20 h0 h2)
theorem real_v35 {x0 x2 : FVec Ideal Cert.ReferenceIdeal.S2000000x3 .f32} (h0 : AllReal x0) (h2 : AllReal x2) : AllReal (Cert.ReferenceIdeal.Read.val_main_v35 (F := Ideal) x0 x2) := by
  unfold Cert.ReferenceIdeal.Read.val_main_v35; exact AllReal.subf (real_v20 h0 h2) (real_v32 h0 h2)
theorem real_v44 {x0 x2 : FVec Ideal Cert.ReferenceIdeal.S2000000x3 .f32} (h0 : AllReal x0) (h2 : AllReal x2) : AllReal (Cert.ReferenceIdeal.Read.val_main_v44 (F := Ideal) x0 x2) := by
  unfold Cert.ReferenceIdeal.Read.val_main_v44; exact AllReal.subf (real_v43) (real_v35 h0 h2)
theorem real_v70 {x0 x2 : FVec Ideal Cert.ReferenceIdeal.S2000000x3 .f32} (h0 : AllReal x0) (h2 : AllReal x2) : AllReal (Cert.ReferenceIdeal.Read.val_main_v70 (F := Ideal) x0 x2) := by
  unfold Cert.ReferenceIdeal.Read.val_main_v70; exact AllReal.mulf (real_v46 h0 h2) (real_v44 h0 h2)
theorem real_cst_12 : AllReal (Cert.ReferenceIdeal.Read.val_main_cst_12 (F := Ideal)) := by
  unfold Cert.ReferenceIdeal.Read.val_main_cst_12; exact AllReal.const _ _ (by decide)
theorem real_v41 : AllReal (Cert.ReferenceIdeal.Read.val_main_v41 (F := Ideal)) := by
  unfold Cert.ReferenceIdeal.Read.val_main_v41; exact AllReal.bcast (real_cst_12) _ _
theorem real_v21 {x0 x2 : FVec Ideal Cert.ReferenceIdeal.S2000000x3 .f32} (h0 : AllReal x0) (h2 : AllReal x2) : AllReal (Cert.ReferenceIdeal.Read.val_main_v21 (F := Ideal) x0 x2) := by
  unfold Cert.ReferenceIdeal.Read.val_main_v21; exact AllReal.slice (real_v0 h0 h2) _ _
theorem real_v22 {x0 x2 : FVec Ideal Cert.ReferenceIdeal.S2000000x3 .f32} (h0 : AllReal x0) (h2 : AllReal x2) : AllReal (Cert.ReferenceIdeal.Read.val_main_v22 (F := Ideal) x0 x2) := by
  unfold Cert.ReferenceIdeal.Read.val_main_v22; exact AllReal.cast (real_v21 h0 h2) _
theorem real_cst_7 : AllReal (Cert.ReferenceIdeal.Read.val_main_cst_7 (F := Ideal)) := by
  unfold Cert.ReferenceIdeal.Read.val_main_cst_7; exact AllReal.const _ _ (by decide)
theorem real_v23 : AllReal (Cert.ReferenceIdeal.Read.val_main_v23 (F := Ideal)) := by
  unfold Cert.ReferenceIdeal.Read.val_main_v23; exact AllReal.bcast (real_cst_7) _ _
theorem real_v24 {x0 x2 : FVec Ideal Cert.ReferenceIdeal.S2000000x3 .f32} (h0 : AllReal x0) (h2 : AllReal x2) : AllReal (Cert.ReferenceIdeal.Read.val_main_v24 (F := Ideal) x0 x2) := by
  unfold Cert.ReferenceIdeal.Read.val_main_v24; exact AllReal.addf (real_v22 h0 h2) (real_v23)
theorem real_cst_8 : AllReal (Cert.ReferenceIdeal.Read.val_main_cst_8 (F := Ideal)) := by
  unfold Cert.ReferenceIdeal.Read.val_main_cst_8; exact AllReal.const _ _ (by decide)
theorem real_v25 : AllReal (Cert.ReferenceIdeal.Read.val_main_v25 (F := Ideal)) := by
  unfold Cert.ReferenceIdeal.Read.val_main_v25; exact AllReal.bcast (real_cst_8) _ _
theorem real_v26 {x0 x2 : FVec Ideal Cert.ReferenceIdeal.S2000000x3 .f32} (h0 : AllReal x0) (h2 : AllReal x2) : AllReal (Cert.ReferenceIdeal.Read.val_main_v26 (F := Ideal) x0 x2) := by
  unfold Cert.ReferenceIdeal.Read.val_main_v26; exact AllReal.mulf (real_v24 h0 h2) (real_v25)
theorem real_cst_9 : AllReal (Cert.ReferenceIdeal.Read.val_main_cst_9 (F := Ideal)) := by
  unfold Cert.ReferenceIdeal.Read.val_main_cst_9; exact AllReal.const _ _ (by decide)
theorem real_v27 : AllReal (Cert.ReferenceIdeal.Read.val_main_v27 (F := Ideal)) := by
  unfold Cert.ReferenceIdeal.Read.val_main_v27; exact AllReal.bcast (real_cst_9) _ _
theorem real_v28 {x0 x2 : FVec Ideal Cert.ReferenceIdeal.S2000000x3 .f32} (h0 : AllReal x0) (h2 : AllReal x2) : AllReal (Cert.ReferenceIdeal.Read.val_main_v28 (F := Ideal) x0 x2) := by
  unfold Cert.ReferenceIdeal.Read.val_main_v28; exact AllReal.subf (real_v26 h0 h2) (real_v27)
theorem real_cst_10 : AllReal (Cert.ReferenceIdeal.Read.val_main_cst_10 (F := Ideal)) := by
  unfold Cert.ReferenceIdeal.Read.val_main_cst_10; exact AllReal.const _ _ (by decide)
theorem real_v29 : AllReal (Cert.ReferenceIdeal.Read.val_main_v29 (F := Ideal)) := by
  unfold Cert.ReferenceIdeal.Read.val_main_v29; exact AllReal.bcast (real_cst_10) _ _
theorem real_v30 {x0 x2 : FVec Ideal Cert.ReferenceIdeal.S2000000x3 .f32} (h0 : AllReal x0) (h2 : AllReal x2) : AllReal (Cert.ReferenceIdeal.Read.val_main_v30 (F := Ideal) x0 x2) := by
  unfold Cert.ReferenceIdeal.Read.val_main_v30; exact AllReal.mulf (real_v28 h0 h2) (real_v29)
theorem real_v33 {x0 x2 : FVec Ideal Cert.ReferenceIdeal.S2000000x3 .f32} (h0 : AllReal x0) (h2 : AllReal x2) : AllReal (Cert.ReferenceIdeal.Read.val_main_v33 (F := Ideal) x0 x2) := by
  unfold Cert.ReferenceIdeal.Read.val_main_v33; exact AllReal.floor (real_v30 h0 h2)
theorem real_v36 {x0 x2 : FVec Ideal Cert.ReferenceIdeal.S2000000x3 .f32} (h0 : AllReal x0) (h2 : AllReal x2) : AllReal (Cert.ReferenceIdeal.Read.val_main_v36 (F := Ideal) x0 x2) := by
  unfold Cert.ReferenceIdeal.Read.val_main_v36; exact AllReal.subf (real_v30 h0 h2) (real_v33 h0 h2)
theorem real_v42 {x0 x2 : FVec Ideal Cert.ReferenceIdeal.S2000000x3 .f32} (h0 : AllReal x0) (h2 : AllReal x2) : AllReal (Cert.ReferenceIdeal.Read.val_main_v42 (F := Ideal) x0 x2) := by
  unfold Cert.ReferenceIdeal.Read.val_main_v42; exact AllReal.subf (real_v41) (real_v36 h0 h2)
theorem real_v71 {x0 x2 : FVec Ideal Cert.ReferenceIdeal.S2000000x3 .f32} (h0 : AllReal x0) (h2 : AllReal x2) : AllReal (Cert.ReferenceIdeal.Read.val_main_v71 (F := Ideal) x0 x2) := by
  unfold Cert.ReferenceIdeal.Read.val_main_v71; exact AllReal.mulf (real_v70 h0 h2) (real_v42 h0 h2)
theorem real_v110 {x0 x2 : FVec Ideal Cert.ReferenceIdeal.S2000000x3 .f32} (h0 : AllReal x0) (h2 : AllReal x2) : AllReal (Cert.ReferenceIdeal.Read.val_main_v110 (F := Ideal) x0 x2) := by
  unfold Cert.ReferenceIdeal.Read.val_main_v110; exact AllReal.mulf (real_v34 h0 h2) (real_v44 h0 h2)
theorem real_v111 {x0 x2 : FVec Ideal Cert.ReferenceIdeal.S2000000x3 .f32} (h0 : AllReal x0) (h2 : AllReal x2) : AllReal (Cert.ReferenceIdeal.Read.val_main_v111 (F := Ideal) x0 x2) := by
  unfold Cert.ReferenceIdeal.Read.val_main_v111; exact AllReal.mulf (real_v110 h0 h2) (real_v42 h0 h2)
theorem real_cst_44 : AllReal (Cert.ReferenceIdeal.Read.val_main_cst_44 (F := Ideal)) := by
  unfold Cert.ReferenceIdeal.Read.val_main_cst_44; exact AllReal.const _ _ (by decide)
theorem real_v127 : AllReal (Cert.ReferenceIdeal.Read.val_main_v127 (F := Ideal)) := by
  unfold Cert.ReferenceIdeal.Read.val_main_v127; exact AllReal.bcast (real_cst_44) _ _
theorem real_v128 {x0 x2 : FVec Ideal Cert.ReferenceIdeal.S2000000x3 .f32} (h0 : AllReal x0) (h2 : AllReal x2) : AllReal (Cert.ReferenceIdeal.Read.val_main_v128 (F := Ideal) x0 x2) := by
  unfold Cert.ReferenceIdeal.Read.val_main_v128; exact AllReal.subf (real_v127) (real_v34 h0 h2)
theorem real_v152 {x0 x2 : FVec Ideal Cert.ReferenceIdeal.S2000000x3 .f32} (h0 : AllReal x0) (h2 : AllReal x2) : AllReal (Cert.ReferenceIdeal.Read.val_main_v152 (F := Ideal) x0 x2) := by
  unfold Cert.ReferenceIdeal.Read.val_main_v152; exact AllReal.mulf (real_v128 h0 h2) (real_v35 h0 h2)
theorem real_v153 {x0 x2 : FVec Ideal Cert.ReferenceIdeal.S2000000x3 .f32} (h0 : AllReal x0) (h2 : AllReal x2) : AllReal (Cert.ReferenceIdeal.Read.val_main_v153 (F := Ideal) x0 x2) := by
  unfold Cert.ReferenceIdeal.Read.val_main_v153; exact AllReal.mulf (real_v152 h0 h2) (real_v42 h0 h2)
theorem real_v192 {x0 x2 : FVec Ideal Cert.ReferenceIdeal.S2000000x3 .f32} (h0 : AllReal x0) (h2 : AllReal x2) : AllReal (Cert.ReferenceIdeal.Read.val_main_v192 (F := Ideal) x0 x2) := by
  unfold Cert.ReferenceIdeal.Read.val_main_v192; exact AllReal.mulf (real_v34 h0 h2) (real_v35 h0 h2)
theorem real_v193 {x0 x2 : FVec Ideal Cert.ReferenceIdeal.S2000000x3 .f32} (h0 : AllReal x0) (h2 : AllReal x2) : AllReal (Cert.ReferenceIdeal.Read.val_main_v193 (F := Ideal) x0 x2) := by
  unfold Cert.ReferenceIdeal.Read.val_main_v193; exact AllReal.mulf (real_v192 h0 h2) (real_v42 h0 h2)
theorem real_cst_76 : AllReal (Cert.ReferenceIdeal.Read.val_main_cst_76 (F := Ideal)) := by
  unfold Cert.ReferenceIdeal.Read.val_main_cst_76; exact AllReal.const _ _ (by decide)
theorem real_v211 : AllReal (Cert.ReferenceIdeal.Read.val_main_v211 (F := Ideal)) := by
  unfold Cert.ReferenceIdeal.Read.val_main_v211; exact AllReal.bcast (real_cst_76) _ _
theorem real_v212 {x0 x2 : FVec Ideal Cert.ReferenceIdeal.S2000000x3 .f32} (h0 : AllReal x0) (h2 : AllReal x2) : AllReal (Cert.ReferenceIdeal.Read.val_main_v212 (F := Ideal) x0 x2) := by
  unfold Cert.ReferenceIdeal.Read.val_main_v212; exact AllReal.subf (real_v211) (real_v34 h0 h2)
theorem real_cst_75 : AllReal (Cert.ReferenceIdeal.Read.val_main_cst_75 (F := Ideal)) := by
  unfold Cert.ReferenceIdeal.Read.val_main_cst_75; exact AllReal.const _ _ (by decide)
theorem real_v209 : AllReal (Cert.ReferenceIdeal.Read.val_main_v209 (F := Ideal)) := by
  unfold Cert.ReferenceIdeal.Read.val_main_v209; exact AllReal.bcast (real_cst_75) _ _
theorem real_v210 {x0 x2 : FVec Ideal Cert.ReferenceIdeal.S2000000x3 .f32} (h0 : AllReal x0) (h2 : AllReal x2) : AllReal (Cert.ReferenceIdeal.Read.val_main_v210 (F := Ideal) x0 x2) := by
  unfold Cert.ReferenceIdeal.Read.val_main_v210; exact AllReal.subf (real_v209) (real_v35 h0 h2)
theorem real_v236 {x0 x2 : FVec Ideal Cert.ReferenceIdeal.S2000000x3 .f32} (h0 : AllReal x0) (h2 : AllReal x2) : AllReal (Cert.ReferenceIdeal.Read.val_main_v236 (F := Ideal) x0 x2) := by
  unfold Cert.ReferenceIdeal.Read.val_main_v236; exact AllReal.mulf (real_v212 h0 h2) (real_v210 h0 h2)
theorem real_v237 {x0 x2 : FVec Ideal Cert.ReferenceIdeal.S2000000x3 .f32} (h0 : AllReal x0) (h2 : AllReal x2) : AllReal (Cert.ReferenceIdeal.Read.val_main_v237 (F := Ideal) x0 x2) := by
  unfold Cert.ReferenceIdeal.Read.val_main_v237; exact AllReal.mulf (real_v236 h0 h2) (real_v36 h0 h2)
theorem real_v276 {x0 x2 : FVec Ideal Cert.ReferenceIdeal.S2000000x3 .f32} (h0 : AllReal x0) (h2 : AllReal x2) : AllReal (Cert.ReferenceIdeal.Read.val_main_v276 (F := Ideal) x0 x2) := by
  unfold Cert.ReferenceIdeal.Read.val_main_v276; exact AllReal.mulf (real_v34 h0 h2) (real_v210 h0 h2)
theorem real_v277 {x0 x2 : FVec Ideal Cert.ReferenceIdeal.S2000000x3 .f32} (h0 : AllReal x0) (h2 : AllReal x2) : AllReal (Cert.ReferenceIdeal.Read.val_main_v277 (F := Ideal) x0 x2) := by
  unfold Cert.ReferenceIdeal.Read.val_main_v277; exact AllReal.mulf (real_v276 h0 h2) (real_v36 h0 h2)
theorem real_cst_107 : AllReal (Cert.ReferenceIdeal.Read.val_main_cst_107 (F := Ideal)) := by
  unfold Cert.ReferenceIdeal.Read.val_main_cst_107; exact AllReal.const _ _ (by decide)
theorem real_v293 : AllReal (Cert.ReferenceIdeal.Read.val_main_v293 (F := Ideal)) := by
  unfold Cert.ReferenceIdeal.Read.val_main_v293; exact AllReal.bcast (real_cst_107) _ _
theorem real_v294 {x0 x2 : FVec Ideal Cert.ReferenceIdeal.S2000000x3 .f32} (h0 : AllReal x0) (h2 : AllReal x2) : AllReal (Cert.ReferenceIdeal.Read.val_main_v294 (F := Ideal) x0 x2) := by
  unfold Cert.ReferenceIdeal.Read.val_main_v294; exact AllReal.subf (real_v293) (real_v34 h0 h2)
theorem real_v318 {x0 x2 : FVec Ideal Cert.ReferenceIdeal.S2000000x3 .f32} (h0 : AllReal x0) (h2 : AllReal x2) : AllReal (Cert.ReferenceIdeal.Read.val_main_v318 (F := Ideal) x0 x2) := by
  unfold Cert.ReferenceIdeal.Read.val_main_v318; exact AllReal.mulf (real_v294 h0 h2) (real_v35 h0 h2)
theorem real_v319 {x0 x2 : FVec Ideal Cert.ReferenceIdeal.S2000000x3 .f32} (h0 : AllReal x0) (h2 : AllReal x2) : AllReal (Cert.ReferenceIdeal.Read.val_main_v319 (F := Ideal) x0 x2) := by
  unfold Cert.ReferenceIdeal.Read.val_main_v319; exact AllReal.mulf (real_v318 h0 h2) (real_v36 h0 h2)
theorem real_v358 {x0 x2 : FVec Ideal Cert.ReferenceIdeal.S2000000x3 .f32} (h0 : AllReal x0) (h2 : AllReal x2) : AllReal (Cert.ReferenceIdeal.Read.val_main_v358 (F := Ideal) x0 x2) := by
  unfold Cert.ReferenceIdeal.Read.val_main_v358; exact AllReal.mulf (real_v34 h0 h2) (real_v35 h0 h2)
theorem real_v359 {x0 x2 : FVec Ideal Cert.ReferenceIdeal.S2000000x3 .f32} (h0 : AllReal x0) (h2 : AllReal x2) : AllReal (Cert.ReferenceIdeal.Read.val_main_v359 (F := Ideal) x0 x2) := by
  unfold Cert.ReferenceIdeal.Read.val_main_v359; exact AllReal.mulf (real_v358 h0 h2) (real_v36 h0 h2)
theorem real_cst_153 : AllReal (Cert.ReferenceIdeal.Read.val_main_cst_153 (F := Ideal)) := by
  unfold Cert.ReferenceIdeal.Read.val_main_cst_153; exact AllReal.const _ _ (by decide)
theorem real_v421 : AllReal (Cert.ReferenceIdeal.Read.val_main_v421 (F := Ideal)) := by
  unfold Cert.ReferenceIdeal.Read.val_main_v421; exact AllReal.bcast (real_cst_153) _ _
theorem real_v376 {x1 x2 : FVec Ideal Cert.ReferenceIdeal.S2000000x3 .f32} (h1 : AllReal x1) (h2 : AllReal x2) : AllReal (Cert.ReferenceIdeal.Read.val_main_v376 (F := Ideal) x1 x2) := by
  unfold Cert.ReferenceIdeal.Read.val_main_v376; exact AllReal.addf (h2) (h1)
theorem real_v377 {x1 x2 : FVec Ideal Cert.ReferenceIdeal.S2000000x3 .f32} (h1 : AllReal x1) (h2 : AllReal x2) : AllReal (Cert.ReferenceIdeal.Read.val_main_v377 (F := Ideal) x1 x2) := by
  unfold Cert.ReferenceIdeal.Read.val_main_v377; exact AllReal.slice (real_v376 h1 h2) _ _
theorem real_v378 {x1 x2 : FVec Ideal Cert.ReferenceIdeal.S2000000x3 .f32} (h1 : AllReal x1) (h2 : AllReal x2) : AllReal (Cert.ReferenceIdeal.Read.val_main_v378 (F := Ideal) x1 x2) := by
  unfold Cert.ReferenceIdeal.Read.val_main_v378; exact AllReal.cast (real_v377 h1 h2) _
theorem real_cst_138 : AllReal (Cert.ReferenceIdeal.Read.val_main_cst_138 (F := Ideal)) := by
  unfold Cert.ReferenceIdeal.Read.val_main_cst_138; exact AllReal.const _ _ (by decide)
theorem real_v379 : AllReal (Cert.ReferenceIdeal.Read.val_main_v379 (F := Ideal)) := by
  unfold Cert.ReferenceIdeal.Read.val_main_v379; exact AllReal.bcast (real_cst_138) _ _
theorem real_v380 {x1 x2 : FVec Ideal Cert.ReferenceIdeal.S2000000x3 .f32} (h1 : AllReal x1) (h2 : AllReal x2) : AllReal (Cert.ReferenceIdeal.Read.val_main_v380 (F := Ideal) x1 x2) := by
  unfold Cert.ReferenceIdeal.Read.val_main_v380; exact AllReal.addf (real_v378 h1 h2) (real_v379)
theorem real_cst_139 : AllReal (Cert.ReferenceIdeal.Read.val_main_cst_139 (F := Ideal)) := by
  unfold Cert.ReferenceIdeal.Read.val_main_cst_139; exact AllReal.const _ _ (by decide)
theorem real_v381 : AllReal (Cert.ReferenceIdeal.Read.val_main_v381 (F := Ideal)) := by
  unfold Cert.ReferenceIdeal.Read.val_main_v381; exact AllReal.bcast (real_cst_139) _ _
theorem real_v382 {x1 x2 : FVec Ideal Cert.ReferenceIdeal.S2000000x3 .f32} (h1 : AllReal x1) (h2 : AllReal x2) : AllReal (Cert.ReferenceIdeal.Read.val_main_v382 (F := Ideal) x1 x2) := by
  unfold Cert.ReferenceIdeal.Read.val_main_v382; exact AllReal.mulf (real_v380 h1 h2) (real_v381)
theorem real_cst_140 : AllReal (Cert.ReferenceIdeal.Read.val_main_cst_140 (F := Ideal)) := by
  unfold Cert.ReferenceIdeal.Read.val_main_cst_140; exact AllReal.const _ _ (by decide)
theorem real_v383 : AllReal (Cert.ReferenceIdeal.Read.val_main_v383 (F := Ideal)) := by
  unfold Cert.ReferenceIdeal.Read.val_main_v383; exact AllReal.bcast (real_cst_140) _ _
theorem real_v384 {x1 x2 : FVec Ideal Cert.ReferenceIdeal.S2000000x3 .f32} (h1 : AllReal x1) (h2 : AllReal x2) : AllReal (Cert.ReferenceIdeal.Read.val_main_v384 (F := Ideal) x1 x2) := by
  unfold Cert.ReferenceIdeal.Read.val_main_v384; exact AllReal.subf (real_v382 h1 h2) (real_v383)
theorem real_cst_141 : AllReal (Cert.ReferenceIdeal.Read.val_main_cst_141 (F := Ideal)) := by
  unfold Cert.ReferenceIdeal.Read.val_main_cst_141; exact AllReal.const _ _ (by decide)
theorem real_v385 : AllReal (Cert.ReferenceIdeal.Read.val_main_v385 (F := Ideal)) := by
  unfold Cert.ReferenceIdeal.Read.val_main_v385; exact AllReal.bcast (real_cst_141) _ _
theorem real_v386 {x1 x2 : FVec Ideal Cert.ReferenceIdeal.S2000000x3 .f32} (h1 : AllReal x1) (h2 : AllReal x2) : AllReal (Cert.ReferenceIdeal.Read.val_main_v386 (F := Ideal) x1 x2) := by
  unfold Cert.ReferenceIdeal.Read.val_main_v386; exact AllReal.mulf (real_v384 h1 h2) (real_v385)
theorem real_v407 {x1 x2 : FVec Ideal Cert.ReferenceIdeal.S2000000x3 .f32} (h1 : AllReal x1) (h2 : AllReal x2) : AllReal (Cert.ReferenceIdeal.Read.val_main_v407 (F := Ideal) x1 x2) := by
  unfold Cert.ReferenceIdeal.Read.val_main_v407; exact AllReal.floor (real_v386 h1 h2)
theorem real_v410 {x1 x2 : FVec Ideal Cert.ReferenceIdeal.S2000000x3 .f32} (h1 : AllReal x1) (h2 : AllReal x2) : AllReal (Cert.ReferenceIdeal.Read.val_main_v410 (F := Ideal) x1 x2) := by
  unfold Cert.ReferenceIdeal.Read.val_main_v410; exact AllReal.subf (real_v386 h1 h2) (real_v407 h1 h2)
theorem real_v422 {x1 x2 : FVec Ideal Cert.ReferenceIdeal.S2000000x3 .f32} (h1 : AllReal x1) (h2 : AllReal x2) : AllReal (Cert.ReferenceIdeal.Read.val_main_v422 (F := Ideal) x1 x2) := by
  unfold Cert.ReferenceIdeal.Read.val_main_v422; exact AllReal.subf (real_v421) (real_v410 h1 h2)
theorem real_cst_152 : AllReal (Cert.ReferenceIdeal.Read.val_main_cst_152 (F := Ideal)) := by
  unfold Cert.ReferenceIdeal.Read.val_main_cst_152; exact AllReal.const _ _ (by decide)
theorem real_v419 : AllReal (Cert.ReferenceIdeal.Read.val_main_v419 (F := Ideal)) := by
  unfold Cert.ReferenceIdeal.Read.val_main_v419; exact AllReal.bcast (real_cst_152) _ _
theorem real_v387 {x1 x2 : FVec Ideal Cert.ReferenceIdeal.S2000000x3 .f32} (h1 : AllReal x1) (h2 : AllReal x2) : AllReal (Cert.ReferenceIdeal.Read.val_main_v387 (F := Ideal) x1 x2) := by
  unfold Cert.ReferenceIdeal.Read.val_main_v387; exact AllReal.slice (real_v376 h1 h2) _ _
theorem real_v388 {x1 x2 : FVec Ideal Cert.ReferenceIdeal.S2000000x3 .f32} (h1 : AllReal x1) (h2 : AllReal x2) : AllReal (Cert.ReferenceIdeal.Read.val_main_v388 (F := Ideal) x1 x2) := by
  unfold Cert.ReferenceIdeal.Read.val_main_v388; exact AllReal.cast (real_v387 h1 h2) _
theorem real_cst_142 : AllReal (Cert.ReferenceIdeal.Read.val_main_cst_142 (F := Ideal)) := by
  unfold Cert.ReferenceIdeal.Read.val_main_cst_142; exact AllReal.const _ _ (by decide)
theorem real_v389 : AllReal (Cert.ReferenceIdeal.Read.val_main_v389 (F := Ideal)) := by
  unfold Cert.ReferenceIdeal.Read.val_main_v389; exact AllReal.bcast (real_cst_142) _ _
theorem real_v390 {x1 x2 : FVec Ideal Cert.ReferenceIdeal.S2000000x3 .f32} (h1 : AllReal x1) (h2 : AllReal x2) : AllReal (Cert.ReferenceIdeal.Read.val_main_v390 (F := Ideal) x1 x2) := by
  unfold Cert.ReferenceIdeal.Read.val_main_v390; exact AllReal.addf (real_v388 h1 h2) (real_v389)
theorem real_cst_143 : AllReal (Cert.ReferenceIdeal.Read.val_main_cst_143 (F := Ideal)) := by
  unfold Cert.ReferenceIdeal.Read.val_main_cst_143; exact AllReal.const _ _ (by decide)
theorem real_v391 : AllReal (Cert.ReferenceIdeal.Read.val_main_v391 (F := Ideal)) := by
  unfold Cert.ReferenceIdeal.Read.val_main_v391; exact AllReal.bcast (real_cst_143) _ _
theorem real_v392 {x1 x2 : FVec Ideal Cert.ReferenceIdeal.S2000000x3 .f32} (h1 : AllReal x1) (h2 : AllReal x2) : AllReal (Cert.ReferenceIdeal.Read.val_main_v392 (F := Ideal) x1 x2) := by
  unfold Cert.ReferenceIdeal.Read.val_main_v392; exact AllReal.mulf (real_v390 h1 h2) (real_v391)
theorem real_cst_144 : AllReal (Cert.ReferenceIdeal.Read.val_main_cst_144 (F := Ideal)) := by
  unfold Cert.ReferenceIdeal.Read.val_main_cst_144; exact AllReal.const _ _ (by decide)
theorem real_v393 : AllReal (Cert.ReferenceIdeal.Read.val_main_v393 (F := Ideal)) := by
  unfold Cert.ReferenceIdeal.Read.val_main_v393; exact AllReal.bcast (real_cst_144) _ _
theorem real_v394 {x1 x2 : FVec Ideal Cert.ReferenceIdeal.S2000000x3 .f32} (h1 : AllReal x1) (h2 : AllReal x2) : AllReal (Cert.ReferenceIdeal.Read.val_main_v394 (F := Ideal) x1 x2) := by
  unfold Cert.ReferenceIdeal.Read.val_main_v394; exact AllReal.subf (real_v392 h1 h2) (real_v393)
theorem real_cst_145 : AllReal (Cert.ReferenceIdeal.Read.val_main_cst_145 (F := Ideal)) := by
  unfold Cert.ReferenceIdeal.Read.val_main_cst_145; exact AllReal.const _ _ (by decide)
theorem real_v395 : AllReal (Cert.ReferenceIdeal.Read.val_main_v395 (F := Ideal)) := by
  unfold Cert.ReferenceIdeal.Read.val_main_v395; exact AllReal.bcast (real_cst_145) _ _
theorem real_v396 {x1 x2 : FVec Ideal Cert.ReferenceIdeal.S2000000x3 .f32} (h1 : AllReal x1) (h2 : AllReal x2) : AllReal (Cert.ReferenceIdeal.Read.val_main_v396 (F := Ideal) x1 x2) := by
  unfold Cert.ReferenceIdeal.Read.val_main_v396; exact AllReal.mulf (real_v394 h1 h2) (real_v395)
theorem real_v408 {x1 x2 : FVec Ideal Cert.ReferenceIdeal.S2000000x3 .f32} (h1 : AllReal x1) (h2 : AllReal x2) : AllReal (Cert.ReferenceIdeal.Read.val_main_v408 (F := Ideal) x1 x2) := by
  unfold Cert.ReferenceIdeal.Read.val_main_v408; exact AllReal.floor (real_v396 h1 h2)
theorem real_v411 {x1 x2 : FVec Ideal Cert.ReferenceIdeal.S2000000x3 .f32} (h1 : AllReal x1) (h2 : AllReal x2) : AllReal (Cert.ReferenceIdeal.Read.val_main_v411 (F := Ideal) x1 x2) := by
  unfold Cert.ReferenceIdeal.Read.val_main_v411; exact AllReal.subf (real_v396 h1 h2) (real_v408 h1 h2)
theorem real_v420 {x1 x2 : FVec Ideal Cert.ReferenceIdeal.S2000000x3 .f32} (h1 : AllReal x1) (h2 : AllReal x2) : AllReal (Cert.ReferenceIdeal.Read.val_main_v420 (F := Ideal) x1 x2) := by
  unfold Cert.ReferenceIdeal.Read.val_main_v420; exact AllReal.subf (real_v419) (real_v411 h1 h2)
theorem real_v446 {x1 x2 : FVec Ideal Cert.ReferenceIdeal.S2000000x3 .f32} (h1 : AllReal x1) (h2 : AllReal x2) : AllReal (Cert.ReferenceIdeal.Read.val_main_v446 (F := Ideal) x1 x2) := by
  unfold Cert.ReferenceIdeal.Read.val_main_v446; exact AllReal.mulf (real_v422 h1 h2) (real_v420 h1 h2)
theorem real_cst_151 : AllReal (Cert.ReferenceIdeal.Read.val_main_cst_151 (F := Ideal)) := by
  unfold Cert.ReferenceIdeal.Read.val_main_cst_151; exact AllReal.const _ _ (by decide)
theorem real_v417 : AllReal (Cert.ReferenceIdeal.Read.val_main_v417 (F := Ideal)) := by
  unfold Cert.ReferenceIdeal.Read.val_main_v417; exact AllReal.bcast (real_cst_151) _ _
theorem real_v397 {x1 x2 : FVec Ideal Cert.ReferenceIdeal.S2000000x3 .f32} (h1 : AllReal x1) (h2 : AllReal x2) : AllReal (Cert.ReferenceIdeal.Read.val_main_v397 (F := Ideal) x1 x2) := by
  unfold Cert.ReferenceIdeal.Read.val_main_v397; exact AllReal.slice (real_v376 h1 h2) _ _
theorem real_v398 {x1 x2 : FVec Ideal Cert.ReferenceIdeal.S2000000x3 .f32} (h1 : AllReal x1) (h2 : AllReal x2) : AllReal (Cert.ReferenceIdeal.Read.val_main_v398 (F := Ideal) x1 x2) := by
  unfold Cert.ReferenceIdeal.Read.val_main_v398; exact AllReal.cast (real_v397 h1 h2) _
theorem real_cst_146 : AllReal (Cert.ReferenceIdeal.Read.val_main_cst_146 (F := Ideal)) := by
  unfold Cert.ReferenceIdeal.Read.val_main_cst_146; exact AllReal.const _ _ (by decide)
theorem real_v399 : AllReal (Cert.ReferenceIdeal.Read.val_main_v399 (F := Ideal)) := by
  unfold Cert.ReferenceIdeal.Read.val_main_v399; exact AllReal.bcast (real_cst_146) _ _
theorem real_v400 {x1 x2 : FVec Ideal Cert.ReferenceIdeal.S2000000x3 .f32} (h1 : AllReal x1) (h2 : AllReal x2) : AllReal (Cert.ReferenceIdeal.Read.val_main_v400 (F := Ideal) x1 x2) := by
  unfold Cert.ReferenceIdeal.Read.val_main_v400; exact AllReal.addf (real_v398 h1 h2) (real_v399)
theorem real_cst_147 : AllReal (Cert.ReferenceIdeal.Read.val_main_cst_147 (F := Ideal)) := by
  unfold Cert.ReferenceIdeal.Read.val_main_cst_147; exact AllReal.const _ _ (by decide)
theorem real_v401 : AllReal (Cert.ReferenceIdeal.Read.val_main_v401 (F := Ideal)) := by
  unfold Cert.ReferenceIdeal.Read.val_main_v401; exact AllReal.bcast (real_cst_147) _ _
theorem real_v402 {x1 x2 : FVec Ideal Cert.ReferenceIdeal.S2000000x3 .f32} (h1 : AllReal x1) (h2 : AllReal x2) : AllReal (Cert.ReferenceIdeal.Read.val_main_v402 (F := Ideal) x1 x2) := by
  unfold Cert.ReferenceIdeal.Read.val_main_v402; exact AllReal.mulf (real_v400 h1 h2) (real_v401)
theorem real_cst_148 : AllReal (Cert.ReferenceIdeal.Read.val_main_cst_148 (F := Ideal)) := by
  unfold Cert.ReferenceIdeal.Read.val_main_cst_148; exact AllReal.const _ _ (by decide)
theorem real_v403 : AllReal (Cert.ReferenceIdeal.Read.val_main_v403 (F := Ideal)) := by
  unfold Cert.ReferenceIdeal.Read.val_main_v403; exact AllReal.bcast (real_cst_148) _ _
theorem real_v404 {x1 x2 : FVec Ideal Cert.ReferenceIdeal.S2000000x3 .f32} (h1 : AllReal x1) (h2 : AllReal x2) : AllReal (Cert.ReferenceIdeal.Read.val_main_v404 (F := Ideal) x1 x2) := by
  unfold Cert.ReferenceIdeal.Read.val_main_v404; exact AllReal.subf (real_v402 h1 h2) (real_v403)
theorem real_cst_149 : AllReal (Cert.ReferenceIdeal.Read.val_main_cst_149 (F := Ideal)) := by
  unfold Cert.ReferenceIdeal.Read.val_main_cst_149; exact AllReal.const _ _ (by decide)
theorem real_v405 : AllReal (Cert.ReferenceIdeal.Read.val_main_v405 (F := Ideal)) := by
  unfold Cert.ReferenceIdeal.Read.val_main_v405; exact AllReal.bcast (real_cst_149) _ _
theorem real_v406 {x1 x2 : FVec Ideal Cert.ReferenceIdeal.S2000000x3 .f32} (h1 : AllReal x1) (h2 : AllReal x2) : AllReal (Cert.ReferenceIdeal.Read.val_main_v406 (F := Ideal) x1 x2) := by
  unfold Cert.ReferenceIdeal.Read.val_main_v406; exact AllReal.mulf (real_v404 h1 h2) (real_v405)
theorem real_v409 {x1 x2 : FVec Ideal Cert.ReferenceIdeal.S2000000x3 .f32} (h1 : AllReal x1) (h2 : AllReal x2) : AllReal (Cert.ReferenceIdeal.Read.val_main_v409 (F := Ideal) x1 x2) := by
  unfold Cert.ReferenceIdeal.Read.val_main_v409; exact AllReal.floor (real_v406 h1 h2)
theorem real_v412 {x1 x2 : FVec Ideal Cert.ReferenceIdeal.S2000000x3 .f32} (h1 : AllReal x1) (h2 : AllReal x2) : AllReal (Cert.ReferenceIdeal.Read.val_main_v412 (F := Ideal) x1 x2) := by
  unfold Cert.ReferenceIdeal.Read.val_main_v412; exact AllReal.subf (real_v406 h1 h2) (real_v409 h1 h2)
theorem real_v418 {x1 x2 : FVec Ideal Cert.ReferenceIdeal.S2000000x3 .f32} (h1 : AllReal x1) (h2 : AllReal x2) : AllReal (Cert.ReferenceIdeal.Read.val_main_v418 (F := Ideal) x1 x2) := by
  unfold Cert.ReferenceIdeal.Read.val_main_v418; exact AllReal.subf (real_v417) (real_v412 h1 h2)
theorem real_v447 {x1 x2 : FVec Ideal Cert.ReferenceIdeal.S2000000x3 .f32} (h1 : AllReal x1) (h2 : AllReal x2) : AllReal (Cert.ReferenceIdeal.Read.val_main_v447 (F := Ideal) x1 x2) := by
  unfold Cert.ReferenceIdeal.Read.val_main_v447; exact AllReal.mulf (real_v446 h1 h2) (real_v418 h1 h2)
theorem real_v486 {x1 x2 : FVec Ideal Cert.ReferenceIdeal.S2000000x3 .f32} (h1 : AllReal x1) (h2 : AllReal x2) : AllReal (Cert.ReferenceIdeal.Read.val_main_v486 (F := Ideal) x1 x2) := by
  unfold Cert.ReferenceIdeal.Read.val_main_v486; exact AllReal.mulf (real_v410 h1 h2) (real_v420 h1 h2)
theorem real_v487 {x1 x2 : FVec Ideal Cert.ReferenceIdeal.S2000000x3 .f32} (h1 : AllReal x1) (h2 : AllReal x2) : AllReal (Cert.ReferenceIdeal.Read.val_main_v487 (F := Ideal) x1 x2) := by
  unfold Cert.ReferenceIdeal.Read.val_main_v487; exact AllReal.mulf (real_v486 h1 h2) (real_v418 h1 h2)
theorem real_cst_184 : AllReal (Cert.ReferenceIdeal.Read.val_main_cst_184 (F := Ideal)) := by
  unfold Cert.ReferenceIdeal.Read.val_main_cst_184; exact AllReal.const _ _ (by decide)
theorem real_v503 : AllReal (Cert.ReferenceIdeal.Read.val_main_v503 (F := Ideal)) := by
  unfold Cert.ReferenceIdeal.Read.val_main_v503; exact AllReal.bcast (real_cst_184) _ _
theorem real_v504 {x1 x2 : FVec Ideal Cert.ReferenceIdeal.S2000000x3 .f32} (h1 : AllReal x1) (h2 : AllReal x2) : AllReal (Cert.ReferenceIdeal.Read.val_main_v504 (F := Ideal) x1 x2) := by
  unfold Cert.ReferenceIdeal.Read.val_main_v504; exact AllReal.subf (real_v503) (real_v410 h1 h2)
theorem real_v528 {x1 x2 : FVec Ideal Cert.ReferenceIdeal.S2000000x3 .f32} (h1 : AllReal x1) (h2 : AllReal x2) : AllReal (Cert.ReferenceIdeal.Read.val_main_v528 (F := Ideal) x1 x2) := by
  unfold Cert.ReferenceIdeal.Read.val_main_v528; exact AllReal.mulf (real_v504 h1 h2) (real_v411 h1 h2)
theorem real_v529 {x1 x2 : FVec Ideal Cert.ReferenceIdeal.S2000000x3 .f32} (h1 : AllReal x1) (h2 : AllReal x2) : AllReal (Cert.ReferenceIdeal.Read.val_main_v529 (F := Ideal) x1 x2) := by
  unfold Cert.ReferenceIdeal.Read.val_main_v529; exact AllReal.mulf (real_v528 h1 h2) (real_v418 h1 h2)
theorem real_v568 {x1 x2 : FVec Ideal Cert.ReferenceIdeal.S2000000x3 .f32} (h1 : AllReal x1) (h2 : AllReal x2) : AllReal (Cert.ReferenceIdeal.Read.val_main_v568 (F := Ideal) x1 x2) := by
  unfold Cert.ReferenceIdeal.Read.val_main_v568; exact AllReal.mulf (real_v410 h1 h2) (real_v411 h1 h2)
theorem real_v569 {x1 x2 : FVec Ideal Cert.ReferenceIdeal.S2000000x3 .f32} (h1 : AllReal x1) (h2 : AllReal x2) : AllReal (Cert.ReferenceIdeal.Read.val_main_v569 (F := Ideal) x1 x2) := by
  unfold Cert.ReferenceIdeal.Read.val_main_v569; exact AllReal.mulf (real_v568 h1 h2) (real_v418 h1 h2)
theorem real_cst_216 : AllReal (Cert.ReferenceIdeal.Read.val_main_cst_216 (F := Ideal)) := by
  unfold Cert.ReferenceIdeal.Read.val_main_cst_216; exact AllReal.const _ _ (by decide)
theorem real_v587 : AllReal (Cert.ReferenceIdeal.Read.val_main_v587 (F := Ideal)) := by
  unfold Cert.ReferenceIdeal.Read.val_main_v587; exact AllReal.bcast (real_cst_216) _ _
theorem real_v588 {x1 x2 : FVec Ideal Cert.ReferenceIdeal.S2000000x3 .f32} (h1 : AllReal x1) (h2 : AllReal x2) : AllReal (Cert.ReferenceIdeal.Read.val_main_v588 (F := Ideal) x1 x2) := by
  unfold Cert.ReferenceIdeal.Read.val_main_v588; exact AllReal.subf (real_v587) (real_v410 h1 h2)
theorem real_cst_215 : AllReal (Cert.ReferenceIdeal.Read.val_main_cst_215 (F := Ideal)) := by
  unfold Cert.ReferenceIdeal.Read.val_main_cst_215; exact AllReal.const _ _ (by decide)
theorem real_v585 : AllReal (Cert.ReferenceIdeal.Read.val_main_v585 (F := Ideal)) := by
  unfold Cert.ReferenceIdeal.Read.val_main_v585; exact AllReal.bcast (real_cst_215) _ _
theorem real_v586 {x1 x2 : FVec Ideal Cert.ReferenceIdeal.S2000000x3 .f32} (h1 : AllReal x1) (h2 : AllReal x2) : AllReal (Cert.ReferenceIdeal.Read.val_main_v586 (F := Ideal) x1 x2) := by
  unfold Cert.ReferenceIdeal.Read.val_main_v586; exact AllReal.subf (real_v585) (real_v411 h1 h2)
theorem real_v612 {x1 x2 : FVec Ideal Cert.ReferenceIdeal.S2000000x3 .f32} (h1 : AllReal x1) (h2 : AllReal x2) : AllReal (Cert.ReferenceIdeal.Read.val_main_v612 (F := Ideal) x1 x2) := by
  unfold Cert.ReferenceIdeal.Read.val_main_v612; exact AllReal.mulf (real_v588 h1 h2) (real_v586 h1 h2)
theorem real_v613 {x1 x2 : FVec Ideal Cert.ReferenceIdeal.S2000000x3 .f32} (h1 : AllReal x1) (h2 : AllReal x2) : AllReal (Cert.ReferenceIdeal.Read.val_main_v613 (F := Ideal) x1 x2) := by
  unfold Cert.ReferenceIdeal.Read.val_main_v613; exact AllReal.mulf (real_v612 h1 h2) (real_v412 h1 h2)
theorem real_v652 {x1 x2 : FVec Ideal Cert.ReferenceIdeal.S2000000x3 .f32} (h1 : AllReal x1) (h2 : AllReal x2) : AllReal (Cert.ReferenceIdeal.Read.val_main_v652 (F := Ideal) x1 x2) := by
  unfold Cert.ReferenceIdeal.Read.val_main_v652; exact AllReal.mulf (real_v410 h1 h2) (real_v586 h1 h2)
theorem real_v653 {x1 x2 : FVec Ideal Cert.ReferenceIdeal.S2000000x3 .f32} (h1 : AllReal x1) (h2 : AllReal x2) : AllReal (Cert.ReferenceIdeal.Read.val_main_v653 (F := Ideal) x1 x2) := by
  unfold Cert.ReferenceIdeal.Read.val_main_v653; exact AllReal.mulf (real_v652 h1 h2) (real_v412 h1 h2)
theorem real_cst_247 : AllReal (Cert.ReferenceIdeal.Read.val_main_cst_247 (F := Ideal)) := by
  unfold Cert.ReferenceIdeal.Read.val_main_cst_247; exact AllReal.const _ _ (by decide)
theorem real_v669 : AllReal (Cert.ReferenceIdeal.Read.val_main_v669 (F := Ideal)) := by
  unfold Cert.ReferenceIdeal.Read.val_main_v669; exact AllReal.bcast (real_cst_247) _ _
theorem real_v670 {x1 x2 : FVec Ideal Cert.ReferenceIdeal.S2000000x3 .f32} (h1 : AllReal x1) (h2 : AllReal x2) : AllReal (Cert.ReferenceIdeal.Read.val_main_v670 (F := Ideal) x1 x2) := by
  unfold Cert.ReferenceIdeal.Read.val_main_v670; exact AllReal.subf (real_v669) (real_v410 h1 h2)
theorem real_v694 {x1 x2 : FVec Ideal Cert.ReferenceIdeal.S2000000x3 .f32} (h1 : AllReal x1) (h2 : AllReal x2) : AllReal (Cert.ReferenceIdeal.Read.val_main_v694 (F := Ideal) x1 x2) := by
  unfold Cert.ReferenceIdeal.Read.val_main_v694; exact AllReal.mulf (real_v670 h1 h2) (real_v411 h1 h2)
theorem real_v695 {x1 x2 : FVec Ideal Cert.ReferenceIdeal.S2000000x3 .f32} (h1 : AllReal x1) (h2 : AllReal x2) : AllReal (Cert.ReferenceIdeal.Read.val_main_v695 (F := Ideal) x1 x2) := by
  unfold Cert.ReferenceIdeal.Read.val_main_v695; exact AllReal.mulf (real_v694 h1 h2) (real_v412 h1 h2)
theorem real_v734 {x1 x2 : FVec Ideal Cert.ReferenceIdeal.S2000000x3 .f32} (h1 : AllReal x1) (h2 : AllReal x2) : AllReal (Cert.ReferenceIdeal.Read.val_main_v734 (F := Ideal) x1 x2) := by
  unfold Cert.ReferenceIdeal.Read.val_main_v734; exact AllReal.mulf (real_v410 h1 h2) (real_v411 h1 h2)
theorem real_v735 {x1 x2 : FVec Ideal Cert.ReferenceIdeal.S2000000x3 .f32} (h1 : AllReal x1) (h2 : AllReal x2) : AllReal (Cert.ReferenceIdeal.Read.val_main_v735 (F := Ideal) x1 x2) := by
  unfold Cert.ReferenceIdeal.Read.val_main_v735; exact AllReal.mulf (real_v734 h1 h2) (real_v412 h1 h2)

/-! ## The sixteen weights -/

theorem tapU_allReal {x0 x1 x2 : FVec Ideal Cert.ReferenceIdeal.S2000000x3 .f32}
    (h0 : AllReal x0) (h1 : AllReal x1) (h2 : AllReal x2) : ∀ k, AllReal (tapU x0 x1 x2 k) := by
  intro k
  fin_cases k
  · exact real_v71 h0 h2
  · exact real_v111 h0 h2
  · exact real_v153 h0 h2
  · exact real_v193 h0 h2
  · exact real_v237 h0 h2
  · exact real_v277 h0 h2
  · exact real_v319 h0 h2
  · exact real_v359 h0 h2
  · exact real_v447 h1 h2
  · exact real_v487 h1 h2
  · exact real_v529 h1 h2
  · exact real_v569 h1 h2
  · exact real_v613 h1 h2
  · exact real_v653 h1 h2
  · exact real_v695 h1 h2
  · exact real_v735 h1 h2

/-- Every tap weight is a real number when every input entry is. -/
theorem tapU_real (x0 x1 x2 : FVec Ideal Cert.ReferenceIdeal.S2000000x3 .f32)
    (h0 : ∀ i, ∃ r : ℝ, x0 i = (r : EReal)) (h1 : ∀ i, ∃ r : ℝ, x1 i = (r : EReal))
    (h2 : ∀ i, ∃ r : ℝ, x2 i = (r : EReal)) : ∀ k i, ∃ r : ℝ, tapU x0 x1 x2 k i = (r : EReal) :=
  fun k => tapU_allReal h0 h1 h2 k

/-- Under the precondition "every input entry is finite" every tap weight is a real number. -/
theorem tapU_real_of_pre [Cert.Pre_finite_inputs.Facts] (x0 x1 x2 : FVec Ideal Cert.ReferenceIdeal.S2000000x3 .f32)
    (h : Cert.Pre_finite_inputs.fn (F := Ideal) x0 x1 x2 = fun _ => 1#1) :
    ∀ k i, ∃ r : ℝ, tapU x0 x1 x2 k i = (r : EReal) :=
  let ⟨h0, h1, h2⟩ := real_of_pre x0 x1 x2 h
  tapU_real x0 x1 x2 h0 h1 h2

end Cert.Splat

end
-- ==== Proof.KerLit.lean ====
/-
  The array the kernel's host operations hand the region, with its sixteen taps written out one by one.

  `kerArr` takes the taps as three families over sixteen indices and lays each cloud's eight end to end through a
  function of the position k: entry k of the predicted cloud's half is tap k, entry k of the ground-truth cloud's half is
  tap 8 + k. For k = 0, …, 7 these are the taps 0, …, 7 and 8, …, 15, so each half is the eight taps in order, written
  as a literal family of eight. Nothing is computed: the two spellings have the same entries.
-/
import proofs.«159527_j65987877535944_2_alg».proof.Proof.Spec

noncomputable section

namespace Cert.Splat

open Idealize.ShloMosaic
open Cert.KernelIdeal Cert.KernelIdeal.Facts₀ Cert.KernelIdeal.Facts

variable [Cert.KernelIdeal.Facts]

/-- Sixteen arrays over the points laid end to end, each cloud's eight written out one by one. -/
def catLit {α : Type} (x : Fin 16 → (S2000000.Idx → α)) : S32000000.Idx → α :=
  cat2 (cat8 ![x 0, x 1, x 2, x 3, x 4, x 5, x 6, x 7]) (cat8 ![x 8, x 9, x 10, x 11, x 12, x 13, x 14, x 15])

/-- Laying the first eight and the last eight of sixteen arrays end to end is laying them end to end one by one. -/
theorem cat_lit {α : Type} (x : Fin 16 → (S2000000.Idx → α)) :
    cat2 (cat8 fun k => x (Fin.castLE (by decide) k)) (cat8 fun k => x (Fin.natAdd 8 k)) = catLit x := by
  unfold catLit cat8; rfl

/-- The index column of the scatter with the sixteen index arrays written out one by one. -/
def idxLit (J : Fin 16 → IVec S2000000 32) : IVec S32000000x1 32 :=
  broadcastInDim S32000000x1 ![0] bcast_S32000000_S32000000x1_0
    (select (cmpi .slt (catLit J) (broadcastInDim S32000000 ![] bcast_S_S32000000 (constantI S_ 32 0#32)))
      (addi (catLit J) (broadcastInDim S32000000 ![] bcast_S_S32000000 (constantI S_ 32 16777216#32)))
      (catLit J))

theorem kerIdx_lit (J : Fin 16 → IVec S2000000 32) : kerIdx J = idxLit J := by
  unfold kerIdx idxLit; rw [cat_lit]

/-- The signed weights with the sixteen weight arrays written out one by one: +1 times taps 0‥7, −1 times taps 8‥15. -/
def updLit (U : Fin 16 → FVec Ideal S2000000 .f32) (M : Fin 16 → IVec S2000000 1) : FVec Ideal S32000000 .f32 :=
  cat2 (cat8 ![kerWeight 0x3F800000#32 (M 0) (U 0), kerWeight 0x3F800000#32 (M 1) (U 1), kerWeight 0x3F800000#32 (M 2) (U 2), kerWeight 0x3F800000#32 (M 3) (U 3), kerWeight 0x3F800000#32 (M 4) (U 4), kerWeight 0x3F800000#32 (M 5) (U 5), kerWeight 0x3F800000#32 (M 6) (U 6), kerWeight 0x3F800000#32 (M 7) (U 7)])
    (cat8 ![kerWeight 0xBF800000#32 (M 8) (U 8), kerWeight 0xBF800000#32 (M 9) (U 9), kerWeight 0xBF800000#32 (M 10) (U 10), kerWeight 0xBF800000#32 (M 11) (U 11), kerWeight 0xBF800000#32 (M 12) (U 12), kerWeight 0xBF800000#32 (M 13) (U 13), kerWeight 0xBF800000#32 (M 14) (U 14), kerWeight 0xBF800000#32 (M 15) (U 15)])

theorem kerUpd_lit (U : Fin 16 → FVec Ideal S2000000 .f32) (M : Fin 16 → IVec S2000000 1) : kerUpd U M = updLit U M := by
  unfold kerUpd updLit cat8; rfl

/-- The array the region is handed, with every tap written out one by one. -/
theorem kerArr_lit (J : Fin 16 → IVec S2000000 32) (U : Fin 16 → FVec Ideal S2000000 .f32) (M : Fin 16 → IVec S2000000 1) :
    kerArr J U M =
      shapeCast _ (shapeCast _
        (Host.scatterAdd scatter_S16777216_S32000000x1_S32000000_n_0_0_1
          (broadcastInDim S16777216 ![] bcast_S_S16777216 (constant (F := Ideal) S_ .f32 0x00000000#32)) (idxLit J) (updLit U M))
        shapeCasts_S16777216_S256x256x256) shapeCasts_S256x256x256_S65536x256 := by
  unfold kerArr; rw [kerIdx_lit, kerUpd_lit]

end Cert.Splat

end
-- ==== Proof.KerPrefix.lean ====
/-
  The array the kernel's host prefix hands its region.

  The kernel program's host operations before its region compute, for each of the sixteen trilinear taps, a flat voxel
  index array, a weight array and a mask over the 2,000,000 points — by the same operations, in the same order, on the
  same arguments as the reference program's stages named in `Taps.lean` —, multiply the predicted cloud's weights by +1
  and the ground-truth cloud's by −1, zero the weights and the indices outside the grid, lay the sixteen index arrays and
  the sixteen weight arrays end to end, wrap negative indices by the volume's size, add everything into one zero volume
  of 16,777,216 voxels and re-lay it as [65536, 256]. That is `kerArr` of the taps, term for term.

  Each buffer is written once, so what the operations leave at the region's input buffer is the composition of the
  operations' functions along the data flow from the three argument arrays; the two sides are that one composed term,
  and the equality holds by unfolding the definitions on both sides, `kerArr` being first restated with its sixteen taps
  written out one by one (`kerArr_lit`) so that the kernel's k-th array is set against the k-th tap and no other.
-/
import proofs.«159527_j65987877535944_2_alg».proof.Proof.Spec
import proofs.«159527_j65987877535944_2_alg».proof.Proof.Taps
import proofs.«159527_j65987877535944_2_alg».proof.Proof.KerLit
import proofs.«159527_j65987877535944_2_alg».proof.Proof.Gen.KernelIdeal.Launch
import Idealize.ShloMosaic.Lib.StableHlo.Run

set_option maxRecDepth 16384

noncomputable section

namespace Cert.Splat

open Idealize.ShloMosaic Idealize.ShloMosaic.TcCoe Idealize.SL.Sem Idealize.ShloMosaic.StableHlo
open Cert.KernelIdeal Cert.KernelIdeal.Gen

/-- Laying two arrays end to end respects equality of the arrays. -/
@[local congr] theorem cat2_congr {α : Type} {t : Shape} {a : Fin t.rank} {s1 s2 : Shape} {x x' : s1.Idx → α} {y y' : s2.Idx → α}
    {h : Shape.Concatenates ([(⟨s1, x⟩ : (s : Shape) × (s.Idx → α)), ⟨s2, y⟩].map (·.1)) t a} (hx : x = x') (hy : y = y') :
    concatenate t a [⟨s1, x⟩, ⟨s2, y⟩] h = concatenate t a [⟨s1, x'⟩, ⟨s2, y'⟩] h := by subst hx hy; rfl

/-- What the concatenation of the predicted cloud's eight index arrays leaves: the eight arrays, as they stand, laid end to end. -/
theorem main_v335_result [Cert.KernelIdeal.Facts] (F : Valuation τ sig (Elt Ideal)) :
    (StableHlo.nary ![main_v81, main_v116, main_v153, main_v188, main_v227, main_v262, main_v299, main_v334] main_v335
        (fun u => concatenate S16000000 0 [⟨S2000000, u 0⟩, ⟨S2000000, u 1⟩, ⟨S2000000, u 2⟩, ⟨S2000000, u 3⟩, ⟨S2000000, u 4⟩, ⟨S2000000, u 5⟩, ⟨S2000000, u 6⟩, ⟨S2000000, u 7⟩] concatenates_S2000000_S2000000_S2000000_S2000000_S2000000_S2000000_S2000000_S2000000_S16000000_d0)
      : HloOp τ sig (Elt Ideal)).result F (no_index (Proc.devRef .tc main_v335))
      = cat8 ![F (Proc.devRef .tc main_v81), F (Proc.devRef .tc main_v116), F (Proc.devRef .tc main_v153), F (Proc.devRef .tc main_v188), F (Proc.devRef .tc main_v227), F (Proc.devRef .tc main_v262), F (Proc.devRef .tc main_v299), F (Proc.devRef .tc main_v334)] := by
  rw [nary_result]; rfl

/-- What the concatenation of the predicted cloud's eight signed weight arrays leaves: the eight arrays laid end to end. -/
theorem main_v336_result [Cert.KernelIdeal.Facts] (F : Valuation τ sig (Elt Ideal)) :
    (StableHlo.nary ![main_v74, main_v109, main_v146, main_v181, main_v220, main_v255, main_v292, main_v327] main_v336
        (fun u => concatenate S16000000 0 [⟨S2000000, u 0⟩, ⟨S2000000, u 1⟩, ⟨S2000000, u 2⟩, ⟨S2000000, u 3⟩, ⟨S2000000, u 4⟩, ⟨S2000000, u 5⟩, ⟨S2000000, u 6⟩, ⟨S2000000, u 7⟩] concatenates_S2000000_S2000000_S2000000_S2000000_S2000000_S2000000_S2000000_S2000000_S16000000_d0)
      : HloOp τ sig (Elt Ideal)).result F (no_index (Proc.devRef .tc main_v336))
      = cat8 ![F (Proc.devRef .tc main_v74), F (Proc.devRef .tc main_v109), F (Proc.devRef .tc main_v146), F (Proc.devRef .tc main_v181), F (Proc.devRef .tc main_v220), F (Proc.devRef .tc main_v255), F (Proc.devRef .tc main_v292), F (Proc.devRef .tc main_v327)] := by
  rw [nary_result]; rfl

/-- What the concatenation of the ground-truth cloud's eight index arrays leaves: the eight arrays laid end to end. -/
theorem main_v670_result [Cert.KernelIdeal.Facts] (F : Valuation τ sig (Elt Ideal)) :
    (StableHlo.nary ![main_v416, main_v451, main_v488, main_v523, main_v562, main_v597, main_v634, main_v669] main_v670
        (fun u => concatenate S16000000 0 [⟨S2000000, u 0⟩, ⟨S2000000, u 1⟩, ⟨S2000000, u 2⟩, ⟨S2000000, u 3⟩, ⟨S2000000, u 4⟩, ⟨S2000000, u 5⟩, ⟨S2000000, u 6⟩, ⟨S2000000, u 7⟩] concatenates_S2000000_S2000000_S2000000_S2000000_S2000000_S2000000_S2000000_S2000000_S16000000_d0)
      : HloOp τ sig (Elt Ideal)).result F (no_index (Proc.devRef .tc main_v670))
      = cat8 ![F (Proc.devRef .tc main_v416), F (Proc.devRef .tc main_v451), F (Proc.devRef .tc main_v488), F (Proc.devRef .tc main_v523), F (Proc.devRef .tc main_v562), F (Proc.devRef .tc main_v597), F (Proc.devRef .tc main_v634), F (Proc.devRef .tc main_v669)] := by
  rw [nary_result]; rfl

/-- What the concatenation of the ground-truth cloud's eight signed weight arrays leaves: the eight arrays laid end to end. -/
theorem main_v671_result [Cert.KernelIdeal.Facts] (F : Valuation τ sig (Elt Ideal)) :
    (StableHlo.nary ![main_v409, main_v444, main_v481, main_v516, main_v555, main_v590, main_v627, main_v662] main_v671
        (fun u => concatenate S16000000 0 [⟨S2000000, u 0⟩, ⟨S2000000, u 1⟩, ⟨S2000000, u 2⟩, ⟨S2000000, u 3⟩, ⟨S2000000, u 4⟩, ⟨S2000000, u 5⟩, ⟨S2000000, u 6⟩, ⟨S2000000, u 7⟩] concatenates_S2000000_S2000000_S2000000_S2000000_S2000000_S2000000_S2000000_S2000000_S16000000_d0)
      : HloOp τ sig (Elt Ideal)).result F (no_index (Proc.devRef .tc main_v671))
      = cat8 ![F (Proc.devRef .tc main_v409), F (Proc.devRef .tc main_v444), F (Proc.devRef .tc main_v481), F (Proc.devRef .tc main_v516), F (Proc.devRef .tc main_v555), F (Proc.devRef .tc main_v590), F (Proc.devRef .tc main_v627), F (Proc.devRef .tc main_v662)] := by
  rw [nary_result]; rfl

set_option maxHeartbeats 4000000000 in
/-- After the kernel program's host operations, the region's input buffer holds `kerArr` of the sixteen taps of the
    argument arrays (registration_pred, registration_gt, coords): each operation's result is rewritten to its function
    of its operands' contents, back to the arguments, and the composed term is `kerArr` of the taps by unfolding. -/
theorem prefix_value [Cert.KernelIdeal.Facts] [Cert.ReferenceIdeal.Facts]
    (m : (ℓ : Loc Cert.KernelIdeal.nD Cert.KernelIdeal.τ Cert.KernelIdeal.sig) → Buf (Elt Ideal) ℓ) (c : Dev Cert.KernelIdeal.nD) :
    (StableHlo.after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, Cert.KernelIdeal.Gen.hostOps0_53, Cert.KernelIdeal.Gen.hostOps0_54, Cert.KernelIdeal.Gen.hostOps0_55, Cert.KernelIdeal.Gen.hostOps0_56, Cert.KernelIdeal.Gen.hostOps0_57, Cert.KernelIdeal.Gen.hostOps0_58, Cert.KernelIdeal.Gen.hostOps0_59, Cert.KernelIdeal.Gen.hostOps0_60, Cert.KernelIdeal.Gen.hostOps0_61, Cert.KernelIdeal.Gen.hostOps0_62, Cert.KernelIdeal.Gen.hostOps0_63, Cert.KernelIdeal.Gen.hostOps0_64])
        (fun b => m (c, b)) (Proc.devRef .tc Cert.KernelIdeal.main_v683) : Cert.KernelIdeal.S65536x256.Idx → EReal)
      = kerArr
          (tapJ (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
          (tapU (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)))
          (tapM (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, Cert.KernelIdeal.Gen.hostOps0_10, Cert.KernelIdeal.Gen.hostOps0_11, Cert.KernelIdeal.Gen.hostOps0_12, Cert.KernelIdeal.Gen.hostOps0_13, Cert.KernelIdeal.Gen.hostOps0_14, Cert.KernelIdeal.Gen.hostOps0_15, Cert.KernelIdeal.Gen.hostOps0_16, Cert.KernelIdeal.Gen.hostOps0_17, Cert.KernelIdeal.Gen.hostOps0_18, Cert.KernelIdeal.Gen.hostOps0_19, Cert.KernelIdeal.Gen.hostOps0_20, Cert.KernelIdeal.Gen.hostOps0_21, Cert.KernelIdeal.Gen.hostOps0_22, Cert.KernelIdeal.Gen.hostOps0_23, Cert.KernelIdeal.Gen.hostOps0_24, Cert.KernelIdeal.Gen.hostOps0_25, Cert.KernelIdeal.Gen.hostOps0_26, Cert.KernelIdeal.Gen.hostOps0_27, Cert.KernelIdeal.Gen.hostOps0_28, Cert.KernelIdeal.Gen.hostOps0_29, Cert.KernelIdeal.Gen.hostOps0_30, Cert.KernelIdeal.Gen.hostOps0_31, Cert.KernelIdeal.Gen.hostOps0_32, Cert.KernelIdeal.Gen.hostOps0_33, Cert.KernelIdeal.Gen.hostOps0_34, Cert.KernelIdeal.Gen.hostOps0_35, Cert.KernelIdeal.Gen.hostOps0_36, Cert.KernelIdeal.Gen.hostOps0_37, Cert.KernelIdeal.Gen.hostOps0_38, Cert.KernelIdeal.Gen.hostOps0_39, Cert.KernelIdeal.Gen.hostOps0_40, Cert.KernelIdeal.Gen.hostOps0_41, Cert.KernelIdeal.Gen.hostOps0_42, Cert.KernelIdeal.Gen.hostOps0_43, Cert.KernelIdeal.Gen.hostOps0_44, Cert.KernelIdeal.Gen.hostOps0_45, Cert.KernelIdeal.Gen.hostOps0_46, Cert.KernelIdeal.Gen.hostOps0_47, Cert.KernelIdeal.Gen.hostOps0_48, Cert.KernelIdeal.Gen.hostOps0_49, Cert.KernelIdeal.Gen.hostOps0_50, Cert.KernelIdeal.Gen.hostOps0_51, Cert.KernelIdeal.Gen.hostOps0_52, Cert.KernelIdeal.Gen.hostOps0_53, Cert.KernelIdeal.Gen.hostOps0_54, Cert.KernelIdeal.Gen.hostOps0_55, Cert.KernelIdeal.Gen.hostOps0_56, Cert.KernelIdeal.Gen.hostOps0_57, Cert.KernelIdeal.Gen.hostOps0_58, Cert.KernelIdeal.Gen.hostOps0_59, Cert.KernelIdeal.Gen.hostOps0_60, Cert.KernelIdeal.Gen.hostOps0_61, Cert.KernelIdeal.Gen.hostOps0_62, Cert.KernelIdeal.Gen.hostOps0_63, Cert.KernelIdeal.Gen.hostOps0_64, List.flatten_cons, List.flatten_nil, List.append_nil, List.cons_append, List.nil_append]
  simp (disch := decide) only [after_cons, after_nil,
      nullary_result', unary_result', binary_result', ternary_result', reshape_result',
      main_v335_result, main_v336_result, main_v670_result, main_v671_result,
      nullary_result_ne', unary_result_ne', binary_result_ne', ternary_result_ne', reshape_result_ne', nary_result_ne']
  -- compare against `kerArr` with each cloud's eight taps written out, so that every entry meets its own tap
  refine Eq.trans ?_ (kerArr_lit _ _ _).symm
  rfl

end Cert.Splat

end
-- ==== Proof.lean ====
/-
  The kernel and its reference end with the same scalar over the extended reals.

  Both programs splat two point clouds into a 256³ grid by trilinear taps and sum the Huber function of the difference
  of the two volumes. The reference builds each volume by eight scatter-adds and subtracts; the kernel's program adds all
  sixteen taps into one volume, the ground-truth cloud's weights negated, and its region sums the Huber function over
  that volume block by block into a [1, 1] accumulator.

  * Frames: the kernel program runs to the end at any instance of the float operations (its host operations, then the
    region — the body run in its three cases: first point, a middle point, last point —, then one reshape), leaving its
    arguments as launched; the reference is host operations only.
  * Values, over the extended reals: the kernel program ends at the Huber sum over the array its host operations hand
    the region; that array is the signed single volume of the taps; the reference ends at the Huber sum of the
    difference of the two clouds' volumes of the same taps. Under the precondition every input entry is a real, hence
    every tap weight is, and for real weights the signed volume is the difference of the volumes voxel by voxel (a sum
    of negated reals is the negated sum), so the two sums agree.
-/
import proofs.«159527_j65987877535944_2_alg».proof.Defs
import proofs.«159527_j65987877535944_2_alg».proof.Proof.Gen.Kernel
import proofs.«159527_j65987877535944_2_alg».proof.Proof.Gen.KernelIdeal
import proofs.«159527_j65987877535944_2_alg».proof.Proof.Gen.ReferenceIdeal
import proofs.«159527_j65987877535944_2_alg».proof.Proof.Gen.Pre_finite_inputs
import proofs.«159527_j65987877535944_2_alg».proof.Proof.K.Frame
import proofs.«159527_j65987877535944_2_alg».proof.Proof.KI.ValueIdeal
import proofs.«159527_j65987877535944_2_alg».proof.Proof.RefRun
import proofs.«159527_j65987877535944_2_alg».proof.Proof.Bridge
import proofs.«159527_j65987877535944_2_alg».proof.Proof.RefSide
import proofs.«159527_j65987877535944_2_alg».proof.Proof.RefReal
import proofs.«159527_j65987877535944_2_alg».proof.Proof.PreReal
import proofs.«159527_j65987877535944_2_alg».proof.Proof.KerPrefix
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame m ρ

theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at the same scalar: the Huber sum over the signed single volume is the Huber sum of the difference
    of the two volumes, the tap weights being real under the precondition. -/
theorem algebraic : Cert.algebraic_KernelIdeal_ReferenceIdeal := by
  intro m ρ m' ρ' hpre hagree
  refine ⟨fun c => Cert.Splat.kerVal (Cert.KernelIdeal.Fr.arrIn m c), Cert.KernelIdeal.Fr.run_value m ρ, ?_⟩
  refine (θ_run Cert.ReferenceIdeal.defs _ _).mono (fun _ h c => ⟨(h c).1.trans ?_, (h c).2⟩)
    (Cert.ReferenceIdeal.Value.run (F := Ideal) m' ρ')
  have hr := Cert.Splat.real_of_pre _ _ _ (hpre c)
  refine (Cert.Splat.ref_result m' c).trans ?_
  rw [(hagree c).1, (hagree c).2.1, (hagree c).2.2]
  show _ = Cert.Splat.kerVal (Cert.KernelIdeal.Fr.arrIn m c)
  rw [(Cert.KernelIdeal.Fr.arrIn_def m c).trans (Cert.Splat.prefix_value m c)]
  exact (Cert.Splat.bridge _ _ _ (Cert.Splat.tapU_real _ _ _ hr.1 hr.2.1 hr.2.2)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
